-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096x64 : Shape := ⟨3, ![8, 4096, 64]⟩
abbrev S8x4096x32x3 : Shape := ⟨4, ![8, 4096, 32, 3]⟩
abbrev S8x4096x32x64 : Shape := ⟨4, ![8, 4096, 32, 64]⟩
abbrev S64x67 : Shape := ⟨2, ![64, 67]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S8x4096x32x3 : S_.BroadcastsInDim S8x4096x32x3 (![] : Fin 0 → Fin S8x4096x32x3.rank)
  reducesTo_S8x4096x32x3_S_d0_1_2_3 : S8x4096x32x3.ReducesTo [0, 1, 2, 3] S_
  bcast_S_S8x4096x32x64 : S_.BroadcastsInDim S8x4096x32x64 (![] : Fin 0 → Fin S8x4096x32x64.rank)
  reducesTo_S8x4096x32x64_S_d0_1_2_3 : S8x4096x32x64.ReducesTo [0, 1, 2, 3] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x64 .f32) (main_arg8 : FVec F S128 .f32) (main_arg9 : FVec F S128 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S64x67 .f32) (main_arg5 : FVec F S64 .f32) (main_arg6 : FVec F S64 .f32) (main_arg7 : FVec F S128x64 .f32) (main_arg8 : FVec F S128 .f32) (main_arg9 : FVec F S128 .f32) (main_v13 : IVec S_ 1) (main_v16 : IVec S8x4096x32x64 1) : IVec S_ 1 :=
  let main_c_5 : IVec S_ 1 := constantI S_ 1 1#1
  let main_v17 : IVec S_ 1 := (fun x v => Host.reduce IntOp.andi x v reducesTo_S8x4096x32x64_S_d0_1_2_3 h_S_) main_v16 main_c_5
  let main_v18 : IVec S_ 1 := andi main_v13 main_v17
  let main_v19 : FVec F S64x67 .f32 := Host.absf main_arg4
  let main_cst_6 : FVec F S_ .f32 := constant S_ .f32 0x7F800000#32
  let main_v20 : FVec F S64x67 .f32 := broadcastInDim S64x67 ![] bcast_S_S64x67 main_cst_6
  let main_v21 : IVec S64x67 1 := cmpf .olt main_v19 main_v20
  let main_c_7 : IVec S_ 1 := constantI S_ 1 1#1
  let main_v22 : IVec S_ 1 := (fun x v => Host.reduce IntOp.andi x v reducesTo_S64x67_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S8x4096x3 .f32) (main_arg1 : FVec F S8x4096x64 .f32) (main_arg2 : FVec F S8x4096x32x3 .f32) (main_arg3 : FVec F S8x4096x32x64 .f32) (main_arg4 : FVec F S64x67 .f32) (main_arg5 : FVec F S64 .f32) (main_arg6 : FVec F S64 .f32) (main_arg7 : FVec F S128x64 .f32) (main_arg8 : FVec F S128 .f32) (main_arg9 : FVec F S128 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x32x3 .f32 := Host.absf main_arg2
  let main_cst_2 : FVec F S_ .f32 := constant S_ .f32 0x7F800000#32
  let main_v10 : FVec F S8x4096x32x3 .f32 := broadcastInDim S8x4096x32x3 ![] bcast_S_S8x4096x32x3 main_cst_2
  let main_v11 : IVec S8x4096x32x3 1 := cmpf .olt main_v9 main_v10
  let main_c_3 : IVec S_ 1 := constantI S_ 1 1#1
  let main_v12 : IVec S_ 1 := (fun x v => Host.reduce IntOp.andi x v reducesTo_S8x4096x32x3_S_d0_1_2_3 h_S_) main_v11 main_c_3
  let main_v13 : IVec S_ 1 := andi main_v8 main_v12
  let main_v14 : FVec F S8x4096x32x64 .f32 := Host.absf main_arg3
  let main_cst_4 : FVec F S_ .f32 := constant S_ .f32 0x7F800000#32
  let main_v15 : FVec F S8x4096x32x64 .f32 := broadcastInDim S8x4096x32x64 ![] bcast_S_S8x4096x32x64 main_cst_4
  let main_v16 : IVec S8x4096x32x64 1 := cmpf .olt main_v14 main_v15
  fn_part1 (F := F) main_arg4 main_arg5 main_arg6 main_arg7 main_arg8 main_arg9 main_v13 main_v16
-- ==== Kernel.lean ====
abbrev S8x4096x3 : Shape := ⟨3, ![8, 4096, 3]⟩
abbrev S8x4096x64 : Shape := ⟨3, ![8, 4096, 64]⟩
abbrev S8x4096x32x3 : Shape := ⟨4, ![8, 4096, 32, 3]⟩
abbrev S8x4096x32x64 : Shape := ⟨4, ![8, 4096, 32, 64]⟩
abbrev S64x67 : Shape := ⟨2, ![64, 67]⟩
abbrev S64 : Shape := ⟨1, ![64]⟩
abbrev S128x64 : Shape := ⟨2, ![128, 64]⟩
abbrev S128 : Shape := ⟨1, ![128]⟩
abbrev S64x64 : Shape := ⟨2, ![64, 64]⟩
abbrev S64x3 : Shape := ⟨2, ![64, 3]⟩
abbrev S1x64 : Shape := ⟨2, ![1, 64]⟩
abbrev S1x128 : Shape := ⟨2, ![1, 128]⟩
abbrev S8x1x64 : Shape := ⟨3, ![8, 1, 64]⟩
abbrev S1x512x32x64 : Shape := ⟨4, ![1, 512, 32, 64]⟩
abbrev S1x512x32x3 : Shape := ⟨4, ![1, 512, 32, 3]⟩
abbrev S1x512x3 : Shape := ⟨3, ![1, 512, 3]⟩
abbrev S1x1x64 : Shape := ⟨3, ![1, 1, 64]⟩
abbrev S512x32x64 : Shape := ⟨3, ![512, 32, 64]⟩
abbrev S512x32x3 : Shape := ⟨3, ![512, 32, 3]⟩
abbrev S512x3 : Shape := ⟨2, ![512, 3]⟩
abbrev S512x1x3 : Shape := ⟨3, ![512, 1, 3]⟩
abbrev S16384x64 : Shape := ⟨2, ![16384, 64]⟩
abbrev S16384x3 : Shape := ⟨2, ![16384, 3]⟩
abbrev S3x64 : Shape := ⟨2, ![3, 64]⟩
abbrev S8x1x8x8 : Shape := ⟨4, ![8, 1, 8, 8]⟩
abbrev S_ : Shape := ⟨0, ![]⟩
abbrev S8x1x8 : Shape := ⟨3, ![8, 1, 8]⟩
abbrev S8x1x128 : Shape := ⟨3, ![8, 1, 128]⟩
abbrev S1x256x32x64 : Shape := ⟨4, ![1, 256, 32, 64]⟩
abbrev S1x256x32x3 : Shape := ⟨4, ![1, 256, 32, 3]⟩
abbrev S1x256x3 : Shape := ⟨3, ![1, 256, 3]⟩
abbrev S1x1x128 : Shape := ⟨3, ![1, 1, 128]⟩
abbrev S256x32x64 : Shape := ⟨3, ![256, 32, 64]⟩
abbrev S256x32x3 : Shape := ⟨3, ![256, 32, 3]⟩
abbrev S256x3 : Shape := ⟨2, ![256, 3]⟩
abbrev S256x1x3 : Shape := ⟨3, ![256, 1, 3]⟩
abbrev S8192x64 : Shape := ⟨2, ![8192, 64]⟩
abbrev S8192x3 : Shape := ⟨2, ![8192, 3]⟩
abbrev S64x128 : Shape := ⟨2, ![64, 128]⟩
abbrev S8192x128 : Shape := ⟨2, ![8192, 128]⟩
abbrev S8x1x8x16 : Shape := ⟨4, ![8, 1, 8, 16]⟩
abbrev S8x4096x128 : Shape := ⟨3, ![8, 4096, 128]⟩
abbrev S1x256x128 : Shape := ⟨3, ![1, 256, 128]⟩
abbrev S256x32x128 : Shape := ⟨3, ![256, 32, 128]⟩
abbrev S256x128 : Shape := ⟨2, ![256, 128]⟩

abbrev nBuf : Space → Nat
  | .hbm => 71
  | .vmem => 54
  | .smem => 0
  | _ => 0

abbrev bufTy : (tb : Table) → Fin (tcTables nBuf tb) → BufTy
  | .hbm, ⟨0, _⟩ => ⟨S8x4096x3, .f32⟩
  | .hbm, ⟨1, _⟩ => ⟨S8x4096x64, .f32⟩
  | .hbm, ⟨2, _⟩ => ⟨S8x4096x32x3, .f32⟩
  | .hbm, ⟨3, _⟩ => ⟨S8x4096x32x64, .f32⟩
  | .hbm, ⟨4, _⟩ => ⟨S64x67, .f32⟩
  | .hbm, ⟨5, _⟩ => ⟨S64, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S64x64, .f32⟩
  | .hbm, ⟨11, _⟩ => ⟨S64x3, .f32⟩
  | .hbm, ⟨12, _⟩ => ⟨S1x64, .f32⟩
  | .hbm, ⟨13, _⟩ => ⟨S1x64, .f32⟩
  | .hbm, ⟨14, _⟩ => ⟨S1x128, .f32⟩
  | .hbm, ⟨15, _⟩ => ⟨S1x128, .f32⟩
  | .hbm, ⟨16, _⟩ => ⟨S8x1x64, .f32⟩
  | .hbm, ⟨17, _⟩ => ⟨S8x1x64, .f32⟩
  | .hbm, ⟨18, _⟩ => ⟨S8x1x8x8, .f32⟩
  | .hbm, ⟨19, _⟩ => ⟨S_, .f32⟩
  | .hbm, ⟨20, _⟩ => ⟨S8x1x8, .f32⟩
  | .hbm, ⟨21, _⟩ => ⟨S8x1x8x8, .f32⟩
  | .hbm, ⟨22, _⟩ => ⟨S_, .f32⟩
  | .hbm, ⟨23, _⟩ => ⟨S8x1x8, .f32⟩
  | .hbm, ⟨24, _⟩ => ⟨S_, .f32⟩
  | .hbm, ⟨25, _⟩ => ⟨S8x1x8, .f32⟩
  | .hbm, ⟨26, _⟩ => ⟨S8x1x8, .f32⟩
  | .hbm, ⟨27, _⟩ => ⟨S_, .f32⟩
  | .hbm, ⟨28, _⟩ => ⟨S8x1x8, .f32⟩
  | .hbm, ⟨29, _⟩ => ⟨S8x1x8, .f32⟩
  | .hbm, ⟨30, _⟩ => ⟨S8x1x8, .f32⟩
  | .hbm, ⟨31, _⟩ => ⟨S8x1x8, .f32⟩
  | .hbm, ⟨32, _⟩ => ⟨S_, .f32⟩
  | .hbm, ⟨33, _⟩ => ⟨S8x1x8, .f32⟩
  | .hbm, ⟨34, _⟩ => ⟨S8x1x8, .f32⟩
  | .hbm, ⟨35, _⟩ => ⟨S_, .f32⟩
  | .hbm, ⟨36, _⟩ => ⟨S8x1x8, .f32⟩
  | .hbm, ⟨37, _⟩ => ⟨S8x1x8, .f32⟩
  | .hbm, ⟨38, _⟩ => ⟨S8x1x8, .f32⟩
  | .hbm, ⟨39, _⟩ => ⟨S8x1x8x8, .f32⟩
  | .hbm, ⟨40, _⟩ => ⟨S8x1x64, .f32⟩
  | .hbm, ⟨41, _⟩ => ⟨S8x1x8x8, .f32⟩
  | .hbm, ⟨42, _⟩ => ⟨S8x1x64, .f32⟩
  | .hbm, ⟨43, _⟩ => ⟨S8x1x128, .f32⟩
  | .hbm, ⟨44, _⟩ => ⟨S8x1x128, .f32⟩
  | .hbm, ⟨45, _⟩ => ⟨S8x1x8x16, .f32⟩
  | .hbm, ⟨46, _⟩ => ⟨S_, .f32⟩
  | .hbm, ⟨47, _⟩ => ⟨S8x1x8, .f32⟩
  | .hbm, ⟨48, _⟩ => ⟨S8x1x8x16, .f32⟩
  | .hbm, ⟨49, _⟩ => ⟨S_, .f32⟩
  | .hbm, ⟨50, _⟩ => ⟨S8x1x8, .f32⟩
  | .hbm, ⟨51, _⟩ => ⟨S_, .f32⟩
  | .hbm, ⟨52, _⟩ => ⟨S8x1x8, .f32⟩
  | .hbm, ⟨53, _⟩ => ⟨S8x1x8, .f32⟩
  | .hbm, ⟨54, _⟩ => ⟨S_, .f32⟩
  | .hbm, ⟨55, _⟩ => ⟨S8x1x8, .f32⟩
  | .hbm, ⟨56, _⟩ => ⟨S8x1x8, .f32⟩
  | .hbm, ⟨57, _⟩ => ⟨S8x1x8, .f32⟩
  | .hbm, ⟨58, _⟩ => ⟨S8x1x8, .f32⟩
  | .hbm, ⟨59, _⟩ => ⟨S_, .f32⟩
  | .hbm, ⟨60, _⟩ => ⟨S8x1x8, .f32⟩
  | .hbm, ⟨61, _⟩ => ⟨S8x1x8, .f32⟩
  | .hbm, ⟨62, _⟩ => ⟨S_, .f32⟩
  | .hbm, ⟨63, _⟩ => ⟨S8x1x8, .f32⟩
  | .hbm, ⟨64, _⟩ => ⟨S8x1x8, .f32⟩
  | .hbm, ⟨65, _⟩ => ⟨S8x1x8, .f32⟩
  | .hbm, ⟨66, _⟩ => ⟨S8x1x8x16, .f32⟩
  | .hbm, ⟨67, _⟩ => ⟨S8x1x128, .f32⟩
  | .hbm, ⟨68, _⟩ => ⟨S8x1x8x16, .f32⟩
  | .hbm, ⟨69, _⟩ => ⟨S8x1x128, .f32⟩
  | .hbm, ⟨70, _⟩ => ⟨S8x4096x128, .f32⟩
  | .local _ .vmem, ⟨0, _⟩ => ⟨S1x512x32x64, .f32⟩
  | .local _ .vmem, ⟨1, _⟩ => ⟨S1x512x32x64, .f32⟩
  | .local _ .vmem, ⟨2, _⟩ => ⟨S1x512x32x3, .f32⟩
  | .local _ .vmem, ⟨3, _⟩ => ⟨S1x512x32x3, .f32⟩
  | .local _ .vmem, ⟨4, _⟩ => ⟨S1x512x3, .f32⟩
  | .local _ .vmem, ⟨5, _⟩ => ⟨S1x512x3, .f32⟩
  | .local _ .vmem, ⟨6, _⟩ => ⟨S64x64, .f32⟩
  | .local _ .vmem, ⟨7, _⟩ => ⟨S64x3, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x256x32x64, .f32⟩
  | .local _ .vmem, ⟨13, _⟩ => ⟨S1x256x32x64, .f32⟩
  | .local _ .vmem, ⟨14, _⟩ => ⟨S1x256x32x3, .f32⟩
  | .local _ .vmem, ⟨15, _⟩ => ⟨S1x256x32x3, .f32⟩
  | .local _ .vmem, ⟨16, _⟩ => ⟨S1x256x3, .f32⟩
  | .local _ .vmem, ⟨17, _⟩ => ⟨S1x256x3, .f32⟩
  | .local _ .vmem, ⟨18, _⟩ => ⟨S64x64, .f32⟩
  | .local _ .vmem, ⟨19, _⟩ => ⟨S64x3, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x1x64, .f32⟩
  | .local _ .vmem, ⟨24, _⟩ => ⟨S1x1x64, .f32⟩
  | .local _ .vmem, ⟨25, _⟩ => ⟨S1x1x64, .f32⟩
  | .local _ .vmem, ⟨26, _⟩ => ⟨S1x1x64, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x256x32x64, .f32⟩
  | .local _ .vmem, ⟨32, _⟩ => ⟨S1x256x32x64, .f32⟩
  | .local _ .vmem, ⟨33, _⟩ => ⟨S1x256x32x3, .f32⟩
  | .local _ .vmem, ⟨34, _⟩ => ⟨S1x256x32x3, .f32⟩
  | .local _ .vmem, ⟨35, _⟩ => ⟨S1x256x3, .f32⟩
  | .local _ .vmem, ⟨36, _⟩ => ⟨S1x256x3, .f32⟩
  | .local _ .vmem, ⟨37, _⟩ => ⟨S64x64, .f32⟩
  | .local _ .vmem, ⟨38, _⟩ => ⟨S64x3, .f32⟩
  | .local _ .vmem, ⟨39, _⟩ => ⟨S128x64, .f32⟩
  | .local _ .vmem, ⟨40, _⟩ => ⟨S1x64, .f32⟩
  | .local _ .vmem, ⟨41, _⟩ => ⟨S1x64, .f32⟩
  | .local _ .vmem, ⟨42, _⟩ => ⟨S1x1x64, .f32⟩
  | .local _ .vmem, ⟨43, _⟩ => ⟨S1x1x64, .f32⟩
  | .local _ .vmem, ⟨44, _⟩ => ⟨S1x1x64, .f32⟩
  | .local _ .vmem, ⟨45, _⟩ => ⟨S1x1x64, .f32⟩
  | .local _ .vmem, ⟨46, _⟩ => ⟨S1x128, .f32⟩
  | .local _ .vmem, ⟨47, _⟩ => ⟨S1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x256x128, .f32⟩
  | .local _ .vmem, ⟨53, _⟩ => ⟨S1x256x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg12_0 : Ref sig .tc := ⟨.vmem, 48, rfl⟩
abbrev cc2_stg12_1 : Ref sig .tc := ⟨.vmem, 49, rfl⟩
abbrev cc2_stg13_0 : Ref sig .tc := ⟨.vmem, 50, rfl⟩
abbrev cc2_stg13_1 : Ref sig .tc := ⟨.vmem, 51, rfl⟩
abbrev cc2_stg14_0 : Ref sig .tc := ⟨.vmem, 52, rfl⟩
abbrev cc2_stg14_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem8_1 : DmaSem sig := 43
abbrev cc2_sem9_0 : DmaSem sig := 44
abbrev cc2_sem9_1 : DmaSem sig := 45
abbrev cc2_sem10_0 : DmaSem sig := 46
abbrev cc2_sem11_0 : DmaSem sig := 47
abbrev cc2_sem12_0 : DmaSem sig := 48
abbrev cc2_sem12_1 : DmaSem sig := 49
abbrev cc2_sem13_0 : DmaSem sig := 50
abbrev cc2_sem13_1 : DmaSem sig := 51
abbrev cc2_sem14_0 : DmaSem sig := 52
abbrev cc2_sem14_1 : DmaSem sig := 53

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x32x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨2, ![8, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x32x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x32x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x1x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x1x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x1x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev stage2_13 : Fin 2 → Memref sig .tc .vmem S1x1x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, false]

abbrev stage2_14 : Fin 2 → Memref sig .tc .vmem S1x256x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

class Facts₀ : Prop where
  slices_S64x67_S64x64_0_0 : S64x67.Slices ![0, 0] S64x64
  slices_S64x67_S64x3_0_64 : S64x67.Slices ![0, 64] S64x3
  shapeCasts_S64_S1x64 : S64.ShapeCasts S1x64
  shapeCasts_S128_S1x128 : S128.ShapeCasts S1x128
  inb_S1x1x64_S1x1x64_0_0_0 : ∀ a, (![0, 0, 0] : Fin 3 → Nat) a + S1x1x64.size a ≤ S1x1x64.size a
  h_S1x1x64 : 0 < S1x1x64.numel
  inb_S1x512x32x64_S1x512x32x64_0_0_0_0 : ∀ a, (![0, 0, 0, 0] : Fin 4 → Nat) a + S1x512x32x64.size a ≤ S1x512x32x64.size a
  h_S1x512x32x64 : 0 < S1x512x32x64.numel
  shapeCasts_S1x512x32x64_S512x32x64 : S1x512x32x64.ShapeCasts S512x32x64
  inb_S1x512x32x3_S1x512x32x3_0_0_0_0 : ∀ a, (![0, 0, 0, 0] : Fin 4 → Nat) a + S1x512x32x3.size a ≤ S1x512x32x3.size a
  h_S1x512x32x3 : 0 < S1x512x32x3.numel
  shapeCasts_S1x512x32x3_S512x32x3 : S1x512x32x3.ShapeCasts S512x32x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  shapeCasts_S512x3_S512x1x3 : S512x3.ShapeCasts S512x1x3
  broadcasts_S512x1x3_S512x32x3 : S512x1x3.Broadcasts S512x32x3
  shapeCasts_S512x32x64_S16384x64 : S512x32x64.ShapeCasts S16384x64
  shapeCasts_S512x32x3_S16384x3 : S512x32x3.ShapeCasts S16384x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  bitsLt_bf16_f32 : FTy.bits .bf16 < FTy.bits .f32
  transposes_S64x64_p1_0_S64x64 : S64x64.Transposes [1, 0] S64x64
  transposes_S64x3_p1_0_S3x64 : S64x3.Transposes [1, 0] S3x64
  reduces_S16384x64_S64 : S16384x64.Reduces [0] S64
  shapeCasts_S1x1x64_S1x1x64 : S1x1x64.ShapeCasts S1x1x64
  shapeCasts_S1x64_S1x1x64 : S1x64.ShapeCasts S1x1x64
  shapeCasts_S8x1x64_S8x1x8x8 : S8x1x64.ShapeCasts S8x1x8x8
  reducesTo_S8x1x8x8_S8x1x8_d3 : S8x1x8x8.ReducesTo [3] S8x1x8
  h_S_ : 0 < S_.numel
  bcast_S_S8x1x8 : S_.BroadcastsInDim S8x1x8 (![] : Fin 0 → Fin S8x1x8.rank)
  bcast_S8x1x8_S8x1x8x8_0_1_2 : S8x1x8.BroadcastsInDim S8x1x8x8 (![0, 1, 2] : Fin 3 → Fin S8x1x8x8.rank)
  shapeCasts_S8x1x8x8_S8x1x64 : S8x1x8x8.ShapeCasts S8x1x64
  inb_S1x1x128_S1x1x128_0_0_0 : ∀ a, (![0, 0, 0] : Fin 3 → Nat) a + S1x1x128.size a ≤ S1x1x128.size a
  h_S1x1x128 : 0 < S1x1x128.numel
  inb_S1x256x32x64_S1x256x32x64_0_0_0_0 : ∀ a, (![0, 0, 0, 0] : Fin 4 → Nat) a + S1x256x32x64.size a ≤ S1x256x32x64.size a
  h_S1x256x32x64 : 0 < S1x256x32x64.numel
  shapeCasts_S1x256x32x64_S256x32x64 : S1x256x32x64.ShapeCasts S256x32x64
  inb_S1x256x32x3_S1x256x32x3_0_0_0_0 : ∀ a, (![0, 0, 0, 0] : Fin 4 → Nat) a + S1x256x32x3.size a ≤ S1x256x32x3.size a
  h_S1x256x32x3 : 0 < S1x256x32x3.numel
  shapeCasts_S1x256x32x3_S256x32x3 : S1x256x32x3.ShapeCasts S256x32x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S256x1x3 : S256x3.ShapeCasts S256x1x3
  broadcasts_S256x1x3_S256x32x3 : S256x1x3.Broadcasts S256x32x3
  shapeCasts_S256x32x64_S8192x64 : S256x32x64.ShapeCasts S8192x64
  shapeCasts_S256x32x3_S8192x3 : S256x32x3.ShapeCasts S8192x3
  shapeCasts_S1x1x64_S64 : S1x1x64.ShapeCasts S64
  inb_S1x64_S1x64_0_0 : ∀ a, (![0, 0] : Fin 2 → Nat) a + S1x64.size a ≤ S1x64.size a
  h_S1x64 : 0 < S1x64.numel
  shapeCasts_S1x64_S64 : S1x64.ShapeCasts S64
  broadcasts_S1x64_S8192x64 : S1x64.Broadcasts S8192x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  reduces_S8192x128_S128 : S8192x128.Reduces [0] S128
  shapeCasts_S1x1x128_S1x1x128 : S1x1x128.ShapeCasts S1x1x128
  shapeCasts_S1x128_S1x1x128 : S1x128.ShapeCasts S1x1x128
  shapeCasts_S8x1x128_S8x1x8x16 : S8x1x128.ShapeCasts S8x1x8x16
  reducesTo_S8x1x8x16_S8x1x8_d3 : S8x1x8x16.ReducesTo [3] S8x1x8
  bcast_S8x1x8_S8x1x8x16_0_1_2 : S8x1x8.BroadcastsInDim S8x1x8x16 (![0, 1, 2] : Fin 3 → Fin S8x1x8x16.rank)
  shapeCasts_S8x1x8x16_S8x1x128 : S8x1x8x16.ShapeCasts S8x1x128
  shapeCasts_S1x1x128_S128 : S1x1x128.ShapeCasts S128
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S8192x128 : S1x128.Broadcasts S8192x128
  shapeCasts_S8192x128_S256x32x128 : S8192x128.ShapeCasts S256x32x128
  reduces_S256x32x128_S256x128 : S256x32x128.Reduces [1] S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S16384x64_S64x64_S16384x64_1_0_0_1_n_n_wf : DotDims.WF S16384x64 S64x64 S16384x64 [1] [0] [0] [1] [] []
  dot_S16384x3_S3x64_S16384x64_1_0_0_1_n_n_wf : DotDims.WF S16384x3 S3x64 S16384x64 [1] [0] [0] [1] [] []
  dot_S8192x64_S64x64_S8192x64_1_0_0_1_n_n_wf : DotDims.WF S8192x64 S64x64 S8192x64 [1] [0] [0] [1] [] []
  dot_S8192x3_S3x64_S8192x64_1_0_0_1_n_n_wf : DotDims.WF S8192x3 S3x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32x64.size a ≤ S8x4096x32x64.size a
  hwx0_0 : ∀ i : grid0.Coords, EltTy.bits .f32 = 32 ∨ (Rect.block (s := S8x4096x32x64) S1x512x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x32x3.size a ≤ S8x4096x32x3.size a
  hwx0_1 : ∀ i : grid0.Coords, EltTy.bits .f32 = 32 ∨ (Rect.block (s := S8x4096x32x3) S1x512x32x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S8x4096x3.size a
  hwx0_2 : ∀ i : grid0.Coords, EltTy.bits .f32 = 32 ∨ (Rect.block (s := S8x4096x3) S1x512x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x3.size a ≤ S64x3.size a
  hwx0_4 : ∀ i : grid0.Coords, EltTy.bits .f32 = 32 ∨ (Rect.block (s := S64x3) S64x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S8x1x64.size a
  hwx0_5 : ∀ i : grid0.Coords, EltTy.bits .f32 = 32 ∨ (Rect.block (s := S8x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S8x1x64.size a
  hwx0_6 : ∀ i : grid0.Coords, EltTy.bits .f32 = 32 ∨ (Rect.block (s := S8x1x64) S1x1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32x64.size a ≤ S8x4096x32x64.size a
  hwx1_0 : ∀ i : grid1.Coords, EltTy.bits .f32 = 32 ∨ (Rect.block (s := S8x4096x32x64) S1x256x32x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x32x3.size a ≤ S8x4096x32x3.size a
  hwx1_1 : ∀ i : grid1.Coords, EltTy.bits .f32 = 32 ∨ (Rect.block (s := S8x4096x32x3) S1x256x32x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x3.size a ≤ S8x4096x3.size a
  hwx1_2 : ∀ i : grid1.Coords, EltTy.bits .f32 = 32 ∨ (Rect.block (s := S8x4096x3) S1x256x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x3.size a ≤ S64x3.size a
  hwx1_4 : ∀ i : grid1.Coords, EltTy.bits .f32 = 32 ∨ (Rect.block (s := S64x3) S64x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x64.size a ≤ S8x1x64.size a
  hwx1_8 : ∀ i : grid1.Coords, EltTy.bits .f32 = 32 ∨ (Rect.block (s := S8x1x64) S1x1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x64.size a ≤ S8x1x64.size a
  hwx1_9 : ∀ i : grid1.Coords, EltTy.bits .f32 = 32 ∨ (Rect.block (s := S8x1x64) S1x1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S8x1x128.size a
  hwx1_10 : ∀ i : grid1.Coords, EltTy.bits .f32 = 32 ∨ (Rect.block (s := S8x1x128) S1x1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x128.size a ≤ S8x1x128.size a
  hwx1_11 : ∀ i : grid1.Coords, EltTy.bits .f32 = 32 ∨ (Rect.block (s := S8x1x128) S1x1x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x32x64.size a ≤ S8x4096x32x64.size a
  hwx2_0 : ∀ i : grid2.Coords, EltTy.bits .f32 = 32 ∨ (Rect.block (s := S8x4096x32x64) S1x256x32x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x32x3.size a ≤ S8x4096x32x3.size a
  hwx2_1 : ∀ i : grid2.Coords, EltTy.bits .f32 = 32 ∨ (Rect.block (s := S8x4096x32x3) S1x256x32x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x3.size a ≤ S8x4096x3.size a
  hwx2_2 : ∀ i : grid2.Coords, EltTy.bits .f32 = 32 ∨ (Rect.block (s := S8x4096x3) S1x256x3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x3.size a ≤ S64x3.size a
  hwx2_4 : ∀ i : grid2.Coords, EltTy.bits .f32 = 32 ∨ (Rect.block (s := S64x3) S64x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x64.size a ≤ S8x1x64.size a
  hwx2_8 : ∀ i : grid2.Coords, EltTy.bits .f32 = 32 ∨ (Rect.block (s := S8x1x64) S1x1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x64.size a ≤ S8x1x64.size a
  hwx2_9 : ∀ i : grid2.Coords, EltTy.bits .f32 = 32 ∨ (Rect.block (s := S8x1x64) S1x1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x1x128.size a ≤ S8x1x128.size a
  hwx2_12 : ∀ i : grid2.Coords, EltTy.bits .f32 = 32 ∨ (Rect.block (s := S8x1x128) S1x1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1x1x128.size a ≤ S8x1x128.size a
  hwx2_13 : ∀ i : grid2.Coords, EltTy.bits .f32 = 32 ∨ (Rect.block (s := S8x1x128) S1x1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S1x256x128.size a ≤ S8x4096x128.size a
  hwx2_14 : ∀ i : grid2.Coords, EltTy.bits .f32 = 32 ∨ (Rect.block (s := S8x4096x128) S1x256x128.size (cc2_transform_14 i) (hinb2_14 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x3_S3x64_S16384x64_1_0_0_1_n_n : DotDims S16384x3 S3x64 S16384x64 where
  lhsContracting := [1]
  rhsContracting := [0]
  lhsNonContracting := [0]
  rhsNonContracting := [1]
  lhsBatch := []
  rhsBatch := []
  wf := dot_S16384x3_S3x64_S16384x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg3) S1x512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x32x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S1x256x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x256x32x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x256x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S64x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x1x64.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x1x64.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v26_0) S1x1x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v26_1) S1x1x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg3) S1x256x32x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x256x32x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1x256x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S64x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v3) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S1x1x64.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v25) S1x1x64.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v4) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v5) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v43) S1x1x128.size cc2_transform_12 reads2_12 false false 2 stage2_12 sem2_12
    hrank2 hreads2_12 hinb2_12 nbuf2_12 (Memref.isWhole_whole _) hwx2_12 hstage2_12

abbrev win2_13 : Pipeline.Window sig grid2 :=
  Pipeline.Window.ofSpec (Memref.whole main_v45) S1x1x128.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v46) S1x256x128.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S8x4096x3 : Shape := ⟨3, ![8, 4096, 3]⟩
abbrev S8x4096x64 : Shape := ⟨3, ![8, 4096, 64]⟩
abbrev S8x4096x32x3 : Shape := ⟨4, ![8, 4096, 32, 3]⟩
abbrev S8x4096x32x64 : Shape := ⟨4, ![8, 4096, 32, 64]⟩
abbrev S64x67 : Shape := ⟨2, ![64, 67]⟩
abbrev S64 : Shape := ⟨1, ![64]⟩
abbrev S128x64 : Shape := ⟨2, ![128, 64]⟩
abbrev S128 : Shape := ⟨1, ![128]⟩
abbrev S8x4096x1x3 : Shape := ⟨4, ![8, 4096, 1, 3]⟩
abbrev S8x4096x32x67 : Shape := ⟨4, ![8, 4096, 32, 67]⟩
abbrev S8x4096x32x8x8 : Shape := ⟨5, ![8, 4096, 32, 8, 8]⟩
abbrev S_ : Shape := ⟨0, ![]⟩
abbrev S8x8 : Shape := ⟨2, ![8, 8]⟩
abbrev S8x1x1x8x1 : Shape := ⟨5, ![8, 1, 1, 8, 1]⟩
abbrev S1x1x1x64 : Shape := ⟨4, ![1, 1, 1, 64]⟩
abbrev S8x4096x32x128 : Shape := ⟨4, ![8, 4096, 32, 128]⟩
abbrev S8x4096x32x8x16 : Shape := ⟨5, ![8, 4096, 32, 8, 16]⟩
abbrev S1x1x1x128 : Shape := ⟨4, ![1, 1, 1, 128]⟩
abbrev S8x4096x128 : Shape := ⟨3, ![8, 4096, 128]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x64, .f32⟩
  | .hbm, ⟨2, _⟩ => ⟨S8x4096x32x3, .f32⟩
  | .hbm, ⟨3, _⟩ => ⟨S8x4096x32x64, .f32⟩
  | .hbm, ⟨4, _⟩ => ⟨S64x67, .f32⟩
  | .hbm, ⟨5, _⟩ => ⟨S64, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S8x4096x1x3, .f32⟩
  | .hbm, ⟨11, _⟩ => ⟨S8x4096x32x3, .f32⟩
  | .hbm, ⟨12, _⟩ => ⟨S8x4096x32x3, .f32⟩
  | .hbm, ⟨13, _⟩ => ⟨S8x4096x32x67, .f32⟩
  | .hbm, ⟨14, _⟩ => ⟨S8x4096x32x64, .f32⟩
  | .hbm, ⟨15, _⟩ => ⟨S8x4096x32x8x8, .f32⟩
  | .hbm, ⟨16, _⟩ => ⟨S_, .f32⟩
  | .hbm, ⟨17, _⟩ => ⟨S8x8, .f32⟩
  | .hbm, ⟨18, _⟩ => ⟨S8x1x1x8x1, .f32⟩
  | .hbm, ⟨19, _⟩ => ⟨S_, .f32⟩
  | .hbm, ⟨20, _⟩ => ⟨S8x1x1x8x1, .f32⟩
  | .hbm, ⟨21, _⟩ => ⟨S8x1x1x8x1, .f32⟩
  | .hbm, ⟨22, _⟩ => ⟨S_, .i32⟩
  | .hbm, ⟨23, _⟩ => ⟨S_, .f32⟩
  | .hbm, ⟨24, _⟩ => ⟨S8x8, .f32⟩
  | .hbm, ⟨25, _⟩ => ⟨S8x1x1x8x1, .f32⟩
  | .hbm, ⟨26, _⟩ => ⟨S_, .f32⟩
  | .hbm, ⟨27, _⟩ => ⟨S8x1x1x8x1, .f32⟩
  | .hbm, ⟨28, _⟩ => ⟨S8x1x1x8x1, .f32⟩
  | .hbm, ⟨29, _⟩ => ⟨S8x4096x32x8x8, .f32⟩
  | .hbm, ⟨30, _⟩ => ⟨S8x4096x32x8x8, .f32⟩
  | .hbm, ⟨31, _⟩ => ⟨S8x4096x32x8x8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x8, .f32⟩
  | .hbm, ⟨37, _⟩ => ⟨S8x1x1x8x1, .f32⟩
  | .hbm, ⟨38, _⟩ => ⟨S8x1x1x8x1, .f32⟩
  | .hbm, ⟨39, _⟩ => ⟨S8x1x1x8x1, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S8x1x1x8x1, .f32⟩
  | .hbm, ⟨45, _⟩ => ⟨S8x1x1x8x1, .f32⟩
  | .hbm, ⟨46, _⟩ => ⟨S8x4096x32x8x8, .f32⟩
  | .hbm, ⟨47, _⟩ => ⟨S8x4096x32x8x8, .f32⟩
  | .hbm, ⟨48, _⟩ => ⟨S_, .f32⟩
  | .hbm, ⟨49, _⟩ => ⟨S8x1x1x8x1, .f32⟩
  | .hbm, ⟨50, _⟩ => ⟨S8x1x1x8x1, .f32⟩
  | .hbm, ⟨51, _⟩ => ⟨S8x1x1x8x1, .f32⟩
  | .hbm, ⟨52, _⟩ => ⟨S8x4096x32x8x8, .f32⟩
  | .hbm, ⟨53, _⟩ => ⟨S8x4096x32x8x8, .f32⟩
  | .hbm, ⟨54, _⟩ => ⟨S8x4096x32x64, .f32⟩
  | .hbm, ⟨55, _⟩ => ⟨S1x1x1x64, .f32⟩
  | .hbm, ⟨56, _⟩ => ⟨S8x4096x32x64, .f32⟩
  | .hbm, ⟨57, _⟩ => ⟨S8x4096x32x64, .f32⟩
  | .hbm, ⟨58, _⟩ => ⟨S1x1x1x64, .f32⟩
  | .hbm, ⟨59, _⟩ => ⟨S8x4096x32x64, .f32⟩
  | .hbm, ⟨60, _⟩ => ⟨S8x4096x32x64, .f32⟩
  | .hbm, ⟨61, _⟩ => ⟨S_, .f32⟩
  | .hbm, ⟨62, _⟩ => ⟨S8x4096x32x64, .f32⟩
  | .hbm, ⟨63, _⟩ => ⟨S8x4096x32x64, .f32⟩
  | .hbm, ⟨64, _⟩ => ⟨S8x4096x32x128, .f32⟩
  | .hbm, ⟨65, _⟩ => ⟨S8x4096x32x8x16, .f32⟩
  | .hbm, ⟨66, _⟩ => ⟨S_, .f32⟩
  | .hbm, ⟨67, _⟩ => ⟨S8x8, .f32⟩
  | .hbm, ⟨68, _⟩ => ⟨S8x1x1x8x1, .f32⟩
  | .hbm, ⟨69, _⟩ => ⟨S_, .f32⟩
  | .hbm, ⟨70, _⟩ => ⟨S8x1x1x8x1, .f32⟩
  | .hbm, ⟨71, _⟩ => ⟨S8x1x1x8x1, .f32⟩
  | .hbm, ⟨72, _⟩ => ⟨S_, .i32⟩
  | .hbm, ⟨73, _⟩ => ⟨S_, .f32⟩
  | .hbm, ⟨74, _⟩ => ⟨S8x8, .f32⟩
  | .hbm, ⟨75, _⟩ => ⟨S8x1x1x8x1, .f32⟩
  | .hbm, ⟨76, _⟩ => ⟨S_, .f32⟩
  | .hbm, ⟨77, _⟩ => ⟨S8x1x1x8x1, .f32⟩
  | .hbm, ⟨78, _⟩ => ⟨S8x1x1x8x1, .f32⟩
  | .hbm, ⟨79, _⟩ => ⟨S8x4096x32x8x16, .f32⟩
  | .hbm, ⟨80, _⟩ => ⟨S8x4096x32x8x16, .f32⟩
  | .hbm, ⟨81, _⟩ => ⟨S8x4096x32x8x16, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8x8, .f32⟩
  | .hbm, ⟨87, _⟩ => ⟨S8x1x1x8x1, .f32⟩
  | .hbm, ⟨88, _⟩ => ⟨S8x1x1x8x1, .f32⟩
  | .hbm, ⟨89, _⟩ => ⟨S8x1x1x8x1, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S8x1x1x8x1, .f32⟩
  | .hbm, ⟨95, _⟩ => ⟨S8x1x1x8x1, .f32⟩
  | .hbm, ⟨96, _⟩ => ⟨S8x4096x32x8x16, .f32⟩
  | .hbm, ⟨97, _⟩ => ⟨S8x4096x32x8x16, .f32⟩
  | .hbm, ⟨98, _⟩ => ⟨S_, .f32⟩
  | .hbm, ⟨99, _⟩ => ⟨S8x1x1x8x1, .f32⟩
  | .hbm, ⟨100, _⟩ => ⟨S8x1x1x8x1, .f32⟩
  | .hbm, ⟨101, _⟩ => ⟨S8x1x1x8x1, .f32⟩
  | .hbm, ⟨102, _⟩ => ⟨S8x4096x32x8x16, .f32⟩
  | .hbm, ⟨103, _⟩ => ⟨S8x4096x32x8x16, .f32⟩
  | .hbm, ⟨104, _⟩ => ⟨S8x4096x32x128, .f32⟩
  | .hbm, ⟨105, _⟩ => ⟨S1x1x1x128, .f32⟩
  | .hbm, ⟨106, _⟩ => ⟨S8x4096x32x128, .f32⟩
  | .hbm, ⟨107, _⟩ => ⟨S8x4096x32x128, .f32⟩
  | .hbm, ⟨108, _⟩ => ⟨S1x1x1x128, .f32⟩
  | .hbm, ⟨109, _⟩ => ⟨S8x4096x32x128, .f32⟩
  | .hbm, ⟨110, _⟩ => ⟨S8x4096x32x128, .f32⟩
  | .hbm, ⟨111, _⟩ => ⟨S_, .f32⟩
  | .hbm, ⟨112, _⟩ => ⟨S8x4096x32x128, .f32⟩
  | .hbm, ⟨113, _⟩ => ⟨S8x4096x32x128, .f32⟩
  | .hbm, ⟨114, _⟩ => ⟨S_, .f32⟩
  | .hbm, ⟨115, _⟩ => ⟨S8x4096x128, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call1_cst : Ref sig .tc := ⟨.hbm, 61, rfl⟩
abbrev main_call1_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_v29 : Ref sig .tc := ⟨.hbm, 68, rfl⟩
abbrev main_cst_3 : Ref sig .tc := ⟨.hbm, 69, rfl⟩
abbrev main_v30 : Ref sig .tc := ⟨.hbm, 70, rfl⟩
abbrev main_v31 : Ref sig .tc := ⟨.hbm, 71, rfl⟩
abbrev main_c_4 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_cst_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_cst_1 : Ref sig .tc := ⟨.hbm, 83, rfl⟩
abbrev main_call2_v8 : Ref sig .tc := ⟨.hbm, 84, rfl⟩
abbrev main_call2_cst_2 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_cst_3 : Ref sig .tc := ⟨.hbm, 90, rfl⟩
abbrev main_call2_v13 : Ref sig .tc := ⟨.hbm, 91, rfl⟩
abbrev main_call2_cst_4 : Ref sig .tc := ⟨.hbm, 92, rfl⟩
abbrev main_call2_call0_v0 : Ref sig .tc := ⟨.hbm, 93, rfl⟩
abbrev main_call2_call0_v1 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_cst_5 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_call3_cst : Ref sig .tc := ⟨.hbm, 111, rfl⟩
abbrev main_call3_v0 : Ref sig .tc := ⟨.hbm, 112, rfl⟩
abbrev main_v47 : Ref sig .tc := ⟨.hbm, 113, rfl⟩
abbrev main_cst_6 : Ref sig .tc := ⟨.hbm, 114, rfl⟩
abbrev main_v48 : Ref sig .tc := ⟨.hbm, 115, rfl⟩

abbrev nD : Nat := 1
abbrev τ : Topo := Topo.v7x

variable {F : FTy → Type} [FloatOps F]

class Facts₀ : Prop where
  bcast_S8x4096x3_S8x4096x1x3_0_1_3 : S8x4096x3.BroadcastsInDim S8x4096x1x3 (![0, 1, 3] : Fin 3 → Fin S8x4096x1x3.rank)
  bcast_S8x4096x1x3_S8x4096x32x3_0_1_2_3 : S8x4096x1x3.BroadcastsInDim S8x4096x32x3 (![0, 1, 2, 3] : Fin 4 → Fin S8x4096x32x3.rank)
  concatenates_S8x4096x32x64_S8x4096x32x3_S8x4096x32x67_d3 : Shape.Concatenates [S8x4096x32x64, S8x4096x32x3] S8x4096x32x67 3
  shapeCasts_S8x4096x32x64_S8x4096x32x8x8 : S8x4096x32x64.ShapeCasts S8x4096x32x8x8
  reducesTo_S8x4096x32x8x8_S8x8_d1_2_4 : S8x4096x32x8x8.ReducesTo [1, 2, 4] S8x8
  h_S_ : 0 < S_.numel
  bcast_S8x8_S8x1x1x8x1_0_3 : S8x8.BroadcastsInDim S8x1x1x8x1 (![0, 3] : Fin 2 → Fin S8x1x1x8x1.rank)
  bcast_S_S8x1x1x8x1 : S_.BroadcastsInDim S8x1x1x8x1 (![] : Fin 0 → Fin S8x1x1x8x1.rank)
  bcast_S8x1x1x8x1_S8x4096x32x8x8_0_1_2_3_4 : S8x1x1x8x1.BroadcastsInDim S8x4096x32x8x8 (![0, 1, 2, 3, 4] : Fin 5 → Fin S8x4096x32x8x8.rank)
  shapeCasts_S8x4096x32x8x8_S8x4096x32x64 : S8x4096x32x8x8.ShapeCasts S8x4096x32x64
  bcast_S64_S1x1x1x64_3 : S64.BroadcastsInDim S1x1x1x64 (![3] : Fin 1 → Fin S1x1x1x64.rank)
  bcast_S1x1x1x64_S8x4096x32x64_0_1_2_3 : S1x1x1x64.BroadcastsInDim S8x4096x32x64 (![0, 1, 2, 3] : Fin 4 → Fin S8x4096x32x64.rank)
  bcast_S_S8x4096x32x64 : S_.BroadcastsInDim S8x4096x32x64 (![] : Fin 0 → Fin S8x4096x32x64.rank)
  shapeCasts_S8x4096x32x128_S8x4096x32x8x16 : S8x4096x32x128.ShapeCasts S8x4096x32x8x16
  reducesTo_S8x4096x32x8x16_S8x8_d1_2_4 : S8x4096x32x8x16.ReducesTo [1, 2, 4] S8x8
  bcast_S8x1x1x8x1_S8x4096x32x8x16_0_1_2_3_4 : S8x1x1x8x1.BroadcastsInDim S8x4096x32x8x16 (![0, 1, 2, 3, 4] : Fin 5 → Fin S8x4096x32x8x16.rank)
  shapeCasts_S8x4096x32x8x16_S8x4096x32x128 : S8x4096x32x8x16.ShapeCasts S8x4096x32x128
  bcast_S128_S1x1x1x128_3 : S128.BroadcastsInDim S1x1x1x128 (![3] : Fin 1 → Fin S1x1x1x128.rank)
  bcast_S1x1x1x128_S8x4096x32x128_0_1_2_3 : S1x1x1x128.BroadcastsInDim S8x4096x32x128 (![0, 1, 2, 3] : Fin 4 → Fin S8x4096x32x128.rank)
  bcast_S_S8x4096x32x128 : S_.BroadcastsInDim S8x4096x32x128 (![] : Fin 0 → Fin S8x4096x32x128.rank)
  reducesTo_S8x4096x32x128_S8x4096x128_d2 : S8x4096x32x128.ReducesTo [2] S8x4096x128
  dot_S8x4096x32x67_S64x67_S8x4096x32x64_3_1_012_0_n_n_wf : DotDims.WF S8x4096x32x67 S64x67 S8x4096x32x64 [3] [1] [0, 1, 2] [0] [] []
  dot_S8x4096x32x64_S128x64_S8x4096x32x128_3_1_012_0_n_n_wf : DotDims.WF S8x4096x32x64 S128x64 S8x4096x32x128 [3] [1] [0, 1, 2] [0] [] []

variable [Facts₀]

def dot_S8x4096x32x67_S64x67_S8x4096x32x64_3_1_012_0_n_n : DotDims S8x4096x32x67 S64x67 S8x4096x32x64 where
  lhsContracting := [3]
  rhsContracting := [1]
  lhsNonContracting := [0, 1, 2]
  rhsNonContracting := [0]
  lhsBatch := []
  rhsBatch := []
  wf := dot_S8x4096x32x67_S64x67_S8x4096x32x64_3_1_012_0_n_n_wf
def dot_S8x4096x32x64_S128x64_S8x4096x32x128_3_1_012_0_n_n : DotDims S8x4096x32x64 S128x64 S8x4096x32x128 where
  lhsContracting := [3]
  rhsContracting := [1]
  lhsNonContracting := [0, 1, 2]
  rhsNonContracting := [0]
  lhsBatch := []
  rhsBatch := []
  wf := dot_S8x4096x32x64_S128x64_S8x4096x32x128_3_1_012_0_n_n_wf

class Facts : Prop extends Facts₀ where

variable [Facts]
-- ==== Proof.RefOps.lean ====
/- The reference program's host operations as ONE list, in program order: the lines of the printed @main, each call of a
   module-local function (the variance with its guarded quotient, the rectifier) replaced by the callee's lines over that
   call's own buffers.  Only the table is here; what is proved about it is in RefRun.lean. -/
import proofs.«147857_j86655260164510_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 106 host operations of the reference, in order. -/
abbrev ops : List (HloOp τ sig (Elt F)) :=
  [ StableHlo.unary main_arg0 main_v0 (broadcastInDim S8x4096x1x3 ![0, 1, 3] bcast_S8x4096x3_S8x4096x1x3_0_1_3 : (⟨S8x4096x3, .f32⟩ : BufTy).Contents (Elt F) → (⟨S8x4096x1x3, .f32⟩ : BufTy).Contents (Elt F)),
    StableHlo.unary main_v0 main_v1 (broadcastInDim S8x4096x32x3 ![0, 1, 2, 3] bcast_S8x4096x1x3_S8x4096x32x3_0_1_2_3 : (⟨S8x4096x1x3, .f32⟩ : BufTy).Contents (Elt F) → (⟨S8x4096x32x3, .f32⟩ : BufTy).Contents (Elt F)),
    StableHlo.binary main_arg2 main_v1 main_v2 (subf : (⟨S8x4096x32x3, .f32⟩ : BufTy).Contents (Elt F) → (⟨S8x4096x32x3, .f32⟩ : BufTy).Contents (Elt F) → (⟨S8x4096x32x3, .f32⟩ : BufTy).Contents (Elt F)),
    StableHlo.binary main_arg3 main_v2 main_v3 ((fun a b => concatenate S8x4096x32x67 3 [⟨S8x4096x32x64, a⟩, ⟨S8x4096x32x3, b⟩] concatenates_S8x4096x32x64_S8x4096x32x3_S8x4096x32x67_d3) : (⟨S8x4096x32x64, .f32⟩ : BufTy).Contents (Elt F) → (⟨S8x4096x32x3, .f32⟩ : BufTy).Contents (Elt F) → (⟨S8x4096x32x67, .f32⟩ : BufTy).Contents (Elt F)),
    StableHlo.binary main_v3 main_arg4 main_v4 ((fun l r => Host.dotGeneral dot_S8x4096x32x67_S64x67_S8x4096x32x64_3_1_012_0_n_n none l r) : (⟨S8x4096x32x67, .f32⟩ : BufTy).Contents (Elt F) → (⟨S64x67, .f32⟩ : BufTy).Contents (Elt F) → (⟨S8x4096x32x64, .f32⟩ : BufTy).Contents (Elt F)),
    StableHlo.reshape main_v4 main_v5 rfl shapeCasts_S8x4096x32x64_S8x4096x32x8x8,
    StableHlo.nullary main_cst (constant S_ .f32 0x00000000#32),
    StableHlo.binary main_v5 main_cst main_v6 ((fun x v => Host.reduceAdd x v reducesTo_S8x4096x32x8x8_S8x8_d1_2_4 h_S_) : (⟨S8x4096x32x8x8, .f32⟩ : BufTy).Contents (Elt F) → (⟨S_, .f32⟩ : BufTy).Contents (Elt F) → (⟨S8x8, .f32⟩ : BufTy).Contents (Elt F)),
    StableHlo.unary main_v6 main_v7 (broadcastInDim S8x1x1x8x1 ![0, 3] bcast_S8x8_S8x1x1x8x1_0_3 : (⟨S8x8, .f32⟩ : BufTy).Contents (Elt F) → (⟨S8x1x1x8x1, .f32⟩ : BufTy).Contents (Elt F)),
    StableHlo.nullary main_cst_0 (constant S_ .f32 0x49800000#32),
    StableHlo.unary main_cst_0 main_v8 (broadcastInDim S8x1x1x8x1 ![] bcast_S_S8x1x1x8x1 : (⟨S_, .f32⟩ : BufTy).Contents (Elt F) → (⟨S8x1x1x8x1, .f32⟩ : BufTy).Contents (Elt F)),
    StableHlo.binary main_v7 main_v8 main_v9 (Host.divf : (⟨S8x1x1x8x1, .f32⟩ : BufTy).Contents (Elt F) → (⟨S8x1x1x8x1, .f32⟩ : BufTy).Contents (Elt F) → (⟨S8x1x1x8x1, .f32⟩ : BufTy).Contents (Elt F)),
    StableHlo.nullary main_c (constantI S_ 32 0#32),
    StableHlo.TRef.nullary main_call0.cst (constant S_ .f32 0x00000000#32),
    StableHlo.TRef.binary (.of main_v5) main_call0.cst main_call0.v0 (fun x v => Host.reduceAdd x v reducesTo_S8x4096x32x8x8_S8x8_d1_2_4 h_S_),
    StableHlo.TRef.unary main_call0.v0 main_call0.v1 (broadcastInDim S8x1x1x8x1 ![0, 3] bcast_S8x8_S8x1x1x8x1_0_3),
    StableHlo.TRef.nullary main_call0.cst_0 (constant S_ .f32 0x49800000#32),
    StableHlo.TRef.unary main_call0.cst_0 main_call0.v2 (broadcastInDim S8x1x1x8x1 ![] bcast_S_S8x1x1x8x1),
    StableHlo.TRef.binary main_call0.v1 main_call0.v2 main_call0.v3 Host.divf,
    StableHlo.TRef.unary main_call0.v3 main_call0.v4 (broadcastInDim S8x4096x32x8x8 ![0, 1, 2, 3, 4] bcast_S8x1x1x8x1_S8x4096x32x8x8_0_1_2_3_4),
    StableHlo.TRef.binary (.of main_v5) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x49800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x4096x32x8x8_S8x8_d1_2_4 h_S_),
    StableHlo.TRef.unary main_call0.v9 main_call0.v10 (broadcastInDim S8x1x1x8x1 ![0, 3] bcast_S8x8_S8x1x1x8x1_0_3),
    StableHlo.TRef.unary main_call0.v8 main_call0.v11 (broadcastInDim S8x1x1x8x1 ![] bcast_S_S8x1x1x8x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x1x1x8x1 ![] bcast_S_S8x1x1x8x1),
    StableHlo.TRef.ternary main_call0.v13 main_call0.v12 main_call0.call0.v1 main_call0.call0.v2 (fun p a b => select (broadcastInDim S8x1x1x8x1 ![] bcast_S_S8x1x1x8x1 p) a b),
    StableHlo.unary main_v9 main_v11 (broadcastInDim S8x4096x32x8x8 ![0, 1, 2, 3, 4] bcast_S8x1x1x8x1_S8x4096x32x8x8_0_1_2_3_4 : (⟨S8x1x1x8x1, .f32⟩ : BufTy).Contents (Elt F) → (⟨S8x4096x32x8x8, .f32⟩ : BufTy).Contents (Elt F)),
    StableHlo.binary main_v5 main_v11 main_v12 (subf : (⟨S8x4096x32x8x8, .f32⟩ : BufTy).Contents (Elt F) → (⟨S8x4096x32x8x8, .f32⟩ : BufTy).Contents (Elt F) → (⟨S8x4096x32x8x8, .f32⟩ : BufTy).Contents (Elt F)),
    StableHlo.nullary main_cst_1 (constant S_ .f32 0x3727C5AC#32),
    StableHlo.unary main_cst_1 main_v13 (broadcastInDim S8x1x1x8x1 ![] bcast_S_S8x1x1x8x1 : (⟨S_, .f32⟩ : BufTy).Contents (Elt F) → (⟨S8x1x1x8x1, .f32⟩ : BufTy).Contents (Elt F)),
    StableHlo.binary main_v10 main_v13 main_v14 (addf : (⟨S8x1x1x8x1, .f32⟩ : BufTy).Contents (Elt F) → (⟨S8x1x1x8x1, .f32⟩ : BufTy).Contents (Elt F) → (⟨S8x1x1x8x1, .f32⟩ : BufTy).Contents (Elt F)),
    StableHlo.unary main_v14 main_v15 (Host.rsqrt : (⟨S8x1x1x8x1, .f32⟩ : BufTy).Contents (Elt F) → (⟨S8x1x1x8x1, .f32⟩ : BufTy).Contents (Elt F)),
    StableHlo.unary main_v15 main_v16 (broadcastInDim S8x4096x32x8x8 ![0, 1, 2, 3, 4] bcast_S8x1x1x8x1_S8x4096x32x8x8_0_1_2_3_4 : (⟨S8x1x1x8x1, .f32⟩ : BufTy).Contents (Elt F) → (⟨S8x4096x32x8x8, .f32⟩ : BufTy).Contents (Elt F)),
    StableHlo.binary main_v12 main_v16 main_v17 (mulf : (⟨S8x4096x32x8x8, .f32⟩ : BufTy).Contents (Elt F) → (⟨S8x4096x32x8x8, .f32⟩ : BufTy).Contents (Elt F) → (⟨S8x4096x32x8x8, .f32⟩ : BufTy).Contents (Elt F)),
    StableHlo.reshape main_v17 main_v18 rfl shapeCasts_S8x4096x32x8x8_S8x4096x32x64,
    StableHlo.unary main_arg5 main_v19 (broadcastInDim S1x1x1x64 ![3] bcast_S64_S1x1x1x64_3 : (⟨S64, .f32⟩ : BufTy).Contents (Elt F) → (⟨S1x1x1x64, .f32⟩ : BufTy).Contents (Elt F)),
    StableHlo.unary main_v19 main_v20 (broadcastInDim S8x4096x32x64 ![0, 1, 2, 3] bcast_S1x1x1x64_S8x4096x32x64_0_1_2_3 : (⟨S1x1x1x64, .f32⟩ : BufTy).Contents (Elt F) → (⟨S8x4096x32x64, .f32⟩ : BufTy).Contents (Elt F)),
    StableHlo.binary main_v18 main_v20 main_v21 (mulf : (⟨S8x4096x32x64, .f32⟩ : BufTy).Contents (Elt F) → (⟨S8x4096x32x64, .f32⟩ : BufTy).Contents (Elt F) → (⟨S8x4096x32x64, .f32⟩ : BufTy).Contents (Elt F)),
    StableHlo.unary main_arg6 main_v22 (broadcastInDim S1x1x1x64 ![3] bcast_S64_S1x1x1x64_3 : (⟨S64, .f32⟩ : BufTy).Contents (Elt F) → (⟨S1x1x1x64, .f32⟩ : BufTy).Contents (Elt F)),
    StableHlo.unary main_v22 main_v23 (broadcastInDim S8x4096x32x64 ![0, 1, 2, 3] bcast_S1x1x1x64_S8x4096x32x64_0_1_2_3 : (⟨S1x1x1x64, .f32⟩ : BufTy).Contents (Elt F) → (⟨S8x4096x32x64, .f32⟩ : BufTy).Contents (Elt F)),
    StableHlo.binary main_v21 main_v23 main_v24 (addf : (⟨S8x4096x32x64, .f32⟩ : BufTy).Contents (Elt F) → (⟨S8x4096x32x64, .f32⟩ : BufTy).Contents (Elt F) → (⟨S8x4096x32x64, .f32⟩ : BufTy).Contents (Elt F)),
    StableHlo.TRef.nullary main_call1.cst (constant S_ .f32 0x00000000#32),
    StableHlo.TRef.unary main_call1.cst main_call1.v0 (broadcastInDim S8x4096x32x64 ![] bcast_S_S8x4096x32x64),
    StableHlo.TRef.binary (.of main_v24) main_call1.v0 main_call1.v1 maximumf,
    StableHlo.binary main_v25 main_arg7 main_v26 ((fun l r => Host.dotGeneral dot_S8x4096x32x64_S128x64_S8x4096x32x128_3_1_012_0_n_n none l r) : (⟨S8x4096x32x64, .f32⟩ : BufTy).Contents (Elt F) → (⟨S128x64, .f32⟩ : BufTy).Contents (Elt F) → (⟨S8x4096x32x128, .f32⟩ : BufTy).Contents (Elt F)),
    StableHlo.reshape main_v26 main_v27 rfl shapeCasts_S8x4096x32x128_S8x4096x32x8x16,
    StableHlo.nullary main_cst_2 (constant S_ .f32 0x00000000#32),
    StableHlo.binary main_v27 main_cst_2 main_v28 ((fun x v => Host.reduceAdd x v reducesTo_S8x4096x32x8x16_S8x8_d1_2_4 h_S_) : (⟨S8x4096x32x8x16, .f32⟩ : BufTy).Contents (Elt F) → (⟨S_, .f32⟩ : BufTy).Contents (Elt F) → (⟨S8x8, .f32⟩ : BufTy).Contents (Elt F)),
    StableHlo.unary main_v28 main_v29 (broadcastInDim S8x1x1x8x1 ![0, 3] bcast_S8x8_S8x1x1x8x1_0_3 : (⟨S8x8, .f32⟩ : BufTy).Contents (Elt F) → (⟨S8x1x1x8x1, .f32⟩ : BufTy).Contents (Elt F)),
    StableHlo.nullary main_cst_3 (constant S_ .f32 0x4A000000#32),
    StableHlo.unary main_cst_3 main_v30 (broadcastInDim S8x1x1x8x1 ![] bcast_S_S8x1x1x8x1 : (⟨S_, .f32⟩ : BufTy).Contents (Elt F) → (⟨S8x1x1x8x1, .f32⟩ : BufTy).Contents (Elt F)),
    StableHlo.binary main_v29 main_v30 main_v31 (Host.divf : (⟨S8x1x1x8x1, .f32⟩ : BufTy).Contents (Elt F) → (⟨S8x1x1x8x1, .f32⟩ : BufTy).Contents (Elt F) → (⟨S8x1x1x8x1, .f32⟩ : BufTy).Contents (Elt F)),
    StableHlo.nullary main_c_4 (constantI S_ 32 0#32),
    StableHlo.TRef.nullary main_call2.cst (constant S_ .f32 0x00000000#32),
    StableHlo.TRef.binary (.of main_v27) main_call2.cst main_call2.v0 (fun x v => Host.reduceAdd x v reducesTo_S8x4096x32x8x16_S8x8_d1_2_4 h_S_),
    StableHlo.TRef.unary main_call2.v0 main_call2.v1 (broadcastInDim S8x1x1x8x1 ![0, 3] bcast_S8x8_S8x1x1x8x1_0_3),
    StableHlo.TRef.nullary main_call2.cst_0 (constant S_ .f32 0x4A000000#32),
    StableHlo.TRef.unary main_call2.cst_0 main_call2.v2 (broadcastInDim S8x1x1x8x1 ![] bcast_S_S8x1x1x8x1),
    StableHlo.TRef.binary main_call2.v1 main_call2.v2 main_call2.v3 Host.divf,
    StableHlo.TRef.unary main_call2.v3 main_call2.v4 (broadcastInDim S8x4096x32x8x16 ![0, 1, 2, 3, 4] bcast_S8x1x1x8x1_S8x4096x32x8x16_0_1_2_3_4),
    StableHlo.TRef.binary (.of main_v27) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x4A000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8x4096x32x8x16_S8x8_d1_2_4 h_S_),
    StableHlo.TRef.unary main_call2.v9 main_call2.v10 (broadcastInDim S8x1x1x8x1 ![0, 3] bcast_S8x8_S8x1x1x8x1_0_3),
    StableHlo.TRef.unary main_call2.v8 main_call2.v11 (broadcastInDim S8x1x1x8x1 ![] bcast_S_S8x1x1x8x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8x1x1x8x1 ![] bcast_S_S8x1x1x8x1),
    StableHlo.TRef.ternary main_call2.v13 main_call2.v12 main_call2.call0.v1 main_call2.call0.v2 (fun p a b => select (broadcastInDim S8x1x1x8x1 ![] bcast_S_S8x1x1x8x1 p) a b),
    StableHlo.unary main_v31 main_v33 (broadcastInDim S8x4096x32x8x16 ![0, 1, 2, 3, 4] bcast_S8x1x1x8x1_S8x4096x32x8x16_0_1_2_3_4 : (⟨S8x1x1x8x1, .f32⟩ : BufTy).Contents (Elt F) → (⟨S8x4096x32x8x16, .f32⟩ : BufTy).Contents (Elt F)),
    StableHlo.binary main_v27 main_v33 main_v34 (subf : (⟨S8x4096x32x8x16, .f32⟩ : BufTy).Contents (Elt F) → (⟨S8x4096x32x8x16, .f32⟩ : BufTy).Contents (Elt F) → (⟨S8x4096x32x8x16, .f32⟩ : BufTy).Contents (Elt F)),
    StableHlo.nullary main_cst_5 (constant S_ .f32 0x3727C5AC#32),
    StableHlo.unary main_cst_5 main_v35 (broadcastInDim S8x1x1x8x1 ![] bcast_S_S8x1x1x8x1 : (⟨S_, .f32⟩ : BufTy).Contents (Elt F) → (⟨S8x1x1x8x1, .f32⟩ : BufTy).Contents (Elt F)),
    StableHlo.binary main_v32 main_v35 main_v36 (addf : (⟨S8x1x1x8x1, .f32⟩ : BufTy).Contents (Elt F) → (⟨S8x1x1x8x1, .f32⟩ : BufTy).Contents (Elt F) → (⟨S8x1x1x8x1, .f32⟩ : BufTy).Contents (Elt F)),
    StableHlo.unary main_v36 main_v37 (Host.rsqrt : (⟨S8x1x1x8x1, .f32⟩ : BufTy).Contents (Elt F) → (⟨S8x1x1x8x1, .f32⟩ : BufTy).Contents (Elt F)),
    StableHlo.unary main_v37 main_v38 (broadcastInDim S8x4096x32x8x16 ![0, 1, 2, 3, 4] bcast_S8x1x1x8x1_S8x4096x32x8x16_0_1_2_3_4 : (⟨S8x1x1x8x1, .f32⟩ : BufTy).Contents (Elt F) → (⟨S8x4096x32x8x16, .f32⟩ : BufTy).Contents (Elt F)),
    StableHlo.binary main_v34 main_v38 main_v39 (mulf : (⟨S8x4096x32x8x16, .f32⟩ : BufTy).Contents (Elt F) → (⟨S8x4096x32x8x16, .f32⟩ : BufTy).Contents (Elt F) → (⟨S8x4096x32x8x16, .f32⟩ : BufTy).Contents (Elt F)),
    StableHlo.reshape main_v39 main_v40 rfl shapeCasts_S8x4096x32x8x16_S8x4096x32x128,
    StableHlo.unary main_arg8 main_v41 (broadcastInDim S1x1x1x128 ![3] bcast_S128_S1x1x1x128_3 : (⟨S128, .f32⟩ : BufTy).Contents (Elt F) → (⟨S1x1x1x128, .f32⟩ : BufTy).Contents (Elt F)),
    StableHlo.unary main_v41 main_v42 (broadcastInDim S8x4096x32x128 ![0, 1, 2, 3] bcast_S1x1x1x128_S8x4096x32x128_0_1_2_3 : (⟨S1x1x1x128, .f32⟩ : BufTy).Contents (Elt F) → (⟨S8x4096x32x128, .f32⟩ : BufTy).Contents (Elt F)),
    StableHlo.binary main_v40 main_v42 main_v43 (mulf : (⟨S8x4096x32x128, .f32⟩ : BufTy).Contents (Elt F) → (⟨S8x4096x32x128, .f32⟩ : BufTy).Contents (Elt F) → (⟨S8x4096x32x128, .f32⟩ : BufTy).Contents (Elt F)),
    StableHlo.unary main_arg9 main_v44 (broadcastInDim S1x1x1x128 ![3] bcast_S128_S1x1x1x128_3 : (⟨S128, .f32⟩ : BufTy).Contents (Elt F) → (⟨S1x1x1x128, .f32⟩ : BufTy).Contents (Elt F)),
    StableHlo.unary main_v44 main_v45 (broadcastInDim S8x4096x32x128 ![0, 1, 2, 3] bcast_S1x1x1x128_S8x4096x32x128_0_1_2_3 : (⟨S1x1x1x128, .f32⟩ : BufTy).Contents (Elt F) → (⟨S8x4096x32x128, .f32⟩ : BufTy).Contents (Elt F)),
    StableHlo.binary main_v43 main_v45 main_v46 (addf : (⟨S8x4096x32x128, .f32⟩ : BufTy).Contents (Elt F) → (⟨S8x4096x32x128, .f32⟩ : BufTy).Contents (Elt F) → (⟨S8x4096x32x128, .f32⟩ : BufTy).Contents (Elt F)),
    StableHlo.TRef.nullary main_call3.cst (constant S_ .f32 0x00000000#32),
    StableHlo.TRef.unary main_call3.cst main_call3.v0 (broadcastInDim S8x4096x32x128 ![] bcast_S_S8x4096x32x128),
    StableHlo.TRef.binary (.of main_v46) main_call3.v0 main_call3.v1 maximumf,
    StableHlo.nullary main_cst_6 (constant S_ .f32 0xFF800000#32),
    StableHlo.binary main_v47 main_cst_6 main_v48 ((fun x v => Host.reduce FloatOps.maximumf x v reducesTo_S8x4096x32x128_S8x4096x128_d2 h_S_) : (⟨S8x4096x32x128, .f32⟩ : BufTy).Contents (Elt F) → (⟨S_, .f32⟩ : BufTy).Contents (Elt F) → (⟨S8x4096x128, .f32⟩ : BufTy).Contents (Elt F)) ]

end Cert.ReferenceIdeal.RefValue

end
-- ==== Proof.RefRun.lean ====
/-
  The reference program's run.  The reference is a straight line of host operations: jax outlines the variance (with its
  guarded quotient) and the rectifier as module-local functions, and calling one executes its lines on the caller's operands,
  so the whole program is the one list `ops` (RefOps.lean).  Every weakly fair execution therefore terminates with each
  buffer at the fold of the operations' results over the launch contents; no operation writes an argument array, so the
  arguments end as launched, which is the reference's frame.
-/
import proofs.«147857_j86655260164510_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- one hundred and six steps in sequence: the comparison descends once per step
set_option maxRecDepth 65536 in
/-- The program is that line: with each function's definition opened at its call and the records at their fields, sequencing
    a callee's steps before the caller's remaining ones computes to one chain of steps, the same on both sides. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

/-- Every weakly fair execution of the reference terminates, and every final state has each TensorCore buffer at the fold of
    the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## No operation writes an argument array -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp

/-- The reference runs and its argument arrays end as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_arg0).trans (arg0_eq _), (h c main_arg1).trans (arg1_eq _), (h c main_arg2).trans (arg2_eq _),
       (h c main_arg3).trans (arg3_eq _), (h c main_arg4).trans (arg4_eq _), (h c main_arg5).trans (arg5_eq _),
       (h c main_arg6).trans (arg6_eq _), (h c main_arg7).trans (arg7_eq _), (h c main_arg8).trans (arg8_eq _),
       (h c main_arg9).trans (arg9_eq _)⟩)
    (run_main m ρ)

end Cert.ReferenceIdeal.RefValue

end
-- ==== Proof.KRun.lean ====
/-
  The idealised kernel's run with its buffers named.  The program is three kernel regions among three stretches of host
  operations; the launch-to-return run leaves every unscoped buffer of a core at the contents of the last segment boundary,
  a fold from the launch memory: a host stretch applies its operations' results, a region replaces each of its arrays by
  what its write-backs leave.  In particular the result array ends at the third region's output array after its last grid
  point, and the argument arrays end as launched.
-/
import proofs.«147857_j86655260164510_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every final state has each unscoped buffer of each core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The third region's output array is the program's result buffer. -/
theorem arr14 : Pipeline.arrRef spec2 14 = main_v46 := rfl

/-- The result buffer ends at the third region's output array after its last grid point; the arguments as launched. -/
theorem run_result : θ_run defs (onTc (τ := τ) (main (F := F))) ⟨m, fun _ => 0, ρ⟩ (fun r => ∀ c : Dev nD,
      r.2.mem ((c.tc : Thread nD τ).loc main_v46) = (dat2 (V5 m ρ) c).arrAt 14 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨(h c _ (mem_uc main_v46 (by decide))).trans (W6_arr m ρ c 14),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)
    (run_all m ρ)

end Cert.KernelIdeal.KValue

end
-- ==== Proof.KHost.lean ====
/-
  What each sweep finds in the arrays it reads.  Between the launch and a sweep's entry a buffer is changed only by the host
  operation that writes it or by a sweep that has it as an output; so the big input arrays, the second weight, the two column
  blocks of the first weight and the four reshaped scale and shift vectors are at every sweep's entry what the first host
  stretch made of the launch memory, and a statistics array is what its host stretch made of the previous sweep's two output
  arrays.  The statistics are named here as functions of those two arrays (the totals and the totals of squares); what they
  are entry by entry is read elsewhere.
-/
import proofs.«147857_j86655260164510_2_alg».proof.Proof.Gen.KernelIdeal.Frame
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The first host stretch: the weight's two column blocks, the reshaped vectors, the inputs untouched -/

theorem W1_main_arg3 (c : Dev nD) : W1 m ρ c (Proc.devRef .tc main_arg3) = m ((c : Thread nD τ).loc main_arg3) := by
  show StableHlo.after hostOps0 (W0 m ρ c) (Proc.devRef .tc main_arg3) = _
  after_results
theorem W1_main_arg2 (c : Dev nD) : W1 m ρ c (Proc.devRef .tc main_arg2) = m ((c : Thread nD τ).loc main_arg2) := by
  show StableHlo.after hostOps0 (W0 m ρ c) (Proc.devRef .tc main_arg2) = _
  after_results
theorem W1_main_arg0 (c : Dev nD) : W1 m ρ c (Proc.devRef .tc main_arg0) = m ((c : Thread nD τ).loc main_arg0) := by
  show StableHlo.after hostOps0 (W0 m ρ c) (Proc.devRef .tc main_arg0) = _
  after_results
theorem W1_main_arg7 (c : Dev nD) : W1 m ρ c (Proc.devRef .tc main_arg7) = m ((c : Thread nD τ).loc main_arg7) := by
  show StableHlo.after hostOps0 (W0 m ρ c) (Proc.devRef .tc main_arg7) = _
  after_results
theorem W1_main_v0 (c : Dev nD) : W1 m ρ c (Proc.devRef .tc main_v0)
    = extractStridedSlice S64x64 ![0, 0] (m ((c : Thread nD τ).loc main_arg4)) slices_S64x67_S64x64_0_0 := by
  show StableHlo.after hostOps0 (W0 m ρ c) (Proc.devRef .tc main_v0) = _
  after_results
theorem W1_main_v1 (c : Dev nD) : W1 m ρ c (Proc.devRef .tc main_v1)
    = extractStridedSlice S64x3 ![0, 64] (m ((c : Thread nD τ).loc main_arg4)) slices_S64x67_S64x3_0_64 := by
  show StableHlo.after hostOps0 (W0 m ρ c) (Proc.devRef .tc main_v1) = _
  after_results
theorem W1_main_v2 (c : Dev nD) : W1 m ρ c (Proc.devRef .tc main_v2)
    = shapeCast S1x64 (m ((c : Thread nD τ).loc main_arg5)) shapeCasts_S64_S1x64 := by
  show StableHlo.after hostOps0 (W0 m ρ c) (Proc.devRef .tc main_v2) = _
  after_results; rfl
theorem W1_main_v3 (c : Dev nD) : W1 m ρ c (Proc.devRef .tc main_v3)
    = shapeCast S1x64 (m ((c : Thread nD τ).loc main_arg6)) shapeCasts_S64_S1x64 := by
  show StableHlo.after hostOps0 (W0 m ρ c) (Proc.devRef .tc main_v3) = _
  after_results; rfl
theorem W1_main_v4 (c : Dev nD) : W1 m ρ c (Proc.devRef .tc main_v4)
    = shapeCast S1x128 (m ((c : Thread nD τ).loc main_arg8)) shapeCasts_S128_S1x128 := by
  show StableHlo.after hostOps0 (W0 m ρ c) (Proc.devRef .tc main_v4) = _
  after_results; rfl
theorem W1_main_v5 (c : Dev nD) : W1 m ρ c (Proc.devRef .tc main_v5)
    = shapeCast S1x128 (m ((c : Thread nD τ).loc main_arg9)) shapeCasts_S128_S1x128 := by
  show StableHlo.after hostOps0 (W0 m ρ c) (Proc.devRef .tc main_v5) = _
  after_results; rfl

/-! ## A buffer no operation of a stretch writes, and no sweep has as an output, is carried along -/

theorem W2_main_arg3_in (c : Dev nD) : W2 m ρ c (Proc.devRef .tc main_arg3) = W1 m ρ c (Proc.devRef .tc main_arg3) :=
  (W2_arr m ρ c 0).trans (((dat0 (V1 m ρ) c).arrAt_in 0 rfl _).trans (A_eq0 (V1 m ρ) c 0))
theorem W3_main_arg3_keep (c : Dev nD) : W3 m ρ c (Proc.devRef .tc main_arg3) = W2 m ρ c (Proc.devRef .tc main_arg3) := by
  show StableHlo.after hostOps1 (W2 m ρ c) (Proc.devRef .tc main_arg3) = _
  after_results
theorem W2_main_arg2_in (c : Dev nD) : W2 m ρ c (Proc.devRef .tc main_arg2) = W1 m ρ c (Proc.devRef .tc main_arg2) :=
  (W2_arr m ρ c 1).trans (((dat0 (V1 m ρ) c).arrAt_in 1 rfl _).trans (A_eq0 (V1 m ρ) c 1))
theorem W3_main_arg2_keep (c : Dev nD) : W3 m ρ c (Proc.devRef .tc main_arg2) = W2 m ρ c (Proc.devRef .tc main_arg2) := by
  show StableHlo.after hostOps1 (W2 m ρ c) (Proc.devRef .tc main_arg2) = _
  after_results
theorem W2_main_arg0_in (c : Dev nD) : W2 m ρ c (Proc.devRef .tc main_arg0) = W1 m ρ c (Proc.devRef .tc main_arg0) :=
  (W2_arr m ρ c 2).trans (((dat0 (V1 m ρ) c).arrAt_in 2 rfl _).trans (A_eq0 (V1 m ρ) c 2))
theorem W3_main_arg0_keep (c : Dev nD) : W3 m ρ c (Proc.devRef .tc main_arg0) = W2 m ρ c (Proc.devRef .tc main_arg0) := by
  show StableHlo.after hostOps1 (W2 m ρ c) (Proc.devRef .tc main_arg0) = _
  after_results
theorem W2_main_v0_in (c : Dev nD) : W2 m ρ c (Proc.devRef .tc main_v0) = W1 m ρ c (Proc.devRef .tc main_v0) :=
  (W2_arr m ρ c 3).trans (((dat0 (V1 m ρ) c).arrAt_in 3 rfl _).trans (A_eq0 (V1 m ρ) c 3))
theorem W3_main_v0_keep (c : Dev nD) : W3 m ρ c (Proc.devRef .tc main_v0) = W2 m ρ c (Proc.devRef .tc main_v0) := by
  show StableHlo.after hostOps1 (W2 m ρ c) (Proc.devRef .tc main_v0) = _
  after_results
theorem W2_main_v1_in (c : Dev nD) : W2 m ρ c (Proc.devRef .tc main_v1) = W1 m ρ c (Proc.devRef .tc main_v1) :=
  (W2_arr m ρ c 4).trans (((dat0 (V1 m ρ) c).arrAt_in 4 rfl _).trans (A_eq0 (V1 m ρ) c 4))
theorem W3_main_v1_keep (c : Dev nD) : W3 m ρ c (Proc.devRef .tc main_v1) = W2 m ρ c (Proc.devRef .tc main_v1) := by
  show StableHlo.after hostOps1 (W2 m ρ c) (Proc.devRef .tc main_v1) = _
  after_results
theorem W2_main_arg7_ne (c : Dev nD) : W2 m ρ c (Proc.devRef .tc main_arg7) = W1 m ρ c (Proc.devRef .tc main_arg7) :=
  W2_of_ne m ρ c main_arg7 (by decide)
theorem W3_main_arg7_keep (c : Dev nD) : W3 m ρ c (Proc.devRef .tc main_arg7) = W2 m ρ c (Proc.devRef .tc main_arg7) := by
  show StableHlo.after hostOps1 (W2 m ρ c) (Proc.devRef .tc main_arg7) = _
  after_results
theorem W2_main_v2_ne (c : Dev nD) : W2 m ρ c (Proc.devRef .tc main_v2) = W1 m ρ c (Proc.devRef .tc main_v2) :=
  W2_of_ne m ρ c main_v2 (by decide)
theorem W3_main_v2_keep (c : Dev nD) : W3 m ρ c (Proc.devRef .tc main_v2) = W2 m ρ c (Proc.devRef .tc main_v2) := by
  show StableHlo.after hostOps1 (W2 m ρ c) (Proc.devRef .tc main_v2) = _
  after_results
theorem W2_main_v3_ne (c : Dev nD) : W2 m ρ c (Proc.devRef .tc main_v3) = W1 m ρ c (Proc.devRef .tc main_v3) :=
  W2_of_ne m ρ c main_v3 (by decide)
theorem W3_main_v3_keep (c : Dev nD) : W3 m ρ c (Proc.devRef .tc main_v3) = W2 m ρ c (Proc.devRef .tc main_v3) := by
  show StableHlo.after hostOps1 (W2 m ρ c) (Proc.devRef .tc main_v3) = _
  after_results
theorem W2_main_v4_ne (c : Dev nD) : W2 m ρ c (Proc.devRef .tc main_v4) = W1 m ρ c (Proc.devRef .tc main_v4) :=
  W2_of_ne m ρ c main_v4 (by decide)
theorem W3_main_v4_keep (c : Dev nD) : W3 m ρ c (Proc.devRef .tc main_v4) = W2 m ρ c (Proc.devRef .tc main_v4) := by
  show StableHlo.after hostOps1 (W2 m ρ c) (Proc.devRef .tc main_v4) = _
  after_results
theorem W2_main_v5_ne (c : Dev nD) : W2 m ρ c (Proc.devRef .tc main_v5) = W1 m ρ c (Proc.devRef .tc main_v5) :=
  W2_of_ne m ρ c main_v5 (by decide)
theorem W3_main_v5_keep (c : Dev nD) : W3 m ρ c (Proc.devRef .tc main_v5) = W2 m ρ c (Proc.devRef .tc main_v5) := by
  show StableHlo.after hostOps1 (W2 m ρ c) (Proc.devRef .tc main_v5) = _
  after_results
theorem W4_main_arg3_in (c : Dev nD) : W4 m ρ c (Proc.devRef .tc main_arg3) = W3 m ρ c (Proc.devRef .tc main_arg3) :=
  (W4_arr m ρ c 0).trans (((dat1 (V3 m ρ) c).arrAt_in 0 rfl _).trans (A_eq1 (V3 m ρ) c 0))
theorem W5_main_arg3_keep (c : Dev nD) : W5 m ρ c (Proc.devRef .tc main_arg3) = W4 m ρ c (Proc.devRef .tc main_arg3) := by
  show StableHlo.after hostOps2 (W4 m ρ c) (Proc.devRef .tc main_arg3) = _
  after_results
theorem W4_main_arg2_in (c : Dev nD) : W4 m ρ c (Proc.devRef .tc main_arg2) = W3 m ρ c (Proc.devRef .tc main_arg2) :=
  (W4_arr m ρ c 1).trans (((dat1 (V3 m ρ) c).arrAt_in 1 rfl _).trans (A_eq1 (V3 m ρ) c 1))
theorem W5_main_arg2_keep (c : Dev nD) : W5 m ρ c (Proc.devRef .tc main_arg2) = W4 m ρ c (Proc.devRef .tc main_arg2) := by
  show StableHlo.after hostOps2 (W4 m ρ c) (Proc.devRef .tc main_arg2) = _
  after_results
theorem W4_main_arg0_in (c : Dev nD) : W4 m ρ c (Proc.devRef .tc main_arg0) = W3 m ρ c (Proc.devRef .tc main_arg0) :=
  (W4_arr m ρ c 2).trans (((dat1 (V3 m ρ) c).arrAt_in 2 rfl _).trans (A_eq1 (V3 m ρ) c 2))
theorem W5_main_arg0_keep (c : Dev nD) : W5 m ρ c (Proc.devRef .tc main_arg0) = W4 m ρ c (Proc.devRef .tc main_arg0) := by
  show StableHlo.after hostOps2 (W4 m ρ c) (Proc.devRef .tc main_arg0) = _
  after_results
theorem W4_main_v0_in (c : Dev nD) : W4 m ρ c (Proc.devRef .tc main_v0) = W3 m ρ c (Proc.devRef .tc main_v0) :=
  (W4_arr m ρ c 3).trans (((dat1 (V3 m ρ) c).arrAt_in 3 rfl _).trans (A_eq1 (V3 m ρ) c 3))
theorem W5_main_v0_keep (c : Dev nD) : W5 m ρ c (Proc.devRef .tc main_v0) = W4 m ρ c (Proc.devRef .tc main_v0) := by
  show StableHlo.after hostOps2 (W4 m ρ c) (Proc.devRef .tc main_v0) = _
  after_results
theorem W4_main_v1_in (c : Dev nD) : W4 m ρ c (Proc.devRef .tc main_v1) = W3 m ρ c (Proc.devRef .tc main_v1) :=
  (W4_arr m ρ c 4).trans (((dat1 (V3 m ρ) c).arrAt_in 4 rfl _).trans (A_eq1 (V3 m ρ) c 4))
theorem W5_main_v1_keep (c : Dev nD) : W5 m ρ c (Proc.devRef .tc main_v1) = W4 m ρ c (Proc.devRef .tc main_v1) := by
  show StableHlo.after hostOps2 (W4 m ρ c) (Proc.devRef .tc main_v1) = _
  after_results
theorem W4_main_arg7_in (c : Dev nD) : W4 m ρ c (Proc.devRef .tc main_arg7) = W3 m ρ c (Proc.devRef .tc main_arg7) :=
  (W4_arr m ρ c 5).trans (((dat1 (V3 m ρ) c).arrAt_in 5 rfl _).trans (A_eq1 (V3 m ρ) c 5))
theorem W5_main_arg7_keep (c : Dev nD) : W5 m ρ c (Proc.devRef .tc main_arg7) = W4 m ρ c (Proc.devRef .tc main_arg7) := by
  show StableHlo.after hostOps2 (W4 m ρ c) (Proc.devRef .tc main_arg7) = _
  after_results
theorem W4_main_v2_in (c : Dev nD) : W4 m ρ c (Proc.devRef .tc main_v2) = W3 m ρ c (Proc.devRef .tc main_v2) :=
  (W4_arr m ρ c 6).trans (((dat1 (V3 m ρ) c).arrAt_in 6 rfl _).trans (A_eq1 (V3 m ρ) c 6))
theorem W5_main_v2_keep (c : Dev nD) : W5 m ρ c (Proc.devRef .tc main_v2) = W4 m ρ c (Proc.devRef .tc main_v2) := by
  show StableHlo.after hostOps2 (W4 m ρ c) (Proc.devRef .tc main_v2) = _
  after_results
theorem W4_main_v3_in (c : Dev nD) : W4 m ρ c (Proc.devRef .tc main_v3) = W3 m ρ c (Proc.devRef .tc main_v3) :=
  (W4_arr m ρ c 7).trans (((dat1 (V3 m ρ) c).arrAt_in 7 rfl _).trans (A_eq1 (V3 m ρ) c 7))
theorem W5_main_v3_keep (c : Dev nD) : W5 m ρ c (Proc.devRef .tc main_v3) = W4 m ρ c (Proc.devRef .tc main_v3) := by
  show StableHlo.after hostOps2 (W4 m ρ c) (Proc.devRef .tc main_v3) = _
  after_results
theorem W4_main_v23_in (c : Dev nD) : W4 m ρ c (Proc.devRef .tc main_v23) = W3 m ρ c (Proc.devRef .tc main_v23) :=
  (W4_arr m ρ c 8).trans (((dat1 (V3 m ρ) c).arrAt_in 8 rfl _).trans (A_eq1 (V3 m ρ) c 8))
theorem W5_main_v23_keep (c : Dev nD) : W5 m ρ c (Proc.devRef .tc main_v23) = W4 m ρ c (Proc.devRef .tc main_v23) := by
  show StableHlo.after hostOps2 (W4 m ρ c) (Proc.devRef .tc main_v23) = _
  after_results
theorem W4_main_v25_in (c : Dev nD) : W4 m ρ c (Proc.devRef .tc main_v25) = W3 m ρ c (Proc.devRef .tc main_v25) :=
  (W4_arr m ρ c 9).trans (((dat1 (V3 m ρ) c).arrAt_in 9 rfl _).trans (A_eq1 (V3 m ρ) c 9))
theorem W5_main_v25_keep (c : Dev nD) : W5 m ρ c (Proc.devRef .tc main_v25) = W4 m ρ c (Proc.devRef .tc main_v25) := by
  show StableHlo.after hostOps2 (W4 m ρ c) (Proc.devRef .tc main_v25) = _
  after_results
theorem W4_main_v4_ne (c : Dev nD) : W4 m ρ c (Proc.devRef .tc main_v4) = W3 m ρ c (Proc.devRef .tc main_v4) :=
  W4_of_ne m ρ c main_v4 (by decide)
theorem W5_main_v4_keep (c : Dev nD) : W5 m ρ c (Proc.devRef .tc main_v4) = W4 m ρ c (Proc.devRef .tc main_v4) := by
  show StableHlo.after hostOps2 (W4 m ρ c) (Proc.devRef .tc main_v4) = _
  after_results
theorem W4_main_v5_ne (c : Dev nD) : W4 m ρ c (Proc.devRef .tc main_v5) = W3 m ρ c (Proc.devRef .tc main_v5) :=
  W4_of_ne m ρ c main_v5 (by decide)
theorem W5_main_v5_keep (c : Dev nD) : W5 m ρ c (Proc.devRef .tc main_v5) = W4 m ρ c (Proc.devRef .tc main_v5) := by
  show StableHlo.after hostOps2 (W4 m ρ c) (Proc.devRef .tc main_v5) = _
  after_results

end Cert.KernelIdeal.KHost

end
-- ==== Proof.KStats.lean ====
/-
  The statistics the kernel forms between its sweeps.  From a sweep's two output arrays — per batch entry and channel, the total S
  and the total of squares Q over all points and neighbours — the host lays the channels out as 8 groups, adds the group's
  channels, divides by the number of (point, neighbour, channel) triples of a group, forms mean = S/N and the one-pass variance
  max (Q/N − mean·mean) 0, the inverse deviation 1/sqrt (variance + ε), and repeats each group's mean and inverse deviation
  along the group's channels.  These are the arrays the next sweeps read as per-channel mean and inverse deviation.
-/
import proofs.«147857_j86655260164510_2_alg».proof.Proof.KHost

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A group's total over the count: the [8,1,64] per-channel totals laid out as 8 groups of 8, summed over the group's channels. -/
def kgq1 (S : (⟨S8x1x64, .f32⟩ : BufTy).Contents (Elt F)) : (⟨S8x1x8, .f32⟩ : BufTy).Contents (Elt F) :=
  Host.divf (Host.reduceAdd (shapeCast S8x1x8x8 S shapeCasts_S8x1x64_S8x1x8x8) (constant S_ .f32 0x00000000#32) reducesTo_S8x1x8x8_S8x1x8_d3 h_S_)
    (broadcastInDim S8x1x8 ![] bcast_S_S8x1x8 (constant S_ .f32 0x49800000#32))

/-- The group mean repeated along the group's channels. -/
def kmean1 (S : (⟨S8x1x64, .f32⟩ : BufTy).Contents (Elt F)) : (⟨S8x1x64, .f32⟩ : BufTy).Contents (Elt F) :=
  shapeCast S8x1x64 (broadcastInDim S8x1x8x8 ![0, 1, 2] bcast_S8x1x8_S8x1x8x8_0_1_2 (kgq1 S)) shapeCasts_S8x1x8x8_S8x1x64

/-- The inverse deviation from the one-pass variance max (Q/N − mean²) 0, repeated along the group's channels. -/
def kinv1 (S Q : (⟨S8x1x64, .f32⟩ : BufTy).Contents (Elt F)) : (⟨S8x1x64, .f32⟩ : BufTy).Contents (Elt F) :=
  shapeCast S8x1x64 (broadcastInDim S8x1x8x8 ![0, 1, 2] bcast_S8x1x8_S8x1x8x8_0_1_2
    (Host.rsqrt (addf (maximumf (subf (kgq1 Q) (mulf (kgq1 S) (kgq1 S)))
        (broadcastInDim S8x1x8 ![] bcast_S_S8x1x8 (constant S_ .f32 0x00000000#32)))
      (broadcastInDim S8x1x8 ![] bcast_S_S8x1x8 (constant S_ .f32 0x3727C5AC#32))))) shapeCasts_S8x1x8x8_S8x1x64

/-- A group's total over the count: the [8,1,128] per-channel totals laid out as 8 groups of 16, summed over the group's channels. -/
def kgq2 (S : (⟨S8x1x128, .f32⟩ : BufTy).Contents (Elt F)) : (⟨S8x1x8, .f32⟩ : BufTy).Contents (Elt F) :=
  Host.divf (Host.reduceAdd (shapeCast S8x1x8x16 S shapeCasts_S8x1x128_S8x1x8x16) (constant S_ .f32 0x00000000#32) reducesTo_S8x1x8x16_S8x1x8_d3 h_S_)
    (broadcastInDim S8x1x8 ![] bcast_S_S8x1x8 (constant S_ .f32 0x4A000000#32))

/-- The group mean repeated along the group's channels. -/
def kmean2 (S : (⟨S8x1x128, .f32⟩ : BufTy).Contents (Elt F)) : (⟨S8x1x128, .f32⟩ : BufTy).Contents (Elt F) :=
  shapeCast S8x1x128 (broadcastInDim S8x1x8x16 ![0, 1, 2] bcast_S8x1x8_S8x1x8x16_0_1_2 (kgq2 S)) shapeCasts_S8x1x8x16_S8x1x128

/-- The inverse deviation from the one-pass variance max (Q/N − mean²) 0, repeated along the group's channels. -/
def kinv2 (S Q : (⟨S8x1x128, .f32⟩ : BufTy).Contents (Elt F)) : (⟨S8x1x128, .f32⟩ : BufTy).Contents (Elt F) :=
  shapeCast S8x1x128 (broadcastInDim S8x1x8x16 ![0, 1, 2] bcast_S8x1x8_S8x1x8x16_0_1_2
    (Host.rsqrt (addf (maximumf (subf (kgq2 Q) (mulf (kgq2 S) (kgq2 S)))
        (broadcastInDim S8x1x8 ![] bcast_S_S8x1x8 (constant S_ .f32 0x00000000#32)))
      (broadcastInDim S8x1x8 ![] bcast_S_S8x1x8 (constant S_ .f32 0x3727C5AC#32))))) shapeCasts_S8x1x8x16_S8x1x128

/-! ## The statistics buffers hold them -/

theorem W3_main_v23 (c : Dev nD) : W3 m ρ c (Proc.devRef .tc main_v23) = kmean1 (W2 m ρ c (Proc.devRef .tc main_v6_0)) := by
  show StableHlo.after hostOps1 (W2 m ρ c) (Proc.devRef .tc main_v23) = _
  after_results; rfl
theorem W3_main_v25 (c : Dev nD) : W3 m ρ c (Proc.devRef .tc main_v25)
    = kinv1 (W2 m ρ c (Proc.devRef .tc main_v6_0)) (W2 m ρ c (Proc.devRef .tc main_v6_1)) := by
  show StableHlo.after hostOps1 (W2 m ρ c) (Proc.devRef .tc main_v25) = _
  after_results; rfl
theorem W5_main_v43 (c : Dev nD) : W5 m ρ c (Proc.devRef .tc main_v43) = kmean2 (W4 m ρ c (Proc.devRef .tc main_v26_0)) := by
  show StableHlo.after hostOps2 (W4 m ρ c) (Proc.devRef .tc main_v43) = _
  after_results; rfl
theorem W5_main_v45 (c : Dev nD) : W5 m ρ c (Proc.devRef .tc main_v45)
    = kinv2 (W4 m ρ c (Proc.devRef .tc main_v26_0)) (W4 m ρ c (Proc.devRef .tc main_v26_1)) := by
  show StableHlo.after hostOps2 (W4 m ρ c) (Proc.devRef .tc main_v45) = _
  after_results; rfl

/-- The sweeps' output arrays are what each leaves after its last point. -/
theorem W2_main_v6_0 (c : Dev nD) : W2 m ρ c (Proc.devRef .tc main_v6_0) = (dat0 (V1 m ρ) c).arrAt 5 cfg0.N := W2_arr m ρ c 5
theorem W2_main_v6_1 (c : Dev nD) : W2 m ρ c (Proc.devRef .tc main_v6_1) = (dat0 (V1 m ρ) c).arrAt 6 cfg0.N := W2_arr m ρ c 6
theorem W4_main_v26_0 (c : Dev nD) : W4 m ρ c (Proc.devRef .tc main_v26_0) = (dat1 (V3 m ρ) c).arrAt 10 cfg1.N := W4_arr m ρ c 10
theorem W4_main_v26_1 (c : Dev nD) : W4 m ρ c (Proc.devRef .tc main_v26_1) = (dat1 (V3 m ρ) c).arrAt 11 cfg1.N := W4_arr m ρ c 11

end Cert.KernelIdeal.KHost

end
-- ==== Proof.KEntry.lean ====
/-
  What each sweep reads, in terms of the launch memory and the previous sweeps' outputs.  Writing A0 … A9 for the argument arrays
  at launch: every sweep reads the features A3, the coordinates A2 and the centres A0 unchanged, the first weight's column blocks
  cut from A4, and (from the second sweep on) the second weight A7 and the scale and shift vectors A5, A6 (and A8, A9 in the third)
  laid out as one row; the second and third sweeps read the first layer's per-channel mean and inverse deviation formed from the
  first sweep's totals, and the third the second layer's formed from the second sweep's totals.
-/
import proofs.«147857_j86655260164510_2_alg».proof.Proof.KStats

set_option maxRecDepth 16384

noncomputable section

namespace Cert.KernelIdeal.KHost

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The first weight's two column blocks and the four row layouts, of the launch memory. -/
abbrev WF (c : Dev nD) : (⟨S64x64, .f32⟩ : BufTy).Contents (Elt F) := extractStridedSlice S64x64 ![0, 0] (m ((c : Thread nD τ).loc main_arg4)) slices_S64x67_S64x64_0_0
abbrev WR (c : Dev nD) : (⟨S64x3, .f32⟩ : BufTy).Contents (Elt F) := extractStridedSlice S64x3 ![0, 64] (m ((c : Thread nD τ).loc main_arg4)) slices_S64x67_S64x3_0_64
abbrev G1 (c : Dev nD) : (⟨S1x64, .f32⟩ : BufTy).Contents (Elt F) := shapeCast S1x64 (m ((c : Thread nD τ).loc main_arg5)) shapeCasts_S64_S1x64
abbrev B1 (c : Dev nD) : (⟨S1x64, .f32⟩ : BufTy).Contents (Elt F) := shapeCast S1x64 (m ((c : Thread nD τ).loc main_arg6)) shapeCasts_S64_S1x64
abbrev G2 (c : Dev nD) : (⟨S1x128, .f32⟩ : BufTy).Contents (Elt F) := shapeCast S1x128 (m ((c : Thread nD τ).loc main_arg8)) shapeCasts_S128_S1x128
abbrev B2 (c : Dev nD) : (⟨S1x128, .f32⟩ : BufTy).Contents (Elt F) := shapeCast S1x128 (m ((c : Thread nD τ).loc main_arg9)) shapeCasts_S128_S1x128

/-- The first sweep's two output arrays, and the statistics formed from them. -/
abbrev S1 (c : Dev nD) := (dat0 (V1 m ρ) c).arrAt 5 cfg0.N
abbrev Q1 (c : Dev nD) := (dat0 (V1 m ρ) c).arrAt 6 cfg0.N
abbrev M1 (c : Dev nD) : (⟨S8x1x64, .f32⟩ : BufTy).Contents (Elt F) := kmean1 (S1 m ρ c)
abbrev I1 (c : Dev nD) : (⟨S8x1x64, .f32⟩ : BufTy).Contents (Elt F) := kinv1 (S1 m ρ c) (Q1 m ρ c)
/-- The second sweep's two output arrays, and the statistics formed from them. -/
abbrev S2 (c : Dev nD) := (dat1 (V3 m ρ) c).arrAt 10 cfg1.N
abbrev Q2 (c : Dev nD) := (dat1 (V3 m ρ) c).arrAt 11 cfg1.N
abbrev M2 (c : Dev nD) : (⟨S8x1x128, .f32⟩ : BufTy).Contents (Elt F) := kmean2 (S2 m ρ c)
abbrev I2 (c : Dev nD) : (⟨S8x1x128, .f32⟩ : BufTy).Contents (Elt F) := kinv2 (S2 m ρ c) (Q2 m ρ c)

/-! ## The first sweep's entry -/
theorem V1_arg3 (c : Dev nD) : V1 m ρ c main_arg3 = m ((c : Thread nD τ).loc main_arg3) := W1_main_arg3 m ρ c
theorem V1_arg2 (c : Dev nD) : V1 m ρ c main_arg2 = m ((c : Thread nD τ).loc main_arg2) := W1_main_arg2 m ρ c
theorem V1_arg0 (c : Dev nD) : V1 m ρ c main_arg0 = m ((c : Thread nD τ).loc main_arg0) := W1_main_arg0 m ρ c
theorem V1_v0 (c : Dev nD) : V1 m ρ c main_v0 = WF m c := W1_main_v0 m ρ c
theorem V1_v1 (c : Dev nD) : V1 m ρ c main_v1 = WR m c := W1_main_v1 m ρ c

/-! ## The second sweep's entry -/
theorem V3_arg3 (c : Dev nD) : V3 m ρ c main_arg3 = m ((c : Thread nD τ).loc main_arg3) := (W3_main_arg3_keep m ρ c).trans ((W2_main_arg3_in m ρ c).trans (W1_main_arg3 m ρ c))
theorem V3_arg2 (c : Dev nD) : V3 m ρ c main_arg2 = m ((c : Thread nD τ).loc main_arg2) := (W3_main_arg2_keep m ρ c).trans ((W2_main_arg2_in m ρ c).trans (W1_main_arg2 m ρ c))
theorem V3_arg0 (c : Dev nD) : V3 m ρ c main_arg0 = m ((c : Thread nD τ).loc main_arg0) := (W3_main_arg0_keep m ρ c).trans ((W2_main_arg0_in m ρ c).trans (W1_main_arg0 m ρ c))
theorem V3_v0 (c : Dev nD) : V3 m ρ c main_v0 = WF m c := (W3_main_v0_keep m ρ c).trans ((W2_main_v0_in m ρ c).trans (W1_main_v0 m ρ c))
theorem V3_v1 (c : Dev nD) : V3 m ρ c main_v1 = WR m c := (W3_main_v1_keep m ρ c).trans ((W2_main_v1_in m ρ c).trans (W1_main_v1 m ρ c))
theorem V3_arg7 (c : Dev nD) : V3 m ρ c main_arg7 = m ((c : Thread nD τ).loc main_arg7) := (W3_main_arg7_keep m ρ c).trans ((W2_main_arg7_ne m ρ c).trans (W1_main_arg7 m ρ c))
theorem V3_v2 (c : Dev nD) : V3 m ρ c main_v2 = G1 m c := (W3_main_v2_keep m ρ c).trans ((W2_main_v2_ne m ρ c).trans (W1_main_v2 m ρ c))
theorem V3_v3 (c : Dev nD) : V3 m ρ c main_v3 = B1 m c := (W3_main_v3_keep m ρ c).trans ((W2_main_v3_ne m ρ c).trans (W1_main_v3 m ρ c))
theorem V3_v23 (c : Dev nD) : V3 m ρ c main_v23 = M1 m ρ c := (W3_main_v23 m ρ c).trans (congrArg kmean1 (W2_main_v6_0 m ρ c))
theorem V3_v25 (c : Dev nD) : V3 m ρ c main_v25 = I1 m ρ c :=
  (W3_main_v25 m ρ c).trans (congrArg₂ kinv1 (W2_main_v6_0 m ρ c) (W2_main_v6_1 m ρ c))

/-! ## The third sweep's entry -/
theorem V5_arg3 (c : Dev nD) : V5 m ρ c main_arg3 = m ((c : Thread nD τ).loc main_arg3) := (W5_main_arg3_keep m ρ c).trans ((W4_main_arg3_in m ρ c).trans (V3_arg3 m ρ c))
theorem V5_arg2 (c : Dev nD) : V5 m ρ c main_arg2 = m ((c : Thread nD τ).loc main_arg2) := (W5_main_arg2_keep m ρ c).trans ((W4_main_arg2_in m ρ c).trans (V3_arg2 m ρ c))
theorem V5_arg0 (c : Dev nD) : V5 m ρ c main_arg0 = m ((c : Thread nD τ).loc main_arg0) := (W5_main_arg0_keep m ρ c).trans ((W4_main_arg0_in m ρ c).trans (V3_arg0 m ρ c))
theorem V5_v0 (c : Dev nD) : V5 m ρ c main_v0 = WF m c := (W5_main_v0_keep m ρ c).trans ((W4_main_v0_in m ρ c).trans (V3_v0 m ρ c))
theorem V5_v1 (c : Dev nD) : V5 m ρ c main_v1 = WR m c := (W5_main_v1_keep m ρ c).trans ((W4_main_v1_in m ρ c).trans (V3_v1 m ρ c))
theorem V5_arg7 (c : Dev nD) : V5 m ρ c main_arg7 = m ((c : Thread nD τ).loc main_arg7) := (W5_main_arg7_keep m ρ c).trans ((W4_main_arg7_in m ρ c).trans (V3_arg7 m ρ c))
theorem V5_v2 (c : Dev nD) : V5 m ρ c main_v2 = G1 m c := (W5_main_v2_keep m ρ c).trans ((W4_main_v2_in m ρ c).trans (V3_v2 m ρ c))
theorem V5_v3 (c : Dev nD) : V5 m ρ c main_v3 = B1 m c := (W5_main_v3_keep m ρ c).trans ((W4_main_v3_in m ρ c).trans (V3_v3 m ρ c))
theorem V5_v23 (c : Dev nD) : V5 m ρ c main_v23 = M1 m ρ c := (W5_main_v23_keep m ρ c).trans ((W4_main_v23_in m ρ c).trans (V3_v23 m ρ c))
theorem V5_v25 (c : Dev nD) : V5 m ρ c main_v25 = I1 m ρ c := (W5_main_v25_keep m ρ c).trans ((W4_main_v25_in m ρ c).trans (V3_v25 m ρ c))
theorem V5_v4 (c : Dev nD) : V5 m ρ c main_v4 = G2 m c :=
  (W5_main_v4_keep m ρ c).trans ((W4_main_v4_ne m ρ c).trans ((W3_main_v4_keep m ρ c).trans ((W2_main_v4_ne m ρ c).trans (W1_main_v4 m ρ c))))
theorem V5_v5 (c : Dev nD) : V5 m ρ c main_v5 = B2 m c :=
  (W5_main_v5_keep m ρ c).trans ((W4_main_v5_ne m ρ c).trans ((W3_main_v5_keep m ρ c).trans ((W2_main_v5_ne m ρ c).trans (W1_main_v5 m ρ c))))
theorem V5_v43 (c : Dev nD) : V5 m ρ c main_v43 = M2 m ρ c := (W5_main_v43 m ρ c).trans (congrArg kmean2 (W4_main_v26_0 m ρ c))
theorem V5_v45 (c : Dev nD) : V5 m ρ c main_v45 = I2 m ρ c :=
  (W5_main_v45 m ρ c).trans (congrArg₂ kinv2 (W4_main_v26_0 m ρ c) (W4_main_v26_1 m ρ c))

end Cert.KernelIdeal.KHost

end
-- ==== Proof.Spec.lean ====
/-
  The block's mathematics on the extended reals, entry by entry, over the arrays' literal shapes.
    x1 (b, s, k, m)  the first linear layer: the neighbour's 64 features against the first 64 columns of the weight row m, plus
                     the neighbour's coordinates relative to the centre point against the row's last 3 columns;
    act              a normalised, scaled, shifted and rectified value  max ((x − mean) · inv · g + β) 0;
    h1 (b, s, k, m)  the first layer normalised with per-(batch, channel) mean and inverse deviation, then rectified;
    x2 (b, s, k, o)  the second linear layer of h1 against the weight row o;
    h2 (b, s, k, o)  the second layer normalised and rectified;
    pooled (b, s, o) the maximum of h2 over the 32 neighbours, folded from the word the reductions start from.
  The statistics arrays are parameters here: each kernel sweep takes them as inputs.
-/
import Idealize.ShloMosaic.PureOps.Ideal
import Idealize.ShloMosaic.Lib.ValueIdx

noncomputable section

namespace Cert.Spec

open Idealize.ShloMosaic Idealize.ShloMosaic.ValueIdx

abbrev Arr2 (a b : ℕ) := (⟨2, ![a, b]⟩ : Shape).Idx → EReal
abbrev Arr3 (a b c : ℕ) := (⟨3, ![a, b, c]⟩ : Shape).Idx → EReal
abbrev Arr4 (a b c d : ℕ) := (⟨4, ![a, b, c, d]⟩ : Shape).Idx → EReal

/-- The first linear layer at batch entry b, point s, neighbour k, output channel m. -/
def x1 (feat : Arr4 8 4096 32 64) (xyz : Arr4 8 4096 32 3) (cxyz : Arr3 8 4096 3) (w1f : Arr2 64 64) (w1r : Arr2 64 3)
    (b : Fin 8) (s : Fin 4096) (k : Fin 32) (m : Fin 64) : EReal :=
  (∑ c : Fin 64, feat (ix4 b s k c) * w1f (ix2 m c))
    + ∑ j : Fin 3, (xyz (ix4 b s k j) - cxyz (ix3 b s j)) * w1r (ix2 m j)

/-- Normalise, scale, shift, rectify. -/
def act (x mean inv g β : EReal) : EReal := max ((x - mean) * inv * g + β) 0

/-- The first layer normalised (statistics per batch entry and channel) and rectified. -/
def h1 (feat : Arr4 8 4096 32 64) (xyz : Arr4 8 4096 32 3) (cxyz : Arr3 8 4096 3) (w1f : Arr2 64 64) (w1r : Arr2 64 3)
    (g1 β1 : Arr2 1 64) (mean1 inv1 : Arr3 8 1 64) (b : Fin 8) (s : Fin 4096) (k : Fin 32) (m : Fin 64) : EReal :=
  act (x1 feat xyz cxyz w1f w1r b s k m) (mean1 (ix3 b 0 m)) (inv1 (ix3 b 0 m)) (g1 (ix2 0 m)) (β1 (ix2 0 m))

/-- The second linear layer at output channel o. -/
def x2 (feat : Arr4 8 4096 32 64) (xyz : Arr4 8 4096 32 3) (cxyz : Arr3 8 4096 3) (w1f : Arr2 64 64) (w1r : Arr2 64 3)
    (w2 : Arr2 128 64) (g1 β1 : Arr2 1 64) (mean1 inv1 : Arr3 8 1 64)
    (b : Fin 8) (s : Fin 4096) (k : Fin 32) (o : Fin 128) : EReal :=
  ∑ m : Fin 64, h1 feat xyz cxyz w1f w1r g1 β1 mean1 inv1 b s k m * w2 (ix2 o m)

/-- The second layer normalised and rectified. -/
def h2 (feat : Arr4 8 4096 32 64) (xyz : Arr4 8 4096 32 3) (cxyz : Arr3 8 4096 3) (w1f : Arr2 64 64) (w1r : Arr2 64 3)
    (w2 : Arr2 128 64) (g1 β1 : Arr2 1 64) (mean1 inv1 : Arr3 8 1 64) (g2 β2 : Arr2 1 128) (mean2 inv2 : Arr3 8 1 128)
    (b : Fin 8) (s : Fin 4096) (k : Fin 32) (o : Fin 128) : EReal :=
  act (x2 feat xyz cxyz w1f w1r w2 g1 β1 mean1 inv1 b s k o) (mean2 (ix3 b 0 o)) (inv2 (ix3 b 0 o)) (g2 (ix2 0 o)) (β2 (ix2 0 o))

/-- The maximum over the neighbours, folded from the value of the word a maximum reduction starts from. -/
def pooled (feat : Arr4 8 4096 32 64) (xyz : Arr4 8 4096 32 3) (cxyz : Arr3 8 4096 3) (w1f : Arr2 64 64) (w1r : Arr2 64 3)
    (w2 : Arr2 128 64) (g1 β1 : Arr2 1 64) (mean1 inv1 : Arr3 8 1 64) (g2 β2 : Arr2 1 128) (mean2 inv2 : Arr3 8 1 128)
    (b : Fin 8) (s : Fin 4096) (o : Fin 128) : EReal :=
  (Finset.univ : Finset (Fin 32)).fold max (Ideal.ofBits .f32 0xFF800000#32)
    (fun k => h2 feat xyz cxyz w1f w1r w2 g1 β1 mean1 inv1 g2 β2 mean2 inv2 b s k o)

end Cert.Spec

end
-- ==== Proof.LibMergeSplit.lean ====
/-
  Shape casts that merge or split axes, read at an index.  A shape cast keeps the row-major position, so
    • [a, b, c] cast to [a·b, c] (points × neighbours flattened into rows) reads at (r, j), r = i·b + k, the entry (i, k, j), and
      the cast back reads at (i, k, j) the entry (i·b + k, j);
    • [.., n] with n = g·s cast to [.., g, s] (the channels laid out as groups) reads at (.., l, r) the entry (.., l·s + r), and
      the cast back reads at (.., m), m = l·s + r, the entry (.., l, r);
  stated with the row or channel number as a hypothesis (no quotient or remainder in the statement), generic in every extent and
  in the element type.
-/
import Idealize.ShloMosaic.Lib.Pipeline.Value
import Idealize.ShloMosaic.Lib.ValueIdx

noncomputable section

namespace LibMergeSplit

open Idealize.ShloMosaic Idealize.ShloMosaic.ValueIdx

variable {α : Type}

/-! ## Two leading axes merged into rows, and split again -/

/-- [a, b, c] cast to [n, c], n = a·b: row i·b + k holds (i, k, ·). -/
theorem merge_rows_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- [n, c], n = a·b, cast to [a, b, c]: (i, k, ·) holds row i·b + k. -/
theorem split_rows_apply {a b c n : ℕ} (y : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ y h (ix3 i k j) = y (ix2 r j) :=
  shapeCast_apply y h _ _ (by
    rw [Shape.rowMajor_val_three, Shape.rowMajor_val_two]
    show r.val * c + j.val = (i.val * b + k.val) * c + j.val
    rw [hr])

/-- The row i·b + k of an [a·b, ·] array is in range. -/
theorem row_lt {a b : ℕ} (i : Fin a) (k : Fin b) : i.val * b + k.val < a * b := by
  have hi := i.isLt
  have hk := k.isLt
  calc i.val * b + k.val < i.val * b + b := Nat.add_lt_add_left hk _
    _ = (i.val + 1) * b := by rw [Nat.add_mul, Nat.one_mul]
    _ ≤ a * b := Nat.mul_le_mul_right _ hi

/-! ## The last axis split into groups, and merged again -/

/-- [a, b, c, n] with n = g·s cast to [a, b, c, g, s]: (.., l, r) holds channel l·s + r. -/
theorem split_last4_apply {a b c n g s : ℕ} (x : (⟨4, ![a, b, c, n]⟩ : Shape).Idx → α)
    (h : (⟨4, ![a, b, c, n]⟩ : Shape).ShapeCasts ⟨5, ![a, b, c, g, s]⟩) (hn : n = g * s)
    (i : Fin a) (p : Fin b) (q : Fin c) (l : Fin g) (r : Fin s) (m : Fin n) (hm : m.val = l.val * s + r.val) :
    shapeCast ⟨5, ![a, b, c, g, s]⟩ x h (ix5 i p q l r) = x (ix4 i p q m) :=
  shapeCast_apply x h _ _ (by
    rw [Shape.rowMajor_val_four, Shape.rowMajor_val_five]
    show ((i.val * b + p.val) * c + q.val) * n + m.val = (((i.val * b + p.val) * c + q.val) * g + l.val) * s + r.val
    rw [hm, hn]; ring)

/-- [a, b, c, g, s] cast to [a, b, c, n] with n = g·s: channel l·s + r holds (.., l, r). -/
theorem merge_last5_apply {a b c n g s : ℕ} (y : (⟨5, ![a, b, c, g, s]⟩ : Shape).Idx → α)
    (h : (⟨5, ![a, b, c, g, s]⟩ : Shape).ShapeCasts ⟨4, ![a, b, c, n]⟩) (hn : n = g * s)
    (i : Fin a) (p : Fin b) (q : Fin c) (l : Fin g) (r : Fin s) (m : Fin n) (hm : m.val = l.val * s + r.val) :
    shapeCast ⟨4, ![a, b, c, n]⟩ y h (ix4 i p q m) = y (ix5 i p q l r) :=
  shapeCast_apply y h _ _ (by
    rw [Shape.rowMajor_val_four, Shape.rowMajor_val_five]
    show (((i.val * b + p.val) * c + q.val) * g + l.val) * s + r.val = ((i.val * b + p.val) * c + q.val) * n + m.val
    rw [hm, hn]; ring)

/-- [a, b, n] with n = g·s cast to [a, b, g, s]: (.., l, r) holds channel l·s + r. -/
theorem split_last3_apply {a b n g s : ℕ} (x : (⟨3, ![a, b, n]⟩ : Shape).Idx → α)
    (h : (⟨3, ![a, b, n]⟩ : Shape).ShapeCasts ⟨4, ![a, b, g, s]⟩) (hn : n = g * s)
    (i : Fin a) (p : Fin b) (l : Fin g) (r : Fin s) (m : Fin n) (hm : m.val = l.val * s + r.val) :
    shapeCast ⟨4, ![a, b, g, s]⟩ x h (ix4 i p l r) = x (ix3 i p m) :=
  shapeCast_apply x h _ _ (by
    rw [Shape.rowMajor_val_three, Shape.rowMajor_val_four]
    show (i.val * b + p.val) * n + m.val = ((i.val * b + p.val) * g + l.val) * s + r.val
    rw [hm, hn]; ring)

/-- [a, b, g, s] cast to [a, b, n] with n = g·s: channel l·s + r holds (.., l, r). -/
theorem merge_last4_apply {a b n g s : ℕ} (y : (⟨4, ![a, b, g, s]⟩ : Shape).Idx → α)
    (h : (⟨4, ![a, b, g, s]⟩ : Shape).ShapeCasts ⟨3, ![a, b, n]⟩) (hn : n = g * s)
    (i : Fin a) (p : Fin b) (l : Fin g) (r : Fin s) (m : Fin n) (hm : m.val = l.val * s + r.val) :
    shapeCast ⟨3, ![a, b, n]⟩ y h (ix3 i p m) = y (ix4 i p l r) :=
  shapeCast_apply y h _ _ (by
    rw [Shape.rowMajor_val_three, Shape.rowMajor_val_four]
    show ((i.val * b + p.val) * g + l.val) * s + r.val = (i.val * b + p.val) * n + m.val
    rw [hm, hn]; ring)

/-- The channel l·s + r of a group layout is in range. -/
theorem chan_lt {g s : ℕ} (l : Fin g) (r : Fin s) : l.val * s + r.val < g * s := row_lt l r

end LibMergeSplit

end
-- ==== Proof.R0Value.lean ====
/-
  The first sweep's value.  Its grid is (batch entry, block of 512 points); at each point the body forms the first linear layer
  of the block's 512 × 32 rows and adds each channel's column total, and the column total of squares, into a [1, 1, 64] block
  that is zeroed at a batch entry's first point and written back with the batch entry's index.  So after the last point the
  two output arrays hold, per batch entry and channel, the total and the total of squares of the first layer over all points
  and neighbours.

  The road: what each of the two cases of the body leaves in the two blocks, as a term of the point's input blocks and of what
  the point before left; those terms read at an index on the extended reals (a product of matrices into a zero accumulator is
  the sum over the contracted axis, a column total the sum over the rows, a merge of points × neighbours into rows keeps the
  row-major position); the input blocks at point t as entries of the arrays (batch entry t / 8, points 512 (t % 8) + p);
  by induction on the point, the blocks after point n hold the sum of the totals of points n − n % 8, …, n; at a batch
  entry's last point that is the sum over its 8 blocks of 512 points, which regrouped is the sum over its 4096 points; each
  batch entry's last point writes its block of the result, and those 8 blocks cover the arrays.  Only commutativity and
  associativity of + are used.
-/
import proofs.«147857_j86655260164510_2_alg».proof.Proof.Gen.KernelIdeal.Frame
import proofs.«147857_j86655260164510_2_alg».proof.Proof.Spec
import proofs.«147857_j86655260164510_2_alg».proof.Proof.LibMergeSplit
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (Arr2 Arr3 Arr4)

/-! ## What each case of the body leaves in the two blocks -/

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- At a later point of a batch entry the body leaves, in the block of totals holding xo5, xo5 plus the point's column
    totals: its one covering store's payload, whose loads read the whole buffers. -/
theorem piece_B_5 (c : Dev nD) (i : grid0.Coords) (arg2 : Memref sig .tc .vmem S1x512x32x64 .f32) (harg2 : arg2.IsWhole) (arg3 : Memref sig .tc .vmem S1x512x32x3 .f32) (harg3 : arg3.IsWhole) (arg4 : Memref sig .tc .vmem S1x512x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S1x1x64 .f32) (harg7 : arg7.IsWhole) (arg8 : Memref sig .tc .vmem S1x1x64 .f32) (harg8 : arg8.IsWhole) (hc0 : ¬cond0_0 i)
    (x0 : Vec F S1x512x32x64 .f32) (x1 : Vec F S1x512x32x3 .f32) (x2 : Vec F S1x512x3 .f32) (x3 : Vec F S64x64 .f32) (x4 : Vec F S64x3 .f32) (xo5 : Vec F S1x1x64 .f32) (xo6 : Vec F S1x1x64 .f32) :
    out0_B_5 c i arg2 harg2 arg3 harg3 arg4 harg4 arg5 harg5 arg6 harg6 arg7 harg7 arg8 harg8 hc0 x0 x1 x2 x3 x4 xo5 xo6
      = k0_pay1 (k0_pay6 x0 x1 x2 x3 x4) xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread,
    View.ld_unit_zero (S := S1x512x32x64) hz4, View.ld_unit_zero (S := S1x512x32x3) hz4, View.ld_unit_zero (S := S1x512x3) hz3,
    View.ld_unit_zero (S := S64x64) hz2, View.ld_unit_zero (S := S64x3) hz2, View.ld_unit_zero (S := S1x1x64) hz3]

/-- The same for the block of totals of squares. -/
theorem piece_B_6 (c : Dev nD) (i : grid0.Coords) (arg2 : Memref sig .tc .vmem S1x512x32x64 .f32) (harg2 : arg2.IsWhole) (arg3 : Memref sig .tc .vmem S1x512x32x3 .f32) (harg3 : arg3.IsWhole) (arg4 : Memref sig .tc .vmem S1x512x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S1x1x64 .f32) (harg7 : arg7.IsWhole) (arg8 : Memref sig .tc .vmem S1x1x64 .f32) (harg8 : arg8.IsWhole) (hc0 : ¬cond0_0 i)
    (x0 : Vec F S1x512x32x64 .f32) (x1 : Vec F S1x512x32x3 .f32) (x2 : Vec F S1x512x3 .f32) (x3 : Vec F S64x64 .f32) (x4 : Vec F S64x3 .f32) (xo5 : Vec F S1x1x64 .f32) (xo6 : Vec F S1x1x64 .f32) :
    out0_B_6 c i arg2 harg2 arg3 harg3 arg4 harg4 arg5 harg5 arg6 harg6 arg7 harg7 arg8 harg8 hc0 x0 x1 x2 x3 x4 xo5 xo6
      = k0_pay2 (k0_pay7 x0 x1 x2 x3 x4) xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread,
    View.ld_unit_zero (S := S1x512x32x64) hz4, View.ld_unit_zero (S := S1x512x32x3) hz4, View.ld_unit_zero (S := S1x512x3) hz3,
    View.ld_unit_zero (S := S64x64) hz2, View.ld_unit_zero (S := S64x3) hz2, View.ld_unit_zero (S := S1x1x64) hz3]

/-- At a batch entry's first point the body stores the zero block, reads it back, and leaves zero plus the point's
    column totals. -/
theorem piece_A_5 (c : Dev nD) (i : grid0.Coords) (arg2 : Memref sig .tc .vmem S1x512x32x64 .f32) (harg2 : arg2.IsWhole) (arg3 : Memref sig .tc .vmem S1x512x32x3 .f32) (harg3 : arg3.IsWhole) (arg4 : Memref sig .tc .vmem S1x512x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S1x1x64 .f32) (harg7 : arg7.IsWhole) (arg8 : Memref sig .tc .vmem S1x1x64 .f32) (harg8 : arg8.IsWhole) (hc0 : cond0_0 i)
    (x0 : Vec F S1x512x32x64 .f32) (x1 : Vec F S1x512x32x3 .f32) (x2 : Vec F S1x512x3 .f32) (x3 : Vec F S64x64 .f32) (x4 : Vec F S64x3 .f32) :
    out0_A_5 c i arg2 harg2 arg3 harg3 arg4 harg4 arg5 harg5 arg6 harg6 arg7 harg7 arg8 harg8 hc0 x0 x1 x2 x3 x4
      = k0_pay1 (k0_pay6 x0 x1 x2 x3 x4) k0_pay3 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread,
    harg7.read_unread, harg8.read_unread,
    View.ld_unit_zero (S := S1x512x32x64) hz4, View.ld_unit_zero (S := S1x512x32x3) hz4, View.ld_unit_zero (S := S1x512x3) hz3,
    View.ld_unit_zero (S := S64x64) hz2, View.ld_unit_zero (S := S64x3) hz2, View.ld_unit_zero (S := S1x1x64) hz3]

/-- The same for the block of totals of squares. -/
theorem piece_A_6 (c : Dev nD) (i : grid0.Coords) (arg2 : Memref sig .tc .vmem S1x512x32x64 .f32) (harg2 : arg2.IsWhole) (arg3 : Memref sig .tc .vmem S1x512x32x3 .f32) (harg3 : arg3.IsWhole) (arg4 : Memref sig .tc .vmem S1x512x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S1x1x64 .f32) (harg7 : arg7.IsWhole) (arg8 : Memref sig .tc .vmem S1x1x64 .f32) (harg8 : arg8.IsWhole) (hc0 : cond0_0 i)
    (x0 : Vec F S1x512x32x64 .f32) (x1 : Vec F S1x512x32x3 .f32) (x2 : Vec F S1x512x3 .f32) (x3 : Vec F S64x64 .f32) (x4 : Vec F S64x3 .f32) :
    out0_A_6 c i arg2 harg2 arg3 harg3 arg4 harg4 arg5 harg5 arg6 harg6 arg7 harg7 arg8 harg8 hc0 x0 x1 x2 x3 x4
      = k0_pay2 (k0_pay7 x0 x1 x2 x3 x4) k0_pay4 := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x64) hz3, View.readCov_unit_zero (S := S1x1x64) _ hz3]
  simp only [View.readAt_eq_ld, harg2.read_unread, harg3.read_unread, harg4.read_unread, harg5.read_unread, harg6.read_unread,
    harg7.read_unread, harg8.read_unread,
    View.ld_unit_zero (S := S1x512x32x64) hz4, View.ld_unit_zero (S := S1x512x32x3) hz4, View.ld_unit_zero (S := S1x512x3) hz3,
    View.ld_unit_zero (S := S64x64) hz2, View.ld_unit_zero (S := S64x3) hz2, View.ld_unit_zero (S := S1x1x64) hz3]

end Pieces

/-! ## The body's terms read at an index, on the extended reals -/

section Pay

/-- A product of a [16384, 64] by a [64, 64] matrix into the zero accumulator, read at (r, m). -/
theorem mm64_apply (lhs : FVec Ideal S16384x64 .bf16) (rhs : FVec Ideal S64x64 .bf16) (r : Fin 16384) (m : Fin 64) :
    matmul dot_S16384x64_S64x64_S16384x64_1_0_0_1_n_n none lhs rhs (constant S16384x64 .f32 0x00000000#32) (ix2 r m)
      = ∑ cc : Fin 64, lhs (ix2 r cc) * rhs (ix2 cc m) := by
  refine (Ideal.matmul_constant_zero_apply dot_S16384x64_S64x64_S16384x64_1_0_0_1_n_n none lhs rhs (ix2 r m)).trans ?_
  rw [← Equiv.sum_comp (contrEquiv1 dot_S16384x64_S64x64_S16384x64_1_0_0_1_n_n 64 rfl rfl).symm]
  refine Finset.sum_congr rfl fun cc _ => ?_
  have hl : dot_S16384x64_S64x64_S16384x64_1_0_0_1_n_n.lhsIdx (ix2 r m) ((contrEquiv1 dot_S16384x64_S64x64_S16384x64_1_0_0_1_n_n 64 rfl rfl).symm cc) = ix2 r cc := by
    funext a
    apply Fin.ext
    match a with
    | ⟨0, _⟩ => rfl
    | ⟨1, _⟩ => exact (DotDims.lhsIdx_val_of_single _ rfl _ _).trans (contrEquiv1_symm_val _ 64 rfl rfl cc)
  have hr : dot_S16384x64_S64x64_S16384x64_1_0_0_1_n_n.rhsIdx (ix2 r m) ((contrEquiv1 dot_S16384x64_S64x64_S16384x64_1_0_0_1_n_n 64 rfl rfl).symm cc) = ix2 cc m := by
    funext a
    apply Fin.ext
    match a with
    | ⟨0, _⟩ => exact (DotDims.rhsIdx_val_of_single _ rfl _ _).trans (contrEquiv1_symm_val _ 64 rfl rfl cc)
    | ⟨1, _⟩ => rfl
  rw [hl, hr]

/-- A product of a [16384, 3] by a [3, 64] matrix into the zero accumulator, read at (r, m). -/
theorem mm3_apply (lhs : FVec Ideal S16384x3 .bf16) (rhs : FVec Ideal S3x64 .bf16) (r : Fin 16384) (m : Fin 64) :
    matmul dot_S16384x3_S3x64_S16384x64_1_0_0_1_n_n none lhs rhs (constant S16384x64 .f32 0x00000000#32) (ix2 r m)
      = ∑ j : Fin 3, lhs (ix2 r j) * rhs (ix2 j m) := by
  refine (Ideal.matmul_constant_zero_apply dot_S16384x3_S3x64_S16384x64_1_0_0_1_n_n none lhs rhs (ix2 r m)).trans ?_
  rw [← Equiv.sum_comp (contrEquiv1 dot_S16384x3_S3x64_S16384x64_1_0_0_1_n_n 3 rfl rfl).symm]
  refine Finset.sum_congr rfl fun cc _ => ?_
  have hl : dot_S16384x3_S3x64_S16384x64_1_0_0_1_n_n.lhsIdx (ix2 r m) ((contrEquiv1 dot_S16384x3_S3x64_S16384x64_1_0_0_1_n_n 3 rfl rfl).symm cc) = ix2 r cc := by
    funext a
    apply Fin.ext
    match a with
    | ⟨0, _⟩ => rfl
    | ⟨1, _⟩ => exact (DotDims.lhsIdx_val_of_single _ rfl _ _).trans (contrEquiv1_symm_val _ 3 rfl rfl cc)
  have hr : dot_S16384x3_S3x64_S16384x64_1_0_0_1_n_n.rhsIdx (ix2 r m) ((contrEquiv1 dot_S16384x3_S3x64_S16384x64_1_0_0_1_n_n 3 rfl rfl).symm cc) = ix2 cc m := by
    funext a
    apply Fin.ext
    match a with
    | ⟨0, _⟩ => exact (DotDims.rhsIdx_val_of_single _ rfl _ _).trans (contrEquiv1_symm_val _ 3 rfl rfl cc)
    | ⟨1, _⟩ => rfl
  rw [hl, hr]

/-- A column total of a [16384, 64] array: the sum over the rows. -/
theorem colsum_apply (src : FVec Ideal S16384x64 .f32) (h : S16384x64.Reduces [0] S64) (hφ : FKind.Formats .f32)
    (hacc : (0x00000000#32 : BitVec 32) = 0x00000000#32) (m : Fin 64) :
    multiReduction .add [0] S64 src 0x00000000#32 h hφ hacc (ix1 m) = ∑ r : Fin 16384, src (ix2 r m) := by
  refine (Ideal.multiReduction_add_single src 0x00000000#32 h hφ hacc (ix1 m)).trans ?_
  refine Finset.sum_congr rfl fun r _ => congrArg src ?_
  funext a
  match a with
  | ⟨0, _⟩ => rfl
  | ⟨1, _⟩ => rfl

/-- The first layer's row r = 32 p + k of the block, channel m: the neighbour's features against the weight row's first
    64 columns plus its relative coordinates against the last 3. -/
theorem pay5_apply (x0 : Vec Ideal S1x512x32x64 .f32) (x1 : Vec Ideal S1x512x32x3 .f32) (x2 : Vec Ideal S1x512x3 .f32) (x3 : Vec Ideal S64x64 .f32) (x4 : Vec Ideal S64x3 .f32)
    (p : Fin 512) (k : Fin 32) (m : Fin 64) (r : Fin 16384) (hr : r.val = p.val * 32 + k.val) :
    k0_pay5 x0 x1 x2 x3 x4 (ix2 r m)
      = (∑ cc : Fin 64, x0 (ix4 (0 : Fin 1) p k cc) * x3 (ix2 m cc))
        + ∑ j : Fin 3, (x1 (ix4 (0 : Fin 1) p k j) - x2 (ix3 (0 : Fin 1) p j)) * x4 (ix2 m j) := by
  unfold k0_pay5
  dsimp only
  refine (addf_apply _ _ _).trans ?_
  refine congrArg₂ (· + ·) ((mm64_apply _ _ r m).trans ?_) ((mm3_apply _ _ r m).trans ?_)
  · refine Finset.sum_congr rfl fun cc _ => congrArg₂ (· * ·) ?_ ?_
    · refine (truncf_apply (φ := .f32) (ψ := .bf16) _ _ _).trans ?_
      refine (LibMergeSplit.merge_rows_apply _ _ p k cc r hr).trans ?_
      exact shapeCast_1abc_abc_apply x0 _ p k cc
    · refine (transpose_ix2_apply _ _ cc m).trans ?_
      refine (truncf_apply (φ := .f32) (ψ := .bf16) _ _ _).trans ?_
      exact congrFun (shapeCast_self x3 _) (ix2 m cc)
  · refine Finset.sum_congr rfl fun j _ => congrArg₂ (· * ·) ?_ ?_
    · refine (truncf_apply (φ := .f32) (ψ := .bf16) _ _ _).trans ?_
      refine (LibMergeSplit.merge_rows_apply _ _ p k j r hr).trans ?_
      refine (subf_apply _ _ _).trans ?_
      refine congrArg₂ (· - ·) (shapeCast_1abc_abc_apply x1 _ p k j) ?_
      refine (broadcastTo_apply _ _ (ix3 p k j) (ix3 p (0 : Fin 1) j) ?_).trans ?_
      · intro a
        match a with
        | ⟨0, _⟩ => rfl
        | ⟨1, _⟩ => rfl
        | ⟨2, _⟩ => rfl
      · refine (shapeCast_apply _ _ (ix3 p (0 : Fin 1) j) (ix2 p j) ?_).trans ?_
        · rw [Shape.rowMajor_val_two, Shape.rowMajor_val_three]
          show p.val * 3 + j.val = (p.val * 1 + 0) * 3 + j.val
          omega
        · exact shapeCast_1ab_ab_apply x2 _ p j
    · refine (transpose_ix2_apply _ _ j m).trans ?_
      refine (truncf_apply (φ := .f32) (ψ := .bf16) _ _ _).trans ?_
      exact congrFun (shapeCast_self x4 _) (ix2 m j)

/-- The block's column total of the first layer at channel m. -/
theorem pay6_apply (x0 : Vec Ideal S1x512x32x64 .f32) (x1 : Vec Ideal S1x512x32x3 .f32) (x2 : Vec Ideal S1x512x3 .f32) (x3 : Vec Ideal S64x64 .f32) (x4 : Vec Ideal S64x3 .f32) (u : Fin 1) (m : Fin 64) :
    k0_pay6 x0 x1 x2 x3 x4 (ix2 u m) = ∑ r : Fin 16384, k0_pay5 x0 x1 x2 x3 x4 (ix2 r m) := by
  unfold k0_pay6
  dsimp only
  refine (shapeCast_a_1a_apply _ _ u m).trans ?_
  exact colsum_apply _ _ _ _ m

/-- The block's column total of the first layer's squares at channel m. -/
theorem pay7_apply (x0 : Vec Ideal S1x512x32x64 .f32) (x1 : Vec Ideal S1x512x32x3 .f32) (x2 : Vec Ideal S1x512x3 .f32) (x3 : Vec Ideal S64x64 .f32) (x4 : Vec Ideal S64x3 .f32) (u : Fin 1) (m : Fin 64) :
    k0_pay7 x0 x1 x2 x3 x4 (ix2 u m)
      = ∑ r : Fin 16384, k0_pay5 x0 x1 x2 x3 x4 (ix2 r m) * k0_pay5 x0 x1 x2 x3 x4 (ix2 r m) := by
  unfold k0_pay7
  dsimp only
  refine (shapeCast_a_1a_apply _ _ u m).trans ?_
  refine (colsum_apply _ _ _ _ m).trans ?_
  exact Finset.sum_congr rfl fun r _ => mulf_apply _ _ _

/-- The running block plus the point's column totals, read at (·, ·, m). -/
theorem pay1_apply (v28 : FVec Ideal S1x64 .f32) (v32 : Vec Ideal S1x1x64 .f32) (u u' : Fin 1) (m : Fin 64) :
    k0_pay1 v28 v32 (ix3 u u' m) = v32 (ix3 u u' m) + v28 (ix2 u' m) := by
  unfold k0_pay1
  refine (addf_apply _ _ _).trans ?_
  exact congrArg₂ (· + ·) (congrFun (shapeCast_self v32 _) _) (shapeCast_ab_1ab_apply v28 _ u u' m)

theorem pay2_apply (v31 : FVec Ideal S1x64 .f32) (v37 : Vec Ideal S1x1x64 .f32) (u u' : Fin 1) (m : Fin 64) :
    k0_pay2 v31 v37 (ix3 u u' m) = v37 (ix3 u u' m) + v31 (ix2 u' m) := by
  unfold k0_pay2
  refine (addf_apply _ _ _).trans ?_
  exact congrArg₂ (· + ·) (congrFun (shapeCast_self v37 _) _) (shapeCast_ab_1ab_apply v31 _ u u' m)

/-- The block a batch entry's first point starts from is zero. -/
theorem pay3_apply (y : S1x1x64.Idx) : k0_pay3 (F := Ideal) y = 0 := by
  unfold k0_pay3
  exact Ideal.ofBits_zero_f32

theorem pay4_apply (y : S1x1x64.Idx) : k0_pay4 (F := Ideal) y = 0 := by
  unfold k0_pay4
  exact Ideal.ofBits_zero_f32

end Pay

/-! ## A sum over rows, block by block -/

section Sums

/-- A sum over N = a·b rows, block by block: row x·b + y is position y of block x. -/
theorem sum_rows {M : Type*} [AddCommMonoid M] {N : ℕ} (a b : ℕ) (h : a * b = N) (f : Fin N → M) :
    ∑ i : Fin N, f i = ∑ x : Fin a, ∑ y : Fin b, f ⟨x.val * b + y.val, h ▸ LibMergeSplit.row_lt x y⟩ := by
  subst h
  rw [← Equiv.sum_comp finProdFinEquiv f, Fintype.sum_prod_type]
  refine Finset.sum_congr rfl fun x _ => Finset.sum_congr rfl fun y _ => congrArg f (Fin.ext ?_)
  show y.val + b * x.val = x.val * b + y.val
  ring

end Sums

/-! ## The blocks after each point -/

section Value

variable (V : (c : Dev nD) → (b : Ref sig .tc) → Buf (Elt Ideal) ((c : Thread nD τ).loc b))

/-- The index maps over the 64 grid points: point t is batch entry t / 8, block t % 8; the weights' windows do not move;
    the outputs' block is the batch entry's. -/
theorem idx_facts : ∀ t : Fin cfg0.N,
    win0_0.index t (0 : Fin 4) = t.val / 8 ∧ win0_0.index t (1 : Fin 4) = t.val % 8 ∧ win0_0.index t (2 : Fin 4) = 0 ∧ win0_0.index t (3 : Fin 4) = 0
    ∧ win0_1.index t (0 : Fin 4) = t.val / 8 ∧ win0_1.index t (1 : Fin 4) = t.val % 8 ∧ win0_1.index t (2 : Fin 4) = 0 ∧ win0_1.index t (3 : Fin 4) = 0
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-! ### The input blocks at a point, as entries of the arrays -/

/-- The features' block at point t holds the batch entry's points 512 (t % 8) … + 511. -/
theorem blk0_apply (c : Dev nD) (t : Fin cfg0.N) (p : Fin 512) (k : Fin 32) (cc : Fin 64) (b : Fin 8) (s : Fin 4096)
    (hb : b.val = t.val / 8) (hs : s.val = t.val % 8 * 512 + p.val) :
    (iblk0 V c 0 t : Vec Ideal S1x512x32x64 .f32) (ix4 (0 : Fin 1) p k cc) = (V c main_arg3 : Arr4 8 4096 32 64) (ix4 b s k cc) := by
  obtain ⟨e0, e1, e2, e3, -⟩ := idx_facts t
  unfold iblk0
  rw [View.read_apply]
  show V c main_arg3 (((cfg0.win 0).blk t).view.emb (ix4 (0 : Fin 1) p k cc)) = V c main_arg3 (ix4 b s k cc)
  refine congrArg (V c main_arg3) (funext fun a => Fin.ext ?_)
  match a with
  | ⟨0, _⟩ => show win0_0.index t (0 : Fin 4) * 1 + 1 * 0 = b.val; omega
  | ⟨1, _⟩ => show win0_0.index t (1 : Fin 4) * 512 + 1 * p.val = s.val; omega
  | ⟨2, _⟩ => show win0_0.index t (2 : Fin 4) * 32 + 1 * k.val = k.val; omega
  | ⟨3, _⟩ => show win0_0.index t (3 : Fin 4) * 64 + 1 * cc.val = cc.val; omega

/-- The neighbour coordinates' block likewise. -/
theorem blk1_apply (c : Dev nD) (t : Fin cfg0.N) (p : Fin 512) (k : Fin 32) (j : Fin 3) (b : Fin 8) (s : Fin 4096)
    (hb : b.val = t.val / 8) (hs : s.val = t.val % 8 * 512 + p.val) :
    (iblk0 V c 1 t : Vec Ideal S1x512x32x3 .f32) (ix4 (0 : Fin 1) p k j) = (V c main_arg2 : Arr4 8 4096 32 3) (ix4 b s k j) := by
  obtain ⟨-, -, -, -, e0, e1, e2, e3, -⟩ := idx_facts t
  unfold iblk0
  rw [View.read_apply]
  show V c main_arg2 (((cfg0.win 1).blk t).view.emb (ix4 (0 : Fin 1) p k j)) = V c main_arg2 (ix4 b s k j)
  refine congrArg (V c main_arg2) (funext fun a => Fin.ext ?_)
  match a with
  | ⟨0, _⟩ => show win0_1.index t (0 : Fin 4) * 1 + 1 * 0 = b.val; omega
  | ⟨1, _⟩ => show win0_1.index t (1 : Fin 4) * 512 + 1 * p.val = s.val; omega
  | ⟨2, _⟩ => show win0_1.index t (2 : Fin 4) * 32 + 1 * k.val = k.val; omega
  | ⟨3, _⟩ => show win0_1.index t (3 : Fin 4) * 3 + 1 * j.val = j.val; omega

/-- The centre coordinates' block likewise. -/
theorem blk2_apply (c : Dev nD) (t : Fin cfg0.N) (p : Fin 512) (j : Fin 3) (b : Fin 8) (s : Fin 4096)
    (hb : b.val = t.val / 8) (hs : s.val = t.val % 8 * 512 + p.val) :
    (iblk0 V c 2 t : Vec Ideal S1x512x3 .f32) (ix3 (0 : Fin 1) p j) = (V c main_arg0 : Arr3 8 4096 3) (ix3 b s j) := by
  obtain ⟨-, -, -, -, -, -, -, -, e0, e1, e2, -⟩ := idx_facts t
  unfold iblk0
  rw [View.read_apply]
  show V c main_arg0 (((cfg0.win 2).blk t).view.emb (ix3 (0 : Fin 1) p j)) = V c main_arg0 (ix3 b s j)
  refine congrArg (V c main_arg0) (funext fun a => Fin.ext ?_)
  match a with
  | ⟨0, _⟩ => show win0_2.index t (0 : Fin 3) * 1 + 1 * 0 = b.val; omega
  | ⟨1, _⟩ => show win0_2.index t (1 : Fin 3) * 512 + 1 * p.val = s.val; omega
  | ⟨2, _⟩ => show win0_2.index t (2 : Fin 3) * 3 + 1 * j.val = j.val; omega

/-- The weight's first 64 columns: the whole array at every point. -/
theorem blk3_apply (c : Dev nD) (t : Fin cfg0.N) (m : Fin 64) (cc : Fin 64) :
    (iblk0 V c 3 t : Vec Ideal S64x64 .f32) (ix2 m cc) = (V c main_v0 : Arr2 64 64) (ix2 m cc) := by
  obtain ⟨-, -, -, -, -, -, -, -, -, -, -, e0, e1, -⟩ := idx_facts t
  unfold iblk0
  rw [View.read_apply]
  show V c main_v0 (((cfg0.win 3).blk t).view.emb (ix2 m cc)) = V c main_v0 (ix2 m cc)
  refine congrArg (V c main_v0) (funext fun a => Fin.ext ?_)
  match a with
  | ⟨0, _⟩ => show win0_3.index t (0 : Fin 2) * 64 + 1 * m.val = m.val; omega
  | ⟨1, _⟩ => show win0_3.index t (1 : Fin 2) * 64 + 1 * cc.val = cc.val; omega

/-- The weight's last 3 columns: the whole array at every point. -/
theorem blk4_apply (c : Dev nD) (t : Fin cfg0.N) (m : Fin 64) (j : Fin 3) :
    (iblk0 V c 4 t : Vec Ideal S64x3 .f32) (ix2 m j) = (V c main_v1 : Arr2 64 3) (ix2 m j) := by
  obtain ⟨-, -, -, -, -, -, -, -, -, -, -, -, -, e0, e1, -⟩ := idx_facts t
  unfold iblk0
  rw [View.read_apply]
  show V c main_v1 (((cfg0.win 4).blk t).view.emb (ix2 m j)) = V c main_v1 (ix2 m j)
  refine congrArg (V c main_v1) (funext fun a => Fin.ext ?_)
  match a with
  | ⟨0, _⟩ => show win0_4.index t (0 : Fin 2) * 64 + 1 * m.val = m.val; omega
  | ⟨1, _⟩ => show win0_4.index t (1 : Fin 2) * 3 + 1 * j.val = j.val; omega

/-- The first layer at row 32 p + k of point t's block is the specification's entry at point 512 (t % 8) + p of batch
    entry t / 8. -/
theorem pay5_blk (c : Dev nD) (t : Fin cfg0.N) (b : Fin 8) (hb : b.val = t.val / 8) (p : Fin 512) (k : Fin 32) (m : Fin 64)
    (r : Fin 16384) (hr : r.val = p.val * 32 + k.val) (s : Fin 4096) (hs : s.val = t.val % 8 * 512 + p.val) :
    k0_pay5 (F := Ideal) (iblk0 V c 0 t) (iblk0 V c 1 t) (iblk0 V c 2 t) (iblk0 V c 3 t) (iblk0 V c 4 t) (ix2 r m) = Cert.Spec.x1 (V c main_arg3) (V c main_arg2) (V c main_arg0) (V c main_v0) (V c main_v1) b s k m := by
  refine (pay5_apply (iblk0 V c 0 t) (iblk0 V c 1 t) (iblk0 V c 2 t) (iblk0 V c 3 t) (iblk0 V c 4 t) p k m r hr).trans ?_
  unfold Cert.Spec.x1
  exact congrArg₂ (· + ·)
    (Finset.sum_congr rfl fun cc _ => congrArg₂ (· * ·) (blk0_apply V c t p k cc b s hb hs) (blk3_apply V c t m cc))
    (Finset.sum_congr rfl fun j _ => congrArg₂ (· * ·)
      (congrArg₂ (· - ·) (blk1_apply V c t p k j b s hb hs) (blk2_apply V c t p j b s hb hs)) (blk4_apply V c t m j))

/-! ### What a point adds -/

/-- Point t's column total of the first layer at channel m, -/
def tot (c : Dev nD) (t : Fin cfg0.N) (m : Fin 64) : EReal :=
  ∑ r : Fin 16384, k0_pay5 (F := Ideal) (iblk0 V c 0 t) (iblk0 V c 1 t) (iblk0 V c 2 t) (iblk0 V c 3 t) (iblk0 V c 4 t) (ix2 r m)

/-- and of its squares. -/
def totsq (c : Dev nD) (t : Fin cfg0.N) (m : Fin 64) : EReal :=
  ∑ r : Fin 16384, k0_pay5 (F := Ideal) (iblk0 V c 0 t) (iblk0 V c 1 t) (iblk0 V c 2 t) (iblk0 V c 3 t) (iblk0 V c 4 t) (ix2 r m) * k0_pay5 (F := Ideal) (iblk0 V c 0 t) (iblk0 V c 1 t) (iblk0 V c 2 t) (iblk0 V c 3 t) (iblk0 V c 4 t) (ix2 r m)

/-- The point's total is the specification's first layer summed over the block's 512 points and 32 neighbours. -/
theorem tot_eq (c : Dev nD) (t : Fin cfg0.N) (b q : Fin 8) (hb : b.val = t.val / 8) (hq : q.val = t.val % 8) (m : Fin 64) :
    tot V c t m = ∑ p : Fin 512, ∑ k : Fin 32, Cert.Spec.x1 (V c main_arg3) (V c main_arg2) (V c main_arg0) (V c main_v0) (V c main_v1) b ⟨q.val * 512 + p.val, LibMergeSplit.row_lt q p⟩ k m := by
  unfold tot
  rw [sum_rows 512 32 rfl]
  exact Finset.sum_congr rfl fun p _ => Finset.sum_congr rfl fun k _ =>
    pay5_blk V c t b hb p k m _ rfl ⟨q.val * 512 + p.val, LibMergeSplit.row_lt q p⟩ (by show q.val * 512 + p.val = t.val % 8 * 512 + p.val; rw [hq])

theorem totsq_eq (c : Dev nD) (t : Fin cfg0.N) (b q : Fin 8) (hb : b.val = t.val / 8) (hq : q.val = t.val % 8) (m : Fin 64) :
    totsq V c t m = ∑ p : Fin 512, ∑ k : Fin 32,
      Cert.Spec.x1 (V c main_arg3) (V c main_arg2) (V c main_arg0) (V c main_v0) (V c main_v1) b ⟨q.val * 512 + p.val, LibMergeSplit.row_lt q p⟩ k m
      * Cert.Spec.x1 (V c main_arg3) (V c main_arg2) (V c main_arg0) (V c main_v0) (V c main_v1) b ⟨q.val * 512 + p.val, LibMergeSplit.row_lt q p⟩ k m := by
  unfold totsq
  rw [sum_rows 512 32 rfl]
  exact Finset.sum_congr rfl fun p _ => Finset.sum_congr rfl fun k _ => by
    rw [pay5_blk V c t b hb p k m _ rfl ⟨q.val * 512 + p.val, LibMergeSplit.row_lt q p⟩ (by show q.val * 512 + p.val = t.val % 8 * 512 + p.val; rw [hq])]

/-- At a batch entry's first point the blocks hold the point's totals. -/
theorem outs_A (c : Dev nD) (t : Fin cfg0.N) (h0 : t.val % 8 = 0) (m : Fin 64) :
    (outsAt0 V c t.val t.isLt).1 (ix3 (0 : Fin 1) (0 : Fin 1) m) = tot V c t m
    ∧ (outsAt0 V c t.val t.isLt).2 (ix3 (0 : Fin 1) (0 : Fin 1) m) = totsq V c t m := by
  rw [outsAt0_A V c t h0]
  dsimp only
  constructor
  · refine (congrFun (piece_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) _).trans ?_
    refine (pay1_apply _ _ 0 0 m).trans ?_
    rw [pay3_apply, zero_add]
    exact pay6_apply (iblk0 V c 0 t) (iblk0 V c 1 t) (iblk0 V c 2 t) (iblk0 V c 3 t) (iblk0 V c 4 t) 0 m
  · refine (congrFun (piece_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) _).trans ?_
    refine (pay2_apply _ _ 0 0 m).trans ?_
    rw [pay4_apply, zero_add]
    exact pay7_apply (iblk0 V c 0 t) (iblk0 V c 1 t) (iblk0 V c 2 t) (iblk0 V c 3 t) (iblk0 V c 4 t) 0 m

/-- At a later point they hold what the point before left plus the point's totals. -/
theorem outs_B (c : Dev nD) (t : Fin cfg0.N) (h0 : ¬t.val % 8 = 0) (m : Fin 64) :
    (outsAt0 V c t.val t.isLt).1 (ix3 (0 : Fin 1) (0 : Fin 1) m)
        = (outsAt0 V c (t.val - 1) (Nat.lt_of_le_of_lt (Nat.sub_le _ _) t.isLt)).1 (ix3 (0 : Fin 1) (0 : Fin 1) m) + tot V c t m
    ∧ (outsAt0 V c t.val t.isLt).2 (ix3 (0 : Fin 1) (0 : Fin 1) m)
        = (outsAt0 V c (t.val - 1) (Nat.lt_of_le_of_lt (Nat.sub_le _ _) t.isLt)).2 (ix3 (0 : Fin 1) (0 : Fin 1) m) + totsq V c t m := by
  rw [outsAt0_B V c t h0]
  dsimp only
  constructor
  · refine (congrFun (piece_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) _ _) _).trans ?_
    refine (pay1_apply _ _ 0 0 m).trans ?_
    exact congrArg₂ (· + ·) rfl (pay6_apply (iblk0 V c 0 t) (iblk0 V c 1 t) (iblk0 V c 2 t) (iblk0 V c 3 t) (iblk0 V c 4 t) 0 m)
  · refine (congrFun (piece_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) _ _) _).trans ?_
    refine (pay2_apply _ _ 0 0 m).trans ?_
    exact congrArg₂ (· + ·) rfl (pay7_apply (iblk0 V c 0 t) (iblk0 V c 1 t) (iblk0 V c 2 t) (iblk0 V c 3 t) (iblk0 V c 4 t) 0 m)

/-- A point's totals as a function of every natural (zero past the grid). -/
def totN (c : Dev nD) (n : ℕ) (m : Fin 64) : EReal := if h : n < cfg0.N then tot V c ⟨n, h⟩ m else 0
def totsqN (c : Dev nD) (n : ℕ) (m : Fin 64) : EReal := if h : n < cfg0.N then totsq V c ⟨n, h⟩ m else 0

theorem totN_of_lt (c : Dev nD) (n : ℕ) (h : n < cfg0.N) (m : Fin 64) : totN V c n m = tot V c ⟨n, h⟩ m := dif_pos h
theorem totsqN_of_lt (c : Dev nD) (n : ℕ) (h : n < cfg0.N) (m : Fin 64) : totsqN V c n m = totsq V c ⟨n, h⟩ m := dif_pos h

/-- After point n the blocks hold the totals of the batch entry's points so far: n - n % 8, …, n. By induction on the
    point. -/
theorem outs_acc (c : Dev nD) (m : Fin 64) : ∀ (n : ℕ) (h : n < cfg0.N),
    (outsAt0 V c n h).1 (ix3 (0 : Fin 1) (0 : Fin 1) m) = ∑ j ∈ Finset.range (n % 8 + 1), totN V c (n - n % 8 + j) m
    ∧ (outsAt0 V c n h).2 (ix3 (0 : Fin 1) (0 : Fin 1) m) = ∑ j ∈ Finset.range (n % 8 + 1), totsqN V c (n - n % 8 + j) m
  | 0, h => by
    have e := outs_A V c ⟨0, h⟩ rfl m
    refine ⟨e.1.trans ?_, e.2.trans ?_⟩
    · rw [Finset.sum_range_one]; exact (totN_of_lt V c 0 h m).symm
    · rw [Finset.sum_range_one]; exact (totsqN_of_lt V c 0 h m).symm
  | n + 1, h => by
    have ih := outs_acc c m n (Nat.lt_of_succ_lt h)
    by_cases h0 : (n + 1) % 8 = 0
    · have e := outs_A V c ⟨n + 1, h⟩ h0 m
      have hsub : n + 1 - 0 + 0 = n + 1 := rfl
      refine ⟨e.1.trans ?_, e.2.trans ?_⟩
      · rw [h0, Finset.sum_range_one, hsub]; exact (totN_of_lt V c (n + 1) h m).symm
      · rw [h0, Finset.sum_range_one, hsub]; exact (totsqN_of_lt V c (n + 1) h m).symm
    · have e := outs_B V c ⟨n + 1, h⟩ h0 m
      have h1 : (n + 1) % 8 = n % 8 + 1 := by omega
      have h2 : n + 1 - (n % 8 + 1) = n - n % 8 := by omega
      have h3 : n - n % 8 + (n % 8 + 1) = n + 1 := by omega
      refine ⟨e.1.trans ?_, e.2.trans ?_⟩
      · show (outsAt0 V c n _).1 (ix3 (0 : Fin 1) (0 : Fin 1) m) + _ = _
        rw [ih.1, h1, h2, Finset.sum_range_succ _ (n % 8 + 1), h3, totN_of_lt V c (n + 1) h m]
      · show (outsAt0 V c n _).2 (ix3 (0 : Fin 1) (0 : Fin 1) m) + _ = _
        rw [ih.2, h1, h2, Finset.sum_range_succ _ (n % 8 + 1), h3, totsqN_of_lt V c (n + 1) h m]

end Value

/-! ## The arrays after the sweep -/

section Final

variable (V : (c : Dev nD) → (b : Ref sig .tc) → Buf (Elt Ideal) ((c : Thread nD τ).loc b))

/-- At a batch entry's last point the blocks hold the batch entry's totals over all 4096 points and 32 neighbours. -/
theorem outs_flush (c : Dev nD) (t : Fin cfg0.N) (h7 : t.val % 8 = 7) (b : Fin 8) (hb : b.val = t.val / 8) (m : Fin 64) :
    (outsAt0 V c t.val t.isLt).1 (ix3 (0 : Fin 1) (0 : Fin 1) m) = ∑ s : Fin 4096, ∑ k : Fin 32, Cert.Spec.x1 (V c main_arg3) (V c main_arg2) (V c main_arg0) (V c main_v0) (V c main_v1) b s k m
    ∧ (outsAt0 V c t.val t.isLt).2 (ix3 (0 : Fin 1) (0 : Fin 1) m)
        = ∑ s : Fin 4096, ∑ k : Fin 32, Cert.Spec.x1 (V c main_arg3) (V c main_arg2) (V c main_arg0) (V c main_v0) (V c main_v1) b s k m * Cert.Spec.x1 (V c main_arg3) (V c main_arg2) (V c main_arg0) (V c main_v0) (V c main_v1) b s k m := by
  have hN : cfg0.N = 64 := N_0
  have hlt : t.val < 64 := lt_of_lt_of_eq t.isLt hN
  obtain ⟨e1, e2⟩ := outs_acc V c m t.val t.isLt
  have hpt : ∀ q : Fin 8, t.val - 7 + q.val < cfg0.N := fun q =>
    lt_of_lt_of_eq (show t.val - 7 + q.val < 64 by have := q.isLt; omega) hN.symm
  constructor
  · rw [e1, h7, Finset.sum_range, sum_rows 8 512 rfl]
    refine Finset.sum_congr rfl fun q _ => ?_
    rw [totN_of_lt V c _ (hpt q) m]
    exact tot_eq V c ⟨t.val - 7 + q.val, hpt q⟩ b q (by show b.val = (t.val - 7 + q.val) / 8; have := q.isLt; omega)
      (by show q.val = (t.val - 7 + q.val) % 8; have := q.isLt; omega) m
  · rw [e2, h7, Finset.sum_range, sum_rows 8 512 rfl]
    refine Finset.sum_congr rfl fun q _ => ?_
    rw [totsqN_of_lt V c _ (hpt q) m]
    exact totsq_eq V c ⟨t.val - 7 + q.val, hpt q⟩ b q (by show b.val = (t.val - 7 + q.val) / 8; have := q.isLt; omega)
      (by show q.val = (t.val - 7 + q.val) % 8; have := q.isLt; omega) m

/-- The array of totals: per batch entry and channel, the first layer summed over all points and neighbours, -/
def Gsum (c : Dev nD) : Arr3 8 1 64 := fun i => ∑ s : Fin 4096, ∑ k : Fin 32, Cert.Spec.x1 (V c main_arg3) (V c main_arg2) (V c main_arg0) (V c main_v0) (V c main_v1) (i 0) s k (i 2)

/-- and the array of totals of squares. -/
def Gsq (c : Dev nD) : Arr3 8 1 64 := fun i =>
  ∑ s : Fin 4096, ∑ k : Fin 32, Cert.Spec.x1 (V c main_arg3) (V c main_arg2) (V c main_arg0) (V c main_v0) (V c main_v1) (i 0) s k (i 2) * Cert.Spec.x1 (V c main_arg3) (V c main_arg2) (V c main_arg0) (V c main_v0) (V c main_v1) (i 0) s k (i 2)

/-- A [1, 1, 64] block whose entry (0, 0, m) is the array's entry (b, 0, m) is the array read through the block's place. -/
theorem block_read (X : S1x1x64.Idx → EReal) (G : Arr3 8 1 64) (b : Fin 8)
    (hX : ∀ m : Fin 64, X (ix3 (0 : Fin 1) (0 : Fin 1) m) = G (ix3 b (0 : Fin 1) m))
    (y : S1x1x64.Idx) (i : (⟨3, ![8, 1, 64]⟩ : Shape).Idx) (h0 : (i 0).val = b.val) (h2 : (i 2).val = (y 2).val) :
    X y = G i := by
  have hy : y = ix3 (0 : Fin 1) (0 : Fin 1) (y 2) := by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
  have hi : i = ix3 b (0 : Fin 1) (y 2) := by
    funext a
    match a with
    | ⟨0, _⟩ => exact Fin.ext h0
    | ⟨1, _⟩ => exact Fin.ext (by have : (i 1).val < 1 := (i 1).isLt; show (i 1).val = 0; omega)
    | ⟨2, _⟩ => exact Fin.ext h2
  rw [hy, hi]
  exact hX (y 2)

/-- What a batch entry's last point writes back is its block of the totals array. -/
theorem flushed5 (c : Dev nD) (t : Fin cfg0.N) (hf : (cfg0.win 5).flush t = true) :
    (dat0 V c).flushed 5 t = ((cfg0.win 5).blk t).view.read (Elt Ideal) (Gsum V c) := by
  have h7 : t.val % 8 = 7 := (flush0_5 t).mp hf
  have hlt : t.val < 64 := lt_of_lt_of_eq t.isLt N_0
  obtain ⟨-, -, -, -, -, -, -, -, -, -, -, -, -, -, -, e0, e1, e2, -⟩ := idx_facts t
  show (cfg0.win 5).cut (grid0.coords t) ((dat0 V c).after 5 t) = _
  rw [after0_5]
  funext y
  show (outsAt0 V c t.val t.isLt).1 ((cfg0.win 5).xinj (grid0.coords t) y) = Gsum V c (((cfg0.win 5).blk t).view.emb y)
  refine block_read _ (Gsum V c) ⟨t.val / 8, by omega⟩
    (fun m => (outs_flush V c t h7 ⟨t.val / 8, by omega⟩ rfl m).1) _ _ ?_ ?_
  · have hy : (y 0).val < 1 := (y 0).isLt
    show win0_5.index t (0 : Fin 3) * 1 + 1 * (y 0).val = t.val / 8
    omega
  · show win0_5.index t (2 : Fin 3) * 64 + 1 * (y 2).val = (y 2).val
    omega

theorem flushed6 (c : Dev nD) (t : Fin cfg0.N) (hf : (cfg0.win 6).flush t = true) :
    (dat0 V c).flushed 6 t = ((cfg0.win 6).blk t).view.read (Elt Ideal) (Gsq V c) := by
  have h7 : t.val % 8 = 7 := (flush0_6 t).mp hf
  have hlt : t.val < 64 := lt_of_lt_of_eq t.isLt N_0
  obtain ⟨-, -, -, -, -, -, -, -, -, -, -, -, -, -, -, -, -, -, e0, e1, e2⟩ := idx_facts t
  show (cfg0.win 6).cut (grid0.coords t) ((dat0 V c).after 6 t) = _
  rw [after0_6]
  funext y
  show (outsAt0 V c t.val t.isLt).2 ((cfg0.win 6).xinj (grid0.coords t) y) = Gsq V c (((cfg0.win 6).blk t).view.emb y)
  refine block_read _ (Gsq V c) ⟨t.val / 8, by omega⟩
    (fun m => (outs_flush V c t h7 ⟨t.val / 8, by omega⟩ rfl m).2) _ _ ?_ ?_
  · have hy : (y 0).val < 1 := (y 0).isLt
    show win0_6.index t (0 : Fin 3) * 1 + 1 * (y 0).val = t.val / 8
    omega
  · show win0_6.index t (2 : Fin 3) * 64 + 1 * (y 2).val = (y 2).val
    omega

/-- An entry of the totals array is in point t's block iff each coordinate is in the block's range. -/
theorem mem_blk5 (t : Fin cfg0.N) (i : S8x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v6_0).slice (win0_5.rect t)).set ↔ _
  rw [View.set_slice_whole, Rect.mem_set_unit]
  exact Iff.rfl

theorem mem_blk6 (t : Fin cfg0.N) (i : S8x1x64.Idx) :
    i ∈ ((cfg0.win 6).blk t).view.set ↔ ∀ a : Fin 3, win0_6.index t a * S1x1x64.size a ≤ (i a).val ∧ (i a).val < win0_6.index t a * S1x1x64.size a + S1x1x64.size a := by
  show i ∈ ((View.whole main_v6_1).slice (win0_6.rect t)).set ↔ _
  rw [View.set_slice_whole, Rect.mem_set_unit]
  exact Iff.rfl

/-- Entry (b, ·, ·) of the arrays is written back by batch entry b's last point, 8 b + 7. -/
theorem final5 (c : Dev nD) : (dat0 V c).arrAt 5 cfg0.N = Gsum V c :=
  (dat0 V c).arrAt_eq_of_cover 5 (Gsum V c) (flushed5 V c) fun i => by
    have hN : cfg0.N = 64 := N_0
    have hi0 : (i 0).val < 8 := (i 0).isLt
    have hi1 : (i 1).val < 1 := (i 1).isLt
    have hi2 : (i 2).val < 64 := (i 2).isLt
    have hpt : 8 * (i 0).val + 7 < cfg0.N := by rw [hN]; omega
    obtain ⟨-, -, -, -, -, -, -, -, -, -, -, -, -, -, -, e0, e1, e2, -⟩ := idx_facts ⟨8 * (i 0).val + 7, hpt⟩
    refine ⟨⟨8 * (i 0).val + 7, hpt⟩, (flush0_5 _).mpr (by show (8 * (i 0).val + 7) % 8 = 7; omega), ?_⟩
    rw [mem_blk5]
    intro a
    match a with
    | ⟨0, _⟩ =>
      show win0_5.index ⟨8 * (i 0).val + 7, hpt⟩ (0 : Fin 3) * 1 ≤ (i 0).val ∧ (i 0).val < win0_5.index ⟨8 * (i 0).val + 7, hpt⟩ (0 : Fin 3) * 1 + 1
      have e0' : win0_5.index ⟨8 * (i 0).val + 7, hpt⟩ (0 : Fin 3) = (8 * (i 0).val + 7) / 8 := e0
      omega
    | ⟨1, _⟩ =>
      show win0_5.index ⟨8 * (i 0).val + 7, hpt⟩ (1 : Fin 3) * 1 ≤ (i 1).val ∧ (i 1).val < win0_5.index ⟨8 * (i 0).val + 7, hpt⟩ (1 : Fin 3) * 1 + 1
      omega
    | ⟨2, _⟩ =>
      show win0_5.index ⟨8 * (i 0).val + 7, hpt⟩ (2 : Fin 3) * 64 ≤ (i 2).val ∧ (i 2).val < win0_5.index ⟨8 * (i 0).val + 7, hpt⟩ (2 : Fin 3) * 64 + 64
      omega

theorem final6 (c : Dev nD) : (dat0 V c).arrAt 6 cfg0.N = Gsq V c :=
  (dat0 V c).arrAt_eq_of_cover 6 (Gsq V c) (flushed6 V c) fun i => by
    have hN : cfg0.N = 64 := N_0
    have hi0 : (i 0).val < 8 := (i 0).isLt
    have hi1 : (i 1).val < 1 := (i 1).isLt
    have hi2 : (i 2).val < 64 := (i 2).isLt
    have hpt : 8 * (i 0).val + 7 < cfg0.N := by rw [hN]; omega
    obtain ⟨-, -, -, -, -, -, -, -, -, -, -, -, -, -, -, -, -, -, e0, e1, e2⟩ := idx_facts ⟨8 * (i 0).val + 7, hpt⟩
    refine ⟨⟨8 * (i 0).val + 7, hpt⟩, (flush0_6 _).mpr (by show (8 * (i 0).val + 7) % 8 = 7; omega), ?_⟩
    rw [mem_blk6]
    intro a
    match a with
    | ⟨0, _⟩ =>
      show win0_6.index ⟨8 * (i 0).val + 7, hpt⟩ (0 : Fin 3) * 1 ≤ (i 0).val ∧ (i 0).val < win0_6.index ⟨8 * (i 0).val + 7, hpt⟩ (0 : Fin 3) * 1 + 1
      have e0' : win0_6.index ⟨8 * (i 0).val + 7, hpt⟩ (0 : Fin 3) = (8 * (i 0).val + 7) / 8 := e0
      omega
    | ⟨1, _⟩ =>
      show win0_6.index ⟨8 * (i 0).val + 7, hpt⟩ (1 : Fin 3) * 1 ≤ (i 1).val ∧ (i 1).val < win0_6.index ⟨8 * (i 0).val + 7, hpt⟩ (1 : Fin 3) * 1 + 1
      omega
    | ⟨2, _⟩ =>
      show win0_6.index ⟨8 * (i 0).val + 7, hpt⟩ (2 : Fin 3) * 64 ≤ (i 2).val ∧ (i 2).val < win0_6.index ⟨8 * (i 0).val + 7, hpt⟩ (2 : Fin 3) * 64 + 64
      omega

end Final

variable (V : (c : Dev nD) → (b : Ref sig .tc) → Buf (Elt Ideal) ((c : Thread nD τ).loc b))

/-- Per (batch entry, channel): the total of the first layer over all points and neighbours. -/
theorem sum_eq (c : Dev nD) (b : Fin 8) (u : Fin 1) (m : Fin 64) :
    ((dat0 (F := Ideal) V c).arrAt 5 cfg0.N : Arr3 8 1 64) (ix3 b u m)
      = ∑ s : Fin 4096, ∑ k : Fin 32,
          Cert.Spec.x1 (V c main_arg3) (V c main_arg2) (V c main_arg0) (V c main_v0) (V c main_v1) b s k m := by
  rw [final5 V c]
  rfl

/-- Per (batch entry, channel): the total of squares of the first layer over all points and neighbours. -/
theorem sumsq_eq (c : Dev nD) (b : Fin 8) (u : Fin 1) (m : Fin 64) :
    ((dat0 (F := Ideal) V c).arrAt 6 cfg0.N : Arr3 8 1 64) (ix3 b u m)
      = ∑ s : Fin 4096, ∑ k : Fin 32,
          Cert.Spec.x1 (V c main_arg3) (V c main_arg2) (V c main_arg0) (V c main_v0) (V c main_v1) b s k m
          * Cert.Spec.x1 (V c main_arg3) (V c main_arg2) (V c main_arg0) (V c main_v0) (V c main_v1) b s k m := by
  rw [final6 V c]
  rfl

end Cert.KernelIdeal.R0

end
-- ==== Proof.R1Body.lean ====
/-
  The second sweep's body, read at an index.  On the extended reals, for the block of 256 points × 32 neighbours a grid point
  works on:
    • a plain matrix product into a zero accumulator is, entry by entry, the sum over the contracted coordinate; a column
      total from the zero word is the sum down the column;
    • the first linear layer at row i·32 + kk (point i of the block, neighbour kk) and channel m is the neighbour's features
      against the weight row's first 64 columns plus its coordinates relative to the centre against the last 3;
    • the second linear layer at a row and output channel o is the first layer, normalised with the batch entry's mean and
      inverse deviation, scaled, shifted and rectified, against the weight row o;
    • the two [1, 1, 128] blocks a point leaves are what they held (the zero block at a batch entry's first point) plus the
      column totals of the second layer and of its squares.
-/
import proofs.«147857_j86655260164510_2_alg».proof.Proof.Gen.KernelIdeal.Frame
import proofs.«147857_j86655260164510_2_alg».proof.Proof.Spec
import proofs.«147857_j86655260164510_2_alg».proof.Proof.LibMergeSplit
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (Arr2 Arr3 Arr4)

/-- A plain matrix product into the zero accumulator, read at (a, b): the sum over the contracted coordinate. -/
theorem matmul_zero_ix2 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column total: the sum over axis 0 of an [n, c] array from the zero word, read at column o. -/
theorem colsum_apply {n c : ℕ} (src : FVec Ideal ⟨2, ![n, c]⟩ .f32) (h : (⟨2, ![n, c]⟩ : Shape).Reduces [0] ⟨1, ![c]⟩)
    (hφ : FKind.Formats .f32) (hacc : (0x00000000#32 : BitVec 32) = FKind.add.neutral .f32 hφ) (o : Fin c) :
    multiReduction .add [0] ⟨1, ![c]⟩ src 0x00000000#32 h hφ hacc (ix1 o) = ∑ r : Fin n, src (ix2 r o) := by
  refine (Ideal.multiReduction_add_single src 0x00000000#32 h hφ hacc (ix1 o)).trans ?_
  refine Finset.sum_congr rfl fun r _ => congrArg src ?_
  funext a
  match a with
  | ⟨0, _⟩ => rfl
  | ⟨1, _⟩ => rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later point of a batch entry leaves, in the block of totals holding `xo10`, `xo10` plus the column totals of the second
    layer of the point's rows. -/
theorem out_B_10 (c : Dev nD) (i : grid1.Coords) (arg2 : Memref sig .tc .vmem S1x256x32x64 .f32) (harg2 : arg2.IsWhole) (arg3 : Memref sig .tc .vmem S1x256x32x3 .f32) (harg3 : arg3.IsWhole) (arg4 : Memref sig .tc .vmem S1x256x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S1x1x128 .f32) (harg12 : arg12.IsWhole) (arg13 : Memref sig .tc .vmem S1x1x128 .f32) (harg13 : arg13.IsWhole) (hc0 : ¬cond1_0 i) (x0 : Vec Ideal S1x256x32x64 .f32) (x1 : Vec Ideal S1x256x32x3 .f32) (x2 : Vec Ideal S1x256x3 .f32) (x3 : Vec Ideal S64x64 .f32) (x4 : Vec Ideal S64x3 .f32) (x5 : Vec Ideal S128x64 .f32) (x6 : Vec Ideal S1x64 .f32) (x7 : Vec Ideal S1x64 .f32) (x8 : Vec Ideal S1x1x64 .f32) (x9 : Vec Ideal S1x1x64 .f32) (xo10 xo11 : Vec Ideal S1x1x128 .f32) :
    out1_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11
      = k1_pay7 (k1_pay3 x0 x1 x2 x3 x4) (k1_pay4 x8) (k1_pay5 x9) x6 x7 x5 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11)]
  unfold kernelRun1_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S1x256x32x64) hz4, View.ld_unit_zero (S := S1x256x32x3) hz4,
    View.ld_unit_zero (S := S1x256x3) hz3, View.ld_unit_zero (S := S64x64) hz2, View.ld_unit_zero (S := S64x3) hz2,
    View.ld_unit_zero (S := S128x64) hz2, View.ld_unit_zero (S := S1x64) hz2, View.ld_unit_zero (S := S1x1x64) hz3,
    View.ld_unit_zero (S := S1x1x128) hz3]

/-- … and, in the block of totals of squares holding `xo11`, `xo11` plus the column totals of the squares. -/
theorem out_B_11 (c : Dev nD) (i : grid1.Coords) (arg2 : Memref sig .tc .vmem S1x256x32x64 .f32) (harg2 : arg2.IsWhole) (arg3 : Memref sig .tc .vmem S1x256x32x3 .f32) (harg3 : arg3.IsWhole) (arg4 : Memref sig .tc .vmem S1x256x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S1x1x128 .f32) (harg12 : arg12.IsWhole) (arg13 : Memref sig .tc .vmem S1x1x128 .f32) (harg13 : arg13.IsWhole) (hc0 : ¬cond1_0 i) (x0 : Vec Ideal S1x256x32x64 .f32) (x1 : Vec Ideal S1x256x32x3 .f32) (x2 : Vec Ideal S1x256x3 .f32) (x3 : Vec Ideal S64x64 .f32) (x4 : Vec Ideal S64x3 .f32) (x5 : Vec Ideal S128x64 .f32) (x6 : Vec Ideal S1x64 .f32) (x7 : Vec Ideal S1x64 .f32) (x8 : Vec Ideal S1x1x64 .f32) (x9 : Vec Ideal S1x1x64 .f32) (xo10 xo11 : Vec Ideal S1x1x128 .f32) :
    out1_B_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11
      = k1_pay8 (k1_pay3 x0 x1 x2 x3 x4) (k1_pay4 x8) (k1_pay5 x9) x6 x7 x5 xo11 := by
  unfold out1_B_11
  rw [View.read_writes_eq_canon _ _ _ (cover1_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xo10 xo11)]
  unfold kernelRun1_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.ld_unit_zero (S := S1x256x32x64) hz4, View.ld_unit_zero (S := S1x256x32x3) hz4,
    View.ld_unit_zero (S := S1x256x3) hz3, View.ld_unit_zero (S := S64x64) hz2, View.ld_unit_zero (S := S64x3) hz2,
    View.ld_unit_zero (S := S128x64) hz2, View.ld_unit_zero (S := S1x64) hz2, View.ld_unit_zero (S := S1x1x64) hz3,
    View.ld_unit_zero (S := S1x1x128) hz3]

/-- A batch entry's first point stores the zero block, reads it back, and leaves the zero block plus the column totals. -/
theorem out_A_10 (c : Dev nD) (i : grid1.Coords) (arg2 : Memref sig .tc .vmem S1x256x32x64 .f32) (harg2 : arg2.IsWhole) (arg3 : Memref sig .tc .vmem S1x256x32x3 .f32) (harg3 : arg3.IsWhole) (arg4 : Memref sig .tc .vmem S1x256x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S1x1x128 .f32) (harg12 : arg12.IsWhole) (arg13 : Memref sig .tc .vmem S1x1x128 .f32) (harg13 : arg13.IsWhole) (hc0 : cond1_0 i) (x0 : Vec Ideal S1x256x32x64 .f32) (x1 : Vec Ideal S1x256x32x3 .f32) (x2 : Vec Ideal S1x256x3 .f32) (x3 : Vec Ideal S64x64 .f32) (x4 : Vec Ideal S64x3 .f32) (x5 : Vec Ideal S128x64 .f32) (x6 : Vec Ideal S1x64 .f32) (x7 : Vec Ideal S1x64 .f32) (x8 : Vec Ideal S1x1x64 .f32) (x9 : Vec Ideal S1x1x64 .f32) :
    out1_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = k1_pay7 (k1_pay3 x0 x1 x2 x3 x4) (k1_pay4 x8) (k1_pay5 x9) x6 x7 x5 (k1_pay1 (F := Ideal)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread,
    harg7.read_unread, harg8.read_unread, harg9.read_unread, harg10.read_unread, harg11.read_unread, View.ld_unit_zero (S := S1x256x32x64) hz4, View.ld_unit_zero (S := S1x256x32x3) hz4,
    View.ld_unit_zero (S := S1x256x3) hz3, View.ld_unit_zero (S := S64x64) hz2, View.ld_unit_zero (S := S64x3) hz2,
    View.ld_unit_zero (S := S128x64) hz2, View.ld_unit_zero (S := S1x64) hz2, View.ld_unit_zero (S := S1x1x64) hz3]

/-- … and likewise for the totals of squares. -/
theorem out_A_11 (c : Dev nD) (i : grid1.Coords) (arg2 : Memref sig .tc .vmem S1x256x32x64 .f32) (harg2 : arg2.IsWhole) (arg3 : Memref sig .tc .vmem S1x256x32x3 .f32) (harg3 : arg3.IsWhole) (arg4 : Memref sig .tc .vmem S1x256x3 .f32) (harg4 : arg4.IsWhole) (arg5 : Memref sig .tc .vmem S64x64 .f32) (harg5 : arg5.IsWhole) (arg6 : Memref sig .tc .vmem S64x3 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1x64 .f32) (harg10 : arg10.IsWhole) (arg11 : Memref sig .tc .vmem S1x1x64 .f32) (harg11 : arg11.IsWhole) (arg12 : Memref sig .tc .vmem S1x1x128 .f32) (harg12 : arg12.IsWhole) (arg13 : Memref sig .tc .vmem S1x1x128 .f32) (harg13 : arg13.IsWhole) (hc0 : cond1_0 i) (x0 : Vec Ideal S1x256x32x64 .f32) (x1 : Vec Ideal S1x256x32x3 .f32) (x2 : Vec Ideal S1x256x3 .f32) (x3 : Vec Ideal S64x64 .f32) (x4 : Vec Ideal S64x3 .f32) (x5 : Vec Ideal S128x64 .f32) (x6 : Vec Ideal S1x64 .f32) (x7 : Vec Ideal S1x64 .f32) (x8 : Vec Ideal S1x1x64 .f32) (x9 : Vec Ideal S1x1x64 .f32) :
    out1_A_11 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = k1_pay8 (k1_pay3 x0 x1 x2 x3 x4) (k1_pay4 x8) (k1_pay5 x9) x6 x7 x5 (k1_pay2 (F := Ideal)) := by
  unfold out1_A_11
  rw [View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread,
    harg7.read_unread, harg8.read_unread, harg9.read_unread, harg10.read_unread, harg11.read_unread, View.ld_unit_zero (S := S1x256x32x64) hz4, View.ld_unit_zero (S := S1x256x32x3) hz4,
    View.ld_unit_zero (S := S1x256x3) hz3, View.ld_unit_zero (S := S64x64) hz2, View.ld_unit_zero (S := S64x3) hz2,
    View.ld_unit_zero (S := S128x64) hz2, View.ld_unit_zero (S := S1x64) hz2, View.ld_unit_zero (S := S1x1x64) hz3]

/-- The first linear layer of a block, at row r = i·32 + kk (point i of the block, neighbour kk) and channel m. -/
theorem pay3_apply (v3 : Vec Ideal S1x256x32x64 .f32) (v5 : Vec Ideal S1x256x32x3 .f32) (v7 : Vec Ideal S1x256x3 .f32)
    (v14 : Vec Ideal S64x64 .f32) (v16 : Vec Ideal S64x3 .f32) (i : Fin 256) (kk : Fin 32) (m : Fin 64) (r : Fin 8192)
    (hr : r.val = i.val * 32 + kk.val) :
    k1_pay3 (F := Ideal) v3 v5 v7 v14 v16 (ix2 r m)
      = (∑ c : Fin 64, v3 (ix4 (0 : Fin 1) i kk c) * v14 (ix2 m c))
        + ∑ j : Fin 3, (v5 (ix4 (0 : Fin 1) i kk j) - v7 (ix3 (0 : Fin 1) i j)) * v16 (ix2 m j) := by
  unfold k1_pay3
  dsimp only
  refine (addf_apply _ _ _).trans ?_
  refine congrArg₂ (· + ·) ?_ ?_
  · refine (matmul_zero_ix2 dot_S8192x64_S64x64_S8192x64_1_0_0_1_n_n_wf none _ _ r m).trans ?_
    refine Finset.sum_congr rfl fun c _ => congrArg₂ (· * ·) ?_ ?_
    · refine (truncf_apply (φ := .f32) (ψ := .bf16) _ bitsLt_bf16_f32 _).trans ?_
      refine (LibMergeSplit.merge_rows_apply _ shapeCasts_S256x32x64_S8192x64 i kk c r hr).trans ?_
      exact shapeCast_1abc_abc_apply v3 shapeCasts_S1x256x32x64_S256x32x64 i kk c
    · refine (transpose_ix2_apply _ transposes_S64x64_p1_0_S64x64 c m).trans ?_
      refine (truncf_apply (φ := .f32) (ψ := .bf16) _ bitsLt_bf16_f32 _).trans ?_
      exact congrFun (shapeCast_self v14 shapeCasts_S64x64_S64x64) (ix2 m c)
  · refine (matmul_zero_ix2 dot_S8192x3_S3x64_S8192x64_1_0_0_1_n_n_wf none _ _ r m).trans ?_
    refine Finset.sum_congr rfl fun j _ => congrArg₂ (· * ·) ?_ ?_
    · refine (truncf_apply (φ := .f32) (ψ := .bf16) _ bitsLt_bf16_f32 _).trans ?_
      refine (LibMergeSplit.merge_rows_apply _ shapeCasts_S256x32x3_S8192x3 i kk j r hr).trans ?_
      refine (subf_apply _ _ _).trans ?_
      refine congrArg₂ (· - ·) (shapeCast_1abc_abc_apply v5 shapeCasts_S1x256x32x3_S256x32x3 i kk j) ?_
      refine (broadcastTo_apply _ broadcasts_S256x1x3_S256x32x3 (ix3 i kk j) (ix3 i (0 : Fin 1) j) fun a => ?_).trans ?_
      · match a with
        | ⟨0, _⟩ => rfl
        | ⟨1, _⟩ => rfl
        | ⟨2, _⟩ => rfl
      · refine (shapeCast_apply _ shapeCasts_S256x3_S256x1x3 (ix3 i (0 : Fin 1) j) (ix2 i j) ?_).trans
          (shapeCast_1ab_ab_apply v7 shapeCasts_S1x256x3_S256x3 i j)
        rw [Shape.rowMajor_val_three, Shape.rowMajor_val_two]
        show i.val * 3 + j.val = (i.val * 1 + 0) * 3 + j.val
        omega
    · refine (transpose_ix2_apply _ transposes_S64x3_p1_0_S3x64 j m).trans ?_
      refine (truncf_apply (φ := .f32) (ψ := .bf16) _ bitsLt_bf16_f32 _).trans ?_
      exact congrFun (shapeCast_self v16 shapeCasts_S64x3_S64x3) (ix2 m j)

/-- The per-channel vectors of a [1, 1, 64] block, flattened. -/
theorem pay4_apply (v27 : Vec Ideal S1x1x64 .f32) (m : Fin 64) :
    k1_pay4 (F := Ideal) v27 (ix1 m) = v27 (ix3 (0 : Fin 1) (0 : Fin 1) m) := by
  unfold k1_pay4
  refine shapeCast_apply v27 shapeCasts_S1x1x64_S64 (ix1 m) (ix3 (0 : Fin 1) (0 : Fin 1) m) ?_
  rw [Shape.rowMajor_val_three, Shape.rowMajor_val_one]
  show (0 * 1 + 0) * 64 + m.val = m.val
  omega

theorem pay5_apply (v29 : Vec Ideal S1x1x64 .f32) (m : Fin 64) :
    k1_pay5 (F := Ideal) v29 (ix1 m) = v29 (ix3 (0 : Fin 1) (0 : Fin 1) m) := by
  unfold k1_pay5
  refine shapeCast_apply v29 shapeCasts_S1x1x64_S64 (ix1 m) (ix3 (0 : Fin 1) (0 : Fin 1) m) ?_
  rw [Shape.rowMajor_val_three, Shape.rowMajor_val_one]
  show (0 * 1 + 0) * 64 + m.val = m.val
  omega

/-- A [64] vector laid along every row of an [8192, 64] array, read at (r, m). -/
theorem row_bcast_apply (v : FVec Ideal S64 .f32) (r : Fin 8192) (m : Fin 64) :
    broadcastTo S8192x64 (shapeCast S1x64 v shapeCasts_S64_S1x64) broadcasts_S1x64_S8192x64 (ix2 r m) = v (ix1 m) :=
  (broadcastTo_1b_ab_apply _ broadcasts_S1x64_S8192x64 r m).trans
    (shapeCast_a_1a_apply v shapeCasts_S64_S1x64 (0 : Fin 1) m)

/-- The second linear layer of a block at row r and output channel o: the normalised, scaled, shifted and rectified first
    layer against the weight row o. -/
theorem pay6_apply (v26 : FVec Ideal S8192x64 .f32) (v28 v30 : FVec Ideal S64 .f32) (v31 v33 : Vec Ideal S1x64 .f32)
    (v49 : Vec Ideal S128x64 .f32) (r : Fin 8192) (o : Fin 128) :
    k1_pay6 (F := Ideal) v26 v28 v30 v31 v33 v49 (ix2 r o)
      = ∑ m : Fin 64, Cert.Spec.act (v26 (ix2 r m)) (v28 (ix1 m)) (v30 (ix1 m)) (v31 (ix2 (0 : Fin 1) m)) (v33 (ix2 (0 : Fin 1) m))
          * v49 (ix2 o m) := by
  unfold k1_pay6
  dsimp only
  refine (matmul_zero_ix2 dot_S8192x64_S64x128_S8192x128_1_0_0_1_n_n_wf none _ _ r o).trans ?_
  refine Finset.sum_congr rfl fun m _ => congrArg₂ (· * ·) ?_ ?_
  · refine (truncf_apply (φ := .f32) (ψ := .bf16) _ bitsLt_bf16_f32 _).trans ?_
    refine (maximumf_apply _ _ _).trans ?_
    unfold Cert.Spec.act
    refine congrArg₂ max ?_ ?_
    · refine (addf_apply _ _ _).trans ?_
      refine congrArg₂ (· + ·) ?_ ?_
      · refine (mulf_apply _ _ _).trans ?_
        refine congrArg₂ (· * ·) ?_ ?_
        · refine (mulf_apply _ _ _).trans ?_
          refine congrArg₂ (· * ·) ?_ ?_
          · refine (subf_apply _ _ _).trans ?_
            exact congrArg₂ (· - ·) rfl (row_bcast_apply v28 r m)
          · exact row_bcast_apply v30 r m
        · exact (row_bcast_apply _ r m).trans (shapeCast_1a_a_apply v31 shapeCasts_S1x64_S64 m)
      · exact (row_bcast_apply _ r m).trans (shapeCast_1a_a_apply v33 shapeCasts_S1x64_S64 m)
    · exact Ideal.ofBits_zero_f32
  · refine (transpose_ix2_apply _ transposes_S128x64_p1_0_S64x128 m o).trans ?_
    exact truncf_apply (φ := .f32) (ψ := .bf16) _ bitsLt_bf16_f32 _

/-- A [128] vector stored as a [1, 1, 128] block, read at (0, 0, o). -/
theorem as_block_apply (v : FVec Ideal S128 .f32) (o : Fin 128) :
    shapeCast S1x1x128 (shapeCast S1x128 v shapeCasts_S128_S1x128) shapeCasts_S1x128_S1x1x128 (ix3 (0 : Fin 1) (0 : Fin 1) o)
      = v (ix1 o) :=
  (shapeCast_ab_1ab_apply _ shapeCasts_S1x128_S1x1x128 (0 : Fin 1) (0 : Fin 1) o).trans
    (shapeCast_a_1a_apply v shapeCasts_S128_S1x128 (0 : Fin 1) o)

/-- The block of totals after a point: what it held plus the column totals of the second layer. -/
theorem pay7_apply (v26 : FVec Ideal S8192x64 .f32) (v28 v30 : FVec Ideal S64 .f32) (v31 v33 : Vec Ideal S1x64 .f32)
    (v49 : Vec Ideal S128x64 .f32) (v59 : Vec Ideal S1x1x128 .f32) (o : Fin 128) :
    k1_pay7 (F := Ideal) v26 v28 v30 v31 v33 v49 v59 (ix3 (0 : Fin 1) (0 : Fin 1) o)
      = v59 (ix3 (0 : Fin 1) (0 : Fin 1) o) + ∑ r : Fin 8192, k1_pay6 (F := Ideal) v26 v28 v30 v31 v33 v49 (ix2 r o) := by
  unfold k1_pay7
  dsimp only
  refine (addf_apply _ _ _).trans ?_
  refine congrArg₂ (· + ·) ?_ ?_
  · exact congrFun (shapeCast_self v59 shapeCasts_S1x1x128_S1x1x128) _
  · refine (as_block_apply _ o).trans ?_
    exact colsum_apply _ reduces_S8192x128_S128 _ _ o

/-- The block of totals of squares after a point: what it held plus the column totals of the squares. -/
theorem pay8_apply (v26 : FVec Ideal S8192x64 .f32) (v28 v30 : FVec Ideal S64 .f32) (v31 v33 : Vec Ideal S1x64 .f32)
    (v49 : Vec Ideal S128x64 .f32) (v64 : Vec Ideal S1x1x128 .f32) (o : Fin 128) :
    k1_pay8 (F := Ideal) v26 v28 v30 v31 v33 v49 v64 (ix3 (0 : Fin 1) (0 : Fin 1) o)
      = v64 (ix3 (0 : Fin 1) (0 : Fin 1) o)
        + ∑ r : Fin 8192, k1_pay6 (F := Ideal) v26 v28 v30 v31 v33 v49 (ix2 r o) * k1_pay6 (F := Ideal) v26 v28 v30 v31 v33 v49 (ix2 r o) := by
  unfold k1_pay8
  dsimp only
  refine (addf_apply _ _ _).trans ?_
  refine congrArg₂ (· + ·) ?_ ?_
  · exact congrFun (shapeCast_self v64 shapeCasts_S1x1x128_S1x1x128) _
  · refine (as_block_apply _ o).trans ?_
    refine (colsum_apply _ reduces_S8192x128_S128 _ _ o).trans ?_
    exact Finset.sum_congr rfl fun r _ => mulf_apply _ _ _

end Cert.KernelIdeal.R1

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.R1Value.lean ====
/-
  The second sweep's value.  Its grid is (batch entry, block of 256 points); at each point the body recomputes the first linear
  layer of the block's 256 × 32 rows, normalises it with the batch entry's per-channel mean and inverse deviation, scales, shifts
  and rectifies it, applies the second linear layer, and adds each output channel's column total, and total of squares, into a
  [1, 1, 128] block zeroed at a batch entry's first point and written back with the batch entry's index.  So after the last point
  the two output arrays hold, per batch entry and output channel, the total and the total of squares of the second layer over
  all points and neighbours.
-/
import proofs.«147857_j86655260164510_2_alg».proof.Proof.Gen.KernelIdeal.Frame
import proofs.«147857_j86655260164510_2_alg».proof.Proof.Spec
import proofs.«147857_j86655260164510_2_alg».proof.Proof.LibMergeSplit
import proofs.«147857_j86655260164510_2_alg».proof.Proof.R1Body
import proofs.«147857_j86655260164510_2_alg».proof.Proof.LibSumBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (Arr2 Arr3 Arr4)

variable (V : (c : Dev nD) → (b : Ref sig .tc) → Buf (Elt Ideal) ((c : Thread nD τ).loc b))

/-- The windows' index maps over the grid: point t is batch entry t / 16, block t % 16; the whole-array windows sit at block 0. -/
theorem idx_facts : ∀ t : Fin cfg1.N,
    (win1_0.index t (0 : Fin 4) = t.val / 16 ∧ win1_0.index t (1 : Fin 4) = t.val % 16
      ∧ win1_0.index t (2 : Fin 4) = 0 ∧ win1_0.index t (3 : Fin 4) = 0)
    ∧ (win1_1.index t (0 : Fin 4) = t.val / 16 ∧ win1_1.index t (1 : Fin 4) = t.val % 16
      ∧ win1_1.index t (2 : Fin 4) = 0 ∧ win1_1.index t (3 : Fin 4) = 0)
    ∧ (win1_2.index t (0 : Fin 3) = t.val / 16 ∧ win1_2.index t (1 : Fin 3) = t.val % 16 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 3) = t.val / 16 ∧ win1_8.index t (1 : Fin 3) = 0 ∧ win1_8.index t (2 : Fin 3) = 0)
    ∧ (win1_9.index t (0 : Fin 3) = t.val / 16 ∧ win1_9.index t (1 : Fin 3) = 0 ∧ win1_9.index t (2 : Fin 3) = 0)
    ∧ (win1_10.index t (0 : Fin 3) = t.val / 16 ∧ win1_10.index t (1 : Fin 3) = 0 ∧ win1_10.index t (2 : Fin 3) = 0)
    ∧ (win1_11.index t (0 : Fin 3) = t.val / 16 ∧ win1_11.index t (1 : Fin 3) = 0 ∧ win1_11.index t (2 : Fin 3) = 0) :=
  (by decide +kernel : ∀ t : Fin grid1.N, _)

section Reads

variable (c : Dev nD) (t : Fin cfg1.N) (b : Fin 8) (q : Fin 16) (ht : t.val = 16 * b.val + q.val)
include ht

/-- The features' block at a point, read at (point i of the block, neighbour kk, feature cc). -/
theorem feat_apply (i : Fin 256) (kk : Fin 32) (cc : Fin 64) (s : Fin 4096) (hs : s.val = 256 * q.val + i.val) :
    (iblk1 V c 0 t : Vec Ideal S1x256x32x64 .f32) (ix4 (0 : Fin 1) i kk cc) = V c main_arg3 (ix4 b s kk cc) := by
  obtain ⟨⟨e0, e1, e2, e3⟩, -⟩ := idx_facts t
  unfold iblk1
  rw [View.read_apply]
  show V c main_arg3 _ = V c main_arg3 _
  congr 1
  funext a
  apply Fin.ext
  match a with
  | ⟨0, _⟩ => show win1_0.index t (0 : Fin 4) * 1 + 1 * 0 = b.val; rw [e0]; omega
  | ⟨1, _⟩ => show win1_0.index t (1 : Fin 4) * 256 + 1 * i.val = s.val; rw [e1]; omega
  | ⟨2, _⟩ => show win1_0.index t (2 : Fin 4) * 32 + 1 * kk.val = kk.val; rw [e2]; omega
  | ⟨3, _⟩ => show win1_0.index t (3 : Fin 4) * 64 + 1 * cc.val = cc.val; rw [e3]; omega

/-- The coordinates' block, read at (point i, neighbour kk, axis j). -/
theorem xyz_apply (i : Fin 256) (kk : Fin 32) (j : Fin 3) (s : Fin 4096) (hs : s.val = 256 * q.val + i.val) :
    (iblk1 V c 1 t : Vec Ideal S1x256x32x3 .f32) (ix4 (0 : Fin 1) i kk j) = V c main_arg2 (ix4 b s kk j) := by
  obtain ⟨-, ⟨e0, e1, e2, e3⟩, -⟩ := idx_facts t
  unfold iblk1
  rw [View.read_apply]
  show V c main_arg2 _ = V c main_arg2 _
  congr 1
  funext a
  apply Fin.ext
  match a with
  | ⟨0, _⟩ => show win1_1.index t (0 : Fin 4) * 1 + 1 * 0 = b.val; rw [e0]; omega
  | ⟨1, _⟩ => show win1_1.index t (1 : Fin 4) * 256 + 1 * i.val = s.val; rw [e1]; omega
  | ⟨2, _⟩ => show win1_1.index t (2 : Fin 4) * 32 + 1 * kk.val = kk.val; rw [e2]; omega
  | ⟨3, _⟩ => show win1_1.index t (3 : Fin 4) * 3 + 1 * j.val = j.val; rw [e3]; omega

/-- The centres' block, read at (point i, axis j). -/
theorem cxyz_apply (i : Fin 256) (j : Fin 3) (s : Fin 4096) (hs : s.val = 256 * q.val + i.val) :
    (iblk1 V c 2 t : Vec Ideal S1x256x3 .f32) (ix3 (0 : Fin 1) i j) = V c main_arg0 (ix3 b s j) := by
  obtain ⟨-, -, ⟨e0, e1, e2⟩, -⟩ := idx_facts t
  unfold iblk1
  rw [View.read_apply]
  show V c main_arg0 _ = V c main_arg0 _
  congr 1
  funext a
  apply Fin.ext
  match a with
  | ⟨0, _⟩ => show win1_2.index t (0 : Fin 3) * 1 + 1 * 0 = b.val; rw [e0]; omega
  | ⟨1, _⟩ => show win1_2.index t (1 : Fin 3) * 256 + 1 * i.val = s.val; rw [e1]; omega
  | ⟨2, _⟩ => show win1_2.index t (2 : Fin 3) * 3 + 1 * j.val = j.val; rw [e2]; omega

/-- The per-(batch entry, channel) mean's block, read at channel m. -/
theorem mean_apply (m : Fin 64) :
    (iblk1 V c 8 t : Vec Ideal S1x1x64 .f32) (ix3 (0 : Fin 1) (0 : Fin 1) m) = V c main_v23 (ix3 b (0 : Fin 1) m) := by
  obtain ⟨-, -, -, -, -, -, -, -, ⟨e0, e1, e2⟩, -⟩ := idx_facts t
  unfold iblk1
  rw [View.read_apply]
  show V c main_v23 _ = V c main_v23 _
  congr 1
  funext a
  apply Fin.ext
  match a with
  | ⟨0, _⟩ => show win1_8.index t (0 : Fin 3) * 1 + 1 * 0 = b.val; rw [e0]; omega
  | ⟨1, _⟩ => show win1_8.index t (1 : Fin 3) * 1 + 1 * 0 = 0; rw [e1]
  | ⟨2, _⟩ => show win1_8.index t (2 : Fin 3) * 64 + 1 * m.val = m.val; rw [e2]; omega

/-- The inverse deviation's block, read at channel m. -/
theorem inv_apply (m : Fin 64) :
    (iblk1 V c 9 t : Vec Ideal S1x1x64 .f32) (ix3 (0 : Fin 1) (0 : Fin 1) m) = V c main_v25 (ix3 b (0 : Fin 1) m) := by
  obtain ⟨-, -, -, -, -, -, -, -, -, ⟨e0, e1, e2⟩, -⟩ := idx_facts t
  unfold iblk1
  rw [View.read_apply]
  show V c main_v25 _ = V c main_v25 _
  congr 1
  funext a
  apply Fin.ext
  match a with
  | ⟨0, _⟩ => show win1_9.index t (0 : Fin 3) * 1 + 1 * 0 = b.val; rw [e0]; omega
  | ⟨1, _⟩ => show win1_9.index t (1 : Fin 3) * 1 + 1 * 0 = 0; rw [e1]
  | ⟨2, _⟩ => show win1_9.index t (2 : Fin 3) * 64 + 1 * m.val = m.val; rw [e2]; omega

end Reads

section WholeReads

variable (c : Dev nD) (t : Fin cfg1.N)

/-- A window over a whole rank-2 array reads the array. -/
theorem w1f_apply (m cc : Fin 64) : (iblk1 V c 3 t : Vec Ideal S64x64 .f32) (ix2 m cc) = V c main_v0 (ix2 m cc) := by
  obtain ⟨-, -, -, ⟨e0, e1⟩, -⟩ := idx_facts t
  unfold iblk1
  rw [View.read_apply]
  show V c main_v0 _ = V c main_v0 _
  congr 1
  funext a
  apply Fin.ext
  match a with
  | ⟨0, _⟩ => show win1_3.index t (0 : Fin 2) * 64 + 1 * m.val = m.val; rw [e0]; omega
  | ⟨1, _⟩ => show win1_3.index t (1 : Fin 2) * 64 + 1 * cc.val = cc.val; rw [e1]; omega

theorem w1r_apply (m : Fin 64) (j : Fin 3) : (iblk1 V c 4 t : Vec Ideal S64x3 .f32) (ix2 m j) = V c main_v1 (ix2 m j) := by
  obtain ⟨-, -, -, -, ⟨e0, e1⟩, -⟩ := idx_facts t
  unfold iblk1
  rw [View.read_apply]
  show V c main_v1 _ = V c main_v1 _
  congr 1
  funext a
  apply Fin.ext
  match a with
  | ⟨0, _⟩ => show win1_4.index t (0 : Fin 2) * 64 + 1 * m.val = m.val; rw [e0]; omega
  | ⟨1, _⟩ => show win1_4.index t (1 : Fin 2) * 3 + 1 * j.val = j.val; rw [e1]; omega

theorem w2_apply (o : Fin 128) (m : Fin 64) : (iblk1 V c 5 t : Vec Ideal S128x64 .f32) (ix2 o m) = V c main_arg7 (ix2 o m) := by
  obtain ⟨-, -, -, -, -, ⟨e0, e1⟩, -⟩ := idx_facts t
  unfold iblk1
  rw [View.read_apply]
  show V c main_arg7 _ = V c main_arg7 _
  congr 1
  funext a
  apply Fin.ext
  match a with
  | ⟨0, _⟩ => show win1_5.index t (0 : Fin 2) * 128 + 1 * o.val = o.val; rw [e0]; omega
  | ⟨1, _⟩ => show win1_5.index t (1 : Fin 2) * 64 + 1 * m.val = m.val; rw [e1]; omega

theorem g1_apply (m : Fin 64) : (iblk1 V c 6 t : Vec Ideal S1x64 .f32) (ix2 (0 : Fin 1) m) = V c main_v2 (ix2 (0 : Fin 1) m) := by
  obtain ⟨-, -, -, -, -, -, ⟨e0, e1⟩, -⟩ := idx_facts t
  unfold iblk1
  rw [View.read_apply]
  show V c main_v2 _ = V c main_v2 _
  congr 1
  funext a
  apply Fin.ext
  match a with
  | ⟨0, _⟩ => show win1_6.index t (0 : Fin 2) * 1 + 1 * 0 = 0; rw [e0]
  | ⟨1, _⟩ => show win1_6.index t (1 : Fin 2) * 64 + 1 * m.val = m.val; rw [e1]; omega

theorem b1_apply (m : Fin 64) : (iblk1 V c 7 t : Vec Ideal S1x64 .f32) (ix2 (0 : Fin 1) m) = V c main_v3 (ix2 (0 : Fin 1) m) := by
  obtain ⟨-, -, -, -, -, -, -, ⟨e0, e1⟩, -⟩ := idx_facts t
  unfold iblk1
  rw [View.read_apply]
  show V c main_v3 _ = V c main_v3 _
  congr 1
  funext a
  apply Fin.ext
  match a with
  | ⟨0, _⟩ => show win1_7.index t (0 : Fin 2) * 1 + 1 * 0 = 0; rw [e0]
  | ⟨1, _⟩ => show win1_7.index t (1 : Fin 2) * 64 + 1 * m.val = m.val; rw [e1]; omega

end WholeReads

/-- The second layer of the block at point t: every row against every output channel. -/
def blk2 (c : Dev nD) (t : Fin cfg1.N) : FVec Ideal S8192x128 .f32 :=
  k1_pay6 (k1_pay3 (iblk1 V c 0 t) (iblk1 V c 1 t) (iblk1 V c 2 t) (iblk1 V c 3 t) (iblk1 V c 4 t)) (k1_pay4 (iblk1 V c 8 t))
    (k1_pay5 (iblk1 V c 9 t)) (iblk1 V c 6 t) (iblk1 V c 7 t) (iblk1 V c 5 t)

/-- The specification's second layer on the arrays as the sweep finds them. -/
abbrev X2 (c : Dev nD) (b : Fin 8) (s : Fin 4096) (k : Fin 32) (o : Fin 128) : EReal :=
  Cert.Spec.x2 (V c main_arg3) (V c main_arg2) (V c main_arg0) (V c main_v0) (V c main_v1) (V c main_arg7)
    (V c main_v2) (V c main_v3) (V c main_v23) (V c main_v25) b s k o

/-- Row i·32 + kk of block q of batch entry b is point 256·q + i, neighbour kk: the block's second layer is the specification's. -/
theorem blk2_apply (c : Dev nD) (t : Fin cfg1.N) (b : Fin 8) (q : Fin 16) (ht : t.val = 16 * b.val + q.val)
    (i : Fin 256) (kk : Fin 32) (r : Fin 8192) (hr : r.val = i.val * 32 + kk.val) (s : Fin 4096)
    (hs : s.val = 256 * q.val + i.val) (o : Fin 128) :
    blk2 V c t (ix2 r o) = X2 V c b s kk o := by
  unfold blk2
  refine (pay6_apply (k1_pay3 (iblk1 V c 0 t) (iblk1 V c 1 t) (iblk1 V c 2 t) (iblk1 V c 3 t) (iblk1 V c 4 t))
    (k1_pay4 (iblk1 V c 8 t)) (k1_pay5 (iblk1 V c 9 t)) (iblk1 V c 6 t) (iblk1 V c 7 t) (iblk1 V c 5 t) r o).trans ?_
  unfold X2 Cert.Spec.x2 Cert.Spec.h1
  refine Finset.sum_congr rfl fun m _ => congrArg₂ (· * ·) ?_ (w2_apply V c t o m)
  have e1 : k1_pay3 (F := Ideal) (iblk1 V c 0 t) (iblk1 V c 1 t) (iblk1 V c 2 t) (iblk1 V c 3 t) (iblk1 V c 4 t) (ix2 r m)
      = Cert.Spec.x1 (V c main_arg3) (V c main_arg2) (V c main_arg0) (V c main_v0) (V c main_v1) b s kk m := by
    refine (pay3_apply (iblk1 V c 0 t) (iblk1 V c 1 t) (iblk1 V c 2 t) (iblk1 V c 3 t) (iblk1 V c 4 t) i kk m r hr).trans ?_
    unfold Cert.Spec.x1
    refine congrArg₂ (· + ·) ?_ ?_
    · exact Finset.sum_congr rfl fun cc _ =>
        congrArg₂ (· * ·) (feat_apply V c t b q ht i kk cc s hs) (w1f_apply V c t m cc)
    · exact Finset.sum_congr rfl fun j _ =>
        congrArg₂ (· * ·) (congrArg₂ (· - ·) (xyz_apply V c t b q ht i kk j s hs) (cxyz_apply V c t b q ht i j s hs))
          (w1r_apply V c t m j)
  have e2 : k1_pay4 (F := Ideal) (iblk1 V c 8 t) (ix1 m) = V c main_v23 (ix3 b (0 : Fin 1) m) :=
    (pay4_apply (iblk1 V c 8 t) m).trans (mean_apply V c t b q ht m)
  have e3 : k1_pay5 (F := Ideal) (iblk1 V c 9 t) (ix1 m) = V c main_v25 (ix3 b (0 : Fin 1) m) :=
    (pay5_apply (iblk1 V c 9 t) m).trans (inv_apply V c t b q ht m)
  rw [e1, e2, e3, g1_apply V c t m, b1_apply V c t m]

/-- The total of the second layer over the rows of the block at point n, per output channel (zero past the grid). -/
def tot (c : Dev nD) (o : Fin 128) (n : ℕ) : EReal :=
  if h : n < cfg1.N then ∑ r : Fin 8192, blk2 V c ⟨n, h⟩ (ix2 r o) else 0

/-- The total of its squares. -/
def totsq (c : Dev nD) (o : Fin 128) (n : ℕ) : EReal :=
  if h : n < cfg1.N then ∑ r : Fin 8192, blk2 V c ⟨n, h⟩ (ix2 r o) * blk2 V c ⟨n, h⟩ (ix2 r o) else 0

/-- The zero blocks a batch entry's first point stores read 0. -/
theorem pay1_apply (j : S1x1x128.Idx) : k1_pay1 (F := Ideal) j = 0 := Ideal.ofBits_zero_f32
theorem pay2_apply (j : S1x1x128.Idx) : k1_pay2 (F := Ideal) j = 0 := Ideal.ofBits_zero_f32

/-- At a batch entry's first point the two blocks hold that point's totals. -/
theorem step_A (c : Dev nD) (o : Fin 128) (t : Fin cfg1.N) (h0 : t.val % 16 = 0) :
    (outsAt1 V c t.val t.isLt).1 (ix3 (0 : Fin 1) (0 : Fin 1) o) = tot V c o t.val
    ∧ (outsAt1 V c t.val t.isLt).2 (ix3 (0 : Fin 1) (0 : Fin 1) o) = totsq V c o t.val := by
  rw [outsAt1_A V c t h0]
  dsimp only
  constructor
  · refine (congrFun (out_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 (0 : Fin 1) (0 : Fin 1) o)).trans ?_
    refine (pay7_apply (k1_pay3 (iblk1 V c 0 t) (iblk1 V c 1 t) (iblk1 V c 2 t) (iblk1 V c 3 t) (iblk1 V c 4 t)) (k1_pay4 (iblk1 V c 8 t)) (k1_pay5 (iblk1 V c 9 t)) (iblk1 V c 6 t) (iblk1 V c 7 t) (iblk1 V c 5 t) (k1_pay1 (F := Ideal)) o).trans ?_
    rw [pay1_apply, zero_add]
    unfold tot
    rw [dif_pos t.isLt]
    rfl
  · refine (congrFun (out_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) (ix3 (0 : Fin 1) (0 : Fin 1) o)).trans ?_
    refine (pay8_apply (k1_pay3 (iblk1 V c 0 t) (iblk1 V c 1 t) (iblk1 V c 2 t) (iblk1 V c 3 t) (iblk1 V c 4 t)) (k1_pay4 (iblk1 V c 8 t)) (k1_pay5 (iblk1 V c 9 t)) (iblk1 V c 6 t) (iblk1 V c 7 t) (iblk1 V c 5 t) (k1_pay2 (F := Ideal)) o).trans ?_
    rw [pay2_apply, zero_add]
    unfold totsq
    rw [dif_pos t.isLt]
    rfl

/-- At a later point each block holds what the point before left plus this point's totals. -/
theorem step_B (c : Dev nD) (o : Fin 128) (t : Fin cfg1.N) (h0 : ¬t.val % 16 = 0) :
    (outsAt1 V c t.val t.isLt).1 (ix3 (0 : Fin 1) (0 : Fin 1) o)
        = (outsAt1 V c (t.val - 1) (Nat.lt_of_le_of_lt (Nat.sub_le _ _) t.isLt)).1 (ix3 (0 : Fin 1) (0 : Fin 1) o) + tot V c o t.val
    ∧ (outsAt1 V c t.val t.isLt).2 (ix3 (0 : Fin 1) (0 : Fin 1) o)
        = (outsAt1 V c (t.val - 1) (Nat.lt_of_le_of_lt (Nat.sub_le _ _) t.isLt)).2 (ix3 (0 : Fin 1) (0 : Fin 1) o) + totsq V c o t.val := by
  rw [outsAt1_B V c t h0]
  dsimp only
  constructor
  · refine (congrFun (out_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) (ix3 (0 : Fin 1) (0 : Fin 1) o)).trans ?_
    refine (pay7_apply (k1_pay3 (iblk1 V c 0 t) (iblk1 V c 1 t) (iblk1 V c 2 t) (iblk1 V c 3 t) (iblk1 V c 4 t)) (k1_pay4 (iblk1 V c 8 t)) (k1_pay5 (iblk1 V c 9 t)) (iblk1 V c 6 t) (iblk1 V c 7 t) (iblk1 V c 5 t) (outsAt1 V c (t.val - 1) (Nat.lt_of_le_of_lt (Nat.sub_le _ _) t.isLt)).1 o).trans ?_
    unfold tot
    rw [dif_pos t.isLt]
    rfl
  · refine (congrFun (out_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2) (ix3 (0 : Fin 1) (0 : Fin 1) o)).trans ?_
    refine (pay8_apply (k1_pay3 (iblk1 V c 0 t) (iblk1 V c 1 t) (iblk1 V c 2 t) (iblk1 V c 3 t) (iblk1 V c 4 t)) (k1_pay4 (iblk1 V c 8 t)) (k1_pay5 (iblk1 V c 9 t)) (iblk1 V c 6 t) (iblk1 V c 7 t) (iblk1 V c 5 t) (outsAt1 V c (t.val - 1) (Nat.lt_of_le_of_lt (Nat.sub_le _ _) t.isLt)).2 o).trans ?_
    unfold totsq
    rw [dif_pos t.isLt]
    rfl

/-- A run of 16 consecutive points starts at a multiple of 16: there the running sum is the point's own term. -/
theorem run_sum_start {M : Type*} [AddCommMonoid M] (f : ℕ → M) (n : ℕ) (h0 : n % 16 = 0) :
    ∑ j ∈ Finset.range (n % 16 + 1), f (16 * (n / 16) + j) = f n := by
  have e : 16 * (n / 16) = n := by omega
  rw [h0, e, Finset.sum_range_one, Nat.add_zero]

/-- Inside a run the running sum grows by the point's term. -/
theorem run_sum_step {M : Type*} [AddCommMonoid M] (f : ℕ → M) (k : ℕ) (h0 : ¬(k + 1) % 16 = 0) :
    ∑ j ∈ Finset.range ((k + 1) % 16 + 1), f (16 * ((k + 1) / 16) + j)
      = (∑ j ∈ Finset.range (k % 16 + 1), f (16 * (k / 16) + j)) + f (k + 1) := by
  have e1 : (k + 1) % 16 = k % 16 + 1 := by omega
  have e2 : (k + 1) / 16 = k / 16 := by omega
  have e3 : 16 * (k / 16) + (k % 16 + 1) = k + 1 := by omega
  rw [e1, e2, Finset.sum_range_succ, e3]

/-- After point n the two blocks hold the totals over the points of n's batch entry up to n. -/
theorem outs_eq (c : Dev nD) (o : Fin 128) : ∀ (n : ℕ) (h : n < cfg1.N),
    (outsAt1 V c n h).1 (ix3 (0 : Fin 1) (0 : Fin 1) o) = ∑ j ∈ Finset.range (n % 16 + 1), tot V c o (16 * (n / 16) + j)
    ∧ (outsAt1 V c n h).2 (ix3 (0 : Fin 1) (0 : Fin 1) o) = ∑ j ∈ Finset.range (n % 16 + 1), totsq V c o (16 * (n / 16) + j) := by
  intro n
  induction n with
  | zero =>
    intro h
    have hA := step_A V c o ⟨0, h⟩ (Nat.zero_mod 16)
    exact ⟨hA.1.trans (run_sum_start (tot V c o) 0 (Nat.zero_mod 16)).symm,
      hA.2.trans (run_sum_start (totsq V c o) 0 (Nat.zero_mod 16)).symm⟩
  | succ k ih =>
    intro h
    by_cases h0 : (k + 1) % 16 = 0
    · have hA := step_A V c o ⟨k + 1, h⟩ h0
      exact ⟨hA.1.trans (run_sum_start (tot V c o) (k + 1) h0).symm,
        hA.2.trans (run_sum_start (totsq V c o) (k + 1) h0).symm⟩
    · have hB := step_B V c o ⟨k + 1, h⟩ h0
      have ih' := ih (Nat.lt_of_succ_lt h)
      refine ⟨hB.1.trans ?_, hB.2.trans ?_⟩
      · rw [run_sum_step (tot V c o) k h0]
        exact congrArg (· + tot V c o (k + 1)) ih'.1
      · rw [run_sum_step (totsq V c o) k h0]
        exact congrArg (· + totsq V c o (k + 1)) ih'.2

/-- A [1, 1, 128] block is determined by its entries (0, 0, o). -/
theorem block_ext (f g : S1x1x128.Idx → EReal)
    (h : ∀ o : Fin 128, f (ix3 (0 : Fin 1) (0 : Fin 1) o) = g (ix3 (0 : Fin 1) (0 : Fin 1) o)) : f = g := by
  funext y
  obtain ⟨u0, u1, o, rfl⟩ : ∃ (u0 : Fin 1) (u1 : Fin 1) (o : Fin 128), y = ix3 u0 u1 o := ⟨y 0, y 1, y 2, eq_ix3 y⟩
  obtain rfl : u0 = 0 := Subsingleton.elim _ _
  obtain rfl : u1 = 0 := Subsingleton.elim _ _
  exact h o

/-- What the array of totals ends holding: per batch entry and channel, the totals of the entry's 16 points. -/
def G10 (c : Dev nD) : Buf (Elt Ideal) ((c : Thread nD τ).loc main_v26_0) :=
  (fun i : S8x1x128.Idx => ∑ j ∈ Finset.range 16, tot V c (i 2 : Fin 128) (16 * (i 0 : Fin 8).val + j) : Arr3 8 1 128)

/-- … and the array of totals of squares. -/
def G11 (c : Dev nD) : Buf (Elt Ideal) ((c : Thread nD τ).loc main_v26_1) :=
  (fun i : S8x1x128.Idx => ∑ j ∈ Finset.range 16, totsq V c (i 2 : Fin 128) (16 * (i 0 : Fin 8).val + j) : Arr3 8 1 128)

/-- The last point of a batch entry writes back the entry's block of the totals. -/
theorem flushed10_eq (c : Dev nD) (t : Fin cfg1.N) (hf : (cfg1.win 10).flush t = true) :
    (dat1 V c).flushed 10 t = ((cfg1.win 10).blk t).view.read (Elt Ideal) (G10 V c) := by
  have h15 : t.val % 16 = 15 := (flush1_10 t).mp hf
  obtain ⟨-, -, -, -, -, -, -, -, -, -, ⟨e0, e1, e2⟩, -⟩ := idx_facts t
  have hN : cfg1.N = 128 := N_1
  have hb : t.val / 16 < 8 := by have := t.isLt; omega
  show (cfg1.win 10).cut (grid1.coords t) ((dat1 V c).after 10 t) = _
  rw [after1_10]
  refine block_ext _ _ fun o => ?_
  rw [View.read_apply]
  show (outsAt1 V c t.val t.isLt).1 (ix3 (0 : Fin 1) (0 : Fin 1) o)
    = G10 V c (((cfg1.win 10).blk t).view.emb (ix3 (0 : Fin 1) (0 : Fin 1) o))
  have hemb : ((cfg1.win 10).blk t).view.emb (ix3 (0 : Fin 1) (0 : Fin 1) o)
      = (ix3 (⟨t.val / 16, hb⟩ : Fin 8) (0 : Fin 1) o : S8x1x128.Idx) := by
    funext a
    apply Fin.ext
    match a with
    | ⟨0, _⟩ => show win1_10.index t (0 : Fin 3) * 1 + 1 * 0 = t.val / 16; rw [e0]; omega
    | ⟨1, _⟩ => show win1_10.index t (1 : Fin 3) * 1 + 1 * 0 = 0; rw [e1]
    | ⟨2, _⟩ => show win1_10.index t (2 : Fin 3) * 128 + 1 * o.val = o.val; rw [e2]; omega
  rw [hemb, (outs_eq V c o t.val t.isLt).1, h15]
  rfl

theorem flushed11_eq (c : Dev nD) (t : Fin cfg1.N) (hf : (cfg1.win 11).flush t = true) :
    (dat1 V c).flushed 11 t = ((cfg1.win 11).blk t).view.read (Elt Ideal) (G11 V c) := by
  have h15 : t.val % 16 = 15 := (flush1_11 t).mp hf
  obtain ⟨-, -, -, -, -, -, -, -, -, -, -, ⟨e0, e1, e2⟩⟩ := idx_facts t
  have hN : cfg1.N = 128 := N_1
  have hb : t.val / 16 < 8 := by have := t.isLt; omega
  show (cfg1.win 11).cut (grid1.coords t) ((dat1 V c).after 11 t) = _
  rw [after1_11]
  refine block_ext _ _ fun o => ?_
  rw [View.read_apply]
  show (outsAt1 V c t.val t.isLt).2 (ix3 (0 : Fin 1) (0 : Fin 1) o)
    = G11 V c (((cfg1.win 11).blk t).view.emb (ix3 (0 : Fin 1) (0 : Fin 1) o))
  have hemb : ((cfg1.win 11).blk t).view.emb (ix3 (0 : Fin 1) (0 : Fin 1) o)
      = (ix3 (⟨t.val / 16, hb⟩ : Fin 8) (0 : Fin 1) o : S8x1x128.Idx) := by
    funext a
    apply Fin.ext
    match a with
    | ⟨0, _⟩ => show win1_11.index t (0 : Fin 3) * 1 + 1 * 0 = t.val / 16; rw [e0]; omega
    | ⟨1, _⟩ => show win1_11.index t (1 : Fin 3) * 1 + 1 * 0 = 0; rw [e1]
    | ⟨2, _⟩ => show win1_11.index t (2 : Fin 3) * 128 + 1 * o.val = o.val; rw [e2]; omega
  rw [hemb, (outs_eq V c o t.val t.isLt).2, h15]
  rfl

/-- An index of the [8, 1, 128] array is in point t's block iff each coordinate is in the block's range on its axis. -/
theorem mem_blk10 (t : Fin cfg1.N) (i : S8x1x128.Idx) :
    i ∈ ((cfg1.win 10).blk t).view.set ↔ ∀ a : Fin 3, win1_10.index t a * S1x1x128.size a ≤ (i a).val
      ∧ (i a).val < win1_10.index t a * S1x1x128.size a + S1x1x128.size a := by
  show i ∈ ((View.whole main_v26_0).slice (win1_10.rect t)).set ↔ _
  rw [View.set_slice_whole, Rect.mem_set_unit]
  exact Iff.rfl

theorem mem_blk11 (t : Fin cfg1.N) (i : S8x1x128.Idx) :
    i ∈ ((cfg1.win 11).blk t).view.set ↔ ∀ a : Fin 3, win1_11.index t a * S1x1x128.size a ≤ (i a).val
      ∧ (i a).val < win1_11.index t a * S1x1x128.size a + S1x1x128.size a := by
  show i ∈ ((View.whole main_v26_1).slice (win1_11.rect t)).set ↔ _
  rw [View.set_slice_whole, Rect.mem_set_unit]
  exact Iff.rfl

/-- The totals of a batch entry's 16 points, 256 × 32 rows each, are the totals over its 4096 points and 32 neighbours:
    point q's row i·32 + kk is point 256·q + i, neighbour kk. -/
theorem regroup (c : Dev nD) (b : Fin 8) (o : Fin 128) :
    ∑ j ∈ Finset.range 16, tot V c o (16 * b.val + j) = ∑ s : Fin 4096, ∑ k : Fin 32, X2 V c b s k o := by
  have hN : cfg1.N = 128 := N_1
  rw [Finset.sum_range, Cert.SumBlocks.sum_fin_blocks 16 256 (by norm_num) (fun s : Fin 4096 => ∑ k : Fin 32, X2 V c b s k o)]
  refine Finset.sum_congr rfl fun q _ => ?_
  have hlt : 16 * b.val + q.val < cfg1.N := by have := b.isLt; have := q.isLt; omega
  unfold tot
  rw [dif_pos hlt, Cert.SumBlocks.sum_fin_blocks 256 32 (by norm_num) (fun r : Fin 8192 => blk2 V c ⟨16 * b.val + q.val, hlt⟩ (ix2 r o))]
  refine Finset.sum_congr rfl fun i _ => Finset.sum_congr rfl fun kk _ => ?_
  exact blk2_apply V c ⟨16 * b.val + q.val, hlt⟩ b q rfl i kk ⟨i.val * 32 + kk.val, Cert.SumBlocks.block_lt i kk⟩ rfl
    ⟨q.val * 256 + i.val, Cert.SumBlocks.block_lt q i⟩ (by show q.val * 256 + i.val = 256 * q.val + i.val; omega) o

theorem regroup_sq (c : Dev nD) (b : Fin 8) (o : Fin 128) :
    ∑ j ∈ Finset.range 16, totsq V c o (16 * b.val + j)
      = ∑ s : Fin 4096, ∑ k : Fin 32, X2 V c b s k o * X2 V c b s k o := by
  have hN : cfg1.N = 128 := N_1
  rw [Finset.sum_range, Cert.SumBlocks.sum_fin_blocks 16 256 (by norm_num)
    (fun s : Fin 4096 => ∑ k : Fin 32, X2 V c b s k o * X2 V c b s k o)]
  refine Finset.sum_congr rfl fun q _ => ?_
  have hlt : 16 * b.val + q.val < cfg1.N := by have := b.isLt; have := q.isLt; omega
  unfold totsq
  rw [dif_pos hlt, Cert.SumBlocks.sum_fin_blocks 256 32 (by norm_num)
    (fun r : Fin 8192 => blk2 V c ⟨16 * b.val + q.val, hlt⟩ (ix2 r o) * blk2 V c ⟨16 * b.val + q.val, hlt⟩ (ix2 r o))]
  refine Finset.sum_congr rfl fun i _ => Finset.sum_congr rfl fun kk _ => ?_
  have e := blk2_apply V c ⟨16 * b.val + q.val, hlt⟩ b q rfl i kk ⟨i.val * 32 + kk.val, Cert.SumBlocks.block_lt i kk⟩ rfl
    ⟨q.val * 256 + i.val, Cert.SumBlocks.block_lt q i⟩ (by show q.val * 256 + i.val = 256 * q.val + i.val; omega) o
  exact congrArg₂ (· * ·) e e

/-- Per (batch entry, output channel): the total of the second layer over all points and neighbours. -/
theorem sum_eq (c : Dev nD) (b : Fin 8) (u : Fin 1) (o : Fin 128) :
    ((dat1 (F := Ideal) V c).arrAt 10 cfg1.N : Arr3 8 1 128) (ix3 b u o)
      = ∑ s : Fin 4096, ∑ k : Fin 32,
          Cert.Spec.x2 (V c main_arg3) (V c main_arg2) (V c main_arg0) (V c main_v0) (V c main_v1) (V c main_arg7)
            (V c main_v2) (V c main_v3) (V c main_v23) (V c main_v25) b s k o := by
  have hN : cfg1.N = 128 := N_1
  have hlt : 16 * b.val + 15 < cfg1.N := by have := b.isLt; omega
  have hf : (cfg1.win 10).flush ⟨16 * b.val + 15, hlt⟩ = true :=
    (flush1_10 ⟨16 * b.val + 15, hlt⟩).mpr (by show (16 * b.val + 15) % 16 = 15; omega)
  obtain ⟨-, -, -, -, -, -, -, -, -, -, ⟨e0, e1, e2⟩, -⟩ := idx_facts ⟨16 * b.val + 15, hlt⟩
  have hu : u.val = 0 := by omega
  have hmem : (ix3 b u o : S8x1x128.Idx) ∈ ((cfg1.win 10).blk ⟨16 * b.val + 15, hlt⟩).view.set := by
    rw [mem_blk10]
    intro a
    match a with
    | ⟨0, _⟩ =>
      show win1_10.index ⟨16 * b.val + 15, hlt⟩ (0 : Fin 3) * 1 ≤ b.val
        ∧ b.val < win1_10.index ⟨16 * b.val + 15, hlt⟩ (0 : Fin 3) * 1 + 1
      rw [e0]; show (16 * b.val + 15) / 16 * 1 ≤ b.val ∧ b.val < (16 * b.val + 15) / 16 * 1 + 1; omega
    | ⟨1, _⟩ =>
      show win1_10.index ⟨16 * b.val + 15, hlt⟩ (1 : Fin 3) * 1 ≤ u.val
        ∧ u.val < win1_10.index ⟨16 * b.val + 15, hlt⟩ (1 : Fin 3) * 1 + 1
      rw [e1]; omega
    | ⟨2, _⟩ =>
      show win1_10.index ⟨16 * b.val + 15, hlt⟩ (2 : Fin 3) * 128 ≤ o.val
        ∧ o.val < win1_10.index ⟨16 * b.val + 15, hlt⟩ (2 : Fin 3) * 128 + 128
      rw [e2]; have := o.isLt; omega
  refine ((dat1 V c).arrAt_apply_of_mem 10 (G10 V c) (fun t hf => flushed10_eq V c t hf) cfg1.N ⟨16 * b.val + 15, hlt⟩
    (ix3 b u o) hlt hf hmem).trans ?_
  exact regroup V c b o

/-- Per (batch entry, output channel): the total of squares of the second layer over all points and neighbours. -/
theorem sumsq_eq (c : Dev nD) (b : Fin 8) (u : Fin 1) (o : Fin 128) :
    ((dat1 (F := Ideal) V c).arrAt 11 cfg1.N : Arr3 8 1 128) (ix3 b u o)
      = ∑ s : Fin 4096, ∑ k : Fin 32,
          Cert.Spec.x2 (V c main_arg3) (V c main_arg2) (V c main_arg0) (V c main_v0) (V c main_v1) (V c main_arg7)
            (V c main_v2) (V c main_v3) (V c main_v23) (V c main_v25) b s k o
          * Cert.Spec.x2 (V c main_arg3) (V c main_arg2) (V c main_arg0) (V c main_v0) (V c main_v1) (V c main_arg7)
            (V c main_v2) (V c main_v3) (V c main_v23) (V c main_v25) b s k o := by
  have hN : cfg1.N = 128 := N_1
  have hlt : 16 * b.val + 15 < cfg1.N := by have := b.isLt; omega
  have hf : (cfg1.win 11).flush ⟨16 * b.val + 15, hlt⟩ = true :=
    (flush1_11 ⟨16 * b.val + 15, hlt⟩).mpr (by show (16 * b.val + 15) % 16 = 15; omega)
  obtain ⟨-, -, -, -, -, -, -, -, -, -, -, ⟨e0, e1, e2⟩⟩ := idx_facts ⟨16 * b.val + 15, hlt⟩
  have hu : u.val = 0 := by omega
  have hmem : (ix3 b u o : S8x1x128.Idx) ∈ ((cfg1.win 11).blk ⟨16 * b.val + 15, hlt⟩).view.set := by
    rw [mem_blk11]
    intro a
    match a with
    | ⟨0, _⟩ =>
      show win1_11.index ⟨16 * b.val + 15, hlt⟩ (0 : Fin 3) * 1 ≤ b.val
        ∧ b.val < win1_11.index ⟨16 * b.val + 15, hlt⟩ (0 : Fin 3) * 1 + 1
      rw [e0]; show (16 * b.val + 15) / 16 * 1 ≤ b.val ∧ b.val < (16 * b.val + 15) / 16 * 1 + 1; omega
    | ⟨1, _⟩ =>
      show win1_11.index ⟨16 * b.val + 15, hlt⟩ (1 : Fin 3) * 1 ≤ u.val
        ∧ u.val < win1_11.index ⟨16 * b.val + 15, hlt⟩ (1 : Fin 3) * 1 + 1
      rw [e1]; omega
    | ⟨2, _⟩ =>
      show win1_11.index ⟨16 * b.val + 15, hlt⟩ (2 : Fin 3) * 128 ≤ o.val
        ∧ o.val < win1_11.index ⟨16 * b.val + 15, hlt⟩ (2 : Fin 3) * 128 + 128
      rw [e2]; have := o.isLt; omega
  refine ((dat1 V c).arrAt_apply_of_mem 11 (G11 V c) (fun t hf => flushed11_eq V c t hf) cfg1.N ⟨16 * b.val + 15, hlt⟩
    (ix3 b u o) hlt hf hmem).trans ?_
  exact regroup_sq V c b o

end Cert.KernelIdeal.R1

end
-- ==== Proof.R2Value.lean ====
/-
  The third sweep's value.  Its grid is (batch entry, block of 256 points), every point writing its own [1, 256, 128] block of the
  result.  At a point the body recomputes the first linear layer of the block's 256 × 32 rows, normalises, scales, shifts and
  rectifies it with the batch entry's first-layer statistics, applies the second linear layer, normalises and rectifies that
  with the second-layer statistics, and takes the maximum over each point's 32 neighbours.  The blocks tile the result array,
  so the array after the last point holds the pooled value at every (batch entry, point, channel).
-/
import proofs.«147857_j86655260164510_2_alg».proof.Proof.Gen.KernelIdeal.Frame
import proofs.«147857_j86655260164510_2_alg».proof.Proof.Spec
import proofs.«147857_j86655260164510_2_alg».proof.Proof.LibMergeSplit
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat)
open Cert.Spec (Arr2 Arr3 Arr4)

/-! ## Rows of a block -/

/-- The row of point `p`, neighbour `k` among the 256 · 32 rows of a block. -/
def row (p : Fin 256) (k : Fin 32) : Fin 8192 := ⟨p.val * 32 + k.val, by have := p.isLt; have := k.isLt; omega⟩

theorem row_val (p : Fin 256) (k : Fin 32) : (row p k).val = p.val * 32 + k.val := rfl

/-! ## The three matrix products at an index

Each contracts the left operand's columns against the right operand's rows, into a zero accumulator: at (r, c) the sum
over the contraction coordinate of left (r, ·) times right (·, c). -/

section Dot1
theorem d1_lhs0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem d1_lhs1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem d1_rhs0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem d1_rhs1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The features' product: [8192, 64] rows against the [64, 64] transposed weight columns. -/
theorem matmul1_apply (lhs : FVec Ideal S8192x64 .bf16) (rhs : FVec Ideal S64x64 .bf16) (r : Fin 8192) (m : Fin 64) :
    matmul dot_S8192x64_S64x64_S8192x64_1_0_0_1_n_n none lhs rhs (constant (F := Ideal) S8192x64 .f32 0x00000000#32) (ix2 r m)
      = ∑ c : Fin 64, lhs (ix2 r c) * rhs (ix2 c m) := by
  refine (Ideal.matmul_constant_zero_apply dot_S8192x64_S64x64_S8192x64_1_0_0_1_n_n none lhs rhs (ix2 r m)).trans ?_
  rw [← Equiv.sum_comp (contrEquiv1 dot_S8192x64_S64x64_S8192x64_1_0_0_1_n_n 64 rfl rfl).symm]
  refine Finset.sum_congr rfl fun c _ => ?_
  have hk := contrEquiv1_symm_val dot_S8192x64_S64x64_S8192x64_1_0_0_1_n_n 64 rfl rfl c
  have el : dot_S8192x64_S64x64_S8192x64_1_0_0_1_n_n.lhsIdx (ix2 r m)
      ((contrEquiv1 dot_S8192x64_S64x64_S8192x64_1_0_0_1_n_n 64 rfl rfl).symm c) = ix2 r c := funext fun a => Fin.ext (by
    match a with
    | ⟨0, _⟩ => exact d1_lhs0 _ _
    | ⟨1, _⟩ => exact (d1_lhs1 _ _).trans hk)
  have er : dot_S8192x64_S64x64_S8192x64_1_0_0_1_n_n.rhsIdx (ix2 r m)
      ((contrEquiv1 dot_S8192x64_S64x64_S8192x64_1_0_0_1_n_n 64 rfl rfl).symm c) = ix2 c m := funext fun a => Fin.ext (by
    match a with
    | ⟨0, _⟩ => exact (d1_rhs0 _ _).trans hk
    | ⟨1, _⟩ => exact d1_rhs1 _ _)
  rw [el, er]
end Dot1

section Dot2
theorem d2_lhs0 (i : S8192x64.Idx) (q : dot_S8192x3_S3x64_S8192x64_1_0_0_1_n_n.contr.Idx) :
    (dot_S8192x3_S3x64_S8192x64_1_0_0_1_n_n.lhsIdx i q 0).val = (i 0).val := by
  unfold DotDims.lhsIdx
  rw [dif_neg (show ¬(0 : Fin S8192x3.rank) ∈ dot_S8192x3_S3x64_S8192x64_1_0_0_1_n_n.lhsBatch by decide),
    dif_pos (show (0 : Fin S8192x3.rank) ∈ dot_S8192x3_S3x64_S8192x64_1_0_0_1_n_n.lhsNonContracting by decide)]
  rfl
theorem d2_lhs1 (i : S8192x64.Idx) (q : dot_S8192x3_S3x64_S8192x64_1_0_0_1_n_n.contr.Idx) :
    (dot_S8192x3_S3x64_S8192x64_1_0_0_1_n_n.lhsIdx i q 1).val = (q ⟨0, by decide⟩).val :=
  dot_S8192x3_S3x64_S8192x64_1_0_0_1_n_n.lhsIdx_val_of_single rfl i q
theorem d2_rhs0 (i : S8192x64.Idx) (q : dot_S8192x3_S3x64_S8192x64_1_0_0_1_n_n.contr.Idx) :
    (dot_S8192x3_S3x64_S8192x64_1_0_0_1_n_n.rhsIdx i q 0).val = (q ⟨0, by decide⟩).val :=
  dot_S8192x3_S3x64_S8192x64_1_0_0_1_n_n.rhsIdx_val_of_single rfl i q
theorem d2_rhs1 (i : S8192x64.Idx) (q : dot_S8192x3_S3x64_S8192x64_1_0_0_1_n_n.contr.Idx) :
    (dot_S8192x3_S3x64_S8192x64_1_0_0_1_n_n.rhsIdx i q 1).val = (i 1).val := by
  unfold DotDims.rhsIdx
  rw [dif_neg (show ¬(1 : Fin S3x64.rank) ∈ dot_S8192x3_S3x64_S8192x64_1_0_0_1_n_n.rhsBatch by decide),
    dif_pos (show (1 : Fin S3x64.rank) ∈ dot_S8192x3_S3x64_S8192x64_1_0_0_1_n_n.rhsNonContracting by decide)]
  rfl

/-- The relative coordinates' product: [8192, 3] rows against the [3, 64] transposed weight columns. -/
theorem matmul2_apply (lhs : FVec Ideal S8192x3 .bf16) (rhs : FVec Ideal S3x64 .bf16) (r : Fin 8192) (m : Fin 64) :
    matmul dot_S8192x3_S3x64_S8192x64_1_0_0_1_n_n none lhs rhs (constant (F := Ideal) S8192x64 .f32 0x00000000#32) (ix2 r m)
      = ∑ c : Fin 3, lhs (ix2 r c) * rhs (ix2 c m) := by
  refine (Ideal.matmul_constant_zero_apply dot_S8192x3_S3x64_S8192x64_1_0_0_1_n_n none lhs rhs (ix2 r m)).trans ?_
  rw [← Equiv.sum_comp (contrEquiv1 dot_S8192x3_S3x64_S8192x64_1_0_0_1_n_n 3 rfl rfl).symm]
  refine Finset.sum_congr rfl fun c _ => ?_
  have hk := contrEquiv1_symm_val dot_S8192x3_S3x64_S8192x64_1_0_0_1_n_n 3 rfl rfl c
  have el : dot_S8192x3_S3x64_S8192x64_1_0_0_1_n_n.lhsIdx (ix2 r m)
      ((contrEquiv1 dot_S8192x3_S3x64_S8192x64_1_0_0_1_n_n 3 rfl rfl).symm c) = ix2 r c := funext fun a => Fin.ext (by
    match a with
    | ⟨0, _⟩ => exact d2_lhs0 _ _
    | ⟨1, _⟩ => exact (d2_lhs1 _ _).trans hk)
  have er : dot_S8192x3_S3x64_S8192x64_1_0_0_1_n_n.rhsIdx (ix2 r m)
      ((contrEquiv1 dot_S8192x3_S3x64_S8192x64_1_0_0_1_n_n 3 rfl rfl).symm c) = ix2 c m := funext fun a => Fin.ext (by
    match a with
    | ⟨0, _⟩ => exact (d2_rhs0 _ _).trans hk
    | ⟨1, _⟩ => exact d2_rhs1 _ _)
  rw [el, er]
end Dot2

section Dot3
theorem d3_lhs0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide),
    dif_pos (show (0 : Fin S8192x64.rank) ∈ dot_S8192x64_S64x128_S8192x128_1_0_0_1_n_n.lhsNonContracting by decide)]
  rfl
theorem d3_lhs1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem d3_rhs0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem d3_rhs1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide),
    dif_pos (show (1 : Fin S64x128.rank) ∈ dot_S8192x64_S64x128_S8192x128_1_0_0_1_n_n.rhsNonContracting by decide)]
  rfl

/-- The second layer's product: [8192, 64] rows against the [64, 128] transposed second weight. -/
theorem matmul3_apply (lhs : FVec Ideal S8192x64 .bf16) (rhs : FVec Ideal S64x128 .bf16) (r : Fin 8192) (m : Fin 128) :
    matmul dot_S8192x64_S64x128_S8192x128_1_0_0_1_n_n none lhs rhs (constant (F := Ideal) S8192x128 .f32 0x00000000#32) (ix2 r m)
      = ∑ c : Fin 64, lhs (ix2 r c) * rhs (ix2 c m) := by
  refine (Ideal.matmul_constant_zero_apply dot_S8192x64_S64x128_S8192x128_1_0_0_1_n_n none lhs rhs (ix2 r m)).trans ?_
  rw [← Equiv.sum_comp (contrEquiv1 dot_S8192x64_S64x128_S8192x128_1_0_0_1_n_n 64 rfl rfl).symm]
  refine Finset.sum_congr rfl fun c _ => ?_
  have hk := contrEquiv1_symm_val dot_S8192x64_S64x128_S8192x128_1_0_0_1_n_n 64 rfl rfl c
  have el : dot_S8192x64_S64x128_S8192x128_1_0_0_1_n_n.lhsIdx (ix2 r m)
      ((contrEquiv1 dot_S8192x64_S64x128_S8192x128_1_0_0_1_n_n 64 rfl rfl).symm c) = ix2 r c := funext fun a => Fin.ext (by
    match a with
    | ⟨0, _⟩ => exact d3_lhs0 _ _
    | ⟨1, _⟩ => exact (d3_lhs1 _ _).trans hk)
  have er : dot_S8192x64_S64x128_S8192x128_1_0_0_1_n_n.rhsIdx (ix2 r m)
      ((contrEquiv1 dot_S8192x64_S64x128_S8192x128_1_0_0_1_n_n 64 rfl rfl).symm c) = ix2 c m := funext fun a => Fin.ext (by
    match a with
    | ⟨0, _⟩ => exact (d3_rhs0 _ _).trans hk
    | ⟨1, _⟩ => exact d3_rhs1 _ _)
  rw [el, er]
end Dot3

/-! ## Layout operations the body uses, read at an index given by coordinates -/

section Layout
variable {α : Type}

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An [a, 1, b] array broadcast to [a, c, b] reads, at (i, k, j), the operand at (i, 0, j). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    show 0 = if (1 : ℕ) = 1 then 0 else k.val
    rw [if_pos rfl]
  | ⟨2, _⟩ =>
    show j.val = if b = 1 then 0 else j.val
    split
    · have := j.isLt; omega
    · rfl

/-- A narrowing format change read at an index is the operand there. -/
theorem truncf_eq {s : Shape} {φ ψ : FTy} (a : FVec Ideal s φ) (h : ψ.bits < φ.bits) (i : s.Idx) {y : EReal} (e : a i = y) :
    (truncf ψ a h : FVec Ideal s ψ) i = y := e

end Layout

/-! ## Normalise, scale, shift, rectify: the pointwise chain at an index -/

theorem act_congr {x x' a a' b b' g g' β β' : EReal} (hx : x = x') (ha : a = a') (hb : b = b') (hg : g = g') (hβ : β = β') :
    Cert.Spec.act x a b g β = Cert.Spec.act x' a' b' g' β' := by
  subst hx ha hb hg hβ; rfl

/-- The printed chain, with the four statistics rows broadcast over the rows of X and the zero a broadcast scalar, is
    `act` of the entry and the rows' entries in its column. -/
theorem norm_apply {R C : ℕ} (X : FVec Ideal ⟨2, ![R, C]⟩ .f32) (a b g β : FVec Ideal ⟨2, ![1, C]⟩ .f32)
    (h : (⟨2, ![1, C]⟩ : Shape).Broadcasts ⟨2, ![R, C]⟩) (r : Fin R) (c : Fin C) :
    maximumf (addf (mulf (mulf (subf X (broadcastTo ⟨2, ![R, C]⟩ a h)) (broadcastTo ⟨2, ![R, C]⟩ b h)) (broadcastTo ⟨2, ![R, C]⟩ g h))
        (broadcastTo ⟨2, ![R, C]⟩ β h)) (broadcast ⟨2, ![R, C]⟩ (Scalar.ofBits (F := Ideal) .f32 0x00000000#32)) (ix2 r c)
      = Cert.Spec.act (X (ix2 r c)) (a (ix2 (0 : Fin 1) c)) (b (ix2 (0 : Fin 1) c)) (g (ix2 (0 : Fin 1) c)) (β (ix2 (0 : Fin 1) c)) := by
  show max ((X (ix2 r c) - broadcastTo ⟨2, ![R, C]⟩ a h (ix2 r c)) * broadcastTo ⟨2, ![R, C]⟩ b h (ix2 r c)
      * broadcastTo ⟨2, ![R, C]⟩ g h (ix2 r c) + broadcastTo ⟨2, ![R, C]⟩ β h (ix2 r c)) (Ideal.ofBits .f32 0x00000000#32) = _
  rw [broadcastTo_1b_ab_apply, broadcastTo_1b_ab_apply, broadcastTo_1b_ab_apply, broadcastTo_1b_ab_apply, Ideal.ofBits_zero_f32]
  rfl

/-! ## The maximum over the neighbours -/

/-- The reduction over axis 1 of a [256, 32, 128] array from the word 0xFF800000, at (p, o): the fold of max from the
    word's value over the 32 entries (p, ·, o). -/
theorem maxred_apply (src : FVec Ideal S256x32x128 .f32) (h : S256x32x128.Reduces [1] S256x128) (hφ : FKind.Formats .f32)
    (hacc : (0xFF800000#32 : BitVec 32) = FKind.maximumf.neutral .f32 hφ) (p : Fin 256) (o : Fin 128) :
    multiReduction .maximumf [1] S256x128 src 0xFF800000#32 h hφ hacc (ix2 p o)
      = (Finset.univ : Finset (Fin 32)).fold max (Ideal.ofBits .f32 0xFF800000#32) (fun k => src (ix3 p k o)) := by
  refine (Ideal.multiReduction_maximumf_single src 0xFF800000#32 h hφ hacc (ix2 p o)).trans ?_
  show (Finset.univ : Finset (Fin 32)).fold max (Ideal.ofBits .f32 0xFF800000#32) (fun k => src (h.lift (ix2 p o) k)) = _
  refine Finset.fold_congr fun k _ => congrArg src (funext fun a => Fin.ext ?_)
  match a with
  | ⟨0, _⟩ => rfl
  | ⟨1, _⟩ => rfl
  | ⟨2, _⟩ => rfl

/-! ## The body's payloads at an index -/

/-- The first linear layer of the block's row (p, k), at channel m, from the block's loads. -/
theorem pay2_apply (v0 : Vec Ideal S1x256x32x64 .f32) (v2 : Vec Ideal S1x256x32x3 .f32) (v4 : Vec Ideal S1x256x3 .f32)
    (v11 : Vec Ideal S64x64 .f32) (v13 : Vec Ideal S64x3 .f32) (p : Fin 256) (k : Fin 32) (m : Fin 64) :
    k2_pay2 v0 v2 v4 v11 v13 (ix2 (row p k) m)
      = (∑ c : Fin 64, v0 (ix4 (0 : Fin 1) p k c) * v11 (ix2 m c))
        + ∑ j : Fin 3, (v2 (ix4 (0 : Fin 1) p k j) - v4 (ix3 (0 : Fin 1) p j)) * v13 (ix2 m j) := by
  unfold k2_pay2
  dsimp only
  refine (addf_apply _ _ _).trans (congrArg₂ (· + ·) ?_ ?_)
  · refine (matmul1_apply _ _ _ _).trans (Finset.sum_congr rfl fun c _ => congrArg₂ (· * ·) ?_ ?_)
    · refine truncf_eq _ _ _ ((LibMergeSplit.merge_rows_apply _ _ p k c (row p k) rfl).trans ?_)
      exact shapeCast_1abc_abc_apply _ _ p k c
    · refine (transpose_ix2_apply _ _ c m).trans (truncf_eq _ _ _ ?_)
      exact congrFun (shapeCast_self v11 _) _
  · refine (matmul2_apply _ _ _ _).trans (Finset.sum_congr rfl fun j _ => congrArg₂ (· * ·) ?_ ?_)
    · refine truncf_eq _ _ _ ((LibMergeSplit.merge_rows_apply _ _ p k j (row p k) rfl).trans ?_)
      refine (subf_apply _ _ _).trans (congrArg₂ (· - ·) ?_ ?_)
      · exact shapeCast_1abc_abc_apply _ _ p k j
      · refine (broadcastTo_a1b_acb_apply _ _ p k j).trans ?_
        refine (shapeCast_ab_a1b_apply _ _ p (0 : Fin 1) j).trans ?_
        exact shapeCast_1ab_ab_apply v4 _ p j
    · refine (transpose_ix2_apply _ _ j m).trans (truncf_eq _ _ _ ?_)
      exact congrFun (shapeCast_self v13 _) _

/-- A [1, 1, 64] statistics block flattened to its 64 channels. -/
theorem pay3_apply (v24 : Vec Ideal S1x1x64 .f32) (m : Fin 64) : k2_pay3 v24 (ix1 m) = v24 (ix3 (0 : Fin 1) (0 : Fin 1) m) := by
  unfold k2_pay3
  exact shapeCast_11a_a_apply v24 _ m
theorem pay4_apply (v26 : Vec Ideal S1x1x64 .f32) (m : Fin 64) : k2_pay4 v26 (ix1 m) = v26 (ix3 (0 : Fin 1) (0 : Fin 1) m) := by
  unfold k2_pay4
  exact shapeCast_11a_a_apply v26 _ m
/-- A [1, 64] row flattened to its 64 channels. -/
theorem pay5_apply (v28 : Vec Ideal S1x64 .f32) (m : Fin 64) : k2_pay5 v28 (ix1 m) = v28 (ix2 (0 : Fin 1) m) := by
  unfold k2_pay5
  exact shapeCast_1a_a_apply v28 _ m

/-- The pooled value of point p at channel o, from the first layer's rows and the statistics and weight loads:
    normalise and rectify the first layer, apply the second, normalise and rectify, take the maximum over the neighbours. -/
theorem pay6_apply (v23 : FVec Ideal S8192x64 .f32) (v25 v27 v29 : FVec Ideal S64 .f32) (v30 : Vec Ideal S1x64 .f32)
    (v46 : Vec Ideal S128x64 .f32) (v51 v53 : Vec Ideal S1x1x128 .f32) (v55 v57 : Vec Ideal S1x128 .f32)
    (p : Fin 256) (o : Fin 128) :
    k2_pay6 v23 v25 v27 v29 v30 v46 v51 v53 v55 v57 (ix2 p o)
      = (Finset.univ : Finset (Fin 32)).fold max (Ideal.ofBits .f32 0xFF800000#32) (fun k =>
          Cert.Spec.act
            (∑ m : Fin 64, Cert.Spec.act (v23 (ix2 (row p k) m)) (v25 (ix1 m)) (v27 (ix1 m)) (v29 (ix1 m)) (v30 (ix2 (0 : Fin 1) m))
              * v46 (ix2 o m))
            (v51 (ix3 (0 : Fin 1) (0 : Fin 1) o)) (v53 (ix3 (0 : Fin 1) (0 : Fin 1) o))
            (v55 (ix2 (0 : Fin 1) o)) (v57 (ix2 (0 : Fin 1) o))) := by
  unfold k2_pay6
  dsimp only
  refine (maxred_apply _ _ _ _ p o).trans (Finset.fold_congr fun k _ => ?_)
  refine (LibMergeSplit.split_rows_apply _ _ p k o (row p k) rfl).trans ?_
  refine (norm_apply _ _ _ _ _ _ (row p k) o).trans (act_congr ?_ ?_ ?_ ?_ ?_)
  · refine (matmul3_apply _ _ _ _).trans (Finset.sum_congr rfl fun m _ => congrArg₂ (· * ·) ?_ ?_)
    · refine truncf_eq _ _ _ ((norm_apply _ _ _ _ _ _ (row p k) m).trans (act_congr rfl ?_ ?_ ?_ ?_))
      · exact shapeCast_a_1a_apply v25 _ (0 : Fin 1) m
      · exact shapeCast_a_1a_apply v27 _ (0 : Fin 1) m
      · exact shapeCast_a_1a_apply v29 _ (0 : Fin 1) m
      · exact (shapeCast_a_1a_apply _ _ (0 : Fin 1) m).trans (shapeCast_1a_a_apply v30 _ m)
    · exact (transpose_ix2_apply _ _ m o).trans (truncf_eq _ _ _ rfl)
  · exact (shapeCast_a_1a_apply _ _ (0 : Fin 1) o).trans (shapeCast_11a_a_apply v51 _ o)
  · exact (shapeCast_a_1a_apply _ _ (0 : Fin 1) o).trans (shapeCast_11a_a_apply v53 _ o)
  · exact (shapeCast_a_1a_apply _ _ (0 : Fin 1) o).trans (shapeCast_1a_a_apply v55 _ o)
  · exact (shapeCast_a_1a_apply _ _ (0 : Fin 1) o).trans (shapeCast_1a_a_apply v57 _ o)

/-- The stored value: the pooled rows with a leading unit axis. -/
theorem pay1_apply (v74 : FVec Ideal S256x128 .f32) (u : Fin 1) (p : Fin 256) (o : Fin 128) :
    k2_pay1 v74 (ix3 u p o) = v74 (ix2 p o) := by
  unfold k2_pay1
  exact shapeCast_ab_1ab_apply v74 _ u p o

/-! ## What a point leaves in the result's block, entry by entry -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block the body stores, at (·, p, o), from the fourteen input blocks: the features x0, coordinates x1, centres x2,
    first-layer weight columns x3 and x4, second weight x5, first-layer scale x6, shift x7, mean x8 and inverse deviation x9,
    second-layer scale x10, shift x11, mean x12 and inverse deviation x13. -/
theorem out_apply (x0 : Vec Ideal S1x256x32x64 .f32) (x1 : Vec Ideal S1x256x32x3 .f32) (x2 : Vec Ideal S1x256x3 .f32)
    (x3 : Vec Ideal S64x64 .f32) (x4 : Vec Ideal S64x3 .f32) (x5 : Vec Ideal S128x64 .f32) (x6 : Vec Ideal S1x64 .f32)
    (x7 : Vec Ideal S1x64 .f32) (x8 : Vec Ideal S1x1x64 .f32) (x9 : Vec Ideal S1x1x64 .f32) (x10 : Vec Ideal S1x128 .f32)
    (x11 : Vec Ideal S1x128 .f32) (x12 : Vec Ideal S1x1x128 .f32) (x13 : Vec Ideal S1x1x128 .f32)
    (u : Fin 1) (p : Fin 256) (o : Fin 128) :
    out2_14 x0 x1 x2 x3 x4 x5 x6 x7 x8 x9 x10 x11 x12 x13 (ix3 u p o)
      = (Finset.univ : Finset (Fin 32)).fold max (Ideal.ofBits .f32 0xFF800000#32) (fun k =>
          Cert.Spec.act
            (∑ m : Fin 64,
              Cert.Spec.act
                ((∑ e : Fin 64, x0 (ix4 (0 : Fin 1) p k e) * x3 (ix2 m e))
                  + ∑ j : Fin 3, (x1 (ix4 (0 : Fin 1) p k j) - x2 (ix3 (0 : Fin 1) p j)) * x4 (ix2 m j))
                (x8 (ix3 (0 : Fin 1) (0 : Fin 1) m)) (x9 (ix3 (0 : Fin 1) (0 : Fin 1) m))
                (x6 (ix2 (0 : Fin 1) m)) (x7 (ix2 (0 : Fin 1) m))
              * x5 (ix2 o m))
            (x12 (ix3 (0 : Fin 1) (0 : Fin 1) o)) (x13 (ix3 (0 : Fin 1) (0 : Fin 1) o))
            (x10 (ix2 (0 : Fin 1) o)) (x11 (ix2 (0 : Fin 1) o))) := by
  unfold out2_14
  rw [View.canon_unit_zero hz3]
  simp only [View.ld_unit_zero (S := S1x256x32x64) hz4, View.ld_unit_zero (S := S1x256x32x3) hz4,
    View.ld_unit_zero (S := S1x256x3) hz3, View.ld_unit_zero (S := S64x64) hz2, View.ld_unit_zero (S := S64x3) hz2,
    View.ld_unit_zero (S := S128x64) hz2, View.ld_unit_zero (S := S1x64) hz2, View.ld_unit_zero (S := S1x1x64) hz3,
    View.ld_unit_zero (S := S1x128) hz2, View.ld_unit_zero (S := S1x1x128) hz3]
  refine (pay1_apply _ u p o).trans ?_
  refine (pay6_apply _ _ _ _ _ _ _ _ _ _ p o).trans (Finset.fold_congr fun k _ => ?_)
  exact act_congr (Finset.sum_congr rfl fun m _ => congrArg₂ (· * ·)
    (act_congr (pay2_apply x0 x1 x2 x3 x4 p k m) (pay3_apply x8 m) (pay4_apply x9 m) (pay5_apply x6 m) rfl) rfl) rfl rfl rfl rfl

/-! ## The windows' blocks, read off their arrays

A point t is batch entry t / 16 and block t % 16 of 256 points.  The printed index maps, decided over the 128 points: the
features, coordinates and centres move with both, the statistics blocks with the batch entry only, the weights and the scale
and shift rows not at all; the result's block moves like the features'. -/

theorem idx0 : ∀ t : Fin cfg2.N, win2_0.index t (0 : Fin 4) = t.val / 16 ∧ win2_0.index t (1 : Fin 4) = t.val % 16 ∧ win2_0.index t (2 : Fin 4) = 0 ∧ win2_0.index t (3 : Fin 4) = 0 :=
  (by decide +kernel : ∀ t : Fin grid2.N, _)
theorem idx1 : ∀ t : Fin cfg2.N, win2_1.index t (0 : Fin 4) = t.val / 16 ∧ win2_1.index t (1 : Fin 4) = t.val % 16 ∧ win2_1.index t (2 : Fin 4) = 0 ∧ win2_1.index t (3 : Fin 4) = 0 :=
  (by decide +kernel : ∀ t : Fin grid2.N, _)
theorem idx2 : ∀ t : Fin cfg2.N, win2_2.index t (0 : Fin 3) = t.val / 16 ∧ win2_2.index t (1 : Fin 3) = t.val % 16 ∧ win2_2.index t (2 : Fin 3) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 3) = t.val / 16 ∧ win2_8.index t (1 : Fin 3) = 0 ∧ win2_8.index t (2 : Fin 3) = 0 :=
  (by decide +kernel : ∀ t : Fin grid2.N, _)
theorem idx9 : ∀ t : Fin cfg2.N, win2_9.index t (0 : Fin 3) = t.val / 16 ∧ win2_9.index t (1 : Fin 3) = 0 ∧ win2_9.index t (2 : Fin 3) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 2) = 0 ∧ win2_11.index t (1 : Fin 2) = 0 :=
  (by decide +kernel : ∀ t : Fin grid2.N, _)
theorem idx12 : ∀ t : Fin cfg2.N, win2_12.index t (0 : Fin 3) = t.val / 16 ∧ win2_12.index t (1 : Fin 3) = 0 ∧ win2_12.index t (2 : Fin 3) = 0 :=
  (by decide +kernel : ∀ t : Fin grid2.N, _)
theorem idx13 : ∀ t : Fin cfg2.N, win2_13.index t (0 : Fin 3) = t.val / 16 ∧ win2_13.index t (1 : Fin 3) = 0 ∧ win2_13.index t (2 : Fin 3) = 0 :=
  (by decide +kernel : ∀ t : Fin grid2.N, _)
theorem idx14 : ∀ t : Fin cfg2.N, win2_14.index t (0 : Fin 3) = t.val / 16 ∧ win2_14.index t (1 : Fin 3) = t.val % 16 ∧ win2_14.index t (2 : Fin 3) = 0 :=
  (by decide +kernel : ∀ t : Fin grid2.N, _)

section Blocks
variable (V : (c : Dev nD) → (b : Ref sig .tc) → Buf (Elt Ideal) ((c : Thread nD τ).loc b))

/-- Window 0's block at a point is the features at the point's batch entry and rows. -/
theorem blk0_apply (c : Dev nD) (t : Fin cfg2.N) (u : Fin 1) (p : Fin 256) (k : Fin 32) (e : Fin 64) (b : Fin 8) (s : Fin 4096) (hb : b.val = t.val / 16) (hs : s.val = t.val % 16 * 256 + p.val) :
    (iblk2 V c 0 t : Vec Ideal S1x256x32x64 .f32) (ix4 u p k e) = (V c main_arg3 : Arr4 8 4096 32 64) (ix4 b s k e) := by
  obtain ⟨i0, i1, i2, i3⟩ := idx0 t
  unfold iblk2
  rw [View.read_apply]
  show V c main_arg3 _ = V c main_arg3 _
  refine congrArg (V c main_arg3) (funext fun a => Fin.ext ?_)
  match a with
  | ⟨0, _⟩ => show win2_0.index t (0 : Fin 4) * 1 + 1 * u.val = b.val; rw [i0, hb]; have := u.isLt; omega
  | ⟨1, _⟩ => show win2_0.index t (1 : Fin 4) * 256 + 1 * p.val = s.val; rw [i1, hs]; omega
  | ⟨2, _⟩ => show win2_0.index t (2 : Fin 4) * 32 + 1 * k.val = k.val; rw [i2]; omega
  | ⟨3, _⟩ => show win2_0.index t (3 : Fin 4) * 64 + 1 * e.val = e.val; rw [i3]; omega

/-- Window 1's block at a point is the neighbours' coordinates at the point's batch entry and rows. -/
theorem blk1_apply (c : Dev nD) (t : Fin cfg2.N) (u : Fin 1) (p : Fin 256) (k : Fin 32) (j : Fin 3) (b : Fin 8) (s : Fin 4096) (hb : b.val = t.val / 16) (hs : s.val = t.val % 16 * 256 + p.val) :
    (iblk2 V c 1 t : Vec Ideal S1x256x32x3 .f32) (ix4 u p k j) = (V c main_arg2 : Arr4 8 4096 32 3) (ix4 b s k j) := by
  obtain ⟨i0, i1, i2, i3⟩ := idx1 t
  unfold iblk2
  rw [View.read_apply]
  show V c main_arg2 _ = V c main_arg2 _
  refine congrArg (V c main_arg2) (funext fun a => Fin.ext ?_)
  match a with
  | ⟨0, _⟩ => show win2_1.index t (0 : Fin 4) * 1 + 1 * u.val = b.val; rw [i0, hb]; have := u.isLt; omega
  | ⟨1, _⟩ => show win2_1.index t (1 : Fin 4) * 256 + 1 * p.val = s.val; rw [i1, hs]; omega
  | ⟨2, _⟩ => show win2_1.index t (2 : Fin 4) * 32 + 1 * k.val = k.val; rw [i2]; omega
  | ⟨3, _⟩ => show win2_1.index t (3 : Fin 4) * 3 + 1 * j.val = j.val; rw [i3]; omega

/-- Window 2's block at a point is the centres at the point's batch entry and rows. -/
theorem blk2_apply (c : Dev nD) (t : Fin cfg2.N) (u : Fin 1) (p : Fin 256) (j : Fin 3) (b : Fin 8) (s : Fin 4096) (hb : b.val = t.val / 16) (hs : s.val = t.val % 16 * 256 + p.val) :
    (iblk2 V c 2 t : Vec Ideal S1x256x3 .f32) (ix3 u p j) = (V c main_arg0 : Arr3 8 4096 3) (ix3 b s j) := by
  obtain ⟨i0, i1, i2⟩ := idx2 t
  unfold iblk2
  rw [View.read_apply]
  show V c main_arg0 _ = V c main_arg0 _
  refine congrArg (V c main_arg0) (funext fun a => Fin.ext ?_)
  match a with
  | ⟨0, _⟩ => show win2_2.index t (0 : Fin 3) * 1 + 1 * u.val = b.val; rw [i0, hb]; have := u.isLt; omega
  | ⟨1, _⟩ => show win2_2.index t (1 : Fin 3) * 256 + 1 * p.val = s.val; rw [i1, hs]; omega
  | ⟨2, _⟩ => show win2_2.index t (2 : Fin 3) * 3 + 1 * j.val = j.val; rw [i2]; omega

/-- Window 3's block at a point is the first weight's feature columns whole. -/
theorem blk3_apply (c : Dev nD) (t : Fin cfg2.N) (m : Fin 64) (e : Fin 64) :
    (iblk2 V c 3 t : Vec Ideal S64x64 .f32) (ix2 m e) = (V c main_v0 : Arr2 64 64) (ix2 m e) := by
  obtain ⟨i0, i1⟩ := idx3 t
  unfold iblk2
  rw [View.read_apply]
  show V c main_v0 _ = V c main_v0 _
  refine congrArg (V c main_v0) (funext fun a => Fin.ext ?_)
  match a with
  | ⟨0, _⟩ => show win2_3.index t (0 : Fin 2) * 64 + 1 * m.val = m.val; rw [i0]; omega
  | ⟨1, _⟩ => show win2_3.index t (1 : Fin 2) * 64 + 1 * e.val = e.val; rw [i1]; omega

/-- Window 4's block at a point is the first weight's coordinate columns whole. -/
theorem blk4_apply (c : Dev nD) (t : Fin cfg2.N) (m : Fin 64) (j : Fin 3) :
    (iblk2 V c 4 t : Vec Ideal S64x3 .f32) (ix2 m j) = (V c main_v1 : Arr2 64 3) (ix2 m j) := by
  obtain ⟨i0, i1⟩ := idx4 t
  unfold iblk2
  rw [View.read_apply]
  show V c main_v1 _ = V c main_v1 _
  refine congrArg (V c main_v1) (funext fun a => Fin.ext ?_)
  match a with
  | ⟨0, _⟩ => show win2_4.index t (0 : Fin 2) * 64 + 1 * m.val = m.val; rw [i0]; omega
  | ⟨1, _⟩ => show win2_4.index t (1 : Fin 2) * 3 + 1 * j.val = j.val; rw [i1]; omega

/-- Window 5's block at a point is the second weight whole. -/
theorem blk5_apply (c : Dev nD) (t : Fin cfg2.N) (o : Fin 128) (m : Fin 64) :
    (iblk2 V c 5 t : Vec Ideal S128x64 .f32) (ix2 o m) = (V c main_arg7 : Arr2 128 64) (ix2 o m) := by
  obtain ⟨i0, i1⟩ := idx5 t
  unfold iblk2
  rw [View.read_apply]
  show V c main_arg7 _ = V c main_arg7 _
  refine congrArg (V c main_arg7) (funext fun a => Fin.ext ?_)
  match a with
  | ⟨0, _⟩ => show win2_5.index t (0 : Fin 2) * 128 + 1 * o.val = o.val; rw [i0]; omega
  | ⟨1, _⟩ => show win2_5.index t (1 : Fin 2) * 64 + 1 * m.val = m.val; rw [i1]; omega

/-- Window 6's block at a point is the first layer's scale row whole. -/
theorem blk6_apply (c : Dev nD) (t : Fin cfg2.N) (u : Fin 1) (m : Fin 64) :
    (iblk2 V c 6 t : Vec Ideal S1x64 .f32) (ix2 u m) = (V c main_v2 : Arr2 1 64) (ix2 u m) := by
  obtain ⟨i0, i1⟩ := idx6 t
  unfold iblk2
  rw [View.read_apply]
  show V c main_v2 _ = V c main_v2 _
  refine congrArg (V c main_v2) (funext fun a => Fin.ext ?_)
  match a with
  | ⟨0, _⟩ => show win2_6.index t (0 : Fin 2) * 1 + 1 * u.val = u.val; rw [i0]; omega
  | ⟨1, _⟩ => show win2_6.index t (1 : Fin 2) * 64 + 1 * m.val = m.val; rw [i1]; omega

/-- Window 7's block at a point is the first layer's shift row whole. -/
theorem blk7_apply (c : Dev nD) (t : Fin cfg2.N) (u : Fin 1) (m : Fin 64) :
    (iblk2 V c 7 t : Vec Ideal S1x64 .f32) (ix2 u m) = (V c main_v3 : Arr2 1 64) (ix2 u m) := by
  obtain ⟨i0, i1⟩ := idx7 t
  unfold iblk2
  rw [View.read_apply]
  show V c main_v3 _ = V c main_v3 _
  refine congrArg (V c main_v3) (funext fun a => Fin.ext ?_)
  match a with
  | ⟨0, _⟩ => show win2_7.index t (0 : Fin 2) * 1 + 1 * u.val = u.val; rw [i0]; omega
  | ⟨1, _⟩ => show win2_7.index t (1 : Fin 2) * 64 + 1 * m.val = m.val; rw [i1]; omega

/-- Window 8's block at a point is the first layer's mean at the point's batch entry. -/
theorem blk8_apply (c : Dev nD) (t : Fin cfg2.N) (u : Fin 1) (u' : Fin 1) (m : Fin 64) (b : Fin 8) (hb : b.val = t.val / 16) :
    (iblk2 V c 8 t : Vec Ideal S1x1x64 .f32) (ix3 u u' m) = (V c main_v23 : Arr3 8 1 64) (ix3 b u' m) := by
  obtain ⟨i0, i1, i2⟩ := idx8 t
  unfold iblk2
  rw [View.read_apply]
  show V c main_v23 _ = V c main_v23 _
  refine congrArg (V c main_v23) (funext fun a => Fin.ext ?_)
  match a with
  | ⟨0, _⟩ => show win2_8.index t (0 : Fin 3) * 1 + 1 * u.val = b.val; rw [i0, hb]; have := u.isLt; omega
  | ⟨1, _⟩ => show win2_8.index t (1 : Fin 3) * 1 + 1 * u'.val = u'.val; rw [i1]; omega
  | ⟨2, _⟩ => show win2_8.index t (2 : Fin 3) * 64 + 1 * m.val = m.val; rw [i2]; omega

/-- Window 9's block at a point is the first layer's inverse deviation at the point's batch entry. -/
theorem blk9_apply (c : Dev nD) (t : Fin cfg2.N) (u : Fin 1) (u' : Fin 1) (m : Fin 64) (b : Fin 8) (hb : b.val = t.val / 16) :
    (iblk2 V c 9 t : Vec Ideal S1x1x64 .f32) (ix3 u u' m) = (V c main_v25 : Arr3 8 1 64) (ix3 b u' m) := by
  obtain ⟨i0, i1, i2⟩ := idx9 t
  unfold iblk2
  rw [View.read_apply]
  show V c main_v25 _ = V c main_v25 _
  refine congrArg (V c main_v25) (funext fun a => Fin.ext ?_)
  match a with
  | ⟨0, _⟩ => show win2_9.index t (0 : Fin 3) * 1 + 1 * u.val = b.val; rw [i0, hb]; have := u.isLt; omega
  | ⟨1, _⟩ => show win2_9.index t (1 : Fin 3) * 1 + 1 * u'.val = u'.val; rw [i1]; omega
  | ⟨2, _⟩ => show win2_9.index t (2 : Fin 3) * 64 + 1 * m.val = m.val; rw [i2]; omega

/-- Window 10's block at a point is the second layer's scale row whole. -/
theorem blk10_apply (c : Dev nD) (t : Fin cfg2.N) (u : Fin 1) (o : Fin 128) :
    (iblk2 V c 10 t : Vec Ideal S1x128 .f32) (ix2 u o) = (V c main_v4 : Arr2 1 128) (ix2 u o) := by
  obtain ⟨i0, i1⟩ := idx10 t
  unfold iblk2
  rw [View.read_apply]
  show V c main_v4 _ = V c main_v4 _
  refine congrArg (V c main_v4) (funext fun a => Fin.ext ?_)
  match a with
  | ⟨0, _⟩ => show win2_10.index t (0 : Fin 2) * 1 + 1 * u.val = u.val; rw [i0]; omega
  | ⟨1, _⟩ => show win2_10.index t (1 : Fin 2) * 128 + 1 * o.val = o.val; rw [i1]; omega

/-- Window 11's block at a point is the second layer's shift row whole. -/
theorem blk11_apply (c : Dev nD) (t : Fin cfg2.N) (u : Fin 1) (o : Fin 128) :
    (iblk2 V c 11 t : Vec Ideal S1x128 .f32) (ix2 u o) = (V c main_v5 : Arr2 1 128) (ix2 u o) := by
  obtain ⟨i0, i1⟩ := idx11 t
  unfold iblk2
  rw [View.read_apply]
  show V c main_v5 _ = V c main_v5 _
  refine congrArg (V c main_v5) (funext fun a => Fin.ext ?_)
  match a with
  | ⟨0, _⟩ => show win2_11.index t (0 : Fin 2) * 1 + 1 * u.val = u.val; rw [i0]; omega
  | ⟨1, _⟩ => show win2_11.index t (1 : Fin 2) * 128 + 1 * o.val = o.val; rw [i1]; omega

/-- Window 12's block at a point is the second layer's mean at the point's batch entry. -/
theorem blk12_apply (c : Dev nD) (t : Fin cfg2.N) (u : Fin 1) (u' : Fin 1) (o : Fin 128) (b : Fin 8) (hb : b.val = t.val / 16) :
    (iblk2 V c 12 t : Vec Ideal S1x1x128 .f32) (ix3 u u' o) = (V c main_v43 : Arr3 8 1 128) (ix3 b u' o) := by
  obtain ⟨i0, i1, i2⟩ := idx12 t
  unfold iblk2
  rw [View.read_apply]
  show V c main_v43 _ = V c main_v43 _
  refine congrArg (V c main_v43) (funext fun a => Fin.ext ?_)
  match a with
  | ⟨0, _⟩ => show win2_12.index t (0 : Fin 3) * 1 + 1 * u.val = b.val; rw [i0, hb]; have := u.isLt; omega
  | ⟨1, _⟩ => show win2_12.index t (1 : Fin 3) * 1 + 1 * u'.val = u'.val; rw [i1]; omega
  | ⟨2, _⟩ => show win2_12.index t (2 : Fin 3) * 128 + 1 * o.val = o.val; rw [i2]; omega

/-- Window 13's block at a point is the second layer's inverse deviation at the point's batch entry. -/
theorem blk13_apply (c : Dev nD) (t : Fin cfg2.N) (u : Fin 1) (u' : Fin 1) (o : Fin 128) (b : Fin 8) (hb : b.val = t.val / 16) :
    (iblk2 V c 13 t : Vec Ideal S1x1x128 .f32) (ix3 u u' o) = (V c main_v45 : Arr3 8 1 128) (ix3 b u' o) := by
  obtain ⟨i0, i1, i2⟩ := idx13 t
  unfold iblk2
  rw [View.read_apply]
  show V c main_v45 _ = V c main_v45 _
  refine congrArg (V c main_v45) (funext fun a => Fin.ext ?_)
  match a with
  | ⟨0, _⟩ => show win2_13.index t (0 : Fin 3) * 1 + 1 * u.val = b.val; rw [i0, hb]; have := u.isLt; omega
  | ⟨1, _⟩ => show win2_13.index t (1 : Fin 3) * 1 + 1 * u'.val = u'.val; rw [i1]; omega
  | ⟨2, _⟩ => show win2_13.index t (2 : Fin 3) * 128 + 1 * o.val = o.val; rw [i2]; omega

end Blocks

/-! ## From the blocks to the array -/

section Array
variable (V : (c : Dev nD) → (b : Ref sig .tc) → Buf (Elt Ideal) ((c : Thread nD τ).loc b))

/-- The result array as one function of the arrays the sweep reads: the pooled value at every index. -/
def G (c : Dev nD) : Arr3 8 4096 128 := fun i =>
  Cert.Spec.pooled (V c main_arg3) (V c main_arg2) (V c main_arg0) (V c main_v0) (V c main_v1) (V c main_arg7)
        (V c main_v2) (V c main_v3) (V c main_v23) (V c main_v25) (V c main_v4) (V c main_v5) (V c main_v43) (V c main_v45) (i 0) (i 1) (i 2)

theorem G_apply (c : Dev nD) (i : (⟨3, ![8, 4096, 128]⟩ : Shape).Idx) (b : Fin 8) (s : Fin 4096) (o : Fin 128)
    (hb : (i 0).val = b.val) (hs : (i 1).val = s.val) (ho : (i 2).val = o.val) :
    G V c i = Cert.Spec.pooled (V c main_arg3) (V c main_arg2) (V c main_arg0) (V c main_v0) (V c main_v1) (V c main_arg7)
        (V c main_v2) (V c main_v3) (V c main_v23) (V c main_v25) (V c main_v4) (V c main_v5) (V c main_v43) (V c main_v45) b s o := by
  obtain rfl : i = ix3 b s o := funext fun a => Fin.ext (by
    match a with
    | ⟨0, _⟩ => exact hb
    | ⟨1, _⟩ => exact hs
    | ⟨2, _⟩ => exact ho)
  rfl

/-- What point t leaves in the result's block at (·, p, o) is the pooled value at batch entry t / 16, point
    (t % 16) · 256 + p, channel o. -/
theorem point_apply (c : Dev nD) (t : Fin cfg2.N) (u : Fin 1) (p : Fin 256) (o : Fin 128) (b : Fin 8) (s : Fin 4096)
    (hb : b.val = t.val / 16) (hs : s.val = t.val % 16 * 256 + p.val) :
    out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix3 u p o)
      = Cert.Spec.pooled (V c main_arg3) (V c main_arg2) (V c main_arg0) (V c main_v0) (V c main_v1) (V c main_arg7)
        (V c main_v2) (V c main_v3) (V c main_v23) (V c main_v25) (V c main_v4) (V c main_v5) (V c main_v43) (V c main_v45) b s o := by
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) u p o).trans ?_
  unfold Cert.Spec.pooled Cert.Spec.h2 Cert.Spec.x2 Cert.Spec.h1 Cert.Spec.x1
  refine Finset.fold_congr fun k _ => ?_
  refine act_congr (Finset.sum_congr rfl fun m _ => congrArg₂ (· * ·) (act_congr (congrArg₂ (· + ·) ?_ ?_) ?_ ?_ ?_ ?_) ?_) ?_ ?_ ?_ ?_
  · exact Finset.sum_congr rfl fun e _ => congrArg₂ (· * ·) (blk0_apply V c t 0 p k e b s hb hs) (blk3_apply V c t m e)
  · exact Finset.sum_congr rfl fun j _ => congrArg₂ (· * ·)
      (congrArg₂ (· - ·) (blk1_apply V c t 0 p k j b s hb hs) (blk2_apply V c t 0 p j b s hb hs)) (blk4_apply V c t m j)
  · exact blk8_apply V c t 0 0 m b hb
  · exact blk9_apply V c t 0 0 m b hb
  · exact blk6_apply V c t 0 m
  · exact blk7_apply V c t 0 m
  · exact blk5_apply V c t o m
  · exact blk12_apply V c t 0 0 o b hb
  · exact blk13_apply V c t 0 0 o b hb
  · exact blk10_apply V c t 0 o
  · exact blk11_apply V c t 0 o

/-- The same at an index of the block, against the array index the block's view sends it to. -/
theorem point_eq (c : Dev nD) (t : Fin cfg2.N) (j : S1x256x128.Idx) :
    out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) j
      = G V c (((cfg2.win 14).blk t).view.emb j) := by
  obtain ⟨u, p, o, rfl⟩ : ∃ (u : Fin 1) (p : Fin 256) (o : Fin 128), j = ix3 u p o := ⟨j 0, j 1, j 2, eq_ix3 j⟩
  obtain ⟨i0, i1, i2⟩ := idx14 t
  have hN : cfg2.N = 128 := N_2
  have ht : t.val < 128 := hN ▸ t.isLt
  have hb : t.val / 16 < 8 := by omega
  have hs : t.val % 16 * 256 + p.val < 4096 := by have := p.isLt; omega
  refine (point_apply V c t u p o ⟨t.val / 16, hb⟩ ⟨t.val % 16 * 256 + p.val, hs⟩ rfl rfl).trans
    (G_apply V c _ ⟨t.val / 16, hb⟩ ⟨t.val % 16 * 256 + p.val, hs⟩ o ?_ ?_ ?_).symm
  · show win2_14.index t (0 : Fin 3) * 1 + 1 * u.val = t.val / 16
    rw [i0]; have := u.isLt; omega
  · show win2_14.index t (1 : Fin 3) * 256 + 1 * p.val = t.val % 16 * 256 + p.val
    rw [i1]; omega
  · show win2_14.index t (2 : Fin 3) * 128 + 1 * o.val = o.val
    rw [i2]; omega

/-- What point t writes back is block t of G. -/
theorem flushed_eq (c : Dev nD) (t : Fin cfg2.N) :
    (dat2 (F := Ideal) V c).flushed 14 t = ((cfg2.win 14).blk t).view.read (Elt Ideal) (G V c) := by
  show (cfg2.win 14).cut (grid2.coords t) ((dat2 (F := Ideal) V c).after 14 t) = _
  rw [after2_14]
  funext j
  exact point_eq V c t j

end Array

/-- An index of the result array is in point t's block iff each coordinate is in the block's range on its axis. -/
theorem mem_blk (t : Fin cfg2.N) (i : S8x4096x128.Idx) :
    i ∈ ((cfg2.win 14).blk t).view.set ↔ ∀ a : Fin 3, win2_14.index t a * S1x256x128.size a ≤ (i a).val
      ∧ (i a).val < win2_14.index t a * S1x256x128.size a + S1x256x128.size a := by
  show i ∈ ((View.whole main_v46).slice (win2_14.rect t)).set ↔ _
  rw [View.set_slice_whole, Rect.mem_set_unit]
  exact Iff.rfl

/-- The blocks tile the array: index (b, s, o) is in the block of point 16 b + s / 256. -/
theorem cover (i : S8x4096x128.Idx) : ∃ t : Fin cfg2.N, (cfg2.win 14).flush t = true ∧ i ∈ ((cfg2.win 14).blk t).view.set := by
  have hN : cfg2.N = 128 := N_2
  have h0 : (i 0).val < 8 := (i 0).isLt
  have h1 : (i 1).val < 4096 := (i 1).isLt
  have h2 : (i 2).val < 128 := (i 2).isLt
  obtain ⟨t, ht⟩ : ∃ t : Fin cfg2.N, t.val = (i 0).val * 16 + (i 1).val / 256 := ⟨⟨(i 0).val * 16 + (i 1).val / 256, by omega⟩, rfl⟩
  obtain ⟨i0, i1, i2⟩ := idx14 t
  refine ⟨t, flush2_14 t, ?_⟩
  rw [mem_blk]
  intro a
  match a with
  | ⟨0, _⟩ =>
    show win2_14.index t (0 : Fin 3) * 1 ≤ (i 0).val ∧ (i 0).val < win2_14.index t (0 : Fin 3) * 1 + 1
    rw [i0, ht]; omega
  | ⟨1, _⟩ =>
    show win2_14.index t (1 : Fin 3) * 256 ≤ (i 1).val ∧ (i 1).val < win2_14.index t (1 : Fin 3) * 256 + 256
    rw [i1, ht]; omega
  | ⟨2, _⟩ =>
    show win2_14.index t (2 : Fin 3) * 128 ≤ (i 2).val ∧ (i 2).val < win2_14.index t (2 : Fin 3) * 128 + 128
    rw [i2]; omega

variable (V : (c : Dev nD) → (b : Ref sig .tc) → Buf (Elt Ideal) ((c : Thread nD τ).loc b))

/-- The result array after the last point: the pooled, twice normalised value at every index. -/
theorem out_eq (c : Dev nD) (b : Fin 8) (s : Fin 4096) (o : Fin 128) :
    ((dat2 (F := Ideal) V c).arrAt 14 cfg2.N : Arr3 8 4096 128) (ix3 b s o)
      = Cert.Spec.pooled (V c main_arg3) (V c main_arg2) (V c main_arg0) (V c main_v0) (V c main_v1) (V c main_arg7)
            (V c main_v2) (V c main_v3) (V c main_v23) (V c main_v25) (V c main_v4) (V c main_v5) (V c main_v43) (V c main_v45) b s o := by
  exact congrFun ((dat2 (F := Ideal) V c).arrAt_eq_of_cover 14 (G V c) (fun t _ => flushed_eq V c t) cover) (ix3 b s o)

end Cert.KernelIdeal.R2

end
-- ==== Proof.KResult.lean ====
/-
  The kernel's three sweeps in terms of the launch arrays.  The first sweep's output arrays hold, per batch entry and channel, the
  total and the total of squares of the first layer x1 over all points and neighbours; the second sweep's the same of the second
  layer x2, computed with the first layer's statistics M1, I1 formed from the first sweep's totals; and the result array holds the
  pooled value computed with both layers' statistics.
-/
import proofs.«147857_j86655260164510_2_alg».proof.Proof.KEntry
import proofs.«147857_j86655260164510_2_alg».proof.Proof.R0Value
import proofs.«147857_j86655260164510_2_alg».proof.Proof.R1Value
import proofs.«147857_j86655260164510_2_alg».proof.Proof.R2Value

set_option maxRecDepth 16384

noncomputable section

namespace Cert.KernelIdeal.KHost

open Cert.KernelIdeal Cert.KernelIdeal.Gen
open Idealize.ShloMosaic Idealize.ShloMosaic.TcCoe Idealize.ShloMosaic.ValueIdx Idealize.SL.Sem
open Cert.Spec (Arr2 Arr3 Arr4)

variable (m : (ℓ : Loc nD τ sig) → Buf (Elt Ideal) ℓ) (ρ : Dev nD → PrngReg)

theorem S1_apply (c : Dev nD) (b : Fin 8) (u : Fin 1) (ch : Fin 64) :
    (S1 m ρ c : Arr3 8 1 64) (ix3 b u ch) = ∑ s : Fin 4096, ∑ k : Fin 32,
      Cert.Spec.x1 (m ((c : Thread nD τ).loc main_arg3)) (m ((c : Thread nD τ).loc main_arg2)) (m ((c : Thread nD τ).loc main_arg0)) (WF m c) (WR m c) b s k ch := by
  have h := Cert.KernelIdeal.R0.sum_eq (V1 m ρ) c b u ch
  rw [V1_arg3, V1_arg2, V1_arg0, V1_v0, V1_v1] at h
  exact h

theorem Q1_apply (c : Dev nD) (b : Fin 8) (u : Fin 1) (ch : Fin 64) :
    (Q1 m ρ c : Arr3 8 1 64) (ix3 b u ch) = ∑ s : Fin 4096, ∑ k : Fin 32,
      Cert.Spec.x1 (m ((c : Thread nD τ).loc main_arg3)) (m ((c : Thread nD τ).loc main_arg2)) (m ((c : Thread nD τ).loc main_arg0)) (WF m c) (WR m c) b s k ch
      * Cert.Spec.x1 (m ((c : Thread nD τ).loc main_arg3)) (m ((c : Thread nD τ).loc main_arg2)) (m ((c : Thread nD τ).loc main_arg0)) (WF m c) (WR m c) b s k ch := by
  have h := Cert.KernelIdeal.R0.sumsq_eq (V1 m ρ) c b u ch
  rw [V1_arg3, V1_arg2, V1_arg0, V1_v0, V1_v1] at h
  exact h

theorem S2_apply (c : Dev nD) (b : Fin 8) (u : Fin 1) (o : Fin 128) :
    (S2 m ρ c : Arr3 8 1 128) (ix3 b u o) = ∑ s : Fin 4096, ∑ k : Fin 32,
      Cert.Spec.x2 (m ((c : Thread nD τ).loc main_arg3)) (m ((c : Thread nD τ).loc main_arg2)) (m ((c : Thread nD τ).loc main_arg0)) (WF m c) (WR m c) (m ((c : Thread nD τ).loc main_arg7)) (G1 m c) (B1 m c) (M1 m ρ c) (I1 m ρ c) b s k o := by
  have h := Cert.KernelIdeal.R1.sum_eq (V3 m ρ) c b u o
  rw [V3_arg3, V3_arg2, V3_arg0, V3_v0, V3_v1, V3_arg7, V3_v2, V3_v3, V3_v23, V3_v25] at h
  exact h

theorem Q2_apply (c : Dev nD) (b : Fin 8) (u : Fin 1) (o : Fin 128) :
    (Q2 m ρ c : Arr3 8 1 128) (ix3 b u o) = ∑ s : Fin 4096, ∑ k : Fin 32,
      Cert.Spec.x2 (m ((c : Thread nD τ).loc main_arg3)) (m ((c : Thread nD τ).loc main_arg2)) (m ((c : Thread nD τ).loc main_arg0)) (WF m c) (WR m c) (m ((c : Thread nD τ).loc main_arg7)) (G1 m c) (B1 m c) (M1 m ρ c) (I1 m ρ c) b s k o
      * Cert.Spec.x2 (m ((c : Thread nD τ).loc main_arg3)) (m ((c : Thread nD τ).loc main_arg2)) (m ((c : Thread nD τ).loc main_arg0)) (WF m c) (WR m c) (m ((c : Thread nD τ).loc main_arg7)) (G1 m c) (B1 m c) (M1 m ρ c) (I1 m ρ c) b s k o := by
  have h := Cert.KernelIdeal.R1.sumsq_eq (V3 m ρ) c b u o
  rw [V3_arg3, V3_arg2, V3_arg0, V3_v0, V3_v1, V3_arg7, V3_v2, V3_v3, V3_v23, V3_v25] at h
  exact h

theorem out_apply (c : Dev nD) (b : Fin 8) (s : Fin 4096) (o : Fin 128) :
    ((dat2 (V5 m ρ) c).arrAt 14 cfg2.N : Arr3 8 4096 128) (ix3 b s o)
      = Cert.Spec.pooled (m ((c : Thread nD τ).loc main_arg3)) (m ((c : Thread nD τ).loc main_arg2)) (m ((c : Thread nD τ).loc main_arg0)) (WF m c) (WR m c) (m ((c : Thread nD τ).loc main_arg7)) (G1 m c) (B1 m c) (M1 m ρ c) (I1 m ρ c)
          (G2 m c) (B2 m c) (M2 m ρ c) (I2 m ρ c) b s o := by
  have h := Cert.KernelIdeal.R2.out_eq (V5 m ρ) c b s o
  rw [V5_arg3, V5_arg2, V5_arg0, V5_v0, V5_v1, V5_arg7, V5_v2, V5_v3, V5_v23, V5_v25, V5_v4, V5_v5, V5_v43, V5_v45] at h
  exact h

end Cert.KernelIdeal.KHost

end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«147857_j86655260164510_2_alg».proof.Proof.LibVariance
import proofs.«147857_j86655260164510_2_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.LibGroupNorm.lean ====
/-
  Group-normalisation statistics on the extended reals.  A group's statistics are taken over every point and every channel of
  the group.  A kernel that keeps one running total and one running total of squares PER CHANNEL, and only afterwards adds the
  totals of a group's channels, divides by the number N of (point, channel) pairs and forms
      mean = S / N,    variance = max (Q / N − mean · mean) 0,
  arrives at the two-pass statistics  mean = (∑ x) / N,  variance = (∑ (x − mean)²) / N  over the pairs, provided every entry
  is a real number: adding channel totals is the sum over pairs in another order, and the column law for real entries does
  the rest.  Also here: a sum over (point, neighbour) pairs and a group's channels written as a triple sum; the textbook
  variance's guard "defined when N − ddof > 0" at ddof = 0; and the real values of the binary32 words of 2^20 and 2^21.
-/
import proofs.«147857_j86655260164510_2_alg».proof.Proof.LibBatchNorm

noncomputable section

namespace Cert.LibGroupNorm

open Idealize.ShloMosaic Cert.LibBatchNorm
open scoped BigOperators

/-- Channel totals over the points, added over the group's channels: the total over (point, channel) pairs. -/
theorem sum_channels_points {α β : Type*} [Fintype α] [Fintype β] (f : α → β → EReal) :
    ∑ r : β, ∑ a : α, f a r = ∑ ab : α × β, f ab.1 ab.2 := by
  rw [Fintype.sum_prod_type, Finset.sum_comm]

/-- THE LAW for a group: `x a r` the entry at point `a` and group channel `r`, all real; `S r`, `Q r` the channel's total and
    total of squares over the points (however they were accumulated); N the number of pairs.  The one-pass statistics from the
    channel totals are the two-pass statistics over the pairs, which are reals, the variance nonnegative. -/
theorem group_stats_eq {α β : Type*} [Fintype α] [Fintype β] (x : α → β → EReal) (hx : ∀ a r, IsReal (x a r)) (N : ℝ)
    (hN : N = ((Fintype.card α * Fintype.card β : ℕ) : ℝ)) (hpos : 0 < N)
    (S Q : β → EReal) (hS : ∀ r, S r = ∑ a, x a r) (hQ : ∀ r, Q r = ∑ a, x a r * x a r) :
    meanK (N : EReal) (0 + ∑ r, S r) = meanR (fun ab : α × β => x ab.1 ab.2) (N : EReal)
      ∧ varK (N : EReal) (0 + ∑ r, S r) (0 + ∑ r, Q r) = varR (fun ab : α × β => x ab.1 ab.2) (N : EReal)
      ∧ IsReal (meanR (fun ab : α × β => x ab.1 ab.2) (N : EReal))
      ∧ IsReal (varR (fun ab : α × β => x ab.1 ab.2) (N : EReal))
      ∧ 0 ≤ varR (fun ab : α × β => x ab.1 ab.2) (N : EReal) :=
  stats_eq (fun ab : α × β => x ab.1 ab.2) (fun ab => hx ab.1 ab.2) N (by rw [hN, Fintype.card_prod]) hpos _ _
    (by simp only [hS]; rw [sum_channels_points])
    (by simp only [hQ]; rw [sum_channels_points (fun a r => x a r * x a r)])

/-- The law with the points a product (point, neighbour) and every sum spelt by coordinates: channel totals Σ_p Σ_k f p k r added
    over the group's channels r give the two-pass statistics of the family over ((p, k), r). -/
def GroupLaw {P K G : ℕ} (f : Fin P → Fin K → Fin G → EReal) (N : ℝ) : Prop :=
    meanK (N : EReal) (0 + ∑ r, ∑ p, ∑ k, f p k r) = meanR (fun t : (Fin P × Fin K) × Fin G => f t.1.1 t.1.2 t.2) (N : EReal)
      ∧ varK (N : EReal) (0 + ∑ r, ∑ p, ∑ k, f p k r) (0 + ∑ r, ∑ p, ∑ k, f p k r * f p k r)
          = varR (fun t : (Fin P × Fin K) × Fin G => f t.1.1 t.1.2 t.2) (N : EReal)
      ∧ IsReal (meanR (fun t : (Fin P × Fin K) × Fin G => f t.1.1 t.1.2 t.2) (N : EReal))
      ∧ IsReal (varR (fun t : (Fin P × Fin K) × Fin G => f t.1.1 t.1.2 t.2) (N : EReal))
      ∧ 0 ≤ varR (fun t : (Fin P × Fin K) × Fin G => f t.1.1 t.1.2 t.2) (N : EReal)

theorem group_law {P K G : ℕ} (f : Fin P → Fin K → Fin G → EReal) (hf : ∀ p k r, IsReal (f p k r)) (N : ℝ)
    (hN : N = ((P * K * G : ℕ) : ℝ)) (hpos : 0 < N) : GroupLaw f N :=
  group_stats_eq (α := Fin P × Fin K) (β := Fin G) (fun a r => f a.1 a.2 r) (fun a r => hf a.1 a.2 r) N
    (by rw [hN]; simp [Fintype.card_prod, Fintype.card_fin]) hpos
    (fun r => ∑ p, ∑ k, f p k r) (fun r => ∑ p, ∑ k, f p k r * f p k r)
    (fun r => (Fintype.sum_prod_type (fun a : Fin P × Fin K => f a.1 a.2 r)).symm)
    (fun r => (Fintype.sum_prod_type (fun a : Fin P × Fin K => f a.1 a.2 r * f a.1 a.2 r)).symm)

/-- A sum over ((point, neighbour), channel) written as a triple sum. -/
theorem sum_triple {P K G : ℕ} {M : Type*} [AddCommMonoid M] (f : (Fin P × Fin K) × Fin G → M) :
    ∑ t : (Fin P × Fin K) × Fin G, f t = ∑ p : Fin P, ∑ q : Fin K, ∑ r : Fin G, f ((p, q), r) := by
  rw [Fintype.sum_prod_type, Fintype.sum_prod_type]

/-- The textbook variance is defined when N − ddof > 0; at ddof = 0 (an integer zero converted) the divisor is N itself -/
theorem sub_int_zero (N : ℝ) : (N : EReal) - (((0 : ℤ) : ℝ) : EReal) = (N : EReal) := by
  rw [Int.cast_zero, EReal.coe_zero, sub_zero]

/-- and for positive N the guard selects the quotient, never the not-a-number word. -/
theorem guard_pos (N : ℝ) (hpos : 0 < N) (v w : EReal) :
    Scalar.select (Ideal.cmp .ogt (N : EReal) 0) v w = v := by
  have h : (0 : EReal) < (N : EReal) := by exact_mod_cast hpos
  simp [Scalar.select, Ideal.cmp, h]

/-! ### Two binary32 words as reals

  0x49800000: exponent field 147, fraction 0, so 2^(147 − 127) = 2^20 = 1048576.
  0x4A000000: exponent field 148, fraction 0, so 2^21 = 2097152. -/

/-- The word 0x49800000 denotes the real 2^20. -/
theorem ofBits_2pow20 : Ideal.ofBits .f32 0x49800000#32 = ((1048576 : ℝ) : EReal) := by
  simp [Ideal.ofBits, Ideal.ieee, -EReal.coe_mul]; norm_num

/-- The word 0x4A000000 denotes the real 2^21. -/
theorem ofBits_2pow21 : Ideal.ofBits .f32 0x4A000000#32 = ((2097152 : ℝ) : EReal) := by
  simp [Ideal.ofBits, Ideal.ieee, -EReal.coe_mul]; norm_num

end Cert.LibGroupNorm

end
-- ==== Proof.KStatsRead.lean ====
/-
  The kernel's host statistics at an index.  The per-channel totals [8,1,C] are laid out as 8 groups; a group's total is the sum of
  its channels' totals from a zero start; over the count N it is the group's mean, and with the group's total of squares it gives
  the clamped one-pass variance and the inverse deviation; both are repeated along the group's channels, so a channel reads its
  group's values.  No finiteness is used.
-/
import proofs.«147857_j86655260164510_2_alg».proof.Proof.KStats
import proofs.«147857_j86655260164510_2_alg».proof.Proof.LibMergeSplit
import proofs.«147857_j86655260164510_2_alg».proof.Proof.LibGroupNorm
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.KHost

open Cert.KernelIdeal Cert.KernelIdeal.Gen
open Idealize.ShloMosaic Idealize.ShloMosaic.TcCoe Idealize.ShloMosaic.ValueIdx

/-- Channel j of group g among the 64. -/
def chan1 (g : Fin 8) (j : Fin 8) : Fin 64 := ⟨g.val * 8 + j.val, by have := g.isLt; have := j.isLt; omega⟩

/-- A group's total over the count: the per-channel totals of the group's 8 channels added from a zero start, over N. -/
theorem kgq1_apply (S : S8x1x64.Idx → EReal) (b : Fin 8) (u : Fin 1) (g : Fin 8) :
    kgq1 (F := Ideal) S (ix3 b u g)
      = Cert.LibBatchNorm.meanK (((1048576 : ℝ)) : EReal) (0 + ∑ j : Fin 8, S (ix3 b u (chan1 g j))) := by
  unfold kgq1 Cert.LibBatchNorm.meanK
  show Ideal.div (Host.reduceAdd (F := Ideal) (φ := .f32) (shapeCast S8x1x8x8 S shapeCasts_S8x1x64_S8x1x8x8) (constant (F := Ideal) S_ .f32 0x00000000#32) reducesTo_S8x1x8x8_S8x1x8_d3 h_S_ (ix3 b u g))
      (broadcastInDim S8x1x8 ![] bcast_S_S8x1x8 (constant (F := Ideal) S_ .f32 0x49800000#32) (ix3 b u g)) = _
  rw [broadcastInDim_apply _ _ (constant (F := Ideal) S_ .f32 0x49800000#32) (ix3 b u g) ix0 (fun a => a.elim0), hostReduceAdd_apply]
  show Ideal.div (Ideal.hostReduceAdd reducesTo_S8x1x8x8_S8x1x8_d3 (shapeCast S8x1x8x8 S shapeCasts_S8x1x64_S8x1x8x8) (Ideal.ofBits .f32 0x00000000#32) (ix3 b u g))
      (Ideal.ofBits .f32 0x49800000#32) = _
  rw [Ideal.hostReduceAdd_single reducesTo_S8x1x8x8_S8x1x8_d3 (by decide : S8x1x8x8.Reduces [3] S8x1x8), Ideal.ofBits_zero_f32,
    Cert.LibGroupNorm.ofBits_2pow20]
  refine congrArg (fun z => Ideal.div (0 + z) _) (Finset.sum_congr rfl fun j _ => ?_)
  have hl : (by decide : S8x1x8x8.Reduces [3] S8x1x8).lift (ix3 b u g) j = ix4 b u g j := funext fun a => Fin.ext (by
    match a with
    | ⟨0, _⟩ => rfl
    | ⟨1, _⟩ => rfl
    | ⟨2, _⟩ => rfl
    | ⟨3, _⟩ => rfl)
  rw [hl]
  exact LibMergeSplit.split_last3_apply S shapeCasts_S8x1x64_S8x1x8x8 rfl b u g j (chan1 g j) rfl

/-- A channel's mean is its group's. -/
theorem kmean1_apply (S : S8x1x64.Idx → EReal) (b : Fin 8) (u : Fin 1) (g : Fin 8) (j : Fin 8) (m : Fin 64)
    (hm : m.val = g.val * 8 + j.val) :
    kmean1 (F := Ideal) S (ix3 b u m)
      = Cert.LibBatchNorm.meanK (((1048576 : ℝ)) : EReal) (0 + ∑ j' : Fin 8, S (ix3 b u (chan1 g j'))) := by
  unfold kmean1
  rw [LibMergeSplit.merge_last4_apply _ shapeCasts_S8x1x8x8_S8x1x64 rfl b u g j m hm,
    broadcastInDim_apply _ _ _ (ix4 b u g j) (ix3 b u g) (fun a => by
      match a with
      | ⟨0, _⟩ => rfl
      | ⟨1, _⟩ => show u.val = 0; omega
      | ⟨2, _⟩ => rfl),
    kgq1_apply]

/-- A channel's inverse deviation is its group's: one over the root of the clamped one-pass variance plus ε. -/
theorem kinv1_apply (S Q : S8x1x64.Idx → EReal) (b : Fin 8) (u : Fin 1) (g : Fin 8) (j : Fin 8) (m : Fin 64)
    (hm : m.val = g.val * 8 + j.val) :
    kinv1 (F := Ideal) S Q (ix3 b u m)
      = Ideal.rsqrt (Cert.LibBatchNorm.varK (((1048576 : ℝ)) : EReal) (0 + ∑ j' : Fin 8, S (ix3 b u (chan1 g j')))
            (0 + ∑ j' : Fin 8, Q (ix3 b u (chan1 g j'))) + Ideal.ofBits .f32 0x3727C5AC#32) := by
  unfold kinv1
  rw [LibMergeSplit.merge_last4_apply _ shapeCasts_S8x1x8x8_S8x1x64 rfl b u g j m hm,
    broadcastInDim_apply _ _ _ (ix4 b u g j) (ix3 b u g) (fun a => by
      match a with
      | ⟨0, _⟩ => rfl
      | ⟨1, _⟩ => show u.val = 0; omega
      | ⟨2, _⟩ => rfl)]
  show Ideal.rsqrt (max (kgq1 (F := Ideal) Q (ix3 b u g) - kgq1 (F := Ideal) S (ix3 b u g) * kgq1 (F := Ideal) S (ix3 b u g))
        (broadcastInDim S8x1x8 ![] bcast_S_S8x1x8 (constant (F := Ideal) S_ .f32 0x00000000#32) (ix3 b u g))
      + broadcastInDim S8x1x8 ![] bcast_S_S8x1x8 (constant (F := Ideal) S_ .f32 0x3727C5AC#32) (ix3 b u g)) = _
  rw [broadcastInDim_apply _ _ (constant (F := Ideal) S_ .f32 0x00000000#32) (ix3 b u g) ix0 (fun a => a.elim0),
    broadcastInDim_apply _ _ (constant (F := Ideal) S_ .f32 0x3727C5AC#32) (ix3 b u g) ix0 (fun a => a.elim0),
    kgq1_apply, kgq1_apply]
  show Ideal.rsqrt (max _ (Ideal.ofBits .f32 0x00000000#32) + Ideal.ofBits .f32 0x3727C5AC#32) = _
  rw [Ideal.ofBits_zero_f32]
  rfl

/-- Channel j of group g among the 128. -/
def chan2 (g : Fin 8) (j : Fin 16) : Fin 128 := ⟨g.val * 16 + j.val, by have := g.isLt; have := j.isLt; omega⟩

/-- A group's total over the count: the per-channel totals of the group's 16 channels added from a zero start, over N. -/
theorem kgq2_apply (S : S8x1x128.Idx → EReal) (b : Fin 8) (u : Fin 1) (g : Fin 8) :
    kgq2 (F := Ideal) S (ix3 b u g)
      = Cert.LibBatchNorm.meanK (((2097152 : ℝ)) : EReal) (0 + ∑ j : Fin 16, S (ix3 b u (chan2 g j))) := by
  unfold kgq2 Cert.LibBatchNorm.meanK
  show Ideal.div (Host.reduceAdd (F := Ideal) (φ := .f32) (shapeCast S8x1x8x16 S shapeCasts_S8x1x128_S8x1x8x16) (constant (F := Ideal) S_ .f32 0x00000000#32) reducesTo_S8x1x8x16_S8x1x8_d3 h_S_ (ix3 b u g))
      (broadcastInDim S8x1x8 ![] bcast_S_S8x1x8 (constant (F := Ideal) S_ .f32 0x4A000000#32) (ix3 b u g)) = _
  rw [broadcastInDim_apply _ _ (constant (F := Ideal) S_ .f32 0x4A000000#32) (ix3 b u g) ix0 (fun a => a.elim0), hostReduceAdd_apply]
  show Ideal.div (Ideal.hostReduceAdd reducesTo_S8x1x8x16_S8x1x8_d3 (shapeCast S8x1x8x16 S shapeCasts_S8x1x128_S8x1x8x16) (Ideal.ofBits .f32 0x00000000#32) (ix3 b u g))
      (Ideal.ofBits .f32 0x4A000000#32) = _
  rw [Ideal.hostReduceAdd_single reducesTo_S8x1x8x16_S8x1x8_d3 (by decide : S8x1x8x16.Reduces [3] S8x1x8), Ideal.ofBits_zero_f32,
    Cert.LibGroupNorm.ofBits_2pow21]
  refine congrArg (fun z => Ideal.div (0 + z) _) (Finset.sum_congr rfl fun j _ => ?_)
  have hl : (by decide : S8x1x8x16.Reduces [3] S8x1x8).lift (ix3 b u g) j = ix4 b u g j := funext fun a => Fin.ext (by
    match a with
    | ⟨0, _⟩ => rfl
    | ⟨1, _⟩ => rfl
    | ⟨2, _⟩ => rfl
    | ⟨3, _⟩ => rfl)
  rw [hl]
  exact LibMergeSplit.split_last3_apply S shapeCasts_S8x1x128_S8x1x8x16 rfl b u g j (chan2 g j) rfl

/-- A channel's mean is its group's. -/
theorem kmean2_apply (S : S8x1x128.Idx → EReal) (b : Fin 8) (u : Fin 1) (g : Fin 8) (j : Fin 16) (m : Fin 128)
    (hm : m.val = g.val * 16 + j.val) :
    kmean2 (F := Ideal) S (ix3 b u m)
      = Cert.LibBatchNorm.meanK (((2097152 : ℝ)) : EReal) (0 + ∑ j' : Fin 16, S (ix3 b u (chan2 g j'))) := by
  unfold kmean2
  rw [LibMergeSplit.merge_last4_apply _ shapeCasts_S8x1x8x16_S8x1x128 rfl b u g j m hm,
    broadcastInDim_apply _ _ _ (ix4 b u g j) (ix3 b u g) (fun a => by
      match a with
      | ⟨0, _⟩ => rfl
      | ⟨1, _⟩ => show u.val = 0; omega
      | ⟨2, _⟩ => rfl),
    kgq2_apply]

/-- A channel's inverse deviation is its group's: one over the root of the clamped one-pass variance plus ε. -/
theorem kinv2_apply (S Q : S8x1x128.Idx → EReal) (b : Fin 8) (u : Fin 1) (g : Fin 8) (j : Fin 16) (m : Fin 128)
    (hm : m.val = g.val * 16 + j.val) :
    kinv2 (F := Ideal) S Q (ix3 b u m)
      = Ideal.rsqrt (Cert.LibBatchNorm.varK (((2097152 : ℝ)) : EReal) (0 + ∑ j' : Fin 16, S (ix3 b u (chan2 g j')))
            (0 + ∑ j' : Fin 16, Q (ix3 b u (chan2 g j'))) + Ideal.ofBits .f32 0x3727C5AC#32) := by
  unfold kinv2
  rw [LibMergeSplit.merge_last4_apply _ shapeCasts_S8x1x8x16_S8x1x128 rfl b u g j m hm,
    broadcastInDim_apply _ _ _ (ix4 b u g j) (ix3 b u g) (fun a => by
      match a with
      | ⟨0, _⟩ => rfl
      | ⟨1, _⟩ => show u.val = 0; omega
      | ⟨2, _⟩ => rfl)]
  show Ideal.rsqrt (max (kgq2 (F := Ideal) Q (ix3 b u g) - kgq2 (F := Ideal) S (ix3 b u g) * kgq2 (F := Ideal) S (ix3 b u g))
        (broadcastInDim S8x1x8 ![] bcast_S_S8x1x8 (constant (F := Ideal) S_ .f32 0x00000000#32) (ix3 b u g))
      + broadcastInDim S8x1x8 ![] bcast_S_S8x1x8 (constant (F := Ideal) S_ .f32 0x3727C5AC#32) (ix3 b u g)) = _
  rw [broadcastInDim_apply _ _ (constant (F := Ideal) S_ .f32 0x00000000#32) (ix3 b u g) ix0 (fun a => a.elim0),
    broadcastInDim_apply _ _ (constant (F := Ideal) S_ .f32 0x3727C5AC#32) (ix3 b u g) ix0 (fun a => a.elim0),
    kgq2_apply, kgq2_apply]
  show Ideal.rsqrt (max _ (Ideal.ofBits .f32 0x00000000#32) + Ideal.ofBits .f32 0x3727C5AC#32) = _
  rw [Ideal.ofBits_zero_f32]
  rfl

end Cert.KernelIdeal.KHost

end
-- ==== Proof.RefStages.lean ====
/-
  The reference's stages as functions of arrays, and its run's result as their composition.  The reference joins the relative
  coordinates to the features, applies the first linear layer, lays the channels out as 8 groups, takes each group's mean and
  (two-pass, guarded) variance over points, neighbours and the group's channels, normalises, scales, shifts, rectifies; does the
  same after the second linear layer with 16 channels to a group; and takes the maximum over the neighbours.  Each stage below
  is the corresponding run of operations of the program's list, so the fold of the list at the result buffer is their
  composition by unfolding.
-/
import proofs.«147857_j86655260164510_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first linear layer on the joined (features, relative coordinates) channels, laid out as 8 groups of 8. -/
def lin1 (a0 : (⟨S8x4096x3, .f32⟩ : BufTy).Contents (Elt F)) (a2 : (⟨S8x4096x32x3, .f32⟩ : BufTy).Contents (Elt F))
    (a3 : (⟨S8x4096x32x64, .f32⟩ : BufTy).Contents (Elt F)) (a4 : (⟨S64x67, .f32⟩ : BufTy).Contents (Elt F)) :
    (⟨S8x4096x32x8x8, .f32⟩ : BufTy).Contents (Elt F) :=
  shapeCast S8x4096x32x8x8
    (Host.dotGeneral dot_S8x4096x32x67_S64x67_S8x4096x32x64_3_1_012_0_n_n none
      (concatenate S8x4096x32x67 3
        [⟨S8x4096x32x64, a3⟩,
         ⟨S8x4096x32x3, subf a2 (broadcastInDim S8x4096x32x3 ![0, 1, 2, 3] bcast_S8x4096x1x3_S8x4096x32x3_0_1_2_3
            (broadcastInDim S8x4096x1x3 ![0, 1, 3] bcast_S8x4096x3_S8x4096x1x3_0_1_3 a0))⟩]
        concatenates_S8x4096x32x64_S8x4096x32x3_S8x4096x32x67_d3)
      a4)
    shapeCasts_S8x4096x32x64_S8x4096x32x8x8

/-- A group's mean (layout S8x4096x32x8x8): the host sum over points, neighbours and the group's channels, kept as [8,1,1,8,1], over the count. -/
def gmean1 (x : (⟨S8x4096x32x8x8, .f32⟩ : BufTy).Contents (Elt F)) : (⟨S8x1x1x8x1, .f32⟩ : BufTy).Contents (Elt F) :=
  Host.divf (broadcastInDim S8x1x1x8x1 ![0, 3] bcast_S8x8_S8x1x1x8x1_0_3 (Host.reduceAdd x (constant S_ .f32 0x00000000#32) reducesTo_S8x4096x32x8x8_S8x8_d1_2_4 h_S_))
    (broadcastInDim S8x1x1x8x1 ![] bcast_S_S8x1x1x8x1 (constant S_ .f32 0x49800000#32))

/-- The count less the degrees of freedom removed (an integer zero, converted). -/
def gcount1 : (⟨S_, .f32⟩ : BufTy).Contents (Elt F) :=
  subf (constant S_ .f32 0x49800000#32) (sitofp .f32 (constantI S_ 32 0#32))

/-- A group's variance (layout S8x4096x32x8x8), two passes: the mean, the squared deviations summed, over the count, guarded by
    "the count is positive" with a not-a-number word on the other branch. -/
def gvar1 (x : (⟨S8x4096x32x8x8, .f32⟩ : BufTy).Contents (Elt F)) : (⟨S8x1x1x8x1, .f32⟩ : BufTy).Contents (Elt F) :=
  select (broadcastInDim S8x1x1x8x1 ![] bcast_S_S8x1x1x8x1 (cmpf .ogt (gcount1 (F := F)) (constant S_ .f32 0x00000000#32)))
    (Host.divf
      (broadcastInDim S8x1x1x8x1 ![0, 3] bcast_S8x8_S8x1x1x8x1_0_3
        (Host.reduceAdd
          (mulf (subf x (broadcastInDim S8x4096x32x8x8 ![0, 1, 2, 3, 4] bcast_S8x1x1x8x1_S8x4096x32x8x8_0_1_2_3_4 (gmean1 x)))
                (subf x (broadcastInDim S8x4096x32x8x8 ![0, 1, 2, 3, 4] bcast_S8x1x1x8x1_S8x4096x32x8x8_0_1_2_3_4 (gmean1 x))))
          (constant S_ .f32 0x00000000#32) reducesTo_S8x4096x32x8x8_S8x8_d1_2_4 h_S_))
      (broadcastInDim S8x1x1x8x1 ![] bcast_S_S8x1x1x8x1 (gcount1 (F := F))))
    (broadcastInDim S8x1x1x8x1 ![] bcast_S_S8x1x1x8x1 (id (constant S_ .f32 0x7FC00000#32)))

/-- The first layer normalised by its group statistics, scaled, shifted and rectified, back in the [.., 64] layout. -/
def norm1 (x : (⟨S8x4096x32x8x8, .f32⟩ : BufTy).Contents (Elt F)) (a5 a6 : (⟨S64, .f32⟩ : BufTy).Contents (Elt F)) :
    (⟨S8x4096x32x64, .f32⟩ : BufTy).Contents (Elt F) :=
  maximumf
    (addf
      (mulf
        (shapeCast S8x4096x32x64
          (mulf (subf x (broadcastInDim S8x4096x32x8x8 ![0, 1, 2, 3, 4] bcast_S8x1x1x8x1_S8x4096x32x8x8_0_1_2_3_4 (gmean1 x)))
            (broadcastInDim S8x4096x32x8x8 ![0, 1, 2, 3, 4] bcast_S8x1x1x8x1_S8x4096x32x8x8_0_1_2_3_4
              (Host.rsqrt (addf (gvar1 x) (broadcastInDim S8x1x1x8x1 ![] bcast_S_S8x1x1x8x1 (constant S_ .f32 0x3727C5AC#32))))))
          shapeCasts_S8x4096x32x8x8_S8x4096x32x64)
        (broadcastInDim S8x4096x32x64 ![0, 1, 2, 3] bcast_S1x1x1x64_S8x4096x32x64_0_1_2_3
          (broadcastInDim S1x1x1x64 ![3] bcast_S64_S1x1x1x64_3 a5)))
      (broadcastInDim S8x4096x32x64 ![0, 1, 2, 3] bcast_S1x1x1x64_S8x4096x32x64_0_1_2_3
        (broadcastInDim S1x1x1x64 ![3] bcast_S64_S1x1x1x64_3 a6)))
    (broadcastInDim S8x4096x32x64 ![] bcast_S_S8x4096x32x64 (constant S_ .f32 0x00000000#32))

/-- The second linear layer, laid out as 8 groups of 16. -/
def lin2 (h : (⟨S8x4096x32x64, .f32⟩ : BufTy).Contents (Elt F)) (a7 : (⟨S128x64, .f32⟩ : BufTy).Contents (Elt F)) :
    (⟨S8x4096x32x8x16, .f32⟩ : BufTy).Contents (Elt F) :=
  shapeCast S8x4096x32x8x16 (Host.dotGeneral dot_S8x4096x32x64_S128x64_S8x4096x32x128_3_1_012_0_n_n none h a7)
    shapeCasts_S8x4096x32x128_S8x4096x32x8x16

/-- A group's mean (layout S8x4096x32x8x16): the host sum over points, neighbours and the group's channels, kept as [8,1,1,8,1], over the count. -/
def gmean2 (x : (⟨S8x4096x32x8x16, .f32⟩ : BufTy).Contents (Elt F)) : (⟨S8x1x1x8x1, .f32⟩ : BufTy).Contents (Elt F) :=
  Host.divf (broadcastInDim S8x1x1x8x1 ![0, 3] bcast_S8x8_S8x1x1x8x1_0_3 (Host.reduceAdd x (constant S_ .f32 0x00000000#32) reducesTo_S8x4096x32x8x16_S8x8_d1_2_4 h_S_))
    (broadcastInDim S8x1x1x8x1 ![] bcast_S_S8x1x1x8x1 (constant S_ .f32 0x4A000000#32))

/-- The count less the degrees of freedom removed (an integer zero, converted). -/
def gcount2 : (⟨S_, .f32⟩ : BufTy).Contents (Elt F) :=
  subf (constant S_ .f32 0x4A000000#32) (sitofp .f32 (constantI S_ 32 0#32))

/-- A group's variance (layout S8x4096x32x8x16), two passes: the mean, the squared deviations summed, over the count, guarded by
    "the count is positive" with a not-a-number word on the other branch. -/
def gvar2 (x : (⟨S8x4096x32x8x16, .f32⟩ : BufTy).Contents (Elt F)) : (⟨S8x1x1x8x1, .f32⟩ : BufTy).Contents (Elt F) :=
  select (broadcastInDim S8x1x1x8x1 ![] bcast_S_S8x1x1x8x1 (cmpf .ogt (gcount2 (F := F)) (constant S_ .f32 0x00000000#32)))
    (Host.divf
      (broadcastInDim S8x1x1x8x1 ![0, 3] bcast_S8x8_S8x1x1x8x1_0_3
        (Host.reduceAdd
          (mulf (subf x (broadcastInDim S8x4096x32x8x16 ![0, 1, 2, 3, 4] bcast_S8x1x1x8x1_S8x4096x32x8x16_0_1_2_3_4 (gmean2 x)))
                (subf x (broadcastInDim S8x4096x32x8x16 ![0, 1, 2, 3, 4] bcast_S8x1x1x8x1_S8x4096x32x8x16_0_1_2_3_4 (gmean2 x))))
          (constant S_ .f32 0x00000000#32) reducesTo_S8x4096x32x8x16_S8x8_d1_2_4 h_S_))
      (broadcastInDim S8x1x1x8x1 ![] bcast_S_S8x1x1x8x1 (gcount2 (F := F))))
    (broadcastInDim S8x1x1x8x1 ![] bcast_S_S8x1x1x8x1 (id (constant S_ .f32 0x7FC00000#32)))

/-- The second layer normalised by its group statistics, scaled, shifted and rectified, back in the [.., 128] layout. -/
def norm2 (x : (⟨S8x4096x32x8x16, .f32⟩ : BufTy).Contents (Elt F)) (a8 a9 : (⟨S128, .f32⟩ : BufTy).Contents (Elt F)) :
    (⟨S8x4096x32x128, .f32⟩ : BufTy).Contents (Elt F) :=
  maximumf
    (addf
      (mulf
        (shapeCast S8x4096x32x128
          (mulf (subf x (broadcastInDim S8x4096x32x8x16 ![0, 1, 2, 3, 4] bcast_S8x1x1x8x1_S8x4096x32x8x16_0_1_2_3_4 (gmean2 x)))
            (broadcastInDim S8x4096x32x8x16 ![0, 1, 2, 3, 4] bcast_S8x1x1x8x1_S8x4096x32x8x16_0_1_2_3_4
              (Host.rsqrt (addf (gvar2 x) (broadcastInDim S8x1x1x8x1 ![] bcast_S_S8x1x1x8x1 (constant S_ .f32 0x3727C5AC#32))))))
          shapeCasts_S8x4096x32x8x16_S8x4096x32x128)
        (broadcastInDim S8x4096x32x128 ![0, 1, 2, 3] bcast_S1x1x1x128_S8x4096x32x128_0_1_2_3
          (broadcastInDim S1x1x1x128 ![3] bcast_S128_S1x1x1x128_3 a8)))
      (broadcastInDim S8x4096x32x128 ![0, 1, 2, 3] bcast_S1x1x1x128_S8x4096x32x128_0_1_2_3
        (broadcastInDim S1x1x1x128 ![3] bcast_S128_S1x1x1x128_3 a9)))
    (broadcastInDim S8x4096x32x128 ![] bcast_S_S8x4096x32x128 (constant S_ .f32 0x00000000#32))

/-- The maximum over the neighbours, from the word -∞. -/
def pool (h : (⟨S8x4096x32x128, .f32⟩ : BufTy).Contents (Elt F)) : (⟨S8x4096x128, .f32⟩ : BufTy).Contents (Elt F) :=
  Host.reduce FloatOps.maximumf h (constant S_ .f32 0xFF800000#32) reducesTo_S8x4096x32x128_S8x4096x128_d2 h_S_

/-- The whole reference as a function of its argument arrays. -/
def out (a0 : (⟨S8x4096x3, .f32⟩ : BufTy).Contents (Elt F)) (a2 : (⟨S8x4096x32x3, .f32⟩ : BufTy).Contents (Elt F))
    (a3 : (⟨S8x4096x32x64, .f32⟩ : BufTy).Contents (Elt F)) (a4 : (⟨S64x67, .f32⟩ : BufTy).Contents (Elt F))
    (a5 a6 : (⟨S64, .f32⟩ : BufTy).Contents (Elt F)) (a7 : (⟨S128x64, .f32⟩ : BufTy).Contents (Elt F))
    (a8 a9 : (⟨S128, .f32⟩ : BufTy).Contents (Elt F)) : (⟨S8x4096x128, .f32⟩ : BufTy).Contents (Elt F) :=
  pool (norm2 (lin2 (norm1 (lin1 a0 a2 a3 a4) a5 a6) a7) a8 a9)

set_option maxRecDepth 65536 in
set_option maxHeartbeats 4000000 in
/-- The fold of the program's operations at the result buffer is that composition of the argument buffers' contents. -/
theorem out_eq (V : Valuation τ sig (Elt F)) :
    after ops V (main_v48 : DevRef τ sig)
      = out (V (main_arg0 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) := by
  after_results_simp
  rfl

end Cert.ReferenceIdeal.RefValue

end
-- ==== Proof.RefRead1.lean ====
/-
  The reference's first linear layer at an index.  The joined array holds, along its last axis, the neighbour's 64 features and
  then its 3 coordinates relative to the centre point; the layer contracts that axis of 67 against a weight row.  A sum over 67
  channels is the sum over the first 64 plus the sum over the last 3 (addition on the extended reals is associative, infinities
  included), and on each part the joined array and the weight row read as the features against the row's first 64 entries and the
  relative coordinates against its last 3: the kernel's split of the same layer.  No finiteness is used.
-/
import proofs.«147857_j86655260164510_2_alg».proof.Proof.RefStages
import proofs.«147857_j86655260164510_2_alg».proof.Proof.Spec
import proofs.«147857_j86655260164510_2_alg».proof.Proof.LibMergeSplit
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-- The host's contraction of the last axis of a [8,4096,32,67] array against the second axis of a [64,67] one. -/
theorem dot1_apply (l : S8x4096x32x67.Idx → EReal) (r : S64x67.Idx → EReal) (b : Fin 8) (s : Fin 4096) (k : Fin 32) (m : Fin 64) :
    Host.dotGeneral (F := Ideal) (φ₁ := .f32) (φ₂ := .f32) dot_S8x4096x32x67_S64x67_S8x4096x32x64_3_1_012_0_n_n none l r (ix4 b s k m)
      = ∑ c : Fin 67, l (ix4 b s k c) * r (ix2 m c) := by
  simp only [Host.dotGeneral]
  rw [Ideal.dotGeneral_apply,
    ← Equiv.sum_comp (contrEquiv1 dot_S8x4096x32x67_S64x67_S8x4096x32x64_3_1_012_0_n_n 67 rfl rfl).symm]
  refine Finset.sum_congr rfl fun c _ => ?_
  have hl : dot_S8x4096x32x67_S64x67_S8x4096x32x64_3_1_012_0_n_n.lhsIdx (ix4 b s k m)
      ((contrEquiv1 dot_S8x4096x32x67_S64x67_S8x4096x32x64_3_1_012_0_n_n 67 rfl rfl).symm c) = ix4 b s k c :=
    funext fun a => Fin.ext (by
      match a with
      | ⟨0, _⟩ => rfl
      | ⟨1, _⟩ => rfl
      | ⟨2, _⟩ => rfl
      | ⟨3, _⟩ =>
        exact (dot_S8x4096x32x67_S64x67_S8x4096x32x64_3_1_012_0_n_n.lhsIdx_val_of_single rfl _ _).trans
          (contrEquiv1_symm_val _ 67 rfl rfl c))
  have hr : dot_S8x4096x32x67_S64x67_S8x4096x32x64_3_1_012_0_n_n.rhsIdx (ix4 b s k m)
      ((contrEquiv1 dot_S8x4096x32x67_S64x67_S8x4096x32x64_3_1_012_0_n_n 67 rfl rfl).symm c) = ix2 m c :=
    funext fun a => Fin.ext (by
      match a with
      | ⟨0, _⟩ => rfl
      | ⟨1, _⟩ =>
        exact (dot_S8x4096x32x67_S64x67_S8x4096x32x64_3_1_012_0_n_n.rhsIdx_val_of_single rfl _ _).trans
          (contrEquiv1_symm_val _ 67 rfl rfl c))
  rw [hl, hr]

/-- The joined array on its first 64 channels is the feature array. -/
theorem cat_left (x₁ : S8x4096x32x64.Idx → EReal) (x₂ : S8x4096x32x3.Idx → EReal)
    (b : Fin 8) (s : Fin 4096) (k : Fin 32) (c : Fin 64) (c' : Fin 67) (hc : c'.val = c.val) :
    concatenate S8x4096x32x67 3 [⟨S8x4096x32x64, x₁⟩, ⟨S8x4096x32x3, x₂⟩]
        concatenates_S8x4096x32x64_S8x4096x32x3_S8x4096x32x67_d3 (ix4 b s k c') = x₁ (ix4 b s k c) := by
  refine concatenate_pair_apply_left (t := S8x4096x32x67) (s₁ := S8x4096x32x64) (s₂ := S8x4096x32x3) (3 : Fin 4) x₁ x₂
    concatenates_S8x4096x32x64_S8x4096x32x3_S8x4096x32x67_d3 (ix4 b s k c') rfl (ix4 b s k c) ?_
  intro a
  match a with
  | ⟨0, _⟩ => rfl
  | ⟨1, _⟩ => rfl
  | ⟨2, _⟩ => rfl
  | ⟨3, _⟩ => exact hc.symm

/-- The joined array on its last 3 channels is the second array. -/
theorem cat_right (x₁ : S8x4096x32x64.Idx → EReal) (x₂ : S8x4096x32x3.Idx → EReal)
    (b : Fin 8) (s : Fin 4096) (k : Fin 32) (j : Fin 3) (c' : Fin 67) (hc : c'.val = 64 + j.val) :
    concatenate S8x4096x32x67 3 [⟨S8x4096x32x64, x₁⟩, ⟨S8x4096x32x3, x₂⟩]
        concatenates_S8x4096x32x64_S8x4096x32x3_S8x4096x32x67_d3 (ix4 b s k c') = x₂ (ix4 b s k j) := by
  refine concatenate_pair_apply_right (t := S8x4096x32x67) (s₁ := S8x4096x32x64) (s₂ := S8x4096x32x3) (3 : Fin 4) x₁ x₂
    concatenates_S8x4096x32x64_S8x4096x32x3_S8x4096x32x67_d3 (ix4 b s k c') rfl rfl (ix4 b s k j) ?_ ?_
  · intro a ha
    match a, ha with
    | ⟨0, _⟩, _ => rfl
    | ⟨1, _⟩, _ => rfl
    | ⟨2, _⟩, _ => rfl
    | ⟨3, _⟩, ha => exact absurd rfl ha
  · show j.val + 64 = c'.val
    omega

/-- A neighbour's coordinates relative to its centre point: the centre row laid along the 32 neighbours, subtracted. -/
theorem rel_apply (a0 : S8x4096x3.Idx → EReal) (a2 : S8x4096x32x3.Idx → EReal) (b : Fin 8) (s : Fin 4096) (k : Fin 32) (j : Fin 3) :
    subf (F := Ideal) (φ := .f32) a2 (broadcastInDim S8x4096x32x3 ![0, 1, 2, 3] bcast_S8x4096x1x3_S8x4096x32x3_0_1_2_3
        (broadcastInDim S8x4096x1x3 ![0, 1, 3] bcast_S8x4096x3_S8x4096x1x3_0_1_3 a0)) (ix4 b s k j)
      = a2 (ix4 b s k j) - a0 (ix3 b s j) := by
  show a2 (ix4 b s k j) - _ = _
  rw [broadcastInDim_apply _ _ _ (ix4 b s k j) (ix4 b s (0 : Fin 1) j) (fun a => by
        match a with
        | ⟨0, _⟩ => rfl
        | ⟨1, _⟩ => rfl
        | ⟨2, _⟩ => rfl
        | ⟨3, _⟩ => rfl),
    broadcastInDim_apply _ _ _ (ix4 b s (0 : Fin 1) j) (ix3 b s j) (fun a => by
        match a with
        | ⟨0, _⟩ => rfl
        | ⟨1, _⟩ => rfl
        | ⟨2, _⟩ => rfl)]

/-- The first layer at group g, channel j of the group — channel m = 8·g + j of the 64 — is the kernel's split form: the
    features against the weight row's first 64 entries plus the relative coordinates against its last 3. -/
theorem lin1_apply (a0 : S8x4096x3.Idx → EReal) (a2 : S8x4096x32x3.Idx → EReal) (a3 : S8x4096x32x64.Idx → EReal)
    (a4 : S64x67.Idx → EReal) (h1 : S64x67.Slices ![0, 0] ⟨2, ![64, 64]⟩) (h2 : S64x67.Slices ![0, 64] ⟨2, ![64, 3]⟩)
    (b : Fin 8) (s : Fin 4096) (k : Fin 32) (g : Fin 8) (j : Fin 8) (m : Fin 64) (hm : m.val = g.val * 8 + j.val) :
    lin1 (F := Ideal) a0 a2 a3 a4 (ix5 b s k g j)
      = Cert.Spec.x1 a3 a2 a0 (extractStridedSlice ⟨2, ![64, 64]⟩ ![0, 0] a4 h1) (extractStridedSlice ⟨2, ![64, 3]⟩ ![0, 64] a4 h2) b s k m := by
  unfold lin1 Cert.Spec.x1
  rw [LibMergeSplit.split_last4_apply _ _ rfl b s k g j m hm, dot1_apply]
  rw [show (∑ c : Fin 67, _) = ∑ c : Fin (64 + 3), _ from rfl, Fin.sum_univ_add]
  refine congrArg₂ (· + ·) (Finset.sum_congr rfl fun c _ => ?_) (Finset.sum_congr rfl fun j' _ => ?_)
  · rw [cat_left _ _ b s k c (Fin.castAdd 3 c) rfl,
      extractStridedSlice_apply _ a4 h1 (ix2 m c) (ix2 m (Fin.castAdd 3 c)) (fun a => by
        match a with
        | ⟨0, _⟩ => show m.val = 0 + m.val; omega
        | ⟨1, _⟩ => show c.val = 0 + c.val; omega)]
  · rw [cat_right _ _ b s k j' (Fin.natAdd 64 j') rfl, rel_apply,
      extractStridedSlice_apply _ a4 h2 (ix2 m j') (ix2 m (Fin.natAdd 64 j')) (fun a => by
        match a with
        | ⟨0, _⟩ => show m.val = 0 + m.val; omega
        | ⟨1, _⟩ => rfl)]

end Cert.ReferenceIdeal.RefValue

end
-- ==== Proof.LibReduce124.lean ====
/-
  A host sum over three axes at once.  A group normalisation lays an array out as [a, b, c, d, e] — batch, points, neighbours,
  groups, channels of a group — and sums over points, neighbours and the group's channels (axes 1, 2, 4) into [a, d].  On the
  extended reals the host's sum at (i, l) is the initial value plus the sum of the entries whose kept coordinates are (i, l);
  those entries are exactly the (i, p, q, l, r), one for each triple (p, q, r), so the sum is a triple sum a proof can
  regroup freely.  Generic in the five extents; no finiteness is used.
-/
import Idealize.ShloMosaic.PureOps.Ideal.Laws
import Idealize.ShloMosaic.Lib.ValueIdx
import Idealize.ShloMosaic.Lib.IdealHost

noncomputable section

namespace LibReduce124

open Idealize.ShloMosaic Idealize.ShloMosaic.ValueIdx

variable {a b c d e : ℕ}

/-- The rank-5 layout and the rank-2 result. -/
abbrev S5 (a b c d e : ℕ) : Shape := ⟨5, ![a, b, c, d, e]⟩
abbrev S2 (a d : ℕ) : Shape := ⟨2, ![a, d]⟩

/-- The entries that reduce to (i, l), one per triple of summed coordinates. -/
def fiber (i : Fin a) (l : Fin d) : Fin b × Fin c × Fin e ↪ (S5 a b c d e).Idx :=
  ⟨fun p => ix5 i p.1 p.2.1 l p.2.2, fun p q h => by
    have h1 : p.1 = q.1 := congrFun h 1
    have h2 : p.2.1 = q.2.1 := congrFun h 2
    have h4 : p.2.2 = q.2.2 := congrFun h 4
    exact Prod.ext h1 (Prod.ext h2 h4)⟩

/-- Dropping axes 1, 2, 4 keeps coordinates 0 and 3. -/
theorem drop_val0 (h : (S5 a b c d e).ReducesTo [1, 2, 4] (S2 a d)) (j : (S5 a b c d e).Idx) :
    (h.drop j 0 : ℕ) = (j 0 : ℕ) := rfl
theorem drop_val1 (h : (S5 a b c d e).ReducesTo [1, 2, 4] (S2 a d)) (j : (S5 a b c d e).Idx) :
    (h.drop j 1 : ℕ) = (j 3 : ℕ) := rfl

/-- An entry reduces to (i, l) exactly when its coordinates 0 and 3 are i and l. -/
theorem drop_eq_iff (h : (S5 a b c d e).ReducesTo [1, 2, 4] (S2 a d)) (i : Fin a) (l : Fin d) (j : (S5 a b c d e).Idx) :
    h.drop j = ix2 i l ↔ ((j 0 : ℕ) = i ∧ (j 3 : ℕ) = l) := by
  constructor
  · intro hj
    refine ⟨?_, ?_⟩
    · rw [← drop_val0 h j, hj]; rfl
    · rw [← drop_val1 h j, hj]; rfl
  · rintro ⟨h0, h3⟩
    funext k
    apply Fin.ext
    match k with
    | ⟨0, _⟩ => exact (drop_val0 h j).trans h0
    | ⟨1, _⟩ => exact (drop_val1 h j).trans h3

theorem filter_drop (h : (S5 a b c d e).ReducesTo [1, 2, 4] (S2 a d)) (i : Fin a) (l : Fin d) :
    Finset.univ.filter (fun j : (S5 a b c d e).Idx => h.drop j = ix2 i l) = Finset.univ.map (fiber i l) := by
  ext j
  simp only [Finset.mem_filter, Finset.mem_univ, true_and, Finset.mem_map]
  rw [drop_eq_iff]
  constructor
  · rintro ⟨h0, h3⟩
    refine ⟨(j 1, j 2, j 4), ?_⟩
    funext k
    apply Fin.ext
    match k with
    | ⟨0, _⟩ => exact h0.symm
    | ⟨1, _⟩ => rfl
    | ⟨2, _⟩ => rfl
    | ⟨3, _⟩ => exact h3.symm
    | ⟨4, _⟩ => rfl
  · rintro ⟨p, rfl⟩
    exact ⟨rfl, rfl⟩

/-- The host's sum over axes 1, 2, 4 at (i, l): the initial value plus the triple sum over points, neighbours and the
    group's channels. -/
theorem hostReduceAdd_apply (h : (S5 a b c d e).ReducesTo [1, 2, 4] (S2 a d)) (x : (S5 a b c d e).Idx → EReal) (init : EReal)
    (i : Fin a) (l : Fin d) :
    Ideal.hostReduceAdd h x init (ix2 i l) = init + ∑ p : Fin b, ∑ q : Fin c, ∑ r : Fin e, x (ix5 i p q l r) := by
  unfold Ideal.hostReduceAdd
  rw [filter_drop h i l, Finset.sum_map, Fintype.sum_prod_type]
  refine congrArg (init + ·) (Finset.sum_congr rfl fun p _ => ?_)
  rw [Fintype.sum_prod_type]
  rfl

end LibReduce124

end
-- ==== Proof.RefRead2a.lean ====
/-
  The reference's group statistics and normalisation at an index (layer 1).  With the channels laid out as 8 groups, the mean of
  group g of batch entry b is the host's sum over points, neighbours and the group's channels over their number, and the variance
  the sum of squared deviations over the same number — the textbook two-pass statistics over the group's triples; the guard of the
  variance ("the count less the removed degrees of freedom is positive") holds since that count is 2^20 or 2^21, so the selected
  value is the quotient.  The normalised layer at a channel is then `act` of the entry with its group's mean and inverse deviation
  and the channel's scale and shift.  No finiteness is used here.
-/
import proofs.«147857_j86655260164510_2_alg».proof.Proof.RefStages
import proofs.«147857_j86655260164510_2_alg».proof.Proof.Spec
import proofs.«147857_j86655260164510_2_alg».proof.Proof.LibMergeSplit
import proofs.«147857_j86655260164510_2_alg».proof.Proof.LibReduce124
import proofs.«147857_j86655260164510_2_alg».proof.Proof.LibGroupNorm
import Idealize.ShloMosaic.Lib.Pipeline.Value
import Idealize.ShloMosaic.Lib.ValueIdx
import Idealize.ShloMosaic.Lib.IdealHost
import Idealize.ShloMosaic.PureOps.Ideal.Laws

set_option maxRecDepth 65536

noncomputable section

namespace Cert.ReferenceIdeal.RefValue

open Cert.ReferenceIdeal Cert.ReferenceIdeal.Gen Idealize.ShloMosaic Idealize.ShloMosaic.TcCoe Idealize.ShloMosaic.ValueIdx

/-- The entries of batch entry b, group g, as a family over (point, neighbour, channel of the group). -/
def grp1 (x : S8x4096x32x8x8.Idx → EReal) (b : Fin 8) (g : Fin 8) : (Fin 4096 × Fin 32) × Fin 8 → EReal :=
  fun t => x (ix5 b t.1.1 t.1.2 g t.2)

/-- The host's sum over points, neighbours and the group's channels at (b, g), from a zero start. -/
theorem gsum1_apply (x : S8x4096x32x8x8.Idx → EReal) (b : Fin 8) (g : Fin 8) :
    Host.reduceAdd (F := Ideal) (φ := .f32) x (constant S_ .f32 0x00000000#32) reducesTo_S8x4096x32x8x8_S8x8_d1_2_4 h_S_ (ix2 b g)
      = 0 + ∑ t, grp1 x b g t := by
  rw [hostReduceAdd_apply]
  show Ideal.hostReduceAdd reducesTo_S8x4096x32x8x8_S8x8_d1_2_4 x (Ideal.ofBits .f32 0x00000000#32) (ix2 b g) = _
  rw [LibReduce124.hostReduceAdd_apply (a := 8) (b := 4096) (c := 32) (d := 8) (e := 8) reducesTo_S8x4096x32x8x8_S8x8_d1_2_4 x _ b g,
    Ideal.ofBits_zero_f32, Cert.LibGroupNorm.sum_triple]
  rfl

/-- A [8,8] array repeated along the three unit axes of [8,1,1,8,1] reads its (b, g) entry. -/
theorem bc831 (v : S8x8.Idx → EReal) (b : Fin 8) (u1 u2 u3 : Fin 1) (g : Fin 8) :
    broadcastInDim S8x1x1x8x1 ![0, 3] bcast_S8x8_S8x1x1x8x1_0_3 v (ix5 b u1 u2 g u3) = v (ix2 b g) :=
  broadcastInDim_apply _ _ v (ix5 b u1 u2 g u3) (ix2 b g) (fun a => by
    match a with
    | ⟨0, _⟩ => rfl
    | ⟨1, _⟩ => rfl)

/-- A scalar repeated over [8,1,1,8,1] reads itself. -/
theorem bc051 {α : Type} (v : S_.Idx → α) (i : S8x1x1x8x1.Idx) :
    broadcastInDim S8x1x1x8x1 ![] bcast_S_S8x1x1x8x1 v i = v ix0 :=
  broadcastInDim_apply _ _ v i ix0 (fun a => a.elim0)

/-- A [8,1,1,8,1] array repeated over the full layout reads its (b, g) entry. -/
theorem bc551 (v : S8x1x1x8x1.Idx → EReal) (b : Fin 8) (s : Fin 4096) (k : Fin 32) (g : Fin 8) (j : Fin 8) :
    broadcastInDim S8x4096x32x8x8 ![0, 1, 2, 3, 4] bcast_S8x1x1x8x1_S8x4096x32x8x8_0_1_2_3_4 v (ix5 b s k g j) = v (ix5 b (0 : Fin 1) (0 : Fin 1) g (0 : Fin 1)) :=
  broadcastInDim_apply _ _ v (ix5 b s k g j) (ix5 b (0 : Fin 1) (0 : Fin 1) g (0 : Fin 1)) (fun a => by
    match a with
    | ⟨0, _⟩ => rfl
    | ⟨1, _⟩ => rfl
    | ⟨2, _⟩ => rfl
    | ⟨3, _⟩ => rfl
    | ⟨4, _⟩ => rfl)

theorem hostDivf_apply1 {s : Shape} (a b : s.Idx → EReal) (i : s.Idx) :
    Host.divf (F := Ideal) (φ := .f32) a b i = Ideal.div (a i) (b i) := rfl
theorem hostRsqrt_apply1 {s : Shape} (a : s.Idx → EReal) (i : s.Idx) :
    Host.rsqrt (F := Ideal) (φ := .f32) a i = Ideal.rsqrt (a i) := rfl

/-- A group's mean, wherever it is read along the unit axes: the textbook mean over the group's triples. -/
theorem gmean1_apply (x : S8x4096x32x8x8.Idx → EReal) (b : Fin 8) (u1 u2 u3 : Fin 1) (g : Fin 8) :
    gmean1 (F := Ideal) x (ix5 b u1 u2 g u3) = Cert.LibBatchNorm.meanR (grp1 x b g) (((1048576 : ℝ)) : EReal) := by
  unfold gmean1 Cert.LibBatchNorm.meanR
  rw [hostDivf_apply1, bc831, bc051, gsum1_apply, constant_apply, Cert.LibGroupNorm.ofBits_2pow20]

/-- The count less an integer zero is the count. -/
theorem gcount1_eq : gcount1 (F := Ideal) ix0 = (((1048576 : ℝ)) : EReal) := by
  unfold gcount1
  show Ideal.ofBits .f32 0x49800000#32 - (((0 : BitVec 32).toInt : ℝ) : EReal) = _
  rw [Cert.LibGroupNorm.ofBits_2pow20]
  simp

/-- The variance's guard holds: the count is positive. -/
theorem gguard1 (A B : EReal) :
    Scalar.select (FloatOps.cmpf .ogt (gcount1 (F := Ideal) ix0) (constant (F := Ideal) S_ .f32 0x00000000#32 ix0)) A B = A := by
  rw [gcount1_eq, constant_apply, Ideal.ofBits_zero_f32]
  exact Cert.LibGroupNorm.guard_pos (1048576 : ℝ) (by norm_num) A B

/-- A squared deviation from the group's mean, as an entry of the group's family. -/
theorem gdev1_apply (x : S8x4096x32x8x8.Idx → EReal) (b : Fin 8) (g : Fin 8) (t : (Fin 4096 × Fin 32) × Fin 8) :
    grp1 (mulf (F := Ideal) (φ := .f32) (subf x (broadcastInDim S8x4096x32x8x8 ![0, 1, 2, 3, 4] bcast_S8x1x1x8x1_S8x4096x32x8x8_0_1_2_3_4 (gmean1 (F := Ideal) x)))
        (subf x (broadcastInDim S8x4096x32x8x8 ![0, 1, 2, 3, 4] bcast_S8x1x1x8x1_S8x4096x32x8x8_0_1_2_3_4 (gmean1 (F := Ideal) x)))) b g t
      = (grp1 x b g t - Cert.LibBatchNorm.meanR (grp1 x b g) (((1048576 : ℝ)) : EReal))
        * (grp1 x b g t - Cert.LibBatchNorm.meanR (grp1 x b g) (((1048576 : ℝ)) : EReal)) := by
  show mulf (F := Ideal) (φ := .f32) _ _ (ix5 b t.1.1 t.1.2 g t.2) = _
  rw [mulf_apply, subf_apply, bc551, gmean1_apply]
  rfl

/-- A group's variance: what the guard selects is the textbook two-pass variance over the group's triples. -/
theorem gvar1_apply (x : S8x4096x32x8x8.Idx → EReal) (b : Fin 8) (u1 u2 u3 : Fin 1) (g : Fin 8) :
    gvar1 (F := Ideal) x (ix5 b u1 u2 g u3) = Cert.LibBatchNorm.varR (grp1 x b g) (((1048576 : ℝ)) : EReal) := by
  unfold gvar1
  rw [select_apply, bc051, cmpf_apply, gguard1, hostDivf_apply1, bc051, gcount1_eq, bc831, gsum1_apply]
  unfold Cert.LibBatchNorm.varR
  exact congrArg₂ Ideal.div (congrArg (fun z : EReal => 0 + z) (Finset.sum_congr rfl fun t _ => gdev1_apply x b g t)) rfl

/-- A [C] vector laid along the last axis of the [8,4096,32,C] layout reads its channel. -/
theorem bcrow1 (v : S64.Idx → EReal) (b : Fin 8) (s : Fin 4096) (k : Fin 32) (m : Fin 64) :
    broadcastInDim S8x4096x32x64 ![0, 1, 2, 3] bcast_S1x1x1x64_S8x4096x32x64_0_1_2_3 (broadcastInDim S1x1x1x64 ![3] bcast_S64_S1x1x1x64_3 v) (ix4 b s k m) = v (ix1 m) := by
  rw [broadcastInDim_apply _ _ _ (ix4 b s k m) (ix4 (0 : Fin 1) (0 : Fin 1) (0 : Fin 1) m) (fun a => by
        match a with
        | ⟨0, _⟩ => rfl
        | ⟨1, _⟩ => rfl
        | ⟨2, _⟩ => rfl
        | ⟨3, _⟩ => rfl),
    broadcastInDim_apply _ _ v (ix4 (0 : Fin 1) (0 : Fin 1) (0 : Fin 1) m) (ix1 m) (fun a => by
        match a with
        | ⟨0, _⟩ => rfl)]

/-- The normalised, scaled, shifted, rectified layer at channel m = 8·g + j: `act` of the entry with its group's mean and inverse
    deviation and the channel's scale and shift. -/
theorem norm1_apply (x : S8x4096x32x8x8.Idx → EReal) (a5 a6 : S64.Idx → EReal) (b : Fin 8) (s : Fin 4096) (k : Fin 32) (g : Fin 8) (j : Fin 8)
    (m : Fin 64) (hm : m.val = g.val * 8 + j.val) :
    norm1 (F := Ideal) x a5 a6 (ix4 b s k m)
      = Cert.Spec.act (x (ix5 b s k g j)) (Cert.LibBatchNorm.meanR (grp1 x b g) (((1048576 : ℝ)) : EReal))
          (Ideal.rsqrt (Cert.LibBatchNorm.varR (grp1 x b g) (((1048576 : ℝ)) : EReal) + Ideal.ofBits .f32 0x3727C5AC#32))
          (a5 (ix1 m)) (a6 (ix1 m)) := by
  unfold norm1 Cert.Spec.act
  rw [maximumf_apply, addf_apply, mulf_apply, bcrow1, bcrow1,
    broadcastInDim_apply _ _ (constant (F := Ideal) S_ .f32 0x00000000#32) (ix4 b s k m) ix0 (fun a => a.elim0),
    constant_apply, Ideal.ofBits_zero_f32,
    LibMergeSplit.merge_last5_apply _ shapeCasts_S8x4096x32x8x8_S8x4096x32x64 rfl b s k g j m hm,
    mulf_apply, subf_apply, bc551, bc551, gmean1_apply, hostRsqrt_apply1, addf_apply, gvar1_apply, bc051, constant_apply]

end Cert.ReferenceIdeal.RefValue

end
-- ==== Proof.RefRead2b.lean ====
/-
  The reference's group statistics and normalisation at an index (layer 2).  With the channels laid out as 8 groups, the mean of
  group g of batch entry b is the host's sum over points, neighbours and the group's channels over their number, and the variance
  the sum of squared deviations over the same number — the textbook two-pass statistics over the group's triples; the guard of the
  variance ("the count less the removed degrees of freedom is positive") holds since that count is 2^20 or 2^21, so the selected
  value is the quotient.  The normalised layer at a channel is then `act` of the entry with its group's mean and inverse deviation
  and the channel's scale and shift.  No finiteness is used here.
-/
import proofs.«147857_j86655260164510_2_alg».proof.Proof.RefStages
import proofs.«147857_j86655260164510_2_alg».proof.Proof.Spec
import proofs.«147857_j86655260164510_2_alg».proof.Proof.LibMergeSplit
import proofs.«147857_j86655260164510_2_alg».proof.Proof.LibReduce124
import proofs.«147857_j86655260164510_2_alg».proof.Proof.LibGroupNorm
import Idealize.ShloMosaic.Lib.Pipeline.Value
import Idealize.ShloMosaic.Lib.ValueIdx
import Idealize.ShloMosaic.Lib.IdealHost
import Idealize.ShloMosaic.PureOps.Ideal.Laws

set_option maxRecDepth 65536

noncomputable section

namespace Cert.ReferenceIdeal.RefValue

open Cert.ReferenceIdeal Cert.ReferenceIdeal.Gen Idealize.ShloMosaic Idealize.ShloMosaic.TcCoe Idealize.ShloMosaic.ValueIdx

/-- The entries of batch entry b, group g, as a family over (point, neighbour, channel of the group). -/
def grp2 (x : S8x4096x32x8x16.Idx → EReal) (b : Fin 8) (g : Fin 8) : (Fin 4096 × Fin 32) × Fin 16 → EReal :=
  fun t => x (ix5 b t.1.1 t.1.2 g t.2)

/-- The host's sum over points, neighbours and the group's channels at (b, g), from a zero start. -/
theorem gsum2_apply (x : S8x4096x32x8x16.Idx → EReal) (b : Fin 8) (g : Fin 8) :
    Host.reduceAdd (F := Ideal) (φ := .f32) x (constant S_ .f32 0x00000000#32) reducesTo_S8x4096x32x8x16_S8x8_d1_2_4 h_S_ (ix2 b g)
      = 0 + ∑ t, grp2 x b g t := by
  rw [hostReduceAdd_apply]
  show Ideal.hostReduceAdd reducesTo_S8x4096x32x8x16_S8x8_d1_2_4 x (Ideal.ofBits .f32 0x00000000#32) (ix2 b g) = _
  rw [LibReduce124.hostReduceAdd_apply (a := 8) (b := 4096) (c := 32) (d := 8) (e := 16) reducesTo_S8x4096x32x8x16_S8x8_d1_2_4 x _ b g,
    Ideal.ofBits_zero_f32, Cert.LibGroupNorm.sum_triple]
  rfl

/-- A [8,8] array repeated along the three unit axes of [8,1,1,8,1] reads its (b, g) entry. -/
theorem bc832 (v : S8x8.Idx → EReal) (b : Fin 8) (u1 u2 u3 : Fin 1) (g : Fin 8) :
    broadcastInDim S8x1x1x8x1 ![0, 3] bcast_S8x8_S8x1x1x8x1_0_3 v (ix5 b u1 u2 g u3) = v (ix2 b g) :=
  broadcastInDim_apply _ _ v (ix5 b u1 u2 g u3) (ix2 b g) (fun a => by
    match a with
    | ⟨0, _⟩ => rfl
    | ⟨1, _⟩ => rfl)

/-- A scalar repeated over [8,1,1,8,1] reads itself. -/
theorem bc052 {α : Type} (v : S_.Idx → α) (i : S8x1x1x8x1.Idx) :
    broadcastInDim S8x1x1x8x1 ![] bcast_S_S8x1x1x8x1 v i = v ix0 :=
  broadcastInDim_apply _ _ v i ix0 (fun a => a.elim0)

/-- A [8,1,1,8,1] array repeated over the full layout reads its (b, g) entry. -/
theorem bc552 (v : S8x1x1x8x1.Idx → EReal) (b : Fin 8) (s : Fin 4096) (k : Fin 32) (g : Fin 8) (j : Fin 16) :
    broadcastInDim S8x4096x32x8x16 ![0, 1, 2, 3, 4] bcast_S8x1x1x8x1_S8x4096x32x8x16_0_1_2_3_4 v (ix5 b s k g j) = v (ix5 b (0 : Fin 1) (0 : Fin 1) g (0 : Fin 1)) :=
  broadcastInDim_apply _ _ v (ix5 b s k g j) (ix5 b (0 : Fin 1) (0 : Fin 1) g (0 : Fin 1)) (fun a => by
    match a with
    | ⟨0, _⟩ => rfl
    | ⟨1, _⟩ => rfl
    | ⟨2, _⟩ => rfl
    | ⟨3, _⟩ => rfl
    | ⟨4, _⟩ => rfl)

theorem hostDivf_apply2 {s : Shape} (a b : s.Idx → EReal) (i : s.Idx) :
    Host.divf (F := Ideal) (φ := .f32) a b i = Ideal.div (a i) (b i) := rfl
theorem hostRsqrt_apply2 {s : Shape} (a : s.Idx → EReal) (i : s.Idx) :
    Host.rsqrt (F := Ideal) (φ := .f32) a i = Ideal.rsqrt (a i) := rfl

/-- A group's mean, wherever it is read along the unit axes: the textbook mean over the group's triples. -/
theorem gmean2_apply (x : S8x4096x32x8x16.Idx → EReal) (b : Fin 8) (u1 u2 u3 : Fin 1) (g : Fin 8) :
    gmean2 (F := Ideal) x (ix5 b u1 u2 g u3) = Cert.LibBatchNorm.meanR (grp2 x b g) (((2097152 : ℝ)) : EReal) := by
  unfold gmean2 Cert.LibBatchNorm.meanR
  rw [hostDivf_apply2, bc832, bc052, gsum2_apply, constant_apply, Cert.LibGroupNorm.ofBits_2pow21]

/-- The count less an integer zero is the count. -/
theorem gcount2_eq : gcount2 (F := Ideal) ix0 = (((2097152 : ℝ)) : EReal) := by
  unfold gcount2
  show Ideal.ofBits .f32 0x4A000000#32 - (((0 : BitVec 32).toInt : ℝ) : EReal) = _
  rw [Cert.LibGroupNorm.ofBits_2pow21]
  simp

/-- The variance's guard holds: the count is positive. -/
theorem gguard2 (A B : EReal) :
    Scalar.select (FloatOps.cmpf .ogt (gcount2 (F := Ideal) ix0) (constant (F := Ideal) S_ .f32 0x00000000#32 ix0)) A B = A := by
  rw [gcount2_eq, constant_apply, Ideal.ofBits_zero_f32]
  exact Cert.LibGroupNorm.guard_pos (2097152 : ℝ) (by norm_num) A B

/-- A squared deviation from the group's mean, as an entry of the group's family. -/
theorem gdev2_apply (x : S8x4096x32x8x16.Idx → EReal) (b : Fin 8) (g : Fin 8) (t : (Fin 4096 × Fin 32) × Fin 16) :
    grp2 (mulf (F := Ideal) (φ := .f32) (subf x (broadcastInDim S8x4096x32x8x16 ![0, 1, 2, 3, 4] bcast_S8x1x1x8x1_S8x4096x32x8x16_0_1_2_3_4 (gmean2 (F := Ideal) x)))
        (subf x (broadcastInDim S8x4096x32x8x16 ![0, 1, 2, 3, 4] bcast_S8x1x1x8x1_S8x4096x32x8x16_0_1_2_3_4 (gmean2 (F := Ideal) x)))) b g t
      = (grp2 x b g t - Cert.LibBatchNorm.meanR (grp2 x b g) (((2097152 : ℝ)) : EReal))
        * (grp2 x b g t - Cert.LibBatchNorm.meanR (grp2 x b g) (((2097152 : ℝ)) : EReal)) := by
  show mulf (F := Ideal) (φ := .f32) _ _ (ix5 b t.1.1 t.1.2 g t.2) = _
  rw [mulf_apply, subf_apply, bc552, gmean2_apply]
  rfl

/-- A group's variance: what the guard selects is the textbook two-pass variance over the group's triples. -/
theorem gvar2_apply (x : S8x4096x32x8x16.Idx → EReal) (b : Fin 8) (u1 u2 u3 : Fin 1) (g : Fin 8) :
    gvar2 (F := Ideal) x (ix5 b u1 u2 g u3) = Cert.LibBatchNorm.varR (grp2 x b g) (((2097152 : ℝ)) : EReal) := by
  unfold gvar2
  rw [select_apply, bc052, cmpf_apply, gguard2, hostDivf_apply2, bc052, gcount2_eq, bc832, gsum2_apply]
  unfold Cert.LibBatchNorm.varR
  exact congrArg₂ Ideal.div (congrArg (fun z : EReal => 0 + z) (Finset.sum_congr rfl fun t _ => gdev2_apply x b g t)) rfl

/-- A [C] vector laid along the last axis of the [8,4096,32,C] layout reads its channel. -/
theorem bcrow2 (v : S128.Idx → EReal) (b : Fin 8) (s : Fin 4096) (k : Fin 32) (m : Fin 128) :
    broadcastInDim S8x4096x32x128 ![0, 1, 2, 3] bcast_S1x1x1x128_S8x4096x32x128_0_1_2_3 (broadcastInDim S1x1x1x128 ![3] bcast_S128_S1x1x1x128_3 v) (ix4 b s k m) = v (ix1 m) := by
  rw [broadcastInDim_apply _ _ _ (ix4 b s k m) (ix4 (0 : Fin 1) (0 : Fin 1) (0 : Fin 1) m) (fun a => by
        match a with
        | ⟨0, _⟩ => rfl
        | ⟨1, _⟩ => rfl
        | ⟨2, _⟩ => rfl
        | ⟨3, _⟩ => rfl),
    broadcastInDim_apply _ _ v (ix4 (0 : Fin 1) (0 : Fin 1) (0 : Fin 1) m) (ix1 m) (fun a => by
        match a with
        | ⟨0, _⟩ => rfl)]

/-- The normalised, scaled, shifted, rectified layer at channel m = 16·g + j: `act` of the entry with its group's mean and inverse
    deviation and the channel's scale and shift. -/
theorem norm2_apply (x : S8x4096x32x8x16.Idx → EReal) (a5 a6 : S128.Idx → EReal) (b : Fin 8) (s : Fin 4096) (k : Fin 32) (g : Fin 8) (j : Fin 16)
    (m : Fin 128) (hm : m.val = g.val * 16 + j.val) :
    norm2 (F := Ideal) x a5 a6 (ix4 b s k m)
      = Cert.Spec.act (x (ix5 b s k g j)) (Cert.LibBatchNorm.meanR (grp2 x b g) (((2097152 : ℝ)) : EReal))
          (Ideal.rsqrt (Cert.LibBatchNorm.varR (grp2 x b g) (((2097152 : ℝ)) : EReal) + Ideal.ofBits .f32 0x3727C5AC#32))
          (a5 (ix1 m)) (a6 (ix1 m)) := by
  unfold norm2 Cert.Spec.act
  rw [maximumf_apply, addf_apply, mulf_apply, bcrow2, bcrow2,
    broadcastInDim_apply _ _ (constant (F := Ideal) S_ .f32 0x00000000#32) (ix4 b s k m) ix0 (fun a => a.elim0),
    constant_apply, Ideal.ofBits_zero_f32,
    LibMergeSplit.merge_last5_apply _ shapeCasts_S8x4096x32x8x16_S8x4096x32x128 rfl b s k g j m hm,
    mulf_apply, subf_apply, bc552, bc552, gmean2_apply, hostRsqrt_apply2, addf_apply, gvar2_apply, bc052, constant_apply]

end Cert.ReferenceIdeal.RefValue

end
-- ==== Proof.RefRead3.lean ====
/-
  The reference's second linear layer and its pooling at an index: the layer contracts the 64 normalised channels against a weight
  row; the pooling is the maximum over the 32 neighbours, a fold of max from the value of the word it starts from.
-/
import proofs.«147857_j86655260164510_2_alg».proof.Proof.RefStages
import proofs.«147857_j86655260164510_2_alg».proof.Proof.LibMergeSplit
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx

/-- The host's contraction of the last axis of a [8,4096,32,64] array against the second axis of a [128,64] one. -/
theorem dot2_apply (l : S8x4096x32x64.Idx → EReal) (r : S128x64.Idx → EReal) (b : Fin 8) (s : Fin 4096) (k : Fin 32) (o : Fin 128) :
    Host.dotGeneral (F := Ideal) (φ₁ := .f32) (φ₂ := .f32) dot_S8x4096x32x64_S128x64_S8x4096x32x128_3_1_012_0_n_n none l r (ix4 b s k o)
      = ∑ c : Fin 64, l (ix4 b s k c) * r (ix2 o c) := by
  simp only [Host.dotGeneral]
  rw [Ideal.dotGeneral_apply,
    ← Equiv.sum_comp (contrEquiv1 dot_S8x4096x32x64_S128x64_S8x4096x32x128_3_1_012_0_n_n 64 rfl rfl).symm]
  refine Finset.sum_congr rfl fun c _ => ?_
  have hl : dot_S8x4096x32x64_S128x64_S8x4096x32x128_3_1_012_0_n_n.lhsIdx (ix4 b s k o)
      ((contrEquiv1 dot_S8x4096x32x64_S128x64_S8x4096x32x128_3_1_012_0_n_n 64 rfl rfl).symm c) = ix4 b s k c :=
    funext fun a => Fin.ext (by
      match a with
      | ⟨0, _⟩ => rfl
      | ⟨1, _⟩ => rfl
      | ⟨2, _⟩ => rfl
      | ⟨3, _⟩ =>
        exact (dot_S8x4096x32x64_S128x64_S8x4096x32x128_3_1_012_0_n_n.lhsIdx_val_of_single rfl _ _).trans
          (contrEquiv1_symm_val _ 64 rfl rfl c))
  have hr : dot_S8x4096x32x64_S128x64_S8x4096x32x128_3_1_012_0_n_n.rhsIdx (ix4 b s k o)
      ((contrEquiv1 dot_S8x4096x32x64_S128x64_S8x4096x32x128_3_1_012_0_n_n 64 rfl rfl).symm c) = ix2 o c :=
    funext fun a => Fin.ext (by
      match a with
      | ⟨0, _⟩ => rfl
      | ⟨1, _⟩ =>
        exact (dot_S8x4096x32x64_S128x64_S8x4096x32x128_3_1_012_0_n_n.rhsIdx_val_of_single rfl _ _).trans
          (contrEquiv1_symm_val _ 64 rfl rfl c))
  rw [hl, hr]

/-- The second layer at group g, channel j of the group — channel o = 16·g + j of the 128. -/
theorem lin2_apply (h : S8x4096x32x64.Idx → EReal) (a7 : S128x64.Idx → EReal)
    (b : Fin 8) (s : Fin 4096) (k : Fin 32) (g : Fin 8) (j : Fin 16) (o : Fin 128) (ho : o.val = g.val * 16 + j.val) :
    lin2 (F := Ideal) h a7 (ix5 b s k g j) = ∑ c : Fin 64, h (ix4 b s k c) * a7 (ix2 o c) := by
  unfold lin2
  rw [LibMergeSplit.split_last4_apply _ _ rfl b s k g j o ho, dot2_apply]

/-- The pooling at (b, s, o): the fold of max over the 32 neighbours from the starting word's value. -/
theorem pool_apply (h : S8x4096x32x128.Idx → EReal) (b : Fin 8) (s : Fin 4096) (o : Fin 128) :
    pool (F := Ideal) h (ix3 b s o)
      = (Finset.univ : Finset (Fin 32)).fold max (Ideal.ofBits .f32 0xFF800000#32) (fun k => h (ix4 b s k o)) := by
  unfold pool
  rw [Host.reduce_eq_fold_single (FloatOps.maximumf (F := Ideal) (φ := .f32)) h _ reducesTo_S8x4096x32x128_S8x4096x128_d2
    (by decide : S8x4096x32x128.Reduces [2] S8x4096x128) h_S_ (ix3 b s o)]
  have hl : ∀ k, (by decide : S8x4096x32x128.Reduces [2] S8x4096x128).lift (ix3 b s o) k = ix4 b s k o := fun k =>
    funext fun a => Fin.ext (by
      match a with
      | ⟨0, _⟩ => rfl
      | ⟨1, _⟩ => rfl
      | ⟨2, _⟩ => rfl
      | ⟨3, _⟩ => rfl)
  show (Finset.univ : Finset (Fin 32)).fold max (Ideal.ofBits .f32 0xFF800000#32)
      (h ∘ (by decide : S8x4096x32x128.Reduces [2] S8x4096x128).lift (ix3 b s o)) = _
  refine congrArg (fun f => Finset.fold max (Ideal.ofBits .f32 0xFF800000#32) f Finset.univ) (funext fun k => ?_)
  exact congrArg h (hl k)

end Cert.ReferenceIdeal.RefValue

end
-- ==== Proof.Bridge.lean ====
/-
  The reference's result in the kernel's form.  Let per-channel arrays M1, I1 (first layer) and M2, I2 (second layer) hold, at every
  channel, the reference's mean and inverse deviation of the channel's group, and let G1, B1, G2, B2 be the scale and shift vectors
  laid out as one row.  Then stage by stage the reference is the specification: its normalised first layer is h1, its second linear
  layer x2, its normalised second layer h2, and its result the pooled value.  Nothing here needs finiteness: the statistics enter
  only through the four hypotheses.
-/
import proofs.«147857_j86655260164510_2_alg».proof.Proof.RefRead1
import proofs.«147857_j86655260164510_2_alg».proof.Proof.RefRead2a
import proofs.«147857_j86655260164510_2_alg».proof.Proof.RefRead2b
import proofs.«147857_j86655260164510_2_alg».proof.Proof.RefRead3

set_option maxRecDepth 65536

noncomputable section

namespace Cert.ReferenceIdeal.RefValue

open Cert.ReferenceIdeal Cert.ReferenceIdeal.Gen Idealize.ShloMosaic Idealize.ShloMosaic.TcCoe Idealize.ShloMosaic.ValueIdx
open Cert.Spec (Arr2 Arr3 Arr4)

/-- Channel j of group g among 64, and among 128. -/
def ch1 (g : Fin 8) (j : Fin 8) : Fin 64 := ⟨g.val * 8 + j.val, by have := g.isLt; have := j.isLt; omega⟩
def ch2 (g : Fin 8) (j : Fin 16) : Fin 128 := ⟨g.val * 16 + j.val, by have := g.isLt; have := j.isLt; omega⟩

/-- Every channel of the 64 is channel j of some group g; likewise of the 128. -/
theorem ch1_surj (c : Fin 64) : ∃ g j, c = ch1 g j :=
  ⟨⟨c.val / 8, by have := c.isLt; omega⟩, ⟨c.val % 8, Nat.mod_lt _ (by norm_num)⟩, Fin.ext (by show c.val = c.val / 8 * 8 + c.val % 8; omega)⟩
theorem ch2_surj (o : Fin 128) : ∃ g j, o = ch2 g j :=
  ⟨⟨o.val / 16, by have := o.isLt; omega⟩, ⟨o.val % 16, Nat.mod_lt _ (by norm_num)⟩, Fin.ext (by show o.val = o.val / 16 * 16 + o.val % 16; omega)⟩

section
variable (a0 : S8x4096x3.Idx → EReal) (a2 : S8x4096x32x3.Idx → EReal) (a3 : S8x4096x32x64.Idx → EReal) (a4 : S64x67.Idx → EReal)
  (a5 a6 : S64.Idx → EReal) (a7 : S128x64.Idx → EReal) (a8 a9 : S128.Idx → EReal)
  (h1 : S64x67.Slices ![0, 0] ⟨2, ![64, 64]⟩) (h2 : S64x67.Slices ![0, 64] ⟨2, ![64, 3]⟩)
  (G1 B1 : Arr2 1 64) (M1 I1 : Arr3 8 1 64) (G2 B2 : Arr2 1 128) (M2 I2 : Arr3 8 1 128)

/-- The weight's two column blocks, as the kernel cuts them. -/
abbrev wf : Arr2 64 64 := extractStridedSlice ⟨2, ![64, 64]⟩ ![0, 0] a4 h1
abbrev wr : Arr2 64 3 := extractStridedSlice ⟨2, ![64, 3]⟩ ![0, 64] a4 h2

/-- The reference's normalised first layer is h1, when M1, I1 hold the reference's group statistics. -/
theorem norm1_eq_h1 (hG : ∀ c, G1 (ix2 0 c) = a5 (ix1 c)) (hB : ∀ c, B1 (ix2 0 c) = a6 (ix1 c))
    (hM : ∀ b g j, M1 (ix3 b 0 (ch1 g j)) = Cert.LibBatchNorm.meanR (grp1 (lin1 (F := Ideal) a0 a2 a3 a4) b g) (((1048576 : ℝ)) : EReal))
    (hI : ∀ b g j, I1 (ix3 b 0 (ch1 g j))
      = Ideal.rsqrt (Cert.LibBatchNorm.varR (grp1 (lin1 (F := Ideal) a0 a2 a3 a4) b g) (((1048576 : ℝ)) : EReal) + Ideal.ofBits .f32 0x3727C5AC#32))
    (b : Fin 8) (s : Fin 4096) (k : Fin 32) (c : Fin 64) :
    norm1 (F := Ideal) (lin1 (F := Ideal) a0 a2 a3 a4) a5 a6 (ix4 b s k c)
      = Cert.Spec.h1 a3 a2 a0 (wf a4 h1) (wr a4 h2) G1 B1 M1 I1 b s k c := by
  obtain ⟨g, j, rfl⟩ := ch1_surj c
  rw [norm1_apply _ a5 a6 b s k g j (ch1 g j) rfl, lin1_apply a0 a2 a3 a4 h1 h2 b s k g j (ch1 g j) rfl]
  unfold Cert.Spec.h1
  rw [hG, hB, hM, hI]

/-- The reference's second linear layer is x2. -/
theorem lin2_eq_x2 (hG : ∀ c, G1 (ix2 0 c) = a5 (ix1 c)) (hB : ∀ c, B1 (ix2 0 c) = a6 (ix1 c))
    (hM : ∀ b g j, M1 (ix3 b 0 (ch1 g j)) = Cert.LibBatchNorm.meanR (grp1 (lin1 (F := Ideal) a0 a2 a3 a4) b g) (((1048576 : ℝ)) : EReal))
    (hI : ∀ b g j, I1 (ix3 b 0 (ch1 g j))
      = Ideal.rsqrt (Cert.LibBatchNorm.varR (grp1 (lin1 (F := Ideal) a0 a2 a3 a4) b g) (((1048576 : ℝ)) : EReal) + Ideal.ofBits .f32 0x3727C5AC#32))
    (b : Fin 8) (s : Fin 4096) (k : Fin 32) (g : Fin 8) (j : Fin 16) :
    lin2 (F := Ideal) (norm1 (F := Ideal) (lin1 (F := Ideal) a0 a2 a3 a4) a5 a6) a7 (ix5 b s k g j)
      = Cert.Spec.x2 a3 a2 a0 (wf a4 h1) (wr a4 h2) a7 G1 B1 M1 I1 b s k (ch2 g j) := by
  rw [lin2_apply _ a7 b s k g j (ch2 g j) rfl]
  unfold Cert.Spec.x2
  refine Finset.sum_congr rfl fun c _ => ?_
  rw [norm1_eq_h1 a0 a2 a3 a4 a5 a6 h1 h2 G1 B1 M1 I1 hG hB hM hI b s k c]

/-- The reference's result is the pooled value of the specification, when M2, I2 hold the reference's second-layer group
    statistics as well. -/
theorem out_eq_pooled (hG : ∀ c, G1 (ix2 0 c) = a5 (ix1 c)) (hB : ∀ c, B1 (ix2 0 c) = a6 (ix1 c))
    (hM : ∀ b g j, M1 (ix3 b 0 (ch1 g j)) = Cert.LibBatchNorm.meanR (grp1 (lin1 (F := Ideal) a0 a2 a3 a4) b g) (((1048576 : ℝ)) : EReal))
    (hI : ∀ b g j, I1 (ix3 b 0 (ch1 g j))
      = Ideal.rsqrt (Cert.LibBatchNorm.varR (grp1 (lin1 (F := Ideal) a0 a2 a3 a4) b g) (((1048576 : ℝ)) : EReal) + Ideal.ofBits .f32 0x3727C5AC#32))
    (hG2 : ∀ o, G2 (ix2 0 o) = a8 (ix1 o)) (hB2 : ∀ o, B2 (ix2 0 o) = a9 (ix1 o))
    (hM2 : ∀ b g j, M2 (ix3 b 0 (ch2 g j))
      = Cert.LibBatchNorm.meanR (grp2 (lin2 (F := Ideal) (norm1 (F := Ideal) (lin1 (F := Ideal) a0 a2 a3 a4) a5 a6) a7) b g) (((2097152 : ℝ)) : EReal))
    (hI2 : ∀ b g j, I2 (ix3 b 0 (ch2 g j))
      = Ideal.rsqrt (Cert.LibBatchNorm.varR (grp2 (lin2 (F := Ideal) (norm1 (F := Ideal) (lin1 (F := Ideal) a0 a2 a3 a4) a5 a6) a7) b g) (((2097152 : ℝ)) : EReal)
          + Ideal.ofBits .f32 0x3727C5AC#32))
    (b : Fin 8) (s : Fin 4096) (o : Fin 128) :
    out (F := Ideal) a0 a2 a3 a4 a5 a6 a7 a8 a9 (ix3 b s o)
      = Cert.Spec.pooled a3 a2 a0 (wf a4 h1) (wr a4 h2) a7 G1 B1 M1 I1 G2 B2 M2 I2 b s o := by
  unfold out Cert.Spec.pooled
  rw [pool_apply]
  refine congrArg (fun f => Finset.fold max (Ideal.ofBits .f32 0xFF800000#32) f Finset.univ) (funext fun k => ?_)
  obtain ⟨g, j, rfl⟩ := ch2_surj o
  rw [norm2_apply _ a8 a9 b s k g j (ch2 g j) rfl,
    lin2_eq_x2 a0 a2 a3 a4 a5 a6 a7 h1 h2 G1 B1 M1 I1 hG hB hM hI b s k g j]
  unfold Cert.Spec.h2
  rw [hG2, hB2, hM2, hI2]

end

end Cert.ReferenceIdeal.RefValue

end
-- ==== Proof.SpecReal.lean ====
/-
  The specification's values are real numbers when its inputs are: finite sums, products, differences and maxima of reals are
  reals.  (The statistics are inputs here; that a mean and an inverse deviation are real is shown where they are formed.)
-/
import proofs.«147857_j86655260164510_2_alg».proof.Proof.Spec
import proofs.«147857_j86655260164510_2_alg».proof.Proof.LibBatchNorm

noncomputable section

namespace Cert.Spec

open Idealize.ShloMosaic Idealize.ShloMosaic.ValueIdx
open Cert.LibBatchNorm (IsReal)

theorem x1_real (feat : Arr4 8 4096 32 64) (xyz : Arr4 8 4096 32 3) (cxyz : Arr3 8 4096 3) (w1f : Arr2 64 64) (w1r : Arr2 64 3)
    (hf : ∀ i, IsReal (feat i)) (hx : ∀ i, IsReal (xyz i)) (hc : ∀ i, IsReal (cxyz i)) (hwf : ∀ i, IsReal (w1f i)) (hwr : ∀ i, IsReal (w1r i))
    (b : Fin 8) (s : Fin 4096) (k : Fin 32) (m : Fin 64) : IsReal (x1 feat xyz cxyz w1f w1r b s k m) := by
  unfold x1
  exact (IsReal.sum _ _ fun c _ => (hf _).mul (hwf _)).add (IsReal.sum _ _ fun j _ => ((hx _).sub (hc _)).mul (hwr _))

theorem act_real {x mean inv g β : EReal} (hx : IsReal x) (hm : IsReal mean) (hi : IsReal inv) (hg : IsReal g) (hb : IsReal β) :
    IsReal (act x mean inv g β) := by
  unfold act
  exact ((((hx.sub hm).mul hi).mul hg).add hb).max IsReal.zero

theorem x2_real (feat : Arr4 8 4096 32 64) (xyz : Arr4 8 4096 32 3) (cxyz : Arr3 8 4096 3) (w1f : Arr2 64 64) (w1r : Arr2 64 3)
    (w2 : Arr2 128 64) (g1 β1 : Arr2 1 64) (mean1 inv1 : Arr3 8 1 64)
    (hf : ∀ i, IsReal (feat i)) (hx : ∀ i, IsReal (xyz i)) (hc : ∀ i, IsReal (cxyz i)) (hwf : ∀ i, IsReal (w1f i)) (hwr : ∀ i, IsReal (w1r i))
    (hw2 : ∀ i, IsReal (w2 i)) (hg : ∀ i, IsReal (g1 i)) (hb : ∀ i, IsReal (β1 i)) (hm : ∀ i, IsReal (mean1 i)) (hi : ∀ i, IsReal (inv1 i))
    (b : Fin 8) (s : Fin 4096) (k : Fin 32) (o : Fin 128) : IsReal (x2 feat xyz cxyz w1f w1r w2 g1 β1 mean1 inv1 b s k o) := by
  unfold x2 h1
  exact IsReal.sum _ _ fun m _ => (act_real (x1_real feat xyz cxyz w1f w1r hf hx hc hwf hwr b s k m) (hm _) (hi _) (hg _) (hb _)).mul (hw2 _)

end Cert.Spec

end
-- ==== Proof.Finite.lean ====
/-
  From the precondition to real entries.  The precondition says of each float argument array that every entry's absolute value
  is below +∞ (an and-reduction of the elementwise comparison over the whole array, the nine results and-ed together).  On the
  extended reals |x| < ⊤ holds exactly when x is a real number, so every entry of every float argument is (the coercion of) a real.
-/
import proofs.«147857_j86655260164510_2_alg».proof.Defs
import proofs.«147857_j86655260164510_2_alg».proof.Proof.Gen.Pre_finite_inputs
import proofs.«147857_j86655260164510_2_alg».proof.Proof.LibBatchNorm
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Idealize.SL.Sem
open Cert.LibBatchNorm (IsReal)

/-- The word 0x7F800000 is +∞. -/
theorem inf_word : Ideal.ofBits .f32 0x7F800000#32 = (⊤ : EReal) := by
  simp [Ideal.ofBits, Ideal.ieee]

/-- An extended real whose absolute value max x (−x) is below +∞ is a real number. -/
theorem real_of_abs_lt (x : EReal) (h : Ideal.cmp .olt (max x (-x)) (Ideal.ofBits .f32 0x7F800000#32) = 1#1) : IsReal x := by
  rw [inf_word] at h
  have hlt : max x (-x) < ⊤ := by
    by_contra hn
    simp [Ideal.cmp, hn] at h
  induction x using EReal.rec with
  | bot => simp at hlt
  | top => simp at hlt
  | coe r => exact ⟨r, rfl⟩

instance : Subsingleton Cert.Pre_finite_inputs.S_.Idx := ⟨fun a b => funext fun d => d.elim0⟩

/-- The conjunction of two one-bit results is 1 only if both are. -/
theorem and_ix0 (a b : IVec Cert.Pre_finite_inputs.S_ 1) (h : andi a b ix0 = 1#1) : a ix0 = 1#1 ∧ b ix0 = 1#1 :=
  IntOp.andi_eq_one.1 h

/-- An array whose every entry passed the comparison, and-reduced to 1, has only real entries. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
          (cmpf .olt (Host.absf x) (broadcastInDim S ![] hb (constant (F := Ideal) Cert.Pre_finite_inputs.S_ .f32 0x7F800000#32)))
          (constantI Cert.Pre_finite_inputs.S_ 1 1#1) hr hu ix0 = 1#1) (i : S.Idx) : IsReal (x i) :=
  real_of_abs_lt (x i) (Host.reduce_andi_all _ _ hr hu ix0 h i)

/-- Under the precondition every entry of every float argument array the block reads is a real number
    (arguments 0, 2, 3: centre coordinates, neighbour coordinates, neighbour features; 4: first weight; 5, 6: first scale and
    shift; 7: second weight; 8, 9: second scale and shift). -/
theorem real_inputs (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i)) := by
  have h := congrFun (hpre c) ix0
  dsimp only [Cert.Pre_finite_inputs.fn, Cert.Pre_finite_inputs.fn_part1, Cert.Pre_finite_inputs.fn_part2] at h
  obtain ⟨h, h9⟩ := and_ix0 _ _ h
  obtain ⟨h, h8⟩ := and_ix0 _ _ h
  obtain ⟨h, h7⟩ := and_ix0 _ _ h
  obtain ⟨h, h6⟩ := and_ix0 _ _ h
  obtain ⟨h, h5⟩ := and_ix0 _ _ h
  obtain ⟨h, h4⟩ := and_ix0 _ _ h
  obtain ⟨h, h3⟩ := and_ix0 _ _ h
  obtain ⟨h, h2⟩ := and_ix0 _ _ h
  obtain ⟨h0, h1⟩ := and_ix0 _ _ h
  exact ⟨real_of_all _ _ _ _ h0, real_of_all _ _ _ _ h2, real_of_all _ _ _ _ h3, real_of_all _ _ _ _ h4, real_of_all _ _ _ _ h5,
    real_of_all _ _ _ _ h6, real_of_all _ _ _ _ h7, real_of_all _ _ _ _ h8, real_of_all _ _ _ _ h9⟩

end Cert.Finite

end
-- ==== Proof.Final.lean ====
/-
  The value equation.  Both programs are brought to the specification's pooled value with the SAME four statistics arrays.  The
  reference does so whenever the arrays hold its two-pass group statistics (Bridge.lean).  The kernel forms its arrays from the
  per-channel totals of its first two sweeps: a group's total is the sum of its channels' totals, so by the law for real entries
  (one-pass = two-pass, LibGroupNorm.lean) the kernel's mean and inverse deviation of a channel ARE the reference's of its group —
  for the first layer because the inputs are real (the precondition), for the second because then the first layer's statistics,
  hence its normalised values, hence the second layer, are real too.
-/
import proofs.«147857_j86655260164510_2_alg».proof.Proof.KResult
import proofs.«147857_j86655260164510_2_alg».proof.Proof.KStatsRead
import proofs.«147857_j86655260164510_2_alg».proof.Proof.Bridge
import proofs.«147857_j86655260164510_2_alg».proof.Proof.SpecReal
import proofs.«147857_j86655260164510_2_alg».proof.Proof.Finite
import Idealize.ShloMosaic.Lib.ValueLayout

set_option maxRecDepth 65536

noncomputable section

namespace Cert.Final

open Idealize.ShloMosaic Idealize.ShloMosaic.TcCoe Idealize.ShloMosaic.ValueIdx Idealize.SL.Sem
open Cert.KernelIdeal Cert.KernelIdeal.Gen Cert.KernelIdeal.KHost
open Cert.ReferenceIdeal.RefValue (lin1 norm1 lin2 grp1 grp2 ch1 ch2)
open Cert.LibBatchNorm (IsReal meanR varR meanK varK)
open Cert.Spec (Arr2 Arr3 Arr4)

/-- The argument arrays at launch. -/
abbrev A0 (m : (ℓ : Loc nD τ sig) → Buf (Elt Ideal) ℓ) (c : Dev nD) := m ((c : Thread nD τ).loc main_arg0)
abbrev A2 (m : (ℓ : Loc nD τ sig) → Buf (Elt Ideal) ℓ) (c : Dev nD) := m ((c : Thread nD τ).loc main_arg2)
abbrev A3 (m : (ℓ : Loc nD τ sig) → Buf (Elt Ideal) ℓ) (c : Dev nD) := m ((c : Thread nD τ).loc main_arg3)
abbrev A4 (m : (ℓ : Loc nD τ sig) → Buf (Elt Ideal) ℓ) (c : Dev nD) := m ((c : Thread nD τ).loc main_arg4)
abbrev A5 (m : (ℓ : Loc nD τ sig) → Buf (Elt Ideal) ℓ) (c : Dev nD) := m ((c : Thread nD τ).loc main_arg5)
abbrev A6 (m : (ℓ : Loc nD τ sig) → Buf (Elt Ideal) ℓ) (c : Dev nD) := m ((c : Thread nD τ).loc main_arg6)
abbrev A7 (m : (ℓ : Loc nD τ sig) → Buf (Elt Ideal) ℓ) (c : Dev nD) := m ((c : Thread nD τ).loc main_arg7)
abbrev A8 (m : (ℓ : Loc nD τ sig) → Buf (Elt Ideal) ℓ) (c : Dev nD) := m ((c : Thread nD τ).loc main_arg8)
abbrev A9 (m : (ℓ : Loc nD τ sig) → Buf (Elt Ideal) ℓ) (c : Dev nD) := m ((c : Thread nD τ).loc main_arg9)

variable (m : (ℓ : Loc nD τ sig) → Buf (Elt Ideal) ℓ) (ρ : Dev nD → PrngReg) (c : Dev nD)

/-- The count words as natural-number products. -/
theorem N1_eq : (1048576 : ℝ) = ((4096 * 32 * 8 : ℕ) : ℝ) := by norm_num
theorem N2_eq : (2097152 : ℝ) = ((4096 * 32 * 16 : ℕ) : ℝ) := by norm_num

/-- The real inputs, as one hypothesis. -/
structure RealIn : Prop where
  h0 : ∀ i, IsReal ((A0 m c) i)
  h2 : ∀ i, IsReal ((A2 m c) i)
  h3 : ∀ i, IsReal ((A3 m c) i)
  h4 : ∀ i, IsReal ((A4 m c) i)
  h5 : ∀ i, IsReal ((A5 m c) i)
  h6 : ∀ i, IsReal ((A6 m c) i)
  h7 : ∀ i, IsReal ((A7 m c) i)
  h8 : ∀ i, IsReal ((A8 m c) i)
  h9 : ∀ i, IsReal ((A9 m c) i)

theorem WF_real (hR : RealIn m c) (i) : IsReal (WF m c i) := hR.h4 _
theorem WR_real (hR : RealIn m c) (i) : IsReal (WR m c i) := hR.h4 _
theorem G1_real (hR : RealIn m c) (i) : IsReal (G1 m c i) := hR.h5 _
theorem B1_real (hR : RealIn m c) (i) : IsReal (B1 m c i) := hR.h6 _

/-- The first layer's entries are real. -/
theorem X1_real (hR : RealIn m c) (b : Fin 8) (s : Fin 4096) (k : Fin 32) (ch : Fin 64) :
    IsReal (Cert.Spec.x1 (A3 m c) (A2 m c) (A0 m c) (WF m c) (WR m c) b s k ch) :=
  Cert.Spec.x1_real _ _ _ _ _ hR.h3 hR.h2 hR.h0 (WF_real m c hR) (WR_real m c hR) b s k ch

/-- The reference's first-layer group family, in the specification's terms. -/
theorem fam1 (b g : Fin 8) :
    grp1 (lin1 (F := Ideal) (A0 m c) (A2 m c) (A3 m c) (A4 m c)) b g
      = fun t : (Fin 4096 × Fin 32) × Fin 8 => Cert.Spec.x1 (A3 m c) (A2 m c) (A0 m c) (WF m c) (WR m c) b t.1.1 t.1.2 (chan1 g t.2) :=
  funext fun t => Cert.ReferenceIdeal.RefValue.lin1_apply (A0 m c) (A2 m c) (A3 m c) (A4 m c) Cert.KernelIdeal.Facts₀.slices_S64x67_S64x64_0_0
    Cert.KernelIdeal.Facts₀.slices_S64x67_S64x3_0_64 b t.1.1 t.1.2 g t.2 (chan1 g t.2) rfl

/-- The law for the first layer's group (b, g). -/
theorem law1 (hR : RealIn m c) (b g : Fin 8) :
    Cert.LibGroupNorm.GroupLaw (P := 4096) (K := 32) (G := 8)
      (fun s k r => Cert.Spec.x1 (A3 m c) (A2 m c) (A0 m c) (WF m c) (WR m c) b s k (chan1 g r)) (1048576 : ℝ) :=
  Cert.LibGroupNorm.group_law (P := 4096) (K := 32) (G := 8)
    (fun s k r => Cert.Spec.x1 (A3 m c) (A2 m c) (A0 m c) (WF m c) (WR m c) b s k (chan1 g r)) (fun s k r => X1_real m c hR b s k _) (1048576 : ℝ) N1_eq (by norm_num)

/-- The kernel's first-layer mean of a channel is the reference's mean of its group. -/
theorem hM1 (hR : RealIn m c) (b g j : Fin 8) :
    (M1 m ρ c : Arr3 8 1 64) (ix3 b 0 (ch1 g j)) = meanR (grp1 (lin1 (F := Ideal) (A0 m c) (A2 m c) (A3 m c) (A4 m c)) b g) (((1048576 : ℝ)) : EReal) := by
  rw [fam1 m c b g]
  show kmean1 (F := Ideal) (S1 m ρ c) (ix3 b 0 (chan1 g j)) = _
  rw [kmean1_apply (S1 m ρ c) b 0 g j (chan1 g j) rfl]
  simp only [S1_apply]
  exact (law1 m c hR b g).1

/-- The kernel's first-layer inverse deviation of a channel is the reference's of its group. -/
theorem hI1 (hR : RealIn m c) (b g j : Fin 8) :
    (I1 m ρ c : Arr3 8 1 64) (ix3 b 0 (ch1 g j))
      = Ideal.rsqrt (varR (grp1 (lin1 (F := Ideal) (A0 m c) (A2 m c) (A3 m c) (A4 m c)) b g) (((1048576 : ℝ)) : EReal) + Ideal.ofBits .f32 0x3727C5AC#32) := by
  rw [fam1 m c b g]
  show kinv1 (F := Ideal) (S1 m ρ c) (Q1 m ρ c) (ix3 b 0 (chan1 g j)) = _
  rw [kinv1_apply (S1 m ρ c) (Q1 m ρ c) b 0 g j (chan1 g j) rfl]
  simp only [S1_apply, Q1_apply]
  exact congrArg (fun v => Ideal.rsqrt (v + Ideal.ofBits .f32 0x3727C5AC#32)) (law1 m c hR b g).2.1

/-- Every index of an [8,1,C] array is (b, 0, channel j of group g). -/
theorem idx1 (i : S8x1x64.Idx) : ∃ b g j, i = ix3 b (0 : Fin 1) (ch1 g j) := by
  obtain ⟨g, j, h⟩ := Cert.ReferenceIdeal.RefValue.ch1_surj (i 2)
  refine ⟨i 0, g, j, ?_⟩
  rw [← h]
  funext a
  apply Fin.ext
  match a with
  | ⟨0, _⟩ => rfl
  | ⟨1, _⟩ =>
    have h1 : (i 1).val < 1 := (i 1).isLt
    show (i 1).val = 0
    omega
  | ⟨2, _⟩ => rfl

theorem M1_real (hR : RealIn m c) (i : S8x1x64.Idx) : IsReal ((M1 m ρ c : Arr3 8 1 64) i) := by
  obtain ⟨b, g, j, rfl⟩ := idx1 i
  rw [hM1 m ρ c hR b g j, fam1 m c b g]
  exact (law1 m c hR b g).2.2.1

theorem I1_real (hR : RealIn m c) (i : S8x1x64.Idx) : IsReal ((I1 m ρ c : Arr3 8 1 64) i) := by
  obtain ⟨b, g, j, rfl⟩ := idx1 i
  rw [hI1 m ρ c hR b g j, fam1 m c b g]
  obtain ⟨e, he, hw⟩ := Cert.LibBatchNorm.ofBits_eps_pos
  rw [hw]
  exact Cert.LibBatchNorm.invstd_real (law1 m c hR b g).2.2.2.1 (law1 m c hR b g).2.2.2.2 he

/-- The scale and shift rows read the vectors. -/
theorem hG1 (ch : Fin 64) : (G1 m c : Arr2 1 64) (ix2 0 ch) = (A5 m c) (ix1 ch) := shapeCast_a_1a_apply _ _ 0 ch
theorem hB1 (ch : Fin 64) : (B1 m c : Arr2 1 64) (ix2 0 ch) = (A6 m c) (ix1 ch) := shapeCast_a_1a_apply _ _ 0 ch
theorem hG2 (o : Fin 128) : (G2 m c : Arr2 1 128) (ix2 0 o) = (A8 m c) (ix1 o) := shapeCast_a_1a_apply _ _ 0 o
theorem hB2 (o : Fin 128) : (B2 m c : Arr2 1 128) (ix2 0 o) = (A9 m c) (ix1 o) := shapeCast_a_1a_apply _ _ 0 o

/-- The second layer's entries are real. -/
theorem X2_real (hR : RealIn m c) (b : Fin 8) (s : Fin 4096) (k : Fin 32) (o : Fin 128) :
    IsReal (Cert.Spec.x2 (A3 m c) (A2 m c) (A0 m c) (WF m c) (WR m c) (A7 m c) (G1 m c) (B1 m c) (M1 m ρ c) (I1 m ρ c) b s k o) :=
  Cert.Spec.x2_real _ _ _ _ _ _ _ _ _ _ hR.h3 hR.h2 hR.h0 (WF_real m c hR) (WR_real m c hR) hR.h7 (G1_real m c hR) (B1_real m c hR)
    (M1_real m ρ c hR) (I1_real m ρ c hR) b s k o

/-- The reference's second-layer group family, in the specification's terms. -/
theorem fam2 (hR : RealIn m c) (b g : Fin 8) :
    grp2 (lin2 (F := Ideal) (norm1 (F := Ideal) (lin1 (F := Ideal) (A0 m c) (A2 m c) (A3 m c) (A4 m c)) (A5 m c) (A6 m c)) (A7 m c)) b g
      = fun t : (Fin 4096 × Fin 32) × Fin 16 =>
          Cert.Spec.x2 (A3 m c) (A2 m c) (A0 m c) (WF m c) (WR m c) (A7 m c) (G1 m c) (B1 m c) (M1 m ρ c) (I1 m ρ c) b t.1.1 t.1.2 (chan2 g t.2) :=
  funext fun t => Cert.ReferenceIdeal.RefValue.lin2_eq_x2 (A0 m c) (A2 m c) (A3 m c) (A4 m c) (A5 m c) (A6 m c) (A7 m c) Cert.KernelIdeal.Facts₀.slices_S64x67_S64x64_0_0
    Cert.KernelIdeal.Facts₀.slices_S64x67_S64x3_0_64 (G1 m c) (B1 m c) (M1 m ρ c) (I1 m ρ c) (hG1 m c) (hB1 m c) (hM1 m ρ c hR) (hI1 m ρ c hR)
    b t.1.1 t.1.2 g t.2

/-- The law for the second layer's group (b, g). -/
theorem law2 (hR : RealIn m c) (b g : Fin 8) :
    Cert.LibGroupNorm.GroupLaw (P := 4096) (K := 32) (G := 16)
      (fun s k r => Cert.Spec.x2 (A3 m c) (A2 m c) (A0 m c) (WF m c) (WR m c) (A7 m c) (G1 m c) (B1 m c) (M1 m ρ c) (I1 m ρ c) b s k (chan2 g r))
      (2097152 : ℝ) :=
  Cert.LibGroupNorm.group_law (P := 4096) (K := 32) (G := 16)
    (fun s k r => Cert.Spec.x2 (A3 m c) (A2 m c) (A0 m c) (WF m c) (WR m c) (A7 m c) (G1 m c) (B1 m c) (M1 m ρ c) (I1 m ρ c) b s k (chan2 g r))
    (fun s k r => X2_real m ρ c hR b s k _) (2097152 : ℝ) N2_eq (by norm_num)

theorem hM2 (hR : RealIn m c) (b g : Fin 8) (j : Fin 16) :
    (M2 m ρ c : Arr3 8 1 128) (ix3 b 0 (ch2 g j))
      = meanR (grp2 (lin2 (F := Ideal) (norm1 (F := Ideal) (lin1 (F := Ideal) (A0 m c) (A2 m c) (A3 m c) (A4 m c)) (A5 m c) (A6 m c)) (A7 m c)) b g) (((2097152 : ℝ)) : EReal) := by
  rw [fam2 m ρ c hR b g]
  show kmean2 (F := Ideal) (S2 m ρ c) (ix3 b 0 (chan2 g j)) = _
  rw [kmean2_apply (S2 m ρ c) b 0 g j (chan2 g j) rfl]
  simp only [S2_apply]
  exact (law2 m ρ c hR b g).1

theorem hI2 (hR : RealIn m c) (b g : Fin 8) (j : Fin 16) :
    (I2 m ρ c : Arr3 8 1 128) (ix3 b 0 (ch2 g j))
      = Ideal.rsqrt (varR (grp2 (lin2 (F := Ideal) (norm1 (F := Ideal) (lin1 (F := Ideal) (A0 m c) (A2 m c) (A3 m c) (A4 m c)) (A5 m c) (A6 m c)) (A7 m c)) b g) (((2097152 : ℝ)) : EReal)
          + Ideal.ofBits .f32 0x3727C5AC#32) := by
  rw [fam2 m ρ c hR b g]
  show kinv2 (F := Ideal) (S2 m ρ c) (Q2 m ρ c) (ix3 b 0 (chan2 g j)) = _
  rw [kinv2_apply (S2 m ρ c) (Q2 m ρ c) b 0 g j (chan2 g j) rfl]
  simp only [S2_apply, Q2_apply]
  exact congrArg (fun v => Ideal.rsqrt (v + Ideal.ofBits .f32 0x3727C5AC#32)) (law2 m ρ c hR b g).2.1

/-- THE VALUE EQUATION at an index: the reference's composition of its stages on the launch arrays is the kernel's result array. -/
theorem value_eq (hR : RealIn m c) (b : Fin 8) (s : Fin 4096) (o : Fin 128) :
    Cert.ReferenceIdeal.RefValue.out (F := Ideal) (A0 m c) (A2 m c) (A3 m c) (A4 m c) (A5 m c) (A6 m c) (A7 m c) (A8 m c) (A9 m c) (ix3 b s o)
      = ((dat2 (V5 m ρ) c).arrAt 14 cfg2.N : Arr3 8 4096 128) (ix3 b s o) := by
  rw [out_apply m ρ c b s o]
  exact Cert.ReferenceIdeal.RefValue.out_eq_pooled (A0 m c) (A2 m c) (A3 m c) (A4 m c) (A5 m c) (A6 m c) (A7 m c) (A8 m c) (A9 m c) Cert.KernelIdeal.Facts₀.slices_S64x67_S64x64_0_0
    Cert.KernelIdeal.Facts₀.slices_S64x67_S64x3_0_64 (G1 m c) (B1 m c) (M1 m ρ c) (I1 m ρ c) (G2 m c) (B2 m c) (M2 m ρ c) (I2 m ρ c)
    (hG1 m c) (hB1 m c) (hM1 m ρ c hR) (hI1 m ρ c hR) (hG2 m c) (hB2 m c) (hM2 m ρ c hR) (hI2 m ρ c hR) b s o

end Cert.Final

end
-- ==== Proof.lean ====
/-
  The certificate of a point-cloud block: relative coordinates joined to the neighbour features, two pointwise linear layers
  each followed by a group normalisation (eight groups, the statistics taken over all points, neighbours and the group's
  channels of one batch entry), a rectifier, and a maximum over the neighbours.  The kernel computes it in three sweeps: the
  first layer's per-channel sums and sums of squares, then the second layer's given the first layer's statistics, then the
  normalised and pooled result; the group statistics are formed from the per-channel totals between the sweeps.

  The three frames: the two kernel programs' are the launch-to-return runs with the argument arrays untouched; the
  reference is a straight line of host operations none of which writes an argument (RefRun.lean).  The idealisation
  rewrote nothing, so `preserves` is `True`.  The value claim compares the three-sweep form with the reference's two-pass
  statistics on the extended reals.
-/
import proofs.«147857_j86655260164510_2_alg».proof.Defs
import proofs.«147857_j86655260164510_2_alg».proof.Proof.Gen.Kernel
import proofs.«147857_j86655260164510_2_alg».proof.Proof.Gen.Kernel.Frame
import proofs.«147857_j86655260164510_2_alg».proof.Proof.Gen.KernelIdeal
import proofs.«147857_j86655260164510_2_alg».proof.Proof.Gen.KernelIdeal.Frame
import proofs.«147857_j86655260164510_2_alg».proof.Proof.Gen.ReferenceIdeal
import proofs.«147857_j86655260164510_2_alg».proof.Proof.Gen.Pre_finite_inputs
import proofs.«147857_j86655260164510_2_alg».proof.Proof.RefRun
import proofs.«147857_j86655260164510_2_alg».proof.Proof.KRun
import proofs.«147857_j86655260164510_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefValue.run_args (F := Ideal) m ρ

theorem preserves : Cert.preserves_Kernel_KernelIdeal := trivial

/-- The value equation: from memories agreeing on finite arguments, the reference's last stage — the maximum over the
    neighbours of the twice normalised, rectified features, statistics taken in two passes — is the array the kernel's third
    sweep leaves, whose statistics the first two sweeps accumulated in one pass as totals and totals of squares. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    StableHlo.after (Cert.ReferenceIdeal.RefValue.ops (F := Ideal)) (StableHlo.launchContents m' c)
        (Proc.devRef .tc Cert.ReferenceIdeal.main_v48)
      = (Cert.KernelIdeal.Gen.dat2 (Cert.KernelIdeal.Gen.V5 m ρ) c).arrAt 14 Cert.KernelIdeal.cfg2.N := by
  obtain ⟨r0, r2, r3, r4, r5, r6, r7, r8, r9⟩ := Cert.Finite.real_inputs m hpre c
  obtain ⟨e0, -, e2, e3, e4, e5, e6, e7, e8, e9⟩ := hagree c
  rw [Cert.ReferenceIdeal.RefValue.out_eq]
  rw [show StableHlo.launchContents m' c (Proc.devRef .tc Cert.ReferenceIdeal.main_arg0) = _ from e0,
    show StableHlo.launchContents m' c (Proc.devRef .tc Cert.ReferenceIdeal.main_arg2) = _ from e2,
    show StableHlo.launchContents m' c (Proc.devRef .tc Cert.ReferenceIdeal.main_arg3) = _ from e3,
    show StableHlo.launchContents m' c (Proc.devRef .tc Cert.ReferenceIdeal.main_arg4) = _ from e4,
    show StableHlo.launchContents m' c (Proc.devRef .tc Cert.ReferenceIdeal.main_arg5) = _ from e5,
    show StableHlo.launchContents m' c (Proc.devRef .tc Cert.ReferenceIdeal.main_arg6) = _ from e6,
    show StableHlo.launchContents m' c (Proc.devRef .tc Cert.ReferenceIdeal.main_arg7) = _ from e7,
    show StableHlo.launchContents m' c (Proc.devRef .tc Cert.ReferenceIdeal.main_arg8) = _ from e8,
    show StableHlo.launchContents m' c (Proc.devRef .tc Cert.ReferenceIdeal.main_arg9) = _ from e9]
  funext idx
  obtain ⟨b, s, o, rfl⟩ : ∃ (b : Fin 8) (s : Fin 4096) (o : Fin 128), idx = ValueIdx.ix3 b s o :=
    ⟨idx 0, idx 1, idx 2, ValueIdx.eq_ix3 idx⟩
  exact Cert.Final.value_eq m ρ c ⟨r0, r2, r3, r4, r5, r6, r7, r8, r9⟩ b s o

theorem algebraic : Cert.algebraic_KernelIdeal_ReferenceIdeal := by
  intro m ρ m' ρ' hpre hagree
  refine ⟨fun c => (Cert.KernelIdeal.Gen.dat2 (Cert.KernelIdeal.Gen.V5 m ρ) c).arrAt 14 Cert.KernelIdeal.cfg2.N,
    Cert.KernelIdeal.KValue.run_result (F := Ideal) m ρ, ?_⟩
  refine (θ_run Cert.ReferenceIdeal.defs _ _).mono (fun _ h c => ?_) (Cert.ReferenceIdeal.RefValue.run_main (F := Ideal) m' ρ')
  exact ⟨(h c Cert.ReferenceIdeal.main_v48).trans (result_eq m ρ m' hpre hagree c),
    (h c Cert.ReferenceIdeal.main_arg0).trans (Cert.ReferenceIdeal.RefValue.arg0_eq _),
    (h c Cert.ReferenceIdeal.main_arg1).trans (Cert.ReferenceIdeal.RefValue.arg1_eq _),
    (h c Cert.ReferenceIdeal.main_arg2).trans (Cert.ReferenceIdeal.RefValue.arg2_eq _),
    (h c Cert.ReferenceIdeal.main_arg3).trans (Cert.ReferenceIdeal.RefValue.arg3_eq _),
    (h c Cert.ReferenceIdeal.main_arg4).trans (Cert.ReferenceIdeal.RefValue.arg4_eq _),
    (h c Cert.ReferenceIdeal.main_arg5).trans (Cert.ReferenceIdeal.RefValue.arg5_eq _),
    (h c Cert.ReferenceIdeal.main_arg6).trans (Cert.ReferenceIdeal.RefValue.arg6_eq _),
    (h c Cert.ReferenceIdeal.main_arg7).trans (Cert.ReferenceIdeal.RefValue.arg7_eq _),
    (h c Cert.ReferenceIdeal.main_arg8).trans (Cert.ReferenceIdeal.RefValue.arg8_eq _),
    (h c Cert.ReferenceIdeal.main_arg9).trans (Cert.ReferenceIdeal.RefValue.arg9_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
